-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x4 : Shape := ⟨2, ![8192, 4]⟩
abbrev S2x262144 : Shape := ⟨2, ![2, 262144]⟩
abbrev S512x512 : Shape := ⟨2, ![512, 512]⟩
abbrev S512 : Shape := ⟨1, ![512]⟩
abbrev S512x1 : Shape := ⟨2, ![512, 1]⟩
abbrev S1 : Shape := ⟨1, ![1]⟩
abbrev S4x1 : Shape := ⟨2, ![4, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S4x1 : S_.BroadcastsInDim S4x1 (![] : Fin 0 → Fin S4x1.rank)
  reducesTo_S4x1_S_d0_1 : S4x1.ReducesTo [0, 1] S_
  bcast_S_S2x262144 : S_.BroadcastsInDim S2x262144 (![] : Fin 0 → Fin S2x262144.rank)
  reducesTo_S2x262144_S_d0_1 : S2x262144.ReducesTo [0, 1] S_

variable [Facts]

def fn_part2 {F : FTy → Type} [FloatOps F] (main_arg2 : IVec S2x262144 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S2x262144 32 := broadcastInDim S2x262144 ![] bcast_S_S2x262144 main_c_14
  let main_v40 : IVec S2x262144 1 := cmpi .sge main_arg2 main_v39
  let main_c_15 : IVec S_ 32 := constantI S_ 32 8192#32
  let main_v41 : IVec S2x262144 32 := broadcastInDim S2x262144 ![] bcast_S_S2x262144 main_c_15
  let main_v42 : IVec S2x262144 1 := cmpi .slt main_arg2 main_v41
  let main_v43 : IVec S2x262144 1 := andi main_v40 main_v42
  let main_c_16 : IVec S_ 1 := constantI S_ 1 1#1
  let main_v44 : IVec S_ 1 := (fun x v => Host.reduce IntOp.andi x v reducesTo_S2x262144_S_d0_1 h_S_) main_v43 main_c_16
  let main_v45 : IVec S_ 1 := andi main_v38 main_v44
  main_v45

def fn_part1 {F : FTy → Type} [FloatOps F] (main_arg2 : IVec S2x262144 32) (main_arg5 : FVec F S512x1 .f32) (main_arg6 : FVec F S1 .f32) (main_arg7 : FVec F S4x1 .f32) (main_arg8 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg5
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S4x1 .f32 := Host.absf main_arg7
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  fn_part2 (F := F) main_arg2 main_arg8 main_v33

def fn {F : FTy → Type} [FloatOps F] (main_arg0 : FVec F S8192x512 .f32) (main_arg1 : FVec F S8192x4 .f32) (main_arg2 : IVec S2x262144 32) (main_arg3 : FVec F S512x512 .f32) (main_arg4 : FVec F S512 .f32) (main_arg5 : FVec F S512x1 .f32) (main_arg6 : FVec F S1 .f32) (main_arg7 : FVec F S4x1 .f32) (main_arg8 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_v13 main_v16
-- ==== Kernel.lean ====
abbrev S8192x512 : Shape := ⟨2, ![8192, 512]⟩
abbrev S8192x4 : Shape := ⟨2, ![8192, 4]⟩
abbrev S2x262144 : Shape := ⟨2, ![2, 262144]⟩
abbrev S512x512 : Shape := ⟨2, ![512, 512]⟩
abbrev S512 : Shape := ⟨1, ![512]⟩
abbrev S512x1 : Shape := ⟨2, ![512, 1]⟩
abbrev S1 : Shape := ⟨1, ![1]⟩
abbrev S4x1 : Shape := ⟨2, ![4, 1]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S2048x512 : Shape := ⟨2, ![2048, 512]⟩
abbrev S1x512 : Shape := ⟨2, ![1, 512]⟩
abbrev S1024x2048 : Shape := ⟨2, ![1024, 2048]⟩
abbrev S1024x512 : Shape := ⟨2, ![1024, 512]⟩
abbrev S8192x1 : Shape := ⟨2, ![8192, 1]⟩
abbrev S8192x128 : Shape := ⟨2, ![8192, 128]⟩
abbrev S128 : Shape := ⟨1, ![128]⟩
abbrev S1x128 : Shape := ⟨2, ![1, 128]⟩
abbrev S2048x128 : Shape := ⟨2, ![2048, 128]⟩
abbrev S1024x128 : Shape := ⟨2, ![1024, 128]⟩
abbrev S1x8192 : Shape := ⟨2, ![1, 8192]⟩
abbrev S1x1 : Shape := ⟨2, ![1, 1]⟩
abbrev S1x2048 : Shape := ⟨2, ![1, 2048]⟩
abbrev S1024x4 : Shape := ⟨2, ![1024, 4]⟩
abbrev S1024x1 : Shape := ⟨2, ![1024, 1]⟩

abbrev nBuf : Space → Nat
  | .hbm => 87
  | .vmem => 29
  | .smem => 0
  | _ => 0

abbrev bufTy : (tb : Table) → Fin (tcTables nBuf tb) → BufTy
  | .hbm, ⟨0, _⟩ => ⟨S8192x512, .f32⟩
  | .hbm, ⟨1, _⟩ => ⟨S8192x4, .f32⟩
  | .hbm, ⟨2, _⟩ => ⟨S2x262144, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S4x1, .f32⟩
  | .hbm, ⟨8, _⟩ => ⟨S1, .f32⟩
  | .hbm, ⟨9, _⟩ => ⟨S8192, .i32⟩
  | .hbm, ⟨10, _⟩ => ⟨S1x262144, .i32⟩
  | .hbm, ⟨11, _⟩ => ⟨S262144, .i32⟩
  | .hbm, ⟨12, _⟩ => ⟨S270336, .i32⟩
  | .hbm, ⟨13, _⟩ => ⟨S1x262144, .i32⟩
  | .hbm, ⟨14, _⟩ => ⟨S262144, .i32⟩
  | .hbm, ⟨15, _⟩ => ⟨S270336, .i32⟩
  | .hbm, ⟨16, _⟩ => ⟨S_, .f32⟩
  | .hbm, ⟨17, _⟩ => ⟨S270336, .f32⟩
  | .hbm, ⟨18, _⟩ => ⟨S_, .f32⟩
  | .hbm, ⟨19, _⟩ => ⟨S8192, .f32⟩
  | .hbm, ⟨20, _⟩ => ⟨S270336x1, .i32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .i1⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .i32⟩
  | .hbm, ⟨31, _⟩ => ⟨S270336, .i32⟩
  | .hbm, ⟨32, _⟩ => ⟨S270336, .i1⟩
  | .hbm, ⟨33, _⟩ => ⟨S_, .i32⟩
  | .hbm, ⟨34, _⟩ => ⟨S270336, .i32⟩
  | .hbm, ⟨35, _⟩ => ⟨S270336, .i32⟩
  | .hbm, ⟨36, _⟩ => ⟨S270336, .i32⟩
  | .hbm, ⟨37, _⟩ => ⟨S270336x1, .i32⟩
  | .hbm, ⟨38, _⟩ => ⟨S270336, .f32⟩
  | .hbm, ⟨39, _⟩ => ⟨S_, .i32⟩
  | .hbm, ⟨40, _⟩ => ⟨S270336, .i32⟩
  | .hbm, ⟨41, _⟩ => ⟨S270336, .i1⟩
  | .hbm, ⟨42, _⟩ => ⟨S_, .i32⟩
  | .hbm, ⟨43, _⟩ => ⟨S270336, .i32⟩
  | .hbm, ⟨44, _⟩ => ⟨S270336, .i32⟩
  | .hbm, ⟨45, _⟩ => ⟨S270336, .i32⟩
  | .hbm, ⟨46, _⟩ => ⟨S270336x1, .i32⟩
  | .hbm, ⟨47, _⟩ => ⟨S270336, .f32⟩
  | .hbm, ⟨48, _⟩ => ⟨S270336, .f32⟩
  | .hbm, ⟨49, _⟩ => ⟨S_, .f32⟩
  | .hbm, ⟨50, _⟩ => ⟨S8192x8192, .f32⟩
  | .hbm, ⟨51, _⟩ => ⟨S_, .i32⟩
  | .hbm, ⟨52, _⟩ => ⟨S270336, .i32⟩
  | .hbm, ⟨53, _⟩ => ⟨S270336, .i1⟩
  | .hbm, ⟨54, _⟩ => ⟨S_, .i32⟩
  | .hbm, ⟨55, _⟩ => ⟨S270336, .i32⟩
  | .hbm, ⟨56, _⟩ => ⟨S270336, .i32⟩
  | .hbm, ⟨57, _⟩ => ⟨S270336, .i32⟩
  | .hbm, ⟨58, _⟩ => ⟨S_, .i32⟩
  | .hbm, ⟨59, _⟩ => ⟨S270336, .i32⟩
  | .hbm, ⟨60, _⟩ => ⟨S270336, .i1⟩
  | .hbm, ⟨61, _⟩ => ⟨S_, .i32⟩
  | .hbm, ⟨62, _⟩ => ⟨S270336, .i32⟩
  | .hbm, ⟨63, _⟩ => ⟨S270336, .i32⟩
  | .hbm, ⟨64, _⟩ => ⟨S270336, .i32⟩
  | .hbm, ⟨65, _⟩ => ⟨S270336x1, .i32⟩
  | .hbm, ⟨66, _⟩ => ⟨S270336x1, .i32⟩
  | .hbm, ⟨67, _⟩ => ⟨S270336x2, .i32⟩
  | .hbm, ⟨68, _⟩ => ⟨S8192x8192, .f32⟩
  | .hbm, ⟨69, _⟩ => ⟨S8192x8192, .bf16⟩
  | .hbm, ⟨70, _⟩ => ⟨S8192x512, .f32⟩
  | .hbm, ⟨71, _⟩ => ⟨S1x512, .f32⟩
  | .hbm, ⟨72, _⟩ => ⟨S8192x512, .f32⟩
  | .hbm, ⟨73, _⟩ => ⟨S8192x1, .f32⟩
  | .hbm, ⟨74, _⟩ => ⟨S_, .i32⟩
  | .hbm, ⟨75, _⟩ => ⟨S_, .f32⟩
  | .hbm, ⟨76, _⟩ => ⟨S8192x128, .f32⟩
  | .hbm, ⟨77, _⟩ => ⟨S_, .i32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S8192x128, .f32⟩
  | .hbm, ⟨82, _⟩ => ⟨S8192x1, .f32⟩
  | .hbm, ⟨83, _⟩ => ⟨S8192, .f32⟩
  | .hbm, ⟨84, _⟩ => ⟨S1x8192, .f32⟩
  | .hbm, ⟨85, _⟩ => ⟨S1x1, .f32⟩
  | .hbm, ⟨86, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | .local _ .vmem, ⟨5, _⟩ => ⟨S1024x2048, .bf16⟩
  | .local _ .vmem, ⟨6, _⟩ => ⟨S1024x2048, .bf16⟩
  | .local _ .vmem, ⟨7, _⟩ => ⟨S2048x512, .f32⟩
  | .local _ .vmem, ⟨8, _⟩ => ⟨S2048x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | .local _ .vmem, ⟨14, _⟩ => ⟨S1024x2048, .bf16⟩
  | .local _ .vmem, ⟨15, _⟩ => ⟨S2048x128, .f32⟩
  | .local _ .vmem, ⟨16, _⟩ => ⟨S2048x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1x2048, .f32⟩
  | .local _ .vmem, ⟨22, _⟩ => ⟨S1x2048, .f32⟩
  | .local _ .vmem, ⟨23, _⟩ => ⟨S1024x4, .f32⟩
  | .local _ .vmem, ⟨24, _⟩ => ⟨S1024x4, .f32⟩
  | .local _ .vmem, ⟨25, _⟩ => ⟨S4x1, .f32⟩
  | .local _ .vmem, ⟨26, _⟩ => ⟨S1x1, .f32⟩
  | .local _ .vmem, ⟨27, _⟩ => ⟨S1024x2048, .f32⟩
  | .local _ .vmem, ⟨28, _⟩ => ⟨S1024x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_call1_v0 : Ref sig .tc := ⟨.hbm, 75, rfl⟩
abbrev main_v50 : Ref sig .tc := ⟨.hbm, 76, rfl⟩
abbrev main_c_12 : Ref sig .tc := ⟨.hbm, 77, rfl⟩
abbrev main_call2_v0 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem4_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S4x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1024x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S_S8192x8192 : S_.BroadcastsInDim S8192x8192 (![] : Fin 0 → Fin S8192x8192.rank)
  concatenates_S270336x1_S270336x1_S270336x2_d1 : Shape.Concatenates [S270336x1, S270336x1] S270336x2 1
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  pads_S8192x1_S8192x128_000_01270 : S8192x1.Pads (![0, 0] : Fin 2 → Nat) ![0, 127] ![0, 0] S8192x128
  h_S_ : 0 < S_.numel
  pads_S1_S128_01270 : S1.Pads (![0] : Fin 1 → Nat) ![127] ![0] S128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S8192x128_S8192x1_0_0 : S8192x128.Slices ![0, 0] S8192x1
  shapeCasts_S8192x1_S8192 : S8192x1.ShapeCasts S8192
  shapeCasts_S8192_S1x8192 : S8192.ShapeCasts S1x8192
  shapeCasts_S1_S1x1 : S1.ShapeCasts S1x1
  inb_S1024x4_S1024x4_0_0 : ∀ a, (![0, 0] : Fin 2 → Nat) a + S1024x4.size a ≤ S1024x4.size a
  h_S1024x4 : 0 < S1024x4.numel
  inb_S4x1_S4x1_0_0 : ∀ a, (![0, 0] : Fin 2 → Nat) a + S4x1.size a ≤ S4x1.size a
  h_S4x1 : 0 < S4x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  broadcasts_S1024x1_S1024x2048 : S1024x1.Broadcasts S1024x2048
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S2048x512_S512x512_S2048x512_1_0_0_1_n_n_wf : DotDims.WF S2048x512 S512x512 S2048x512 [1] [0] [0] [1] [] []
  dot_S1024x2048_S2048x512_S1024x512_1_0_0_1_n_n_wf : DotDims.WF S1024x2048 S2048x512 S1024x512 [1] [0] [0] [1] [] []
  dot_S8192x512_S512x1_S8192x1_1_0_0_1_n_n_wf : DotDims.WF S8192x512 S512x1 S8192x1 [1] [0] [0] [1] [] []
  dot_S1024x2048_S2048x128_S1024x128_1_0_0_1_n_n_wf : DotDims.WF S1024x2048 S2048x128 S1024x128 [1] [0] [0] [1] [] []
  dot_S1024x4_S4x1_S1024x1_1_0_0_1_n_n_wf : DotDims.WF S1024x4 S4x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x512.size a
  hwx0_2 : ∀ i : grid0.Coords, EltTy.bits .f32 = 32 ∨ (Rect.block (s := S8192x512) S2048x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .f32 = 32 ∨ (Rect.block (s := S8192x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x8192.size a
  hwx3_0 : ∀ i : grid3.Coords, EltTy.bits .f32 = 32 ∨ (Rect.block (s := S1x8192) S1x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x4.size a ≤ S8192x4.size a
  hwx3_1 : ∀ i : grid3.Coords, EltTy.bits .f32 = 32 ∨ (Rect.block (s := S8192x4) S1024x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4x1.size a ≤ S4x1.size a
  hwx3_2 : ∀ i : grid3.Coords, EltTy.bits .f32 = 32 ∨ (Rect.block (s := S4x1) S4x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x2048.size a ≤ S8192x8192.size a
  hwx3_4 : ∀ i : grid3.Coords, EltTy.bits .f32 = 32 ∨ (Rect.block (s := S8192x8192) S1024x2048.size (cc3_transform_4 i) (hinb3_4 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x4_S4x1_S1024x1_1_0_0_1_n_n : DotDims S1024x4 S4x1 S1024x1 where
  lhsContracting := [1]
  rhsContracting := [0]
  lhsNonContracting := [0]
  rhsNonContracting := [1]
  lhsBatch := []
  rhsBatch := []
  wf := dot_S1024x4_S4x1_S1024x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v45) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v56) S1x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S1024x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S4x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1024x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x512 : Shape := ⟨2, ![8192, 512]⟩
abbrev S8192x4 : Shape := ⟨2, ![8192, 4]⟩
abbrev S2x262144 : Shape := ⟨2, ![2, 262144]⟩
abbrev S512x512 : Shape := ⟨2, ![512, 512]⟩
abbrev S512 : Shape := ⟨1, ![512]⟩
abbrev S512x1 : Shape := ⟨2, ![512, 1]⟩
abbrev S1 : Shape := ⟨1, ![1]⟩
abbrev S4x1 : Shape := ⟨2, ![4, 1]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x512 : Shape := ⟨2, ![270336, 512]⟩
abbrev S1x512 : Shape := ⟨2, ![1, 512]⟩
abbrev S8192x1 : Shape := ⟨2, ![8192, 1]⟩
abbrev S1x1 : Shape := ⟨2, ![1, 1]⟩
abbrev S1x8192 : Shape := ⟨2, ![1, 8192]⟩
abbrev S8192x8192 : Shape := ⟨2, ![8192, 8192]⟩

abbrev nBuf : Space → Nat
  | .hbm => 144
  | .vmem => 0
  | .smem => 0
  | _ => 0

abbrev hbmTy0_0 (i : Nat) : BufTy := match i % 128 with
  | 0 => ⟨S8192x512, .f32⟩
  | 1 => ⟨S8192x4, .f32⟩
  | 2 => ⟨S2x262144, .i32⟩
  | 3 => ⟨S512x512, .f32⟩
  | 4 => ⟨S512, .f32⟩
  | 5 => ⟨S512x1, .f32⟩
  | 6 => ⟨S1, .f32⟩
  | 7 => ⟨S4x1, .f32⟩
  | 8 => ⟨S1, .f32⟩
  | 9 => ⟨S8192, .i32⟩
  | 10 => ⟨S1x262144, .i32⟩
  | 11 => ⟨S262144, .i32⟩
  | 12 => ⟨S270336, .i32⟩
  | 13 => ⟨S1x262144, .i32⟩
  | 14 => ⟨S262144, .i32⟩
  | 15 => ⟨S270336, .i32⟩
  | 16 => ⟨S8192x512, .f32⟩
  | 17 => ⟨S_, .f32⟩
  | 18 => ⟨S270336, .f32⟩
  | 19 => ⟨S_, .f32⟩
  | 20 => ⟨S8192, .f32⟩
  | 21 => ⟨S270336x1, .i32⟩
  | 22 => ⟨S8192, .f32⟩
  | 23 => ⟨S_, .f32⟩
  | 24 => ⟨S8192, .f32⟩
  | 25 => ⟨S8192, .i1⟩
  | 26 => ⟨S8192, .f32⟩
  | 27 => ⟨S_, .f32⟩
  | 28 => ⟨S_, .f32⟩
  | 29 => ⟨S8192, .f32⟩
  | 30 => ⟨S8192, .f32⟩
  | 31 => ⟨S_, .i32⟩
  | 32 => ⟨S270336, .i32⟩
  | 33 => ⟨S270336, .i1⟩
  | 34 => ⟨S_, .i32⟩
  | 35 => ⟨S270336, .i32⟩
  | 36 => ⟨S270336, .i32⟩
  | 37 => ⟨S270336, .i32⟩
  | 38 => ⟨S270336x1, .i32⟩
  | 39 => ⟨S270336, .f32⟩
  | 40 => ⟨S_, .i32⟩
  | 41 => ⟨S270336, .i32⟩
  | 42 => ⟨S270336, .i1⟩
  | 43 => ⟨S_, .i32⟩
  | 44 => ⟨S270336, .i32⟩
  | 45 => ⟨S270336, .i32⟩
  | 46 => ⟨S270336, .i32⟩
  | 47 => ⟨S270336x1, .i32⟩
  | 48 => ⟨S270336, .f32⟩
  | 49 => ⟨S270336, .f32⟩
  | 50 => ⟨S270336x1, .f32⟩
  | 51 => ⟨S_, .i32⟩
  | 52 => ⟨S270336, .i32⟩
  | 53 => ⟨S270336, .i1⟩
  | 54 => ⟨S_, .i32⟩
  | 55 => ⟨S270336, .i32⟩
  | 56 => ⟨S270336, .i32⟩
  | 57 => ⟨S270336, .i32⟩
  | 58 => ⟨S270336x1, .i32⟩
  | 59 => ⟨S270336x512, .f32⟩
  | 60 => ⟨S270336x512, .f32⟩
  | 61 => ⟨S270336x512, .f32⟩
  | 62 => ⟨S_, .f32⟩
  | 63 => ⟨S8192x512, .f32⟩
  | 64 => ⟨S270336x1, .i32⟩
  | 65 => ⟨S8192x512, .f32⟩
  | 66 => ⟨S1x512, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S8192, .i32⟩
  | 73 => ⟨S1x262144, .i32⟩
  | 74 => ⟨S262144, .i32⟩
  | 75 => ⟨S270336, .i32⟩
  | 76 => ⟨S1x262144, .i32⟩
  | 77 => ⟨S262144, .i32⟩
  | 78 => ⟨S270336, .i32⟩
  | 79 => ⟨S8192x1, .f32⟩
  | 80 => ⟨S_, .f32⟩
  | 81 => ⟨S270336, .f32⟩
  | 82 => ⟨S_, .f32⟩
  | 83 => ⟨S8192, .f32⟩
  | 84 => ⟨S270336x1, .i32⟩
  | 85 => ⟨S8192, .f32⟩
  | 86 => ⟨S_, .f32⟩
  | 87 => ⟨S8192, .f32⟩
  | 88 => ⟨S8192, .i1⟩
  | 89 => ⟨S8192, .f32⟩
  | 90 => ⟨S_, .f32⟩
  | 91 => ⟨S_, .f32⟩
  | 92 => ⟨S8192, .f32⟩
  | 93 => ⟨S8192, .f32⟩
  | 94 => ⟨S_, .i32⟩
  | 95 => ⟨S270336, .i32⟩
  | 96 => ⟨S270336, .i1⟩
  | 97 => ⟨S_, .i32⟩
  | 98 => ⟨S270336, .i32⟩
  | 99 => ⟨S270336, .i32⟩
  | 100 => ⟨S270336, .i32⟩
  | 101 => ⟨S270336x1, .i32⟩
  | 102 => ⟨S270336, .f32⟩
  | 103 => ⟨S_, .i32⟩
  | 104 => ⟨S270336, .i32⟩
  | 105 => ⟨S270336, .i1⟩
  | 106 => ⟨S_, .i32⟩
  | 107 => ⟨S270336, .i32⟩
  | 108 => ⟨S270336, .i32⟩
  | 109 => ⟨S270336, .i32⟩
  | 110 => ⟨S270336x1, .i32⟩
  | 111 => ⟨S270336, .f32⟩
  | 112 => ⟨S270336, .f32⟩
  | 113 => ⟨S270336x1, .f32⟩
  | 114 => ⟨S_, .i32⟩
  | 115 => ⟨S270336, .i32⟩
  | 116 => ⟨S270336, .i1⟩
  | 117 => ⟨S_, .i32⟩
  | 118 => ⟨S270336, .i32⟩
  | 119 => ⟨S270336, .i32⟩
  | 120 => ⟨S270336, .i32⟩
  | 121 => ⟨S270336x1, .i32⟩
  | 122 => ⟨S270336x1, .f32⟩
  | 123 => ⟨S270336x1, .f32⟩
  | 124 => ⟨S_, .f32⟩
  | 125 => ⟨S8192x1, .f32⟩
  | 126 => ⟨S270336x1, .i32⟩
  | 127 => ⟨S8192x1, .f32⟩
  | _ => ⟨S8192x512, .f32⟩

abbrev hbmTy0_1 (i : Nat) : BufTy := match i % 128 with
  | 0 => ⟨S1x1, .f32⟩
  | 1 => ⟨S8192x1, .f32⟩
  | 2 => ⟨S8192x1, .f32⟩
  | 3 => ⟨S_, .f32⟩
  | 4 => ⟨S8192, .f32⟩
  | 5 => ⟨S_, .f32⟩
  | 6 => ⟨S8192, .f32⟩
  | 7 => ⟨S8192, .f32⟩
  | 8 => ⟨S8192x1, .f32⟩
  | 9 => ⟨S1x1, .f32⟩
  | 10 => ⟨S8192x1, .f32⟩
  | 11 => ⟨S8192x1, .f32⟩
  | 12 => ⟨S1x8192, .f32⟩
  | 13 => ⟨S8192x8192, .f32⟩
  | 14 => ⟨S8192x8192, .f32⟩
  | 15 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_20 : Ref sig .tc := ⟨.hbm, 131, rfl⟩
abbrev main_v94 : Ref sig .tc := ⟨.hbm, 132, rfl⟩
abbrev main_cst_21 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x512_0_1 : S270336x1.BroadcastsInDim S270336x512 (![0, 1] : Fin 2 → Fin S270336x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  dot_S8192x512_S512x512_S8192x512_1_0_0_1_n_n_wf : DotDims.WF S8192x512 S512x512 S8192x512 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  dot_S8192x512_S512x1_S8192x1_1_0_0_1_n_n_wf : DotDims.WF S8192x512 S512x1 S8192x1 [1] [0] [0] [1] [] []
  gather_S8192x1_S270336x1_S270336x1_1_0_n_n_0_1_11_wf : GatherDims.WF S8192x1 S270336x1 S270336x1 [1] [0] [] [0] [] 1 ![1, 1]
  scatter_S8192x1_S270336x1_S270336x1_1_0_0_1_wf : ScatterDims.WF S8192x1 S270336x1 S270336x1 [1] [0] [0] 1
  dot_S8192x4_S4x1_S8192x1_1_0_0_1_n_n_wf : DotDims.WF S8192x4 S4x1 S8192x1 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def gather_S8192x1_S270336x1_S270336x1_1_0_n_n_0_1_11 : GatherDims S8192x1 S270336x1 S270336x1 where
  offsetDims := [1]
  collapsedSliceDims := [0]
  operandBatchingDims := []
  startIndicesBatchingDims := []
  startIndexMap := [0]
  indexVectorDim := 1
  sliceSizes := ![1, 1]
  wf := gather_S8192x1_S270336x1_S270336x1_1_0_n_n_0_1_11_wf
def scatter_S8192x1_S270336x1_S270336x1_1_0_0_1 : ScatterDims S8192x1 S270336x1 S270336x1 where
  updateWindowDims := [1]
  insertedWindowDims := [0]
  scatterDimsToOperandDims := [0]
  indexVectorDim := 1
  wf := scatter_S8192x1_S270336x1_S270336x1_1_0_0_1_wf
def dot_S8192x4_S4x1_S8192x1_1_0_0_1_n_n : DotDims S8192x4 S4x1 S8192x1 where
  lhsContracting := [1]
  rhsContracting := [0]
  lhsNonContracting := [0]
  rhsNonContracting := [1]
  lhsBatch := []
  rhsBatch := []
  wf := dot_S8192x4_S4x1_S8192x1_1_0_0_1_n_n_wf

class Facts : Prop extends Facts₀ where

variable [Facts]
-- ==== Proof.WordDense.lean ====
/-
  The first launch of the word-level program: the dense product  h = x · W₁  of the 8192 × 512 feature matrix with the
  512 × 512 weight, computed four row blocks at a time.  Grid point t stages rows 2048·t … 2048·t + 2047 of x and the
  whole of W₁ (staged once: its block index never moves), and writes back, into the same rows of the result, the
  product of the two staged blocks, both rounded to the narrow float format on the way in.

  Stated here, at any contents V of the buffers when the launch is entered and for any float instance: the block each
  window shows the body at a point, the buffer the body leaves in the output window (one store covering it whole), the
  body's triple, and the data the pipelining argument is run with — the input windows keep their blocks, the output
  window holds the product of the two blocks, and nothing else is touched.
-/
import proofs.«131745_j1614907703640_2_alg».proof.Proof.Gen.Kernel.Launch
import proofs.«131745_j1614907703640_2_alg».proof.Proof.Gen.Kernel.Skeleton
import proofs.«131745_j1614907703640_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` shows at grid point `t`: rows 2048·t … of x (window 0), all of W₁ (window 1), rows 2048·t …
    of the result (window 2), read off the array as the launch finds it. -/
def xwBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its buffer at every point: it is fetched afresh at each. -/
theorem before_x_of {c : Dev nD} (dat : Dat τ (Elt F) Unit ℕ (UR sig nD τ) ℕ cfg0 c) (hA : dat.A 0 = V c (Pipeline.arrRef spec0 0))
    (hafter : ∀ t, dat.after 0 t = xwBlock V c 0 t) (t : Fin cfg0.N) (d) : dat.before 0 t d = xwBlock V c 0 t :=
  (dat.before_in_eq_fetched 0 rfl (fun _ => rfl) (fun _ _ _ => rfl) (fun t => by rw [hafter]; unfold Dat.blockOf xwBlock; rw [hA]; try rfl) t d).trans
    (by unfold Dat.fetched Dat.blockOf xwBlock; rw [hA]; try rfl)

/-- The weight is in its buffer at every point: fetched at the first, and its block index never moves after. -/
theorem before_w_of {c : Dev nD} (dat : Dat τ (Elt F) Unit ℕ (UR sig nD τ) ℕ cfg0 c) (hA : dat.A 1 = V c (Pipeline.arrRef spec0 1))
    (hafter : ∀ t, dat.after 1 t = xwBlock V c 1 t) (t : Fin cfg0.N) (d) : dat.before 1 t d = xwBlock V c 1 t :=
  (dat.before_in_eq_fetched 1 rfl (fun _ => rfl) (fun _ _ _ => rfl) (fun t => by rw [hafter]; unfold Dat.blockOf xwBlock; rw [hA]; try rfl) t d).trans
    (by unfold Dat.fetched Dat.blockOf xwBlock; rw [hA]; try rfl)

/-- The whole 2048 × 512 buffer, and the whole 512 × 512 one, as the rectangles the body loads and stores through. -/
abbrev rectX : Rect S2048x512 := Rect.unit (s := S2048x512) ![0, 0] S2048x512.size inb_S2048x512_S2048x512_0_0
abbrev rectW : Rect S512x512 := Rect.unit (s := S512x512) ![0, 0] S512x512.size inb_S512x512_S512x512_0_0

/-- What the body leaves in the output buffer from a row block `x` and the weight `w`: its one store, the product of the
    two (each rounded to the narrow format first), over the whole buffer. -/
def blockProduct (x : Vec F S2048x512 .f32) (w : Vec F S512x512 .f32) : Vec F S2048x512 .f32 :=
  View.canon [⟨rectX, k0_pay1 (View.ld x rectX) (View.ld w rectW)⟩]

/-- That one store covers the buffer. -/
theorem blockProduct_cover (p : Vec F S2048x512 .f32) (y : S2048x512.Idx) :
    ∃ pc ∈ ([⟨rectX, p⟩] : List (View.Piece (Elt F) S2048x512 .f32)), y ∈ pc.1.set :=
  View.cover_of_tiled [⟨rectX, p⟩] S2048x512.size (by rfl) y

set_option maxHeartbeats 1000000 in
/-- The body on three whole buffers, the first two holding `x` and `w`: it runs to the end, leaves those two as they
    were and the third at the product of the two. -/
theorem body_triple (c : Dev nD) (E : Set ℕ) (i : grid0.Coords)
    (a1 : Memref sig .tc .vmem S2048x512 .f32) (h1 : a1.IsWhole) (a2 : Memref sig .tc .vmem S512x512 .f32) (h2 : a2.IsWhole)
    (a3 : Memref sig .tc .vmem S2048x512 .f32) (h3 : a3.IsWhole)
    (x : Vec F S2048x512 .f32) (w : Vec F S512x512 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (blockProduct x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockProduct_cover _)

/-- The data the pipelining argument runs with on core `c`: the arrays as the launch finds them; after the body at
    point `t` the two inputs' buffers at their blocks and the output's at the product of the two; the invariant only the
    untouched rest; nothing owed; full shares. -/
def dat (c : Dev nD) : Dat τ (Elt F) Unit ℕ (UR sig nD τ) ℕ cfg0 c where
  A w := V c (Pipeline.arrRef spec0 w)
  after w t := match w with
    | ⟨0, _⟩ => xwBlock V c 0 t
    | ⟨1, _⟩ => xwBlock V c 1 t
    | ⟨2, _⟩ => blockProduct (xwBlock V c 0 t) (xwBlock V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = xwBlock V c 0 t := by dsimp only [dat]
theorem after_w (c : Dev nD) (t : Fin cfg0.N) : (dat V c).after 1 t = xwBlock V c 1 t := by dsimp only [dat]
theorem after_out (c : Dev nD) (t : Fin cfg0.N) :
    (dat V c).after 2 t = blockProduct (xwBlock V c 0 t) (xwBlock V c 1 t) := by dsimp only [dat]

theorem before_x (c : Dev nD) (t : Fin cfg0.N) (d) : (dat V c).before 0 t d = xwBlock V c 0 t :=
  before_x_of V (dat V c) (dat_A V c 0) (after_x V c) t d
theorem before_w (c : Dev nD) (t : Fin cfg0.N) (d) : (dat V c).before 1 t d = xwBlock V c 1 t :=
  before_w_of V (dat V c) (dat_A V c 1) (after_w V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two inputs' buffers hold their blocks, so the triple applies; the rest passes through. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_out]
  iintro ⟨HΦ, Ho, ⟨%d0, H0⟩, ⟨%d1, H1⟩, ⟨%d2, H2⟩⟩
  iapply (body_triple c Set.univ _ _ _ _ _ _ _ (xwBlock V c 0 t) (xwBlock V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch theorem asks of the body, at every point. -/
theorem body_obligation (c : Dev nD) : BodyObligation (dat (F := F) V c) (defs₀ (F := F)) Variants.none () Set.univ := fun t => by
  rw [bigSep_W0, bigSep_W0]
  exact body_at V c t

end Cert.Kernel.Dense

end
-- ==== Proof.WordHead.lean ====
/-
  The last launch of the word-level program: the 8192 × 8192 result  out[i, j] = h[j] + (o[i] · Wl + bl),  written in
  8 × 4 tiles of 1024 × 2048.  Grid point t = 4·i + j stages columns 2048·j … of the row vector h, rows 1024·i … of
  the 8192 × 4 feature matrix o, and the whole of the 4 × 1 weight and the 1 × 1 bias (staged once each); the body
  forms the 1024 × 1 column  o-block · Wl + bl  and adds it, spread along the columns, to the h-block spread along the
  rows; the tile is written back at every point.

  Stated here, at any contents V of the buffers when the launch is entered and for any float instance: the block each
  window shows the body at a point, the buffer the body leaves in the output window, the body's triple, and the data
  the pipelining argument runs with.
-/
import proofs.«131745_j1614907703640_2_alg».proof.Proof.Gen.Kernel.Launch
import proofs.«131745_j1614907703640_2_alg».proof.Proof.Gen.Kernel.Skeleton
import proofs.«131745_j1614907703640_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` shows at grid point `t`, read off the array as the launch finds it. -/
def tileBlock (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's buffer holds its block at every point — fetched there, or fetched earlier with the block index
    unmoved since (the o-block moves every fourth point, the weight and the bias never). -/
theorem before_h_of {c : Dev nD} (dat : Dat τ (Elt F) Unit ℕ (UR sig nD τ) ℕ cfg3 c) (hA : dat.A 0 = V c (Pipeline.arrRef spec3 0))
    (hafter : ∀ t, dat.after 0 t = tileBlock V c 0 t) (t : Fin cfg3.N) (d) : dat.before 0 t d = tileBlock V c 0 t :=
  (dat.before_in_eq_fetched 0 rfl (fun _ => rfl) (fun _ _ _ => rfl) (fun t => by rw [hafter]; unfold Dat.blockOf tileBlock; rw [hA]; try rfl) t d).trans
    (by unfold Dat.fetched Dat.blockOf tileBlock; rw [hA]; try rfl)
theorem before_o_of {c : Dev nD} (dat : Dat τ (Elt F) Unit ℕ (UR sig nD τ) ℕ cfg3 c) (hA : dat.A 1 = V c (Pipeline.arrRef spec3 1))
    (hafter : ∀ t, dat.after 1 t = tileBlock V c 1 t) (t : Fin cfg3.N) (d) : dat.before 1 t d = tileBlock V c 1 t :=
  (dat.before_in_eq_fetched 1 rfl (fun _ => rfl) (fun _ _ _ => rfl) (fun t => by rw [hafter]; unfold Dat.blockOf tileBlock; rw [hA]; try rfl) t d).trans
    (by unfold Dat.fetched Dat.blockOf tileBlock; rw [hA]; try rfl)
theorem before_wl_of {c : Dev nD} (dat : Dat τ (Elt F) Unit ℕ (UR sig nD τ) ℕ cfg3 c) (hA : dat.A 2 = V c (Pipeline.arrRef spec3 2))
    (hafter : ∀ t, dat.after 2 t = tileBlock V c 2 t) (t : Fin cfg3.N) (d) : dat.before 2 t d = tileBlock V c 2 t :=
  (dat.before_in_eq_fetched 2 rfl (fun _ => rfl) (fun _ _ _ => rfl) (fun t => by rw [hafter]; unfold Dat.blockOf tileBlock; rw [hA]; try rfl) t d).trans
    (by unfold Dat.fetched Dat.blockOf tileBlock; rw [hA]; try rfl)
theorem before_bl_of {c : Dev nD} (dat : Dat τ (Elt F) Unit ℕ (UR sig nD τ) ℕ cfg3 c) (hA : dat.A 3 = V c (Pipeline.arrRef spec3 3))
    (hafter : ∀ t, dat.after 3 t = tileBlock V c 3 t) (t : Fin cfg3.N) (d) : dat.before 3 t d = tileBlock V c 3 t :=
  (dat.before_in_eq_fetched 3 rfl (fun _ => rfl) (fun _ _ _ => rfl) (fun t => by rw [hafter]; unfold Dat.blockOf tileBlock; rw [hA]; try rfl) t d).trans
    (by unfold Dat.fetched Dat.blockOf tileBlock; rw [hA]; try rfl)

/-- The whole buffers, as the rectangles the body loads and stores through. -/
abbrev rectH : Rect S1x2048 := Rect.unit (s := S1x2048) ![0, 0] S1x2048.size inb_S1x2048_S1x2048_0_0
abbrev rectO : Rect S1024x4 := Rect.unit (s := S1024x4) ![0, 0] S1024x4.size inb_S1024x4_S1024x4_0_0
abbrev rectWl : Rect S4x1 := Rect.unit (s := S4x1) ![0, 0] S4x1.size inb_S4x1_S4x1_0_0
abbrev rectBl : Rect S1x1 := Rect.unit (s := S1x1) ![0, 0] S1x1.size inb_S1x1_S1x1_0_0
abbrev rectT : Rect S1024x2048 := Rect.unit (s := S1024x2048) ![0, 0] S1024x2048.size inb_S1024x2048_S1024x2048_0_0

/-- What the body leaves in the tile's buffer from the four input blocks: its one store over the whole buffer. -/
def tileValue (h : Vec F S1x2048 .f32) (o : Vec F S1024x4 .f32) (wl : Vec F S4x1 .f32) (bl : Vec F S1x1 .f32) : Vec F S1024x2048 .f32 :=
  View.canon [⟨rectT, k3_pay1 (View.ld o rectO) (View.ld wl rectWl) (View.ld bl rectBl) (View.ld h rectH)⟩]

/-- That one store covers the buffer. -/
theorem tileValue_cover (p : Vec F S1024x2048 .f32) (y : S1024x2048.Idx) :
    ∃ pc ∈ ([⟨rectT, p⟩] : List (View.Piece (Elt F) S1024x2048 .f32)), y ∈ pc.1.set :=
  View.cover_of_tiled [⟨rectT, p⟩] S1024x2048.size (by rfl) y

set_option maxHeartbeats 1000000 in
/-- The body on five whole buffers, the first four holding the input blocks: it runs to the end, leaves those four as
    they were and the fifth at the tile's value. -/
theorem body_triple (c : Dev nD) (E : Set ℕ) (i : grid3.Coords)
    (a2 : Memref sig .tc .vmem S1x2048 .f32) (h2 : a2.IsWhole) (a3 : Memref sig .tc .vmem S1024x4 .f32) (h3 : a3.IsWhole)
    (a4 : Memref sig .tc .vmem S4x1 .f32) (h4 : a4.IsWhole) (a5 : Memref sig .tc .vmem S1x1 .f32) (h5 : a5.IsWhole)
    (a6 : Memref sig .tc .vmem S1024x2048 .f32) (h6 : a6.IsWhole)
    (h : Vec F S1x2048 .f32) (o : Vec F S1024x4 .f32) (wl : Vec F S4x1 .f32) (bl : Vec F S1x1 .f32) (K : PUnit → sProp 𝕄) :
    iprop(owns (c : Thread nD τ) a2 fullShare h ∗ owns (c : Thread nD τ) a3 fullShare o ∗ owns (c : Thread nD τ) a4 fullShare wl
        ∗ owns (c : Thread nD τ) a5 fullShare bl ∗ (∃ d, owns (c : Thread nD τ) a6 fullShare d)
        ∗ (iprop(owns (c : Thread nD τ) a2 fullShare h ∗ owns (c : Thread nD τ) a3 fullShare o ∗ owns (c : Thread nD τ) a4 fullShare wl
            ∗ owns (c : Thread nD τ) a5 fullShare bl ∗ owns (c : Thread nD τ) a6 fullShare (tileValue h o wl bl)) -∗ K ⟨⟩))
      ⊢ wp frame (wpE (defs₀ (F := F)) Variants.none c none) E (cc3__broadcast_head_kernel i a2 h2 a3 h3 a4 h4 a5 h5 a6 h6) K := by
  simp only [cc3__broadcast_head_kernel_eq_skeleton]; unfold cc3__broadcast_head_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tileValue_cover _)

/-- The data the pipelining argument runs with on core `c`: the arrays as the launch finds them; after the body at
    point `t` the four inputs' buffers at their blocks and the output's at the tile's value; the invariant only the
    untouched rest; nothing owed; full shares. -/
def dat (c : Dev nD) : Dat τ (Elt F) Unit ℕ (UR sig nD τ) ℕ cfg3 c where
  A w := V c (Pipeline.arrRef spec3 w)
  after w t := match w with
    | ⟨0, _⟩ => tileBlock V c 0 t
    | ⟨1, _⟩ => tileBlock V c 1 t
    | ⟨2, _⟩ => tileBlock V c 2 t
    | ⟨3, _⟩ => tileBlock V c 3 t
    | ⟨4, _⟩ => tileValue (tileBlock V c 0 t) (tileBlock V c 1 t) (tileBlock V c 2 t) (tileBlock V c 3 t)
  Φ _ := Pipeline.ΦA spec3 c
  q _ := fullShare
  owed _ := 0

theorem dat_A (c : Dev nD) (w : Fin cfg3.W) : (dat V c).A w = V c (Pipeline.arrRef spec3 w) := by
  dsimp only [dat]

theorem after_h (c : Dev nD) (t : Fin cfg3.N) : (dat V c).after 0 t = tileBlock V c 0 t := by dsimp only [dat]
theorem after_o (c : Dev nD) (t : Fin cfg3.N) : (dat V c).after 1 t = tileBlock V c 1 t := by dsimp only [dat]
theorem after_wl (c : Dev nD) (t : Fin cfg3.N) : (dat V c).after 2 t = tileBlock V c 2 t := by dsimp only [dat]
theorem after_bl (c : Dev nD) (t : Fin cfg3.N) : (dat V c).after 3 t = tileBlock V c 3 t := by dsimp only [dat]
theorem after_out (c : Dev nD) (t : Fin cfg3.N) :
    (dat V c).after 4 t = tileValue (tileBlock V c 0 t) (tileBlock V c 1 t) (tileBlock V c 2 t) (tileBlock V c 3 t) := by dsimp only [dat]

theorem before_h (c : Dev nD) (t : Fin cfg3.N) (d) : (dat V c).before 0 t d = tileBlock V c 0 t :=
  before_h_of V (dat V c) (dat_A V c 0) (after_h V c) t d
theorem before_o (c : Dev nD) (t : Fin cfg3.N) (d) : (dat V c).before 1 t d = tileBlock V c 1 t :=
  before_o_of V (dat V c) (dat_A V c 1) (after_o V c) t d
theorem before_wl (c : Dev nD) (t : Fin cfg3.N) (d) : (dat V c).before 2 t d = tileBlock V c 2 t :=
  before_wl_of V (dat V c) (dat_A V c 2) (after_wl V c) t d
theorem before_bl (c : Dev nD) (t : Fin cfg3.N) (d) : (dat V c).before 3 t d = tileBlock V c 3 t :=
  before_bl_of V (dat V c) (dat_A V c 3) (after_bl V c) t d

/-- What the body is called with at point `t`, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point: the four inputs' buffers hold their blocks, so the triple applies; the rest passes through. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_h, before_o, before_wl, before_bl]
  rw [show (dat V c).Φ t.succ = (dat V c).Φ t.castSucc from rfl,
    show (dat V c).owesAt () t.succ = (dat V c).owesAt () t.castSucc from rfl,
    after_h, after_o, after_wl, after_bl, after_out]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (tileBlock V c 0 t) (tileBlock V c 1 t) (tileBlock V c 2 t) (tileBlock V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the launch theorem asks of the body, at every point. -/
theorem body_obligation (c : Dev nD) : BodyObligation (dat (F := F) V c) (defs₀ (F := F)) Variants.none () Set.univ := fun t => by
  rw [bigSep_W3, bigSep_W3]
  exact body_at V c t

end Cert.Kernel.Head

end
-- ==== Proof.WordAggRuns.lean ====
/-
  The second launch of the word-level program: the aggregation  relu(Â · h + b)  of the first layer, where Â is the
  8192 × 8192 normalised adjacency (narrow floats), h the 8192 × 512 transformed features and b the bias row.  The grid
  is 8 × 4: point t = 4·i + k stages the 1024 × 2048 tile (i, k) of Â, rows 2048·k … of h, and the bias (staged once);
  a 1024 × 512 scratch buffer carries the partial sum of the row block across its four points.  At k = 0 the scratch
  is cleared before the tile's product is added to it; at k = 1, 2 the product is added; at k = 3 it is added and then
  the row block of the result is stored as the maximum of (scratch + bias row) and 0, and written back.  At the other
  points the result window is left alone and not written back.

  Stated here, at any contents V of the buffers when the launch is entered and for any float instance: the three ways
  the body runs (first, middle and last point of a row block), each with the pieces its stores leave in the scratch
  (and, at a last point, in the result's buffer) found by running it; what the scratch holds after each point, by
  recursion on the point; the invariant that carries the scratch from one point to the next; and the obligation the
  launch theorem asks of the body.
-/
import proofs.«131745_j1614907703640_2_alg».proof.Proof.Gen.Kernel.Launch
import proofs.«131745_j1614907703640_2_alg».proof.Proof.Gen.Kernel.Skeleton
import proofs.«131745_j1614907703640_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which point of a row block a grid point is -/

/-- The body's first test: the inner grid coordinate k is 0. -/
abbrev isFirst (i : grid1.Coords) : Prop :=
  (Scalar.cmpi .ne (Scalar.extui (Scalar.cmpi .eq (BitVec.ofNat 32 (i 1).val) 0#32)) 0#32) = 1#1
/-- The body's second test: k is 3, the last tile of the row block. -/
abbrev isLast (i : grid1.Coords) : Prop := k1_cond2 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-- The three inputs are in use at every point; the result window only at the last point of a row block, where it is
    written back; elsewhere it is idle and not written back. -/
theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem idle_out : ∀ t : Fin cfg1.N, ¬ isLast (grid1.coords t) → cfg1.idle 3 (grid1.coords t) = true := by decide +kernel
theorem noflush_out : ∀ t : Fin cfg1.N, ¬ isLast (grid1.coords t) → (cfg1.win 3).flush t = false := by decide +kernel
theorem live_out : ∀ t : Fin cfg1.N, isLast (grid1.coords t) → cfg1.idle 3 (grid1.coords t) = false := by decide +kernel

/-! ## The buffers the body is called with, and the scratch -/

abbrev bufA (t : Fin cfg1.N) : Memref sig .tc .vmem S1024x2048 .bf16 := win1_0.stage (cfg1.slots t 0)
abbrev bufA_whole (t : Fin cfg1.N) : (bufA t).IsWhole := hstage1_0 ((cfg1.slots t 0).cast nbuf1_0)
abbrev bufH (t : Fin cfg1.N) : Memref sig .tc .vmem S2048x512 .f32 := win1_1.stage (cfg1.slots t 1)
abbrev bufH_whole (t : Fin cfg1.N) : (bufH t).IsWhole := hstage1_1 ((cfg1.slots t 1).cast nbuf1_1)
abbrev bufB (t : Fin cfg1.N) : Memref sig .tc .vmem S1x512 .f32 := win1_2.stage (cfg1.slots t 2)
abbrev bufB_whole (t : Fin cfg1.N) : (bufB t).IsWhole := hstage1_2 ((cfg1.slots t 2).cast nbuf1_2)
abbrev bufO (t : Fin cfg1.N) : Memref sig .tc .vmem S1024x512 .f32 := win1_3.stage (cfg1.slots t 3)
abbrev bufO_whole (t : Fin cfg1.N) : (bufO t).IsWhole := hstage1_3 ((cfg1.slots t 3).cast nbuf1_3)
/-- The partial-sum scratch: a whole buffer of the kernel's own. -/
abbrev scr : Memref sig .tc .vmem S1024x512 .f32 := Memref.whole cc1_scratch0
abbrev scr_whole : (scr).IsWhole := Memref.isWhole_whole _
/-- What a list of stores leaves in the scratch, read back (over anything: the lists used below cover it). -/
def scrOf (L : List (View.Piece (Elt F) S1024x512 .f32)) : Vec F S1024x512 .f32 :=
  scr.view.read (Elt F) (scr.view.writes (Elt F) scr.view.junk L)
/-- The same through one buffer of the result window (which of the two does not matter for a covering list). -/
abbrev outView : View sig .tc .vmem S1024x512 .f32 := (Memref.whole cc1_stg3_0 : Memref sig .tc .vmem S1024x512 .f32).view
def outOf (L : List (View.Piece (Elt F) S1024x512 .f32)) : Vec F S1024x512 .f32 :=
  outView.read (Elt F) (outView.writes (Elt F) outView.junk L)

/-! ## The body's three runs -/

set_option maxHeartbeats 2000000 in
/-- FIRST point of a row block (k = 0): with the tile `a`, the rows `b` of h and the bias in their buffers, the result's
    buffer at anything `xo` (handed back untouched) and the scratch at anything, the body runs to the end leaving the
    scratch with the pieces `LS` written — the clearing store, then the sum's. -/
noncomputable def runFirst (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole)
    (a6 : Memref sig .tc .vmem S1024x512 .f32) (h6 : a6.IsWhole) (hc0 : isFirst i) (hc1 : ¬ isLast i)
    (a : Vec F S1024x2048 .bf16) (b : Vec F S2048x512 .f32) (bias : Vec F S1x512 .f32) :
    { LS : List (View.Piece (Elt F) S1024x512 .f32) //
      ∀ (xo : Vec F S1024x512 .f32) (E : Set ℕ) (K : PUnit → sProp 𝕄),
        iprop(owns (c : Thread nD τ) a2 fullShare a ∗ owns (c : Thread nD τ) a3 fullShare b ∗ owns (c : Thread nD τ) a4 fullShare bias ∗ owns (c : Thread nD τ) a5 fullShare xo ∗ (∃ d, owns (c : Thread nD τ) a6 fullShare d)
            ∗ (iprop(owns (c : Thread nD τ) a2 fullShare a ∗ owns (c : Thread nD τ) a3 fullShare b ∗ owns (c : Thread nD τ) a4 fullShare bias ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc1__agg_kernel i a2 h2 a3 h3 a4 h4 a5 h5 a6 h6) K } := by
  refine ⟨?_, fun xo E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := h2.eq_unread hf2; obtain rfl := h3.eq_unread hf3; obtain rfl := h4.eq_unread hf4; obtain rfl := h5.eq_unread hf5
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

set_option maxHeartbeats 2000000 in
/-- MIDDLE point (k = 1, 2): as the first, but the scratch holds what the point before left, `xs`, and the body only adds
    the tile's product to it. -/
noncomputable def runMid (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole)
    (a6 : Memref sig .tc .vmem S1024x512 .f32) (h6 : a6.IsWhole) (hc0 : ¬ isFirst i) (hc1 : ¬ isLast i)
    (a : Vec F S1024x2048 .bf16) (b : Vec F S2048x512 .f32) (bias : Vec F S1x512 .f32) (xs : Vec F S1024x512 .f32) :
    { LS : List (View.Piece (Elt F) S1024x512 .f32) //
      ∀ (xo : Vec F S1024x512 .f32) (E : Set ℕ) (K : PUnit → sProp 𝕄),
        iprop(owns (c : Thread nD τ) a2 fullShare a ∗ owns (c : Thread nD τ) a3 fullShare b ∗ owns (c : Thread nD τ) a4 fullShare bias ∗ owns (c : Thread nD τ) a5 fullShare xo ∗ owns (c : Thread nD τ) a6 fullShare xs
            ∗ (iprop(owns (c : Thread nD τ) a2 fullShare a ∗ owns (c : Thread nD τ) a3 fullShare b ∗ owns (c : Thread nD τ) a4 fullShare bias ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc1__agg_kernel i a2 h2 a3 h3 a4 h4 a5 h5 a6 h6) K } := by
  refine ⟨?_, fun xo E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := h2.eq_unread hf2; obtain rfl := h3.eq_unread hf3; obtain rfl := h4.eq_unread hf4; obtain rfl := h5.eq_unread hf5
    obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

set_option maxHeartbeats 2000000 in
/-- LAST point (k = 3): the scratch holds `xs`; the body adds the tile's product to it and then stores the row block of
    the result, leaving the pieces `LO` in the result's buffer (at anything before) and `LS` in the scratch. -/
noncomputable def runLast (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole)
    (a6 : Memref sig .tc .vmem S1024x512 .f32) (h6 : a6.IsWhole) (hc0 : ¬ isFirst i) (hc1 : isLast i)
    (a : Vec F S1024x2048 .bf16) (b : Vec F S2048x512 .f32) (bias : Vec F S1x512 .f32) (xs : Vec F S1024x512 .f32) :
    Σ' (LO : List (View.Piece (Elt F) S1024x512 .f32)), { LS : List (View.Piece (Elt F) S1024x512 .f32) //
      ∀ (E : Set ℕ) (K : PUnit → sProp 𝕄),
        iprop(owns (c : Thread nD τ) a2 fullShare a ∗ owns (c : Thread nD τ) a3 fullShare b ∗ owns (c : Thread nD τ) a4 fullShare bias ∗ (∃ d, owns (c : Thread nD τ) a5 fullShare d) ∗ owns (c : Thread nD τ) a6 fullShare xs
            ∗ (iprop(owns (c : Thread nD τ) a2 fullShare a ∗ owns (c : Thread nD τ) a3 fullShare b ∗ owns (c : Thread nD τ) a4 fullShare bias ∗ (∃ f, a5.view.loc (c : Thread nD τ) ↦[a5.view.set]{fullShare} a5.view.writes (Elt F) f LO) ∗ (∃ f, a6.view.loc (c : Thread nD τ) ↦[a6.view.set]{fullShare} a6.view.writes (Elt F) f LS)) -∗ K ⟨⟩))
          ⊢ wp frame (wpE (defs₀ (F := F)) Variants.none c none) E (cc1__agg_kernel i a2 h2 a3 h3 a4 h4 a5 h5 a6 h6) K } := by
  refine ⟨?_, ?_, fun E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%d5, %f5, -, H5⟩, ⟨%f6, %hf6, H6⟩, Hk⟩
    obtain rfl := h2.eq_unread hf2; obtain rfl := h3.eq_unread hf3; obtain rfl := h4.eq_unread hf4
    obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

end Cert.Kernel.Agg

end
-- ==== Proof.WordAgg.lean ====
/-
  The aggregation launch of the first layer, continued: what the partial-sum scratch holds after each grid point, the
  invariant that hands it from one point to the next, the data the pipelining argument runs with, and the obligation
  the launch theorem asks of the body.

  After point t = 4·i + k the scratch holds the sum over k' ≤ k of the products  Â-tile (i, k') · h-rows (k'),  built
  up as the body builds it: cleared and then added to at k = 0, added to afterwards.  Before the first point the
  scratch is one of the launch's untouched scoped buffers, at anything; from then on the invariant names its contents.
-/
import proofs.«131745_j1614907703640_2_alg».proof.Proof.WordAggRuns

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` shows at grid point `t`: tile (i, k) of Â, rows 2048·k … of h, the bias row, rows 1024·i … of
    the result. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's buffer holds its block at every point (the bias is fetched once and its block index never moves). -/
theorem before_a_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_h_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The three runs at a grid point, and that their stores cover the buffers -/

def firstAt (c : Dev nD) (t : Fin cfg1.N) (h0 : t.val % 4 = 0) :=
  runFirst (F := F) c (grid1.coords t) (bufA t) (bufA_whole t) (bufH t) (bufH_whole t) (bufB t) (bufB_whole t) (bufO t) (bufO_whole t) scr scr_whole
    ((isFirst_iff t).mpr h0) (fun h => by have := (isLast_iff t).mp h; omega) (blk V c 0 t) (blk V c 1 t) (blk V c 2 t)
def midAt (c : Dev nD) (t : Fin cfg1.N) (h0 : ¬ t.val % 4 = 0) (h3 : ¬ t.val % 4 = 3) (xs : Vec F S1024x512 .f32) :=
  runMid (F := F) c (grid1.coords t) (bufA t) (bufA_whole t) (bufH t) (bufH_whole t) (bufB t) (bufB_whole t) (bufO t) (bufO_whole t) scr scr_whole
    (fun h => h0 ((isFirst_iff t).mp h)) (fun h => h3 ((isLast_iff t).mp h)) (blk V c 0 t) (blk V c 1 t) (blk V c 2 t) xs
def lastAt (c : Dev nD) (t : Fin cfg1.N) (h0 : ¬ t.val % 4 = 0) (h3 : t.val % 4 = 3) (xs : Vec F S1024x512 .f32) :=
  runLast (F := F) c (grid1.coords t) (bufA t) (bufA_whole t) (bufH t) (bufH_whole t) (bufB t) (bufB_whole t) (bufO t) (bufO_whole t) scr scr_whole
    (fun h => h0 ((isFirst_iff t).mp h)) ((isLast_iff t).mpr h3) (blk V c 0 t) (blk V c 1 t) (blk V c 2 t) xs

theorem first_covers (c : Dev nD) (t : Fin cfg1.N) (h0 : t.val % 4 = 0) (y : S1024x512.Idx) :
    ∃ pc ∈ (firstAt V c t h0).1, y ∈ pc.1.set :=
  View.cover_of_tiledL (firstAt V c t h0).1 S1024x512.size (by sl_kernel_rfl) y
theorem mid_covers (c : Dev nD) (t : Fin cfg1.N) (h0 : ¬ t.val % 4 = 0) (h3 : ¬ t.val % 4 = 3) (xs : Vec F S1024x512 .f32) (y : S1024x512.Idx) :
    ∃ pc ∈ (midAt V c t h0 h3 xs).1, y ∈ pc.1.set :=
  View.cover_of_tiledL (midAt V c t h0 h3 xs).1 S1024x512.size (by sl_kernel_rfl) y
theorem last_covers_scr (c : Dev nD) (t : Fin cfg1.N) (h0 : ¬ t.val % 4 = 0) (h3 : t.val % 4 = 3) (xs : Vec F S1024x512 .f32) (y : S1024x512.Idx) :
    ∃ pc ∈ (lastAt V c t h0 h3 xs).2.1, y ∈ pc.1.set :=
  View.cover_of_tiledL (lastAt V c t h0 h3 xs).2.1 S1024x512.size (by sl_kernel_rfl) y
theorem last_covers_out (c : Dev nD) (t : Fin cfg1.N) (h0 : ¬ t.val % 4 = 0) (h3 : t.val % 4 = 3) (xs : Vec F S1024x512 .f32) (y : S1024x512.Idx) :
    ∃ pc ∈ (lastAt V c t h0 h3 xs).1, y ∈ pc.1.set :=
  View.cover_of_tiledL (lastAt V c t h0 h3 xs).1 S1024x512.size (by sl_kernel_rfl) y

/-! ## What the scratch holds after each point -/

/-- THE PARTIAL SUM after the body at position `n`: at the first point of a row block what the clearing and the first
    addition leave; afterwards what adding this point's product to the previous point's contents leaves. -/
def accAt (c : Dev nD) : (n : ℕ) → n < cfg1.N → Vec F S1024x512 .f32
  | 0, hn => scrOf (firstAt V c ⟨0, hn⟩ (Nat.zero_mod 4)).1
  | n + 1, hn =>
    if h0 : (n + 1) % 4 = 0 then scrOf (firstAt V c ⟨n + 1, hn⟩ h0).1
    else if h3 : (n + 1) % 4 = 3 then scrOf (lastAt V c ⟨n + 1, hn⟩ h0 h3 (accAt c n (Nat.lt_of_succ_lt hn))).2.1
    else scrOf (midAt V c ⟨n + 1, hn⟩ h0 h3 (accAt c n (Nat.lt_of_succ_lt hn))).1

/-- What the scratch holds when point `t` begins, for a point that is not the first of its row block. -/
def prevAcc (c : Dev nD) : (t : Fin cfg1.N) → Vec F S1024x512 .f32
  | ⟨0, _⟩ => scrOf []
  | ⟨n + 1, hn⟩ => accAt V c n (Nat.lt_of_succ_lt hn)

theorem accAt_first (c : Dev nD) (t : Fin cfg1.N) (h0 : t.val % 4 = 0) :
    accAt V c t.val t.isLt = scrOf (firstAt V c t h0).1 := by
  obtain ⟨n, hn⟩ := t
  cases n with
  | zero => rfl
  | succ n => exact dif_pos h0
theorem accAt_mid (c : Dev nD) (t : Fin cfg1.N) (h0 : ¬ t.val % 4 = 0) (h3 : ¬ t.val % 4 = 3) :
    accAt V c t.val t.isLt = scrOf (midAt V c t h0 h3 (prevAcc V c t)).1 := by
  obtain ⟨n, hn⟩ := t
  cases n with
  | zero => exact absurd (Nat.zero_mod 4) h0
  | succ n => exact (dif_neg h0).trans (dif_neg h3)
theorem accAt_last (c : Dev nD) (t : Fin cfg1.N) (h0 : ¬ t.val % 4 = 0) (h3 : t.val % 4 = 3) :
    accAt V c t.val t.isLt = scrOf (lastAt V c t h0 h3 (prevAcc V c t)).2.1 := by
  obtain ⟨n, hn⟩ := t
  cases n with
  | zero => exact absurd (Nat.zero_mod 4) h0
  | succ n => exact (dif_neg h0).trans (dif_pos h3)

/-- What the result's buffer holds after point `t`: at the last point of a row block the stored row block; elsewhere
    the window is idle and this is never consulted. -/
def outAt (c : Dev nD) (t : Fin cfg1.N) : Vec F S1024x512 .f32 :=
  if h3 : t.val % 4 = 3 then outOf (lastAt V c t (by omega) h3 (prevAcc V c t)).1 else outOf []

theorem outAt_last (c : Dev nD) (t : Fin cfg1.N) (h0 : ¬ t.val % 4 = 0) (h3 : t.val % 4 = 3) :
    outAt V c t = outOf (lastAt V c t h0 h3 (prevAcc V c t)).1 := dif_pos h3

/-! ## The invariant: the launch's untouched scoped buffers, with the scratch singled out -/

/-- The core's scoped buffers that are no staging buffer of this launch, each whole at some contents, and the generator
    register at some state — with `S` in the scratch's place. -/
def restWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f)) ∗ ∃ r, prngReg c r)

/-- The launch's untouched rest is that with the scratch at some contents. -/
theorem rest_eq (c : Dev nD) :
    (Pipeline.ΦA spec1 c : sProp 𝕄) = restWith c iprop(∃ f : Buf (Elt F) ((c : Thread nD τ).loc cc1_scratch0), ((c : Thread nD τ).loc cc1_scratch0) ↦{fullShare} f) := by
  unfold Pipeline.ΦA restWith; rw [scopedRest1_eq]

theorem restWith_take (c : Dev nD) (S : sProp 𝕄) : restWith c S ⊢ iprop(S ∗ restWith c iprop(emp)) := by
  unfold restWith
  iintro ⟨⟨B0, B1, B2, B3, B4, HS, A0, A1, A2, A3, A4, A5, A6, A7, A8, A9, A10, A11, A12, A13, A14, A15⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    isplitr; · iempintro
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  iexact Hg

theorem restWith_give (c : Dev nD) (S : sProp 𝕄) : iprop(S ∗ restWith c iprop(emp)) ⊢ restWith c S := by
  unfold restWith
  iintro ⟨HS, ⟨⟨B0, B1, B2, B3, B4, -, A0, A1, A2, A3, A4, A5, A6, A7, A8, A9, A10, A11, A12, A13, A14, A15⟩, Hg⟩⟩
  isplitr [Hg]
  swap; · iexact Hg
  isplitl [B0]; · iexact B0
  isplitl [B1]; · iexact B1
  isplitl [B2]; · iexact B2
  isplitl [B3]; · iexact B3
  isplitl [B4]; · iexact B4
  isplitl [HS]; · iexact HS
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iexact A15

/-- The invariant before position `n`: before the first point the launch's untouched rest; afterwards the same with the
    scratch at the partial sum the point before left. -/
def inv (c : Dev nD) : (n : ℕ) → n ≤ cfg1.N → sProp 𝕄
  | 0, _ => Pipeline.ΦA spec1 c
  | n + 1, hn => restWith c (owns (c : Thread nD τ) scr fullShare (accAt V c n hn))

/-- Whatever the position, the invariant yields the scratch at some contents beside the rest. -/
theorem inv_open (c : Dev nD) (n : ℕ) (hn : n ≤ cfg1.N) :
    inv V c n hn ⊢ iprop((∃ d, owns (c : Thread nD τ) scr fullShare d) ∗ restWith c iprop(emp)) := by
  cases n with
  | zero =>
    show Pipeline.ΦA spec1 c ⊢ _
    rw [rest_eq]
    refine (restWith_take c _).trans ?_
    iintro ⟨⟨%f, H⟩, HR⟩
    isplitl [H]
    · iexists f; rw [owns_whole]; iexact H
    iexact HR
  | succ n =>
    show restWith c _ ⊢ _
    refine (restWith_take c _).trans ?_
    iintro ⟨H, HR⟩
    isplitl [H]
    · iexists _; iexact H
    iexact HR

/-- After a first point the invariant gives the launch's rest back: the scratch's named contents are forgotten. -/
theorem inv_close (c : Dev nD) (n : ℕ) (hn : n + 1 ≤ cfg1.N) : inv V c (n + 1) hn ⊢ Pipeline.ΦA spec1 c := by
  show restWith c _ ⊢ _
  rw [rest_eq]
  refine (restWith_take c _).trans ?_
  refine .trans ?_ (restWith_give c _)
  iintro ⟨H, HR⟩
  isplitl [H]
  · iexists _; rw [← owns_whole]; iexact H
  iexact HR

/-! ## The data the pipelining argument runs with -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]
theorem after_a (c : Dev nD) (t : Fin cfg1.N) : (dat V c).after 0 t = blk V c 0 t := by dsimp only [dat]
theorem after_h (c : Dev nD) (t : Fin cfg1.N) : (dat V c).after 1 t = blk V c 1 t := by dsimp only [dat]
theorem after_b (c : Dev nD) (t : Fin cfg1.N) : (dat V c).after 2 t = blk V c 2 t := by dsimp only [dat]
theorem after_out (c : Dev nD) (t : Fin cfg1.N) : (dat V c).after 3 t = outAt V c t := by dsimp only [dat]
theorem before_a (c : Dev nD) (t : Fin cfg1.N) (d) : (dat V c).before 0 t d = blk V c 0 t :=
  before_a_of V (dat V c) (dat_A V c 0) (after_a V c) t d
theorem before_h (c : Dev nD) (t : Fin cfg1.N) (d) : (dat V c).before 1 t d = blk V c 1 t :=
  before_h_of V (dat V c) (dat_A V c 1) (after_h V c) t d
theorem before_b (c : Dev nD) (t : Fin cfg1.N) (d) : (dat V c).before 2 t d = blk V c 2 t :=
  before_b_of V (dat V c) (dat_A V c 2) (after_b V c) t d

end Cert.Kernel.Agg

end
-- ==== Proof.WordAggBody.lean ====
/-
  The aggregation launch of the first layer, concluded: the obligation the launch theorem asks of the body, at every
  grid point.  A point is the first of its row block (the scratch is taken at anything and left at the first partial
  sum), a middle one (the scratch is taken at the previous partial sum and left at the next), or the last (the same,
  and the result's row block is stored); in the first two cases the result window is idle and handed back as found.
-/
import proofs.«131745_j1614907703640_2_alg».proof.Proof.WordAgg

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a point that is not the first of its row block the invariant holds the scratch at the previous partial sum. -/
theorem inv_prev (c : Dev nD) (t : Fin cfg1.N) (h0 : ¬ t.val % 4 = 0) :
    inv V c t.val (Nat.le_of_lt t.isLt) ⊢ iprop(owns (c : Thread nD τ) scr fullShare (prevAcc V c t) ∗ restWith c iprop(emp)) := by
  obtain ⟨n, hn⟩ := t
  cases n with
  | zero => exact absurd (Nat.zero_mod 4) h0
  | succ n => exact restWith_take c _

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (bufA t) fullShare ((dat V c).before 0 t d))
    ∗ (∃ d, owns (c : Thread nD τ) (bufH t) fullShare ((dat V c).before 1 t d))
    ∗ (∃ d, owns (c : Thread nD τ) (bufB t) fullShare ((dat V c).before 2 t d))
    ∗ (∃ d, owns (c : Thread nD τ) (bufO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_a, before_h, before_b]
  rw [show (dat V c).owesAt () t.succ = (dat V c).owesAt () t.castSucc from rfl]
  rw [show (dat V c).leavesExact 0 t = owns (c : Thread nD τ) (bufA t) fullShare (blk V c 0 t) from by
        unfold Dat.leavesExact; rw [live_in0 t, after_a],
    show (dat V c).leavesExact 1 t = owns (c : Thread nD τ) (bufH t) fullShare (blk V c 1 t) from by
        unfold Dat.leavesExact; rw [live_in1 t, after_h],
    show (dat V c).leavesExact 2 t = owns (c : Thread nD τ) (bufB t) fullShare (blk V c 2 t) from by
        unfold Dat.leavesExact; rw [live_in2 t, after_b]]
  rw [show (dat V c).Φ t.succ = restWith c (owns (c : Thread nD τ) scr fullShare (accAt V c t.val t.isLt)) from rfl]
  rw [show (dat V c).Φ t.castSucc = inv V c t.val (Nat.le_of_lt t.isLt) from rfl]
  by_cases h0 : t.val % 4 = 0
  · -- the first point of a row block
    have h3 : ¬ t.val % 4 = 3 := by omega
    have hopen := inv_open V c t.val (Nat.le_of_lt t.isLt)
    rw [Dat.leavesExact_idle (dat V c) 3 t (idle_out t (fun h => h3 ((isLast_iff t).mp h))) (noflush_out t (fun h => h3 ((isLast_iff t).mp h)))]
    rw [accAt_first V c t h0]
    iintro ⟨HΦ, Ho, ⟨%d0, H0⟩, ⟨%d1, H1⟩, ⟨%d2, H2⟩, ⟨%d3, H3⟩⟩
    ihave HΦ' := hopen $$ HΦ
    icases HΦ' with ⟨HS, HR⟩
    iapply ((firstAt V c t h0).2 _ Set.univ _)
    isplitl [H0]; · iexact H0
    isplitl [H1]; · iexact H1
    isplitl [H2]; · iexact H2
    isplitl [H3]; · iexact H3
    isplitl [HS]; · iexact HS
    iintro ⟨H0, H1, H2, H3, ⟨%f, HS⟩⟩
    isplitl [HS HR]
    · iapply (restWith_give c _)
      isplitl [HS]
      · unfold owns; iexists _; isplitr
        swap; · iexact HS
        ipureintro; exact View.read_writes_of_cover _ _ _ _ _ (first_covers V c t h0)
      iexact HR
    isplitl [Ho]; · iexact Ho
    isplitl [H0]; · iexact H0
    isplitl [H1]; · iexact H1
    isplitl [H2]; · iexact H2
    iexists _; iexact H3
  · have hprev := inv_prev V c t h0
    by_cases h3 : t.val % 4 = 3
    · -- the last point of a row block
      rw [show (dat V c).leavesExact 3 t = owns (c : Thread nD τ) (bufO t) fullShare (outAt V c t) from by
            unfold Dat.leavesExact; rw [live_out t ((isLast_iff t).mpr h3), after_out]]
      rw [accAt_last V c t h0 h3, outAt_last V c t h0 h3]
      iintro ⟨HΦ, Ho, ⟨%d0, H0⟩, ⟨%d1, H1⟩, ⟨%d2, H2⟩, ⟨%d3, H3⟩⟩
      ihave HΦ' := hprev $$ HΦ
      icases HΦ' with ⟨HS, HR⟩
      iapply ((lastAt V c t h0 h3 (prevAcc V c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%g, H3⟩, ⟨%f, HS⟩⟩
      isplitl [HS HR]
      · iapply (restWith_give c _)
        isplitl [HS]
        · unfold owns; iexists _; isplitr
          swap; · iexact HS
          ipureintro; exact View.read_writes_of_cover _ _ _ _ _ (last_covers_scr V c t h0 h3 _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_covers_out V c t h0 h3 _)
    · -- a middle point
      rw [Dat.leavesExact_idle (dat V c) 3 t (idle_out t (fun h => h3 ((isLast_iff t).mp h))) (noflush_out t (fun h => h3 ((isLast_iff t).mp h)))]
      rw [accAt_mid V c t h0 h3]
      iintro ⟨HΦ, Ho, ⟨%d0, H0⟩, ⟨%d1, H1⟩, ⟨%d2, H2⟩, ⟨%d3, H3⟩⟩
      ihave HΦ' := hprev $$ HΦ
      icases HΦ' with ⟨HS, HR⟩
      iapply ((midAt V c t h0 h3 (prevAcc V c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%f, HS⟩⟩
      isplitl [HS HR]
      · iapply (restWith_give c _)
        isplitl [HS]
        · unfold owns; iexists _; isplitr
          swap; · iexact HS
          ipureintro; exact View.read_writes_of_cover _ _ _ _ _ (mid_covers V c t h0 h3 _)
        iexact HR
      isplitl [Ho]; · iexact Ho
      isplitl [H0]; · iexact H0
      isplitl [H1]; · iexact H1
      isplitl [H2]; · iexact H2
      iexists _; iexact H3

/-- The obligation the launch theorem asks of the body, at every point. -/
theorem body_obligation (c : Dev nD) : BodyObligation (dat (F := F) V c) (defs₀ (F := F)) Variants.none () Set.univ := fun t => by
  rw [bigSep_W1, bigSep_W1]
  exact body_at V c t

/-- What the launch hands over is the invariant before the first point, -/
theorem inv_first (c : Dev nD) : Pipeline.ΦA spec1 c ⊢ (dat V c).Φ 0 := Idealize.SL.BI.Entails.refl _

/-- and after the last point the invariant gives it back. -/
theorem inv_last (c : Dev nD) : (dat V c).Φ (Fin.last cfg1.N) ⊢ Pipeline.ΦA spec1 c := by
  have hN : cfg1.N = 32 := N_1
  have key : ∀ (n : ℕ) (hn : n ≤ cfg1.N), n ≠ 0 → inv V c n hn ⊢ Pipeline.ΦA spec1 c := fun n hn hz => by
    cases n with
    | zero => exact absurd rfl hz
    | succ n => exact inv_close V c n hn
  exact key (Fin.last cfg1.N).val (Nat.le_of_lt_succ (Fin.last cfg1.N).isLt) (by rw [Fin.val_last]; omega)

end Cert.Kernel.Agg

end
-- ==== Proof.WordAgg2Runs.lean ====
/-
  The third launch of the word-level program: the aggregation  Â · g + b₂  of the second layer, where g is the 8192 × 1
  column  relu-layer · W₂  padded with zero columns to width 128 (only column 0 carries the layer's value) and b₂ the
  bias padded the same way.  The grid and the body are those of the first layer's aggregation at width 128, without the
  maximum with 0: point t = 4·i + k stages the 1024 × 2048 tile (i, k) of Â, rows 2048·k … of g and the bias (staged
  once); a 1024 × 128 scratch carries the partial sum of the row block across its four points, cleared at k = 0, and at
  k = 3 the row block of the result is stored as scratch + bias row and written back.

  Stated here, for any float instance: the three ways the body runs (first, middle and last point of a row block), each
  with the pieces its stores leave in the scratch (and, at a last point, in the result's buffer) found by running it.
-/
import proofs.«131745_j1614907703640_2_alg».proof.Proof.Gen.Kernel.Launch
import proofs.«131745_j1614907703640_2_alg».proof.Proof.Gen.Kernel.Skeleton
import proofs.«131745_j1614907703640_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Agg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which point of a row block a grid point is -/

/-- The body's first test: the inner grid coordinate k is 0. -/
abbrev isFirst (i : grid2.Coords) : Prop :=
  (Scalar.cmpi .ne (Scalar.extui (Scalar.cmpi .eq (BitVec.ofNat 32 (i 1).val) 0#32)) 0#32) = 1#1
/-- The body's second test: k is 3, the last tile of the row block. -/
abbrev isLast (i : grid2.Coords) : Prop := k2_cond2 i = 1#1

theorem isFirst_iff : ∀ t : Fin cfg2.N, isFirst (grid2.coords t) ↔ t.val % 4 = 0 :=
  (by decide +kernel : ∀ t : Fin grid2.N, isFirst (grid2.coords t) ↔ t.val % 4 = 0)
theorem isLast_iff : ∀ t : Fin cfg2.N, isLast (grid2.coords t) ↔ t.val % 4 = 3 :=
  (by decide +kernel : ∀ t : Fin grid2.N, isLast (grid2.coords t) ↔ t.val % 4 = 3)

/-- The three inputs are in use at every point; the result window only at the last point of a row block, where it is
    written back; elsewhere it is idle and not written back. -/
theorem live_in0 : ∀ t : Fin cfg2.N, cfg2.idle 0 (grid2.coords t) = false := by decide +kernel
theorem live_in1 : ∀ t : Fin cfg2.N, cfg2.idle 1 (grid2.coords t) = false := by decide +kernel
theorem live_in2 : ∀ t : Fin cfg2.N, cfg2.idle 2 (grid2.coords t) = false := by decide +kernel
theorem idle_out : ∀ t : Fin cfg2.N, ¬ isLast (grid2.coords t) → cfg2.idle 3 (grid2.coords t) = true := by decide +kernel
theorem noflush_out : ∀ t : Fin cfg2.N, ¬ isLast (grid2.coords t) → (cfg2.win 3).flush t = false := by decide +kernel
theorem live_out : ∀ t : Fin cfg2.N, isLast (grid2.coords t) → cfg2.idle 3 (grid2.coords t) = false := by decide +kernel

/-! ## The buffers the body is called with, and the scratch -/

abbrev bufA (t : Fin cfg2.N) : Memref sig .tc .vmem S1024x2048 .bf16 := win2_0.stage (cfg2.slots t 0)
abbrev bufA_whole (t : Fin cfg2.N) : (bufA t).IsWhole := hstage2_0 ((cfg2.slots t 0).cast nbuf2_0)
abbrev bufH (t : Fin cfg2.N) : Memref sig .tc .vmem S2048x128 .f32 := win2_1.stage (cfg2.slots t 1)
abbrev bufH_whole (t : Fin cfg2.N) : (bufH t).IsWhole := hstage2_1 ((cfg2.slots t 1).cast nbuf2_1)
abbrev bufB (t : Fin cfg2.N) : Memref sig .tc .vmem S1x128 .f32 := win2_2.stage (cfg2.slots t 2)
abbrev bufB_whole (t : Fin cfg2.N) : (bufB t).IsWhole := hstage2_2 ((cfg2.slots t 2).cast nbuf2_2)
abbrev bufO (t : Fin cfg2.N) : Memref sig .tc .vmem S1024x128 .f32 := win2_3.stage (cfg2.slots t 3)
abbrev bufO_whole (t : Fin cfg2.N) : (bufO t).IsWhole := hstage2_3 ((cfg2.slots t 3).cast nbuf2_3)
/-- The partial-sum scratch: a whole buffer of the kernel's own. -/
abbrev scr : Memref sig .tc .vmem S1024x128 .f32 := Memref.whole cc2_scratch0
abbrev scr_whole : (scr).IsWhole := Memref.isWhole_whole _
/-- What a list of stores leaves in the scratch, read back (over anything: the lists used below cover it). -/
def scrOf (L : List (View.Piece (Elt F) S1024x128 .f32)) : Vec F S1024x128 .f32 :=
  scr.view.read (Elt F) (scr.view.writes (Elt F) scr.view.junk L)
/-- The same through one buffer of the result window (which of the two does not matter for a covering list). -/
abbrev outView : View sig .tc .vmem S1024x128 .f32 := (Memref.whole cc2_stg3_0 : Memref sig .tc .vmem S1024x128 .f32).view
def outOf (L : List (View.Piece (Elt F) S1024x128 .f32)) : Vec F S1024x128 .f32 :=
  outView.read (Elt F) (outView.writes (Elt F) outView.junk L)

/-! ## The body's three runs -/

set_option maxHeartbeats 2000000 in
/-- FIRST point of a row block (k = 0): with the tile `a`, the rows `b` of h and the bias in their buffers, the result's
    buffer at anything `xo` (handed back untouched) and the scratch at anything, the body runs to the end leaving the
    scratch with the pieces `LS` written — the clearing store, then the sum's. -/
noncomputable def runFirst (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole)
    (a6 : Memref sig .tc .vmem S1024x128 .f32) (h6 : a6.IsWhole) (hc0 : isFirst i) (hc1 : ¬ isLast i)
    (a : Vec F S1024x2048 .bf16) (b : Vec F S2048x128 .f32) (bias : Vec F S1x128 .f32) :
    { LS : List (View.Piece (Elt F) S1024x128 .f32) //
      ∀ (xo : Vec F S1024x128 .f32) (E : Set ℕ) (K : PUnit → sProp 𝕄),
        iprop(owns (c : Thread nD τ) a2 fullShare a ∗ owns (c : Thread nD τ) a3 fullShare b ∗ owns (c : Thread nD τ) a4 fullShare bias ∗ owns (c : Thread nD τ) a5 fullShare xo ∗ (∃ d, owns (c : Thread nD τ) a6 fullShare d)
            ∗ (iprop(owns (c : Thread nD τ) a2 fullShare a ∗ owns (c : Thread nD τ) a3 fullShare b ∗ owns (c : Thread nD τ) a4 fullShare bias ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc2__agg_kernel i a2 h2 a3 h3 a4 h4 a5 h5 a6 h6) K } := by
  refine ⟨?_, fun xo E K => ?run⟩
  case run =>
    simp only [cc2__agg_kernel_eq_skeleton]; unfold cc2__agg_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := h2.eq_unread hf2; obtain rfl := h3.eq_unread hf3; obtain rfl := h4.eq_unread hf4; obtain rfl := h5.eq_unread hf5
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

set_option maxHeartbeats 2000000 in
/-- MIDDLE point (k = 1, 2): as the first, but the scratch holds what the point before left, `xs`, and the body only adds
    the tile's product to it. -/
noncomputable def runMid (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole)
    (a6 : Memref sig .tc .vmem S1024x128 .f32) (h6 : a6.IsWhole) (hc0 : ¬ isFirst i) (hc1 : ¬ isLast i)
    (a : Vec F S1024x2048 .bf16) (b : Vec F S2048x128 .f32) (bias : Vec F S1x128 .f32) (xs : Vec F S1024x128 .f32) :
    { LS : List (View.Piece (Elt F) S1024x128 .f32) //
      ∀ (xo : Vec F S1024x128 .f32) (E : Set ℕ) (K : PUnit → sProp 𝕄),
        iprop(owns (c : Thread nD τ) a2 fullShare a ∗ owns (c : Thread nD τ) a3 fullShare b ∗ owns (c : Thread nD τ) a4 fullShare bias ∗ owns (c : Thread nD τ) a5 fullShare xo ∗ owns (c : Thread nD τ) a6 fullShare xs
            ∗ (iprop(owns (c : Thread nD τ) a2 fullShare a ∗ owns (c : Thread nD τ) a3 fullShare b ∗ owns (c : Thread nD τ) a4 fullShare bias ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc2__agg_kernel i a2 h2 a3 h3 a4 h4 a5 h5 a6 h6) K } := by
  refine ⟨?_, fun xo E K => ?run⟩
  case run =>
    simp only [cc2__agg_kernel_eq_skeleton]; unfold cc2__agg_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := h2.eq_unread hf2; obtain rfl := h3.eq_unread hf3; obtain rfl := h4.eq_unread hf4; obtain rfl := h5.eq_unread hf5
    obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

set_option maxHeartbeats 2000000 in
/-- LAST point (k = 3): the scratch holds `xs`; the body adds the tile's product to it and then stores the row block of
    the result (scratch plus bias row), leaving the pieces `LO` in the result's buffer (at anything before) and `LS` in the scratch. -/
noncomputable def runLast (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole)
    (a6 : Memref sig .tc .vmem S1024x128 .f32) (h6 : a6.IsWhole) (hc0 : ¬ isFirst i) (hc1 : isLast i)
    (a : Vec F S1024x2048 .bf16) (b : Vec F S2048x128 .f32) (bias : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) a2 fullShare a ∗ owns (c : Thread nD τ) a3 fullShare b ∗ owns (c : Thread nD τ) a4 fullShare bias ∗ (∃ d, owns (c : Thread nD τ) a5 fullShare d) ∗ owns (c : Thread nD τ) a6 fullShare xs
            ∗ (iprop(owns (c : Thread nD τ) a2 fullShare a ∗ owns (c : Thread nD τ) a3 fullShare b ∗ owns (c : Thread nD τ) a4 fullShare bias ∗ (∃ f, a5.view.loc (c : Thread nD τ) ↦[a5.view.set]{fullShare} a5.view.writes (Elt F) f LO) ∗ (∃ f, a6.view.loc (c : Thread nD τ) ↦[a6.view.set]{fullShare} a6.view.writes (Elt F) f LS)) -∗ K ⟨⟩))
          ⊢ wp frame (wpE (defs₀ (F := F)) Variants.none c none) E (cc2__agg_kernel i a2 h2 a3 h3 a4 h4 a5 h5 a6 h6) K } := by
  refine ⟨?_, ?_, fun E K => ?run⟩
  case run =>
    simp only [cc2__agg_kernel_eq_skeleton]; unfold cc2__agg_kernel_skel
    unfold owns
    iintro ⟨⟨%f2, %hf2, H2⟩, ⟨%f3, %hf3, H3⟩, ⟨%f4, %hf4, H4⟩, ⟨%d5, %f5, -, H5⟩, ⟨%f6, %hf6, H6⟩, Hk⟩
    obtain rfl := h2.eq_unread hf2; obtain rfl := h3.eq_unread hf3; obtain rfl := h4.eq_unread hf4
    obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

end Cert.Kernel.Agg2

end
-- ==== Proof.WordAgg2.lean ====
/-
  The aggregation launch of the second layer, continued: what the partial-sum scratch holds after each grid point, the
  invariant that hands it from one point to the next, and the data the pipelining argument runs with.

  After point t = 4·i + k the scratch holds the sum over k' ≤ k of the products  Â-tile (i, k') · g-rows (k'),  built
  up as the body builds it.  Before the first point the scratch is one of the launch's untouched scoped buffers, at
  anything; from then on the invariant names its contents.
-/
import proofs.«131745_j1614907703640_2_alg».proof.Proof.WordAgg2Runs

set_option maxRecDepth 16384

noncomputable section

namespace Cert.Kernel.Agg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` shows at grid point `t`: tile (i, k) of Â, rows 2048·k … of h, the bias row, rows 1024·i … of
    the result. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's buffer holds its block at every point (the bias is fetched once and its block index never moves). -/
theorem before_a_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_h_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The three runs at a grid point, and that their stores cover the buffers -/

def firstAt (c : Dev nD) (t : Fin cfg2.N) (h0 : t.val % 4 = 0) :=
  runFirst (F := F) c (grid2.coords t) (bufA t) (bufA_whole t) (bufH t) (bufH_whole t) (bufB t) (bufB_whole t) (bufO t) (bufO_whole t) scr scr_whole
    ((isFirst_iff t).mpr h0) (fun h => by have := (isLast_iff t).mp h; omega) (blk V c 0 t) (blk V c 1 t) (blk V c 2 t)
def midAt (c : Dev nD) (t : Fin cfg2.N) (h0 : ¬ t.val % 4 = 0) (h3 : ¬ t.val % 4 = 3) (xs : Vec F S1024x128 .f32) :=
  runMid (F := F) c (grid2.coords t) (bufA t) (bufA_whole t) (bufH t) (bufH_whole t) (bufB t) (bufB_whole t) (bufO t) (bufO_whole t) scr scr_whole
    (fun h => h0 ((isFirst_iff t).mp h)) (fun h => h3 ((isLast_iff t).mp h)) (blk V c 0 t) (blk V c 1 t) (blk V c 2 t) xs
def lastAt (c : Dev nD) (t : Fin cfg2.N) (h0 : ¬ t.val % 4 = 0) (h3 : t.val % 4 = 3) (xs : Vec F S1024x128 .f32) :=
  runLast (F := F) c (grid2.coords t) (bufA t) (bufA_whole t) (bufH t) (bufH_whole t) (bufB t) (bufB_whole t) (bufO t) (bufO_whole t) scr scr_whole
    (fun h => h0 ((isFirst_iff t).mp h)) ((isLast_iff t).mpr h3) (blk V c 0 t) (blk V c 1 t) (blk V c 2 t) xs

theorem first_covers (c : Dev nD) (t : Fin cfg2.N) (h0 : t.val % 4 = 0) (y : S1024x128.Idx) :
    ∃ pc ∈ (firstAt V c t h0).1, y ∈ pc.1.set :=
  View.cover_of_tiledL (firstAt V c t h0).1 S1024x128.size (by sl_kernel_rfl) y
theorem mid_covers (c : Dev nD) (t : Fin cfg2.N) (h0 : ¬ t.val % 4 = 0) (h3 : ¬ t.val % 4 = 3) (xs : Vec F S1024x128 .f32) (y : S1024x128.Idx) :
    ∃ pc ∈ (midAt V c t h0 h3 xs).1, y ∈ pc.1.set :=
  View.cover_of_tiledL (midAt V c t h0 h3 xs).1 S1024x128.size (by sl_kernel_rfl) y
theorem last_covers_scr (c : Dev nD) (t : Fin cfg2.N) (h0 : ¬ t.val % 4 = 0) (h3 : t.val % 4 = 3) (xs : Vec F S1024x128 .f32) (y : S1024x128.Idx) :
    ∃ pc ∈ (lastAt V c t h0 h3 xs).2.1, y ∈ pc.1.set :=
  View.cover_of_tiledL (lastAt V c t h0 h3 xs).2.1 S1024x128.size (by sl_kernel_rfl) y
theorem last_covers_out (c : Dev nD) (t : Fin cfg2.N) (h0 : ¬ t.val % 4 = 0) (h3 : t.val % 4 = 3) (xs : Vec F S1024x128 .f32) (y : S1024x128.Idx) :
    ∃ pc ∈ (lastAt V c t h0 h3 xs).1, y ∈ pc.1.set :=
  View.cover_of_tiledL (lastAt V c t h0 h3 xs).1 S1024x128.size (by sl_kernel_rfl) y

/-! ## What the scratch holds after each point -/

/-- THE PARTIAL SUM after the body at position `n`: at the first point of a row block what the clearing and the first
    addition leave; afterwards what adding this point's product to the previous point's contents leaves. -/
def accAt (c : Dev nD) : (n : ℕ) → n < cfg2.N → Vec F S1024x128 .f32
  | 0, hn => scrOf (firstAt V c ⟨0, hn⟩ (Nat.zero_mod 4)).1
  | n + 1, hn =>
    if h0 : (n + 1) % 4 = 0 then scrOf (firstAt V c ⟨n + 1, hn⟩ h0).1
    else if h3 : (n + 1) % 4 = 3 then scrOf (lastAt V c ⟨n + 1, hn⟩ h0 h3 (accAt c n (Nat.lt_of_succ_lt hn))).2.1
    else scrOf (midAt V c ⟨n + 1, hn⟩ h0 h3 (accAt c n (Nat.lt_of_succ_lt hn))).1

/-- What the scratch holds when point `t` begins, for a point that is not the first of its row block. -/
def prevAcc (c : Dev nD) : (t : Fin cfg2.N) → Vec F S1024x128 .f32
  | ⟨0, _⟩ => scrOf []
  | ⟨n + 1, hn⟩ => accAt V c n (Nat.lt_of_succ_lt hn)

theorem accAt_first (c : Dev nD) (t : Fin cfg2.N) (h0 : t.val % 4 = 0) :
    accAt V c t.val t.isLt = scrOf (firstAt V c t h0).1 := by
  obtain ⟨n, hn⟩ := t
  cases n with
  | zero => rfl
  | succ n => exact dif_pos h0
theorem accAt_mid (c : Dev nD) (t : Fin cfg2.N) (h0 : ¬ t.val % 4 = 0) (h3 : ¬ t.val % 4 = 3) :
    accAt V c t.val t.isLt = scrOf (midAt V c t h0 h3 (prevAcc V c t)).1 := by
  obtain ⟨n, hn⟩ := t
  cases n with
  | zero => exact absurd (Nat.zero_mod 4) h0
  | succ n => exact (dif_neg h0).trans (dif_neg h3)
theorem accAt_last (c : Dev nD) (t : Fin cfg2.N) (h0 : ¬ t.val % 4 = 0) (h3 : t.val % 4 = 3) :
    accAt V c t.val t.isLt = scrOf (lastAt V c t h0 h3 (prevAcc V c t)).2.1 := by
  obtain ⟨n, hn⟩ := t
  cases n with
  | zero => exact absurd (Nat.zero_mod 4) h0
  | succ n => exact (dif_neg h0).trans (dif_pos h3)

/-- What the result's buffer holds after point `t`: at the last point of a row block the stored row block; elsewhere
    the window is idle and this is never consulted. -/
def outAt (c : Dev nD) (t : Fin cfg2.N) : Vec F S1024x128 .f32 :=
  if h3 : t.val % 4 = 3 then outOf (lastAt V c t (by omega) h3 (prevAcc V c t)).1 else outOf []

theorem outAt_last (c : Dev nD) (t : Fin cfg2.N) (h0 : ¬ t.val % 4 = 0) (h3 : t.val % 4 = 3) :
    outAt V c t = outOf (lastAt V c t h0 h3 (prevAcc V c t)).1 := dif_pos h3

/-! ## The invariant: the launch's untouched scoped buffers, with the scratch singled out -/

/-- The core's scoped buffers that are no staging buffer of this launch, each whole at some contents, and the generator
    register at some state — with `S` in the scratch's place. -/
def restWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ S ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f)) ∗ ∃ r, prngReg c r)

/-- The launch's untouched rest is that with the scratch at some contents. -/
theorem rest_eq (c : Dev nD) :
    (Pipeline.ΦA spec2 c : sProp 𝕄) = restWith c iprop(∃ f : Buf (Elt F) ((c : Thread nD τ).loc cc2_scratch0), ((c : Thread nD τ).loc cc2_scratch0) ↦{fullShare} f) := by
  unfold Pipeline.ΦA restWith; rw [scopedRest2_eq]

theorem restWith_take (c : Dev nD) (S : sProp 𝕄) : restWith c S ⊢ iprop(S ∗ restWith c iprop(emp)) := by
  unfold restWith
  iintro ⟨⟨B0, B1, B2, B3, B4, B5, B6, B7, B8, B9, B10, B11, B12, HS, A0, A1, A2, A3, A4, A5, A6, A7⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitr; · iempintro
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact Hg

theorem restWith_give (c : Dev nD) (S : sProp 𝕄) : iprop(S ∗ restWith c iprop(emp)) ⊢ restWith c S := by
  unfold restWith
  iintro ⟨HS, ⟨⟨B0, B1, B2, B3, B4, B5, B6, B7, B8, B9, B10, B11, B12, -, A0, A1, A2, A3, A4, A5, A6, A7⟩, Hg⟩⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [HS]; · iexact HS
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

/-- The invariant before position `n`: before the first point the launch's untouched rest; afterwards the same with the
    scratch at the partial sum the point before left. -/
def inv (c : Dev nD) : (n : ℕ) → n ≤ cfg2.N → sProp 𝕄
  | 0, _ => Pipeline.ΦA spec2 c
  | n + 1, hn => restWith c (owns (c : Thread nD τ) scr fullShare (accAt V c n hn))

/-- Whatever the position, the invariant yields the scratch at some contents beside the rest. -/
theorem inv_open (c : Dev nD) (n : ℕ) (hn : n ≤ cfg2.N) :
    inv V c n hn ⊢ iprop((∃ d, owns (c : Thread nD τ) scr fullShare d) ∗ restWith c iprop(emp)) := by
  cases n with
  | zero =>
    show Pipeline.ΦA spec2 c ⊢ _
    rw [rest_eq]
    refine (restWith_take c _).trans ?_
    iintro ⟨⟨%f, H⟩, HR⟩
    isplitl [H]
    · iexists f; rw [owns_whole]; iexact H
    iexact HR
  | succ n =>
    show restWith c _ ⊢ _
    refine (restWith_take c _).trans ?_
    iintro ⟨H, HR⟩
    isplitl [H]
    · iexists _; iexact H
    iexact HR

/-- After a first point the invariant gives the launch's rest back: the scratch's named contents are forgotten. -/
theorem inv_close (c : Dev nD) (n : ℕ) (hn : n + 1 ≤ cfg2.N) : inv V c (n + 1) hn ⊢ Pipeline.ΦA spec2 c := by
  show restWith c _ ⊢ _
  rw [rest_eq]
  refine (restWith_take c _).trans ?_
  refine .trans ?_ (restWith_give c _)
  iintro ⟨H, HR⟩
  isplitl [H]
  · iexists _; rw [← owns_whole]; iexact H
  iexact HR

/-! ## The data the pipelining argument runs with -/

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outAt V c t
  Φ t := inv V c t.val (Nat.le_of_lt_succ t.isLt)
  q _ := fullShare
  owed _ := 0

theorem dat_A (c : Dev nD) (w : Fin cfg2.W) : (dat V c).A w = V c (Pipeline.arrRef spec2 w) := by
  dsimp only [dat]
theorem after_a (c : Dev nD) (t : Fin cfg2.N) : (dat V c).after 0 t = blk V c 0 t := by dsimp only [dat]
theorem after_h (c : Dev nD) (t : Fin cfg2.N) : (dat V c).after 1 t = blk V c 1 t := by dsimp only [dat]
theorem after_b (c : Dev nD) (t : Fin cfg2.N) : (dat V c).after 2 t = blk V c 2 t := by dsimp only [dat]
theorem after_out (c : Dev nD) (t : Fin cfg2.N) : (dat V c).after 3 t = outAt V c t := by dsimp only [dat]
theorem before_a (c : Dev nD) (t : Fin cfg2.N) (d) : (dat V c).before 0 t d = blk V c 0 t :=
  before_a_of V (dat V c) (dat_A V c 0) (after_a V c) t d
theorem before_h (c : Dev nD) (t : Fin cfg2.N) (d) : (dat V c).before 1 t d = blk V c 1 t :=
  before_h_of V (dat V c) (dat_A V c 1) (after_h V c) t d
theorem before_b (c : Dev nD) (t : Fin cfg2.N) (d) : (dat V c).before 2 t d = blk V c 2 t :=
  before_b_of V (dat V c) (dat_A V c 2) (after_b V c) t d

end Cert.Kernel.Agg2

end
-- ==== Proof.WordAgg2Body.lean ====
/-
  The aggregation launch of the second layer, concluded: the obligation the launch theorem asks of the body, at every
  grid point — first, middle or last of its row block, as for the first layer.
-/
import proofs.«131745_j1614907703640_2_alg».proof.Proof.WordAgg2

set_option maxRecDepth 16384

noncomputable section

namespace Cert.Kernel.Agg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a point that is not the first of its row block the invariant holds the scratch at the previous partial sum. -/
theorem inv_prev (c : Dev nD) (t : Fin cfg2.N) (h0 : ¬ t.val % 4 = 0) :
    inv V c t.val (Nat.le_of_lt t.isLt) ⊢ iprop(owns (c : Thread nD τ) scr fullShare (prevAcc V c t) ∗ restWith c iprop(emp)) := by
  obtain ⟨n, hn⟩ := t
  cases n with
  | zero => exact absurd (Nat.zero_mod 4) h0
  | succ n => exact restWith_take c _

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (bufA t) fullShare ((dat V c).before 0 t d))
    ∗ (∃ d, owns (c : Thread nD τ) (bufH t) fullShare ((dat V c).before 1 t d))
    ∗ (∃ d, owns (c : Thread nD τ) (bufB t) fullShare ((dat V c).before 2 t d))
    ∗ (∃ d, owns (c : Thread nD τ) (bufO t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_a, before_h, before_b]
  rw [show (dat V c).owesAt () t.succ = (dat V c).owesAt () t.castSucc from rfl]
  rw [show (dat V c).leavesExact 0 t = owns (c : Thread nD τ) (bufA t) fullShare (blk V c 0 t) from by
        unfold Dat.leavesExact; rw [live_in0 t, after_a],
    show (dat V c).leavesExact 1 t = owns (c : Thread nD τ) (bufH t) fullShare (blk V c 1 t) from by
        unfold Dat.leavesExact; rw [live_in1 t, after_h],
    show (dat V c).leavesExact 2 t = owns (c : Thread nD τ) (bufB t) fullShare (blk V c 2 t) from by
        unfold Dat.leavesExact; rw [live_in2 t, after_b]]
  rw [show (dat V c).Φ t.succ = restWith c (owns (c : Thread nD τ) scr fullShare (accAt V c t.val t.isLt)) from rfl]
  rw [show (dat V c).Φ t.castSucc = inv V c t.val (Nat.le_of_lt t.isLt) from rfl]
  by_cases h0 : t.val % 4 = 0
  · -- the first point of a row block
    have h3 : ¬ t.val % 4 = 3 := by omega
    have hopen := inv_open V c t.val (Nat.le_of_lt t.isLt)
    rw [Dat.leavesExact_idle (dat V c) 3 t (idle_out t (fun h => h3 ((isLast_iff t).mp h))) (noflush_out t (fun h => h3 ((isLast_iff t).mp h)))]
    rw [accAt_first V c t h0]
    iintro ⟨HΦ, Ho, ⟨%d0, H0⟩, ⟨%d1, H1⟩, ⟨%d2, H2⟩, ⟨%d3, H3⟩⟩
    ihave HΦ' := hopen $$ HΦ
    icases HΦ' with ⟨HS, HR⟩
    iapply ((firstAt V c t h0).2 _ Set.univ _)
    isplitl [H0]; · iexact H0
    isplitl [H1]; · iexact H1
    isplitl [H2]; · iexact H2
    isplitl [H3]; · iexact H3
    isplitl [HS]; · iexact HS
    iintro ⟨H0, H1, H2, H3, ⟨%f, HS⟩⟩
    isplitl [HS HR]
    · iapply (restWith_give c _)
      isplitl [HS]
      · unfold owns; iexists _; isplitr
        swap; · iexact HS
        ipureintro; exact View.read_writes_of_cover _ _ _ _ _ (first_covers V c t h0)
      iexact HR
    isplitl [Ho]; · iexact Ho
    isplitl [H0]; · iexact H0
    isplitl [H1]; · iexact H1
    isplitl [H2]; · iexact H2
    iexists _; iexact H3
  · have hprev := inv_prev V c t h0
    by_cases h3 : t.val % 4 = 3
    · -- the last point of a row block
      rw [show (dat V c).leavesExact 3 t = owns (c : Thread nD τ) (bufO t) fullShare (outAt V c t) from by
            unfold Dat.leavesExact; rw [live_out t ((isLast_iff t).mpr h3), after_out]]
      rw [accAt_last V c t h0 h3, outAt_last V c t h0 h3]
      iintro ⟨HΦ, Ho, ⟨%d0, H0⟩, ⟨%d1, H1⟩, ⟨%d2, H2⟩, ⟨%d3, H3⟩⟩
      ihave HΦ' := hprev $$ HΦ
      icases HΦ' with ⟨HS, HR⟩
      iapply ((lastAt V c t h0 h3 (prevAcc V c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%g, H3⟩, ⟨%f, HS⟩⟩
      isplitl [HS HR]
      · iapply (restWith_give c _)
        isplitl [HS]
        · unfold owns; iexists _; isplitr
          swap; · iexact HS
          ipureintro; exact View.read_writes_of_cover _ _ _ _ _ (last_covers_scr V c t h0 h3 _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_covers_out V c t h0 h3 _)
    · -- a middle point
      rw [Dat.leavesExact_idle (dat V c) 3 t (idle_out t (fun h => h3 ((isLast_iff t).mp h))) (noflush_out t (fun h => h3 ((isLast_iff t).mp h)))]
      rw [accAt_mid V c t h0 h3]
      iintro ⟨HΦ, Ho, ⟨%d0, H0⟩, ⟨%d1, H1⟩, ⟨%d2, H2⟩, ⟨%d3, H3⟩⟩
      ihave HΦ' := hprev $$ HΦ
      icases HΦ' with ⟨HS, HR⟩
      iapply ((midAt V c t h0 h3 (prevAcc V c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%f, HS⟩⟩
      isplitl [HS HR]
      · iapply (restWith_give c _)
        isplitl [HS]
        · unfold owns; iexists _; isplitr
          swap; · iexact HS
          ipureintro; exact View.read_writes_of_cover _ _ _ _ _ (mid_covers V c t h0 h3 _)
        iexact HR
      isplitl [Ho]; · iexact Ho
      isplitl [H0]; · iexact H0
      isplitl [H1]; · iexact H1
      isplitl [H2]; · iexact H2
      iexists _; iexact H3

/-- The obligation the launch theorem asks of the body, at every point. -/
theorem body_obligation (c : Dev nD) : BodyObligation (dat (F := F) V c) (defs₀ (F := F)) Variants.none () Set.univ := fun t => by
  rw [bigSep_W2, bigSep_W2]
  exact body_at V c t

/-- What the launch hands over is the invariant before the first point, -/
theorem inv_first (c : Dev nD) : Pipeline.ΦA spec2 c ⊢ (dat V c).Φ 0 := Idealize.SL.BI.Entails.refl _

/-- and after the last point the invariant gives it back. -/
theorem inv_last (c : Dev nD) : (dat V c).Φ (Fin.last cfg2.N) ⊢ Pipeline.ΦA spec2 c := by
  have hN : cfg2.N = 32 := N_2
  have key : ∀ (n : ℕ) (hn : n ≤ cfg2.N), n ≠ 0 → inv V c n hn ⊢ Pipeline.ΦA spec2 c := fun n hn hz => by
    cases n with
    | zero => exact absurd rfl hz
    | succ n => exact inv_close V c n hn
  exact key (Fin.last cfg2.N).val (Nat.le_of_lt_succ (Fin.last cfg2.N).isLt) (by rw [Fin.val_last]; omega)

end Cert.Kernel.Agg2

end
-- ==== Proof.WordWhole.lean ====
/-
  The whole run of the word-level program: its @main is fourteen items — stretches of host operations and the four
  launches — and the contents of the TensorCore's buffers between two items are a fold from the launch memory: a
  stretch of host operations applies them; a launch leaves its result array at what its write-backs leave (the row
  blocks the grid points wrote, folded in grid order) and every other buffer as it found it.  With each launch's
  record (its layout, its body obligation, how its arrays are split out of the unscoped buffers and put back) the
  library's theorem for a program of several launches gives: every weakly fair execution terminates, nothing faults,
  and every buffer ends at the last boundary's contents — in particular the result at what the last launch leaves,
  and each argument, which no host operation writes and no launch changes, at its launch contents.
-/
import proofs.«131745_j1614907703640_2_alg».proof.Proof.WordDense
import proofs.«131745_j1614907703640_2_alg».proof.Proof.WordHead
import proofs.«131745_j1614907703640_2_alg».proof.Proof.WordAggBody
import proofs.«131745_j1614907703640_2_alg».proof.Proof.WordAgg2Body
import proofs.«131745_j1614907703640_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host operations `hostOps0`. -/
abbrev W1 : Dev nD → Valuation τ sig (Elt F) := fun c => StableHlo.after hostOps0 (W0 m ρ c)
/-- After the host operations `hostOps0_1`. -/
abbrev W2 : Dev nD → Valuation τ sig (Elt F) := fun c => StableHlo.after hostOps0_1 (W1 m ρ c)
/-- After the host operations `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After launch 0: its arrays at what the pipeline leaves (the inputs as entered, the result's write-backs folded),
    every other buffer as entered. -/
def W4 (c : Dev nD) : Valuation τ sig (Elt F) :=
  Pipeline.withArrays spec0 c (W3 m ρ c) fun w => (Dense.dat (V3 m ρ) c).arrAt w cfg0.N
theorem W4_arr (c : Dev nD) (w : Fin cfg0.W) :
    W4 m ρ c (Proc.devRef .tc (Pipeline.arrRef spec0 w)) = (Dense.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (Dense.dat (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host operations `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After launch 1: its arrays at what the pipeline leaves (the inputs as entered, the result's write-backs folded),
    every other buffer as entered. -/
def W6 (c : Dev nD) : Valuation τ sig (Elt F) :=
  Pipeline.withArrays spec1 c (W5 m ρ c) fun w => (Agg.dat (V5 m ρ) c).arrAt w cfg1.N
theorem W6_arr (c : Dev nD) (w : Fin cfg1.W) :
    W6 m ρ c (Proc.devRef .tc (Pipeline.arrRef spec1 w)) = (Agg.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Agg.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host operations `hostOps2`. -/
abbrev W7 : Dev nD → Valuation τ sig (Elt F) := fun c => StableHlo.after hostOps2 (W6 m ρ c)
/-- After the host operations `hostOps2_1`. -/
abbrev W8 : Dev nD → Valuation τ sig (Elt F) := fun c => StableHlo.after hostOps2_1 (W7 m ρ c)
/-- After the host operations `hostOps2_2`. -/
abbrev W9 : Dev nD → Valuation τ sig (Elt F) := fun c => StableHlo.after hostOps2_2 (W8 m ρ c)
/-- After the host operations `hostOps2_3`. -/
abbrev W10 : Dev nD → Valuation τ sig (Elt F) := fun c => StableHlo.after hostOps2_3 (W9 m ρ c)
/-- After the host operations `hostOps2_4`. -/
abbrev W11 : Dev nD → Valuation τ sig (Elt F) := fun c => StableHlo.after hostOps2_4 (W10 m ρ c)
abbrev V11 : (c : Dev nD) → (b : Ref sig .tc) → Buf (Elt F) ((c : Thread nD τ).loc b) := fun c b => W11 m ρ c b
/-- After launch 2: its arrays at what the pipeline leaves (the inputs as entered, the result's write-backs folded),
    every other buffer as entered. -/
def W12 (c : Dev nD) : Valuation τ sig (Elt F) :=
  Pipeline.withArrays spec2 c (W11 m ρ c) fun w => (Agg2.dat (V11 m ρ) c).arrAt w cfg2.N
theorem W12_arr (c : Dev nD) (w : Fin cfg2.W) :
    W12 m ρ c (Proc.devRef .tc (Pipeline.arrRef spec2 w)) = (Agg2.dat (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (Agg2.dat (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- After the host operations `hostOps3`. -/
abbrev W13 : Dev nD → Valuation τ sig (Elt F) := fun c => StableHlo.after hostOps3 (W12 m ρ c)
abbrev V13 : (c : Dev nD) → (b : Ref sig .tc) → Buf (Elt F) ((c : Thread nD τ).loc b) := fun c b => W13 m ρ c b
/-- After launch 3: its arrays at what the pipeline leaves (the inputs as entered, the result's write-backs folded),
    every other buffer as entered. -/
def W14 (c : Dev nD) : Valuation τ sig (Elt F) :=
  Pipeline.withArrays spec3 c (W13 m ρ c) fun w => (Head.dat (V13 m ρ) c).arrAt w cfg3.N
theorem W14_arr (c : Dev nD) (w : Fin cfg3.W) :
    W14 m ρ c (Proc.devRef .tc (Pipeline.arrRef spec3 w)) = (Head.dat (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb
abbrev V14 : (c : Dev nD) → (b : Ref sig .tc) → Buf (Elt F) ((c : Thread nD τ).loc b) := fun c b => W14 m ρ c b
theorem hF3 (c : Dev nD) (w : Fin cfg3.W) : (Head.dat (V13 m ρ) c).arrAt w cfg3.N = V14 m ρ c (Pipeline.arrRef spec3 w) :=
  (W14_arr m ρ c w).symm
theorem hrest3 (c : Dev nD) : ∀ b, b ∉ Finset.univ.image (Pipeline.arrRef spec3) → V14 m ρ c b = V13 m ρ c b :=
  fun b hb => W14_of_ne m ρ c b fun w e => hb (Finset.mem_image.mpr ⟨w, Finset.mem_univ _, e⟩)

/-! ## What each item leaves unchanged -/

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W5_of (c : Dev nD) (r : Ref sig .tc) (h : r ∉ hostOps1_W) : W5 m ρ c r = W4 m ρ c r :=
  StableHlo.after_of_writes_sub hostOps1 _ hostOps1_writes h
theorem W7_of (c : Dev nD) (r : Ref sig .tc) (h : r ∉ hostOps2_W) : W7 m ρ c r = W6 m ρ c r :=
  StableHlo.after_of_writes_sub hostOps2 _ hostOps2_writes h
theorem W8_of (c : Dev nD) (r : Ref sig .tc) (h : r ∉ hostOps2_1_W) : W8 m ρ c r = W7 m ρ c r :=
  StableHlo.after_of_writes_sub hostOps2_1 _ hostOps2_1_writes h
theorem W9_of (c : Dev nD) (r : Ref sig .tc) (h : r ∉ hostOps2_2_W) : W9 m ρ c r = W8 m ρ c r :=
  StableHlo.after_of_writes_sub hostOps2_2 _ hostOps2_2_writes h
theorem W10_of (c : Dev nD) (r : Ref sig .tc) (h : r ∉ hostOps2_3_W) : W10 m ρ c r = W9 m ρ c r :=
  StableHlo.after_of_writes_sub hostOps2_3 _ hostOps2_3_writes h
theorem W11_of (c : Dev nD) (r : Ref sig .tc) (h : r ∉ hostOps2_4_W) : W11 m ρ c r = W10 m ρ c r :=
  StableHlo.after_of_writes_sub hostOps2_4 _ hostOps2_4_writes h
theorem W13_of (c : Dev nD) (r : Ref sig .tc) (h : r ∉ hostOps3_W) : W13 m ρ c r = W12 m ρ c r :=
  StableHlo.after_of_writes_sub hostOps3 _ hostOps3_writes h

/-! ## The arguments end as launched -/

theorem W14_main_arg0 (c : Dev nD) : W14 m ρ c (Proc.devRef .tc main_arg0) = m ((c : Thread nD τ).loc main_arg0) :=
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of m ρ c main_arg0 (by decide)).trans <|
  (W9_of m ρ c main_arg0 (by decide)).trans <|
  (W8_of m ρ c main_arg0 (by decide)).trans <|
  (W7_of m ρ c main_arg0 (by decide)).trans <|
  (W6_of_ne m ρ c main_arg0 (by decide)).trans <|
  (W5_of m ρ c main_arg0 (by decide)).trans <|
  ((W4_arr m ρ c 0).trans (((Dense.dat (V3 m ρ) c).arrAt_in 0 rfl _).trans (Dense.dat_A (V3 m ρ) c 0))).trans <|
  (W3_of m ρ c main_arg0 (by decide)).trans <|
  (W2_of m ρ c main_arg0 (by decide)).trans <|
  (W1_of m ρ c main_arg0 (by decide))
theorem W14_main_arg1 (c : Dev nD) : W14 m ρ c (Proc.devRef .tc main_arg1) = m ((c : Thread nD τ).loc main_arg1) :=
  ((W14_arr m ρ c 1).trans (((Head.dat (V13 m ρ) c).arrAt_in 1 rfl _).trans (Head.dat_A (V13 m ρ) c 1))).trans <|
  (W13_of m ρ c main_arg1 (by decide)).trans <|
  (W12_of_ne m ρ c main_arg1 (by decide)).trans <|
  (W11_of m ρ c main_arg1 (by decide)).trans <|
  (W10_of m ρ c main_arg1 (by decide)).trans <|
  (W9_of m ρ c main_arg1 (by decide)).trans <|
  (W8_of m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of m ρ c main_arg1 (by decide)).trans <|
  (W1_of m ρ c main_arg1 (by decide))
theorem W14_main_arg2 (c : Dev nD) : W14 m ρ c (Proc.devRef .tc main_arg2) = m ((c : Thread nD τ).loc main_arg2) :=
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of m ρ c main_arg2 (by decide)).trans <|
  (W9_of m ρ c main_arg2 (by decide)).trans <|
  (W8_of m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of m ρ c main_arg2 (by decide)).trans <|
  (W1_of m ρ c main_arg2 (by decide))
theorem W14_main_arg3 (c : Dev nD) : W14 m ρ c (Proc.devRef .tc main_arg3) = m ((c : Thread nD τ).loc main_arg3) :=
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of m ρ c main_arg3 (by decide)).trans <|
  (W9_of m ρ c main_arg3 (by decide)).trans <|
  (W8_of m ρ c main_arg3 (by decide)).trans <|
  (W7_of m ρ c main_arg3 (by decide)).trans <|
  (W6_of_ne m ρ c main_arg3 (by decide)).trans <|
  (W5_of m ρ c main_arg3 (by decide)).trans <|
  ((W4_arr m ρ c 1).trans (((Dense.dat (V3 m ρ) c).arrAt_in 1 rfl _).trans (Dense.dat_A (V3 m ρ) c 1))).trans <|
  (W3_of m ρ c main_arg3 (by decide)).trans <|
  (W2_of m ρ c main_arg3 (by decide)).trans <|
  (W1_of m ρ c main_arg3 (by decide))
theorem W14_main_arg4 (c : Dev nD) : W14 m ρ c (Proc.devRef .tc main_arg4) = m ((c : Thread nD τ).loc main_arg4) :=
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of m ρ c main_arg4 (by decide)).trans <|
  (W9_of m ρ c main_arg4 (by decide)).trans <|
  (W8_of m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of m ρ c main_arg4 (by decide)).trans <|
  (W1_of m ρ c main_arg4 (by decide))
theorem W14_main_arg5 (c : Dev nD) : W14 m ρ c (Proc.devRef .tc main_arg5) = m ((c : Thread nD τ).loc main_arg5) :=
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of m ρ c main_arg5 (by decide)).trans <|
  (W9_of m ρ c main_arg5 (by decide)).trans <|
  (W8_of m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of m ρ c main_arg5 (by decide)).trans <|
  (W1_of m ρ c main_arg5 (by decide))
theorem W14_main_arg6 (c : Dev nD) : W14 m ρ c (Proc.devRef .tc main_arg6) = m ((c : Thread nD τ).loc main_arg6) :=
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of m ρ c main_arg6 (by decide)).trans <|
  (W9_of m ρ c main_arg6 (by decide)).trans <|
  (W8_of m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of m ρ c main_arg6 (by decide)).trans <|
  (W1_of m ρ c main_arg6 (by decide))
theorem W14_main_arg7 (c : Dev nD) : W14 m ρ c (Proc.devRef .tc main_arg7) = m ((c : Thread nD τ).loc main_arg7) :=
  ((W14_arr m ρ c 2).trans (((Head.dat (V13 m ρ) c).arrAt_in 2 rfl _).trans (Head.dat_A (V13 m ρ) c 2))).trans <|
  (W13_of m ρ c main_arg7 (by decide)).trans <|
  (W12_of_ne m ρ c main_arg7 (by decide)).trans <|
  (W11_of m ρ c main_arg7 (by decide)).trans <|
  (W10_of m ρ c main_arg7 (by decide)).trans <|
  (W9_of m ρ c main_arg7 (by decide)).trans <|
  (W8_of m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of m ρ c main_arg7 (by decide)).trans <|
  (W1_of m ρ c main_arg7 (by decide))
theorem W14_main_arg8 (c : Dev nD) : W14 m ρ c (Proc.devRef .tc main_arg8) = m ((c : Thread nD τ).loc main_arg8) :=
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of m ρ c main_arg8 (by decide)).trans <|
  (W9_of m ρ c main_arg8 (by decide)).trans <|
  (W8_of m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of m ρ c main_arg8 (by decide)).trans <|
  (W1_of m ρ c main_arg8 (by decide))

/-! ## The launches' data and records -/

/-- Every launch's data, each at its entry contents. -/
def pdats : (p : Fin 4) → (c : Dev nD) → Dat τ (Elt F) Unit ℕ (UR sig nD τ) ℕ (Pipeline.pin (pcfgs (F := F)) adm p) c
  | ⟨0, _⟩ => fun c => Dense.dat (V3 m ρ) c
  | ⟨1, _⟩ => fun c => Agg.dat (V5 m ρ) c
  | ⟨2, _⟩ => fun c => Agg2.dat (V11 m ρ) c
  | ⟨3, _⟩ => fun c => Head.dat (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W14 m ρ c) ∗ ∃ r, prngReg c r)

set_option backward.isDefEq.respectTransparency.types false in
/-- LAUNCH 0 over the thread state: entered from every unscoped buffer at `W3`, left at `W4`.  Its arrays are
    split out of the unscoped buffers and put back at the exit contents; the generator register and the scoped rest go
    into the invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at `W5`, left at `W6`.  Its arrays are
    split out of the unscoped buffers and put back at the exit contents; the generator register and the scoped rest go
    into the invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Agg.inv_last (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at `W11`, left at `W12`.  Its arrays are
    split out of the unscoped buffers and put back at the exit contents; the generator register and the scoped rest go
    into the invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Agg2.body_obligation (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Agg2.inv_last (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 3 over the thread state: entered from every unscoped buffer at `W13`, left at `W14`.  Its arrays are
    split out of the unscoped buffers and put back at the exit contents; the generator register and the scoped rest go
    into the invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Head.body_obligation (V13 m ρ) c).loose
  hwaits := Pipeline.hwaits_of_owed_zero _ _ _ _ L lv 3 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec3 c (V13 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V13 m ρ c) (V14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .host (hseg hostOps2_4 hostOps2_4_sub hostOps2_4_fresh (W10 m ρ)),
    .region (reg2 m ρ),
    .host (hseg hostOps3 hostOps3_sub hostOps3_fresh (W12 m ρ)),
    .region (reg3 m ρ) ]

theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting, and every final state has every unscoped buffer of core `c` at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The result array after the run: what the last launch's write-backs leave. -/
def result (c : Dev nD) : Buf (Elt F) ((c.tc : Thread nD τ).loc main_v58) := W14 m ρ c (Proc.devRef .tc main_v58)

/-- THE RUN with the result named and the arguments read back. -/
theorem run_result : θ_run defs (onTc (τ := τ) (main (F := F))) ⟨m, fun _ => 0, ρ⟩ (fun r => ∀ c : Dev nD,
      r.2.mem ((c.tc : Thread nD τ).loc main_v58) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_uc main_v58 (by decide)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.Kernel.Whole

end
-- ==== Proof.IdealDense.lean ====
/-
  The first launch of the idealized program: the dense product  h = x · W₁  of the 8192 × 512 feature matrix with the
  512 × 512 weight, computed four row blocks at a time.  Grid point t stages rows 2048·t … 2048·t + 2047 of x and the
  whole of W₁ (staged once: its block index never moves), and writes back, into the same rows of the result, the
  product of the two staged blocks, both rounded to the narrow float format on the way in.

  Stated here, at any contents V of the buffers when the launch is entered and for any float instance: the block each
  window shows the body at a point, the buffer the body leaves in the output window (one store covering it whole), the
  body's triple, and the data the pipelining argument is run with — the input windows keep their blocks, the output
  window holds the product of the two blocks, and nothing else is touched.
-/
import proofs.«131745_j1614907703640_2_alg».proof.Proof.Gen.KernelIdeal.Launch
import proofs.«131745_j1614907703640_2_alg».proof.Proof.Gen.KernelIdeal.Skeleton
import proofs.«131745_j1614907703640_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` shows at grid point `t`: rows 2048·t … of x (window 0), all of W₁ (window 1), rows 2048·t …
    of the result (window 2), read off the array as the launch finds it. -/
def xwBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its buffer at every point: it is fetched afresh at each. -/
theorem before_x_of {c : Dev nD} (dat : Dat τ (Elt F) Unit ℕ (UR sig nD τ) ℕ cfg0 c) (hA : dat.A 0 = V c (Pipeline.arrRef spec0 0))
    (hafter : ∀ t, dat.after 0 t = xwBlock V c 0 t) (t : Fin cfg0.N) (d) : dat.before 0 t d = xwBlock V c 0 t :=
  (dat.before_in_eq_fetched 0 rfl (fun _ => rfl) (fun _ _ _ => rfl) (fun t => by rw [hafter]; unfold Dat.blockOf xwBlock; rw [hA]; try rfl) t d).trans
    (by unfold Dat.fetched Dat.blockOf xwBlock; rw [hA]; try rfl)

/-- The weight is in its buffer at every point: fetched at the first, and its block index never moves after. -/
theorem before_w_of {c : Dev nD} (dat : Dat τ (Elt F) Unit ℕ (UR sig nD τ) ℕ cfg0 c) (hA : dat.A 1 = V c (Pipeline.arrRef spec0 1))
    (hafter : ∀ t, dat.after 1 t = xwBlock V c 1 t) (t : Fin cfg0.N) (d) : dat.before 1 t d = xwBlock V c 1 t :=
  (dat.before_in_eq_fetched 1 rfl (fun _ => rfl) (fun _ _ _ => rfl) (fun t => by rw [hafter]; unfold Dat.blockOf xwBlock; rw [hA]; try rfl) t d).trans
    (by unfold Dat.fetched Dat.blockOf xwBlock; rw [hA]; try rfl)

/-- The whole 2048 × 512 buffer, and the whole 512 × 512 one, as the rectangles the body loads and stores through. -/
abbrev rectX : Rect S2048x512 := Rect.unit (s := S2048x512) ![0, 0] S2048x512.size inb_S2048x512_S2048x512_0_0
abbrev rectW : Rect S512x512 := Rect.unit (s := S512x512) ![0, 0] S512x512.size inb_S512x512_S512x512_0_0

/-- What the body leaves in the output buffer from a row block `x` and the weight `w`: its one store, the product of the
    two (each rounded to the narrow format first), over the whole buffer. -/
def blockProduct (x : Vec F S2048x512 .f32) (w : Vec F S512x512 .f32) : Vec F S2048x512 .f32 :=
  View.canon [⟨rectX, k0_pay1 (View.ld x rectX) (View.ld w rectW)⟩]

/-- That one store covers the buffer. -/
theorem blockProduct_cover (p : Vec F S2048x512 .f32) (y : S2048x512.Idx) :
    ∃ pc ∈ ([⟨rectX, p⟩] : List (View.Piece (Elt F) S2048x512 .f32)), y ∈ pc.1.set :=
  View.cover_of_tiled [⟨rectX, p⟩] S2048x512.size (by rfl) y

set_option maxHeartbeats 1000000 in
/-- The body on three whole buffers, the first two holding `x` and `w`: it runs to the end, leaves those two as they
    were and the third at the product of the two. -/
theorem body_triple (c : Dev nD) (E : Set ℕ) (i : grid0.Coords)
    (a1 : Memref sig .tc .vmem S2048x512 .f32) (h1 : a1.IsWhole) (a2 : Memref sig .tc .vmem S512x512 .f32) (h2 : a2.IsWhole)
    (a3 : Memref sig .tc .vmem S2048x512 .f32) (h3 : a3.IsWhole)
    (x : Vec F S2048x512 .f32) (w : Vec F S512x512 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (blockProduct x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockProduct_cover _)

/-- The data the pipelining argument runs with on core `c`: the arrays as the launch finds them; after the body at
    point `t` the two inputs' buffers at their blocks and the output's at the product of the two; the invariant only the
    untouched rest; nothing owed; full shares. -/
def dat (c : Dev nD) : Dat τ (Elt F) Unit ℕ (UR sig nD τ) ℕ cfg0 c where
  A w := V c (Pipeline.arrRef spec0 w)
  after w t := match w with
    | ⟨0, _⟩ => xwBlock V c 0 t
    | ⟨1, _⟩ => xwBlock V c 1 t
    | ⟨2, _⟩ => blockProduct (xwBlock V c 0 t) (xwBlock V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = xwBlock V c 0 t := by dsimp only [dat]
theorem after_w (c : Dev nD) (t : Fin cfg0.N) : (dat V c).after 1 t = xwBlock V c 1 t := by dsimp only [dat]
theorem after_out (c : Dev nD) (t : Fin cfg0.N) :
    (dat V c).after 2 t = blockProduct (xwBlock V c 0 t) (xwBlock V c 1 t) := by dsimp only [dat]

theorem before_x (c : Dev nD) (t : Fin cfg0.N) (d) : (dat V c).before 0 t d = xwBlock V c 0 t :=
  before_x_of V (dat V c) (dat_A V c 0) (after_x V c) t d
theorem before_w (c : Dev nD) (t : Fin cfg0.N) (d) : (dat V c).before 1 t d = xwBlock V c 1 t :=
  before_w_of V (dat V c) (dat_A V c 1) (after_w V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two inputs' buffers hold their blocks, so the triple applies; the rest passes through. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_out]
  iintro ⟨HΦ, Ho, ⟨%d0, H0⟩, ⟨%d1, H1⟩, ⟨%d2, H2⟩⟩
  iapply (body_triple c Set.univ _ _ _ _ _ _ _ (xwBlock V c 0 t) (xwBlock V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch theorem asks of the body, at every point. -/
theorem body_obligation (c : Dev nD) : BodyObligation (dat (F := F) V c) (defs₀ (F := F)) Variants.none () Set.univ := fun t => by
  rw [bigSep_W0, bigSep_W0]
  exact body_at V c t

end Cert.KernelIdeal.Dense

end
-- ==== Proof.IdealHead.lean ====
/-
  The last launch of the idealized program: the 8192 × 8192 result  out[i, j] = h[j] + (o[i] · Wl + bl),  written in
  8 × 4 tiles of 1024 × 2048.  Grid point t = 4·i + j stages columns 2048·j … of the row vector h, rows 1024·i … of
  the 8192 × 4 feature matrix o, and the whole of the 4 × 1 weight and the 1 × 1 bias (staged once each); the body
  forms the 1024 × 1 column  o-block · Wl + bl  and adds it, spread along the columns, to the h-block spread along the
  rows; the tile is written back at every point.

  Stated here, at any contents V of the buffers when the launch is entered and for any float instance: the block each
  window shows the body at a point, the buffer the body leaves in the output window, the body's triple, and the data
  the pipelining argument runs with.
-/
import proofs.«131745_j1614907703640_2_alg».proof.Proof.Gen.KernelIdeal.Launch
import proofs.«131745_j1614907703640_2_alg».proof.Proof.Gen.KernelIdeal.Skeleton
import proofs.«131745_j1614907703640_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` shows at grid point `t`, read off the array as the launch finds it. -/
def tileBlock (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's buffer holds its block at every point — fetched there, or fetched earlier with the block index
    unmoved since (the o-block moves every fourth point, the weight and the bias never). -/
theorem before_h_of {c : Dev nD} (dat : Dat τ (Elt F) Unit ℕ (UR sig nD τ) ℕ cfg3 c) (hA : dat.A 0 = V c (Pipeline.arrRef spec3 0))
    (hafter : ∀ t, dat.after 0 t = tileBlock V c 0 t) (t : Fin cfg3.N) (d) : dat.before 0 t d = tileBlock V c 0 t :=
  (dat.before_in_eq_fetched 0 rfl (fun _ => rfl) (fun _ _ _ => rfl) (fun t => by rw [hafter]; unfold Dat.blockOf tileBlock; rw [hA]; try rfl) t d).trans
    (by unfold Dat.fetched Dat.blockOf tileBlock; rw [hA]; try rfl)
theorem before_o_of {c : Dev nD} (dat : Dat τ (Elt F) Unit ℕ (UR sig nD τ) ℕ cfg3 c) (hA : dat.A 1 = V c (Pipeline.arrRef spec3 1))
    (hafter : ∀ t, dat.after 1 t = tileBlock V c 1 t) (t : Fin cfg3.N) (d) : dat.before 1 t d = tileBlock V c 1 t :=
  (dat.before_in_eq_fetched 1 rfl (fun _ => rfl) (fun _ _ _ => rfl) (fun t => by rw [hafter]; unfold Dat.blockOf tileBlock; rw [hA]; try rfl) t d).trans
    (by unfold Dat.fetched Dat.blockOf tileBlock; rw [hA]; try rfl)
theorem before_wl_of {c : Dev nD} (dat : Dat τ (Elt F) Unit ℕ (UR sig nD τ) ℕ cfg3 c) (hA : dat.A 2 = V c (Pipeline.arrRef spec3 2))
    (hafter : ∀ t, dat.after 2 t = tileBlock V c 2 t) (t : Fin cfg3.N) (d) : dat.before 2 t d = tileBlock V c 2 t :=
  (dat.before_in_eq_fetched 2 rfl (fun _ => rfl) (fun _ _ _ => rfl) (fun t => by rw [hafter]; unfold Dat.blockOf tileBlock; rw [hA]; try rfl) t d).trans
    (by unfold Dat.fetched Dat.blockOf tileBlock; rw [hA]; try rfl)
theorem before_bl_of {c : Dev nD} (dat : Dat τ (Elt F) Unit ℕ (UR sig nD τ) ℕ cfg3 c) (hA : dat.A 3 = V c (Pipeline.arrRef spec3 3))
    (hafter : ∀ t, dat.after 3 t = tileBlock V c 3 t) (t : Fin cfg3.N) (d) : dat.before 3 t d = tileBlock V c 3 t :=
  (dat.before_in_eq_fetched 3 rfl (fun _ => rfl) (fun _ _ _ => rfl) (fun t => by rw [hafter]; unfold Dat.blockOf tileBlock; rw [hA]; try rfl) t d).trans
    (by unfold Dat.fetched Dat.blockOf tileBlock; rw [hA]; try rfl)

/-- The whole buffers, as the rectangles the body loads and stores through. -/
abbrev rectH : Rect S1x2048 := Rect.unit (s := S1x2048) ![0, 0] S1x2048.size inb_S1x2048_S1x2048_0_0
abbrev rectO : Rect S1024x4 := Rect.unit (s := S1024x4) ![0, 0] S1024x4.size inb_S1024x4_S1024x4_0_0
abbrev rectWl : Rect S4x1 := Rect.unit (s := S4x1) ![0, 0] S4x1.size inb_S4x1_S4x1_0_0
abbrev rectBl : Rect S1x1 := Rect.unit (s := S1x1) ![0, 0] S1x1.size inb_S1x1_S1x1_0_0
abbrev rectT : Rect S1024x2048 := Rect.unit (s := S1024x2048) ![0, 0] S1024x2048.size inb_S1024x2048_S1024x2048_0_0

/-- What the body leaves in the tile's buffer from the four input blocks: its one store over the whole buffer. -/
def tileValue (h : Vec F S1x2048 .f32) (o : Vec F S1024x4 .f32) (wl : Vec F S4x1 .f32) (bl : Vec F S1x1 .f32) : Vec F S1024x2048 .f32 :=
  View.canon [⟨rectT, k3_pay1 (View.ld o rectO) (View.ld wl rectWl) (View.ld bl rectBl) (View.ld h rectH)⟩]

/-- That one store covers the buffer. -/
theorem tileValue_cover (p : Vec F S1024x2048 .f32) (y : S1024x2048.Idx) :
    ∃ pc ∈ ([⟨rectT, p⟩] : List (View.Piece (Elt F) S1024x2048 .f32)), y ∈ pc.1.set :=
  View.cover_of_tiled [⟨rectT, p⟩] S1024x2048.size (by rfl) y

set_option maxHeartbeats 1000000 in
/-- The body on five whole buffers, the first four holding the input blocks: it runs to the end, leaves those four as
    they were and the fifth at the tile's value. -/
theorem body_triple (c : Dev nD) (E : Set ℕ) (i : grid3.Coords)
    (a2 : Memref sig .tc .vmem S1x2048 .f32) (h2 : a2.IsWhole) (a3 : Memref sig .tc .vmem S1024x4 .f32) (h3 : a3.IsWhole)
    (a4 : Memref sig .tc .vmem S4x1 .f32) (h4 : a4.IsWhole) (a5 : Memref sig .tc .vmem S1x1 .f32) (h5 : a5.IsWhole)
    (a6 : Memref sig .tc .vmem S1024x2048 .f32) (h6 : a6.IsWhole)
    (h : Vec F S1x2048 .f32) (o : Vec F S1024x4 .f32) (wl : Vec F S4x1 .f32) (bl : Vec F S1x1 .f32) (K : PUnit → sProp 𝕄) :
    iprop(owns (c : Thread nD τ) a2 fullShare h ∗ owns (c : Thread nD τ) a3 fullShare o ∗ owns (c : Thread nD τ) a4 fullShare wl
        ∗ owns (c : Thread nD τ) a5 fullShare bl ∗ (∃ d, owns (c : Thread nD τ) a6 fullShare d)
        ∗ (iprop(owns (c : Thread nD τ) a2 fullShare h ∗ owns (c : Thread nD τ) a3 fullShare o ∗ owns (c : Thread nD τ) a4 fullShare wl
            ∗ owns (c : Thread nD τ) a5 fullShare bl ∗ owns (c : Thread nD τ) a6 fullShare (tileValue h o wl bl)) -∗ K ⟨⟩))
      ⊢ wp frame (wpE (defs₀ (F := F)) Variants.none c none) E (cc3__broadcast_head_kernel i a2 h2 a3 h3 a4 h4 a5 h5 a6 h6) K := by
  simp only [cc3__broadcast_head_kernel_eq_skeleton]; unfold cc3__broadcast_head_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tileValue_cover _)

/-- The data the pipelining argument runs with on core `c`: the arrays as the launch finds them; after the body at
    point `t` the four inputs' buffers at their blocks and the output's at the tile's value; the invariant only the
    untouched rest; nothing owed; full shares. -/
def dat (c : Dev nD) : Dat τ (Elt F) Unit ℕ (UR sig nD τ) ℕ cfg3 c where
  A w := V c (Pipeline.arrRef spec3 w)
  after w t := match w with
    | ⟨0, _⟩ => tileBlock V c 0 t
    | ⟨1, _⟩ => tileBlock V c 1 t
    | ⟨2, _⟩ => tileBlock V c 2 t
    | ⟨3, _⟩ => tileBlock V c 3 t
    | ⟨4, _⟩ => tileValue (tileBlock V c 0 t) (tileBlock V c 1 t) (tileBlock V c 2 t) (tileBlock V c 3 t)
  Φ _ := Pipeline.ΦA spec3 c
  q _ := fullShare
  owed _ := 0

theorem dat_A (c : Dev nD) (w : Fin cfg3.W) : (dat V c).A w = V c (Pipeline.arrRef spec3 w) := by
  dsimp only [dat]

theorem after_h (c : Dev nD) (t : Fin cfg3.N) : (dat V c).after 0 t = tileBlock V c 0 t := by dsimp only [dat]
theorem after_o (c : Dev nD) (t : Fin cfg3.N) : (dat V c).after 1 t = tileBlock V c 1 t := by dsimp only [dat]
theorem after_wl (c : Dev nD) (t : Fin cfg3.N) : (dat V c).after 2 t = tileBlock V c 2 t := by dsimp only [dat]
theorem after_bl (c : Dev nD) (t : Fin cfg3.N) : (dat V c).after 3 t = tileBlock V c 3 t := by dsimp only [dat]
theorem after_out (c : Dev nD) (t : Fin cfg3.N) :
    (dat V c).after 4 t = tileValue (tileBlock V c 0 t) (tileBlock V c 1 t) (tileBlock V c 2 t) (tileBlock V c 3 t) := by dsimp only [dat]

theorem before_h (c : Dev nD) (t : Fin cfg3.N) (d) : (dat V c).before 0 t d = tileBlock V c 0 t :=
  before_h_of V (dat V c) (dat_A V c 0) (after_h V c) t d
theorem before_o (c : Dev nD) (t : Fin cfg3.N) (d) : (dat V c).before 1 t d = tileBlock V c 1 t :=
  before_o_of V (dat V c) (dat_A V c 1) (after_o V c) t d
theorem before_wl (c : Dev nD) (t : Fin cfg3.N) (d) : (dat V c).before 2 t d = tileBlock V c 2 t :=
  before_wl_of V (dat V c) (dat_A V c 2) (after_wl V c) t d
theorem before_bl (c : Dev nD) (t : Fin cfg3.N) (d) : (dat V c).before 3 t d = tileBlock V c 3 t :=
  before_bl_of V (dat V c) (dat_A V c 3) (after_bl V c) t d

/-- What the body is called with at point `t`, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point: the four inputs' buffers hold their blocks, so the triple applies; the rest passes through. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_h, before_o, before_wl, before_bl]
  rw [show (dat V c).Φ t.succ = (dat V c).Φ t.castSucc from rfl,
    show (dat V c).owesAt () t.succ = (dat V c).owesAt () t.castSucc from rfl,
    after_h, after_o, after_wl, after_bl, after_out]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (tileBlock V c 0 t) (tileBlock V c 1 t) (tileBlock V c 2 t) (tileBlock V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the launch theorem asks of the body, at every point. -/
theorem body_obligation (c : Dev nD) : BodyObligation (dat (F := F) V c) (defs₀ (F := F)) Variants.none () Set.univ := fun t => by
  rw [bigSep_W3, bigSep_W3]
  exact body_at V c t

end Cert.KernelIdeal.Head

end
-- ==== Proof.IdealAggRuns.lean ====
/-
  The second launch of the idealized program: the aggregation  relu(Â · h + b)  of the first layer, where Â is the
  8192 × 8192 normalised adjacency (narrow floats), h the 8192 × 512 transformed features and b the bias row.  The grid
  is 8 × 4: point t = 4·i + k stages the 1024 × 2048 tile (i, k) of Â, rows 2048·k … of h, and the bias (staged once);
  a 1024 × 512 scratch buffer carries the partial sum of the row block across its four points.  At k = 0 the scratch
  is cleared before the tile's product is added to it; at k = 1, 2 the product is added; at k = 3 it is added and then
  the row block of the result is stored as the maximum of (scratch + bias row) and 0, and written back.  At the other
  points the result window is left alone and not written back.

  Stated here, at any contents V of the buffers when the launch is entered and for any float instance: the three ways
  the body runs (first, middle and last point of a row block), each with the pieces its stores leave in the scratch
  (and, at a last point, in the result's buffer) found by running it; what the scratch holds after each point, by
  recursion on the point; the invariant that carries the scratch from one point to the next; and the obligation the
  launch theorem asks of the body.
-/
import proofs.«131745_j1614907703640_2_alg».proof.Proof.Gen.KernelIdeal.Launch
import proofs.«131745_j1614907703640_2_alg».proof.Proof.Gen.KernelIdeal.Skeleton
import proofs.«131745_j1614907703640_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which point of a row block a grid point is -/

/-- The body's first test: the inner grid coordinate k is 0. -/
abbrev isFirst (i : grid1.Coords) : Prop :=
  (Scalar.cmpi .ne (Scalar.extui (Scalar.cmpi .eq (BitVec.ofNat 32 (i 1).val) 0#32)) 0#32) = 1#1
/-- The body's second test: k is 3, the last tile of the row block. -/
abbrev isLast (i : grid1.Coords) : Prop := k1_cond2 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-- The three inputs are in use at every point; the result window only at the last point of a row block, where it is
    written back; elsewhere it is idle and not written back. -/
theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem idle_out : ∀ t : Fin cfg1.N, ¬ isLast (grid1.coords t) → cfg1.idle 3 (grid1.coords t) = true := by decide +kernel
theorem noflush_out : ∀ t : Fin cfg1.N, ¬ isLast (grid1.coords t) → (cfg1.win 3).flush t = false := by decide +kernel
theorem live_out : ∀ t : Fin cfg1.N, isLast (grid1.coords t) → cfg1.idle 3 (grid1.coords t) = false := by decide +kernel

/-! ## The buffers the body is called with, and the scratch -/

abbrev bufA (t : Fin cfg1.N) : Memref sig .tc .vmem S1024x2048 .bf16 := win1_0.stage (cfg1.slots t 0)
abbrev bufA_whole (t : Fin cfg1.N) : (bufA t).IsWhole := hstage1_0 ((cfg1.slots t 0).cast nbuf1_0)
abbrev bufH (t : Fin cfg1.N) : Memref sig .tc .vmem S2048x512 .f32 := win1_1.stage (cfg1.slots t 1)
abbrev bufH_whole (t : Fin cfg1.N) : (bufH t).IsWhole := hstage1_1 ((cfg1.slots t 1).cast nbuf1_1)
abbrev bufB (t : Fin cfg1.N) : Memref sig .tc .vmem S1x512 .f32 := win1_2.stage (cfg1.slots t 2)
abbrev bufB_whole (t : Fin cfg1.N) : (bufB t).IsWhole := hstage1_2 ((cfg1.slots t 2).cast nbuf1_2)
abbrev bufO (t : Fin cfg1.N) : Memref sig .tc .vmem S1024x512 .f32 := win1_3.stage (cfg1.slots t 3)
abbrev bufO_whole (t : Fin cfg1.N) : (bufO t).IsWhole := hstage1_3 ((cfg1.slots t 3).cast nbuf1_3)
/-- The partial-sum scratch: a whole buffer of the kernel's own. -/
abbrev scr : Memref sig .tc .vmem S1024x512 .f32 := Memref.whole cc1_scratch0
abbrev scr_whole : (scr).IsWhole := Memref.isWhole_whole _
/-- What a list of stores leaves in the scratch, read back (over anything: the lists used below cover it). -/
def scrOf (L : List (View.Piece (Elt F) S1024x512 .f32)) : Vec F S1024x512 .f32 :=
  scr.view.read (Elt F) (scr.view.writes (Elt F) scr.view.junk L)
/-- The same through one buffer of the result window (which of the two does not matter for a covering list). -/
abbrev outView : View sig .tc .vmem S1024x512 .f32 := (Memref.whole cc1_stg3_0 : Memref sig .tc .vmem S1024x512 .f32).view
def outOf (L : List (View.Piece (Elt F) S1024x512 .f32)) : Vec F S1024x512 .f32 :=
  outView.read (Elt F) (outView.writes (Elt F) outView.junk L)

/-! ## The body's three runs -/

set_option maxHeartbeats 2000000 in
/-- FIRST point of a row block (k = 0): with the tile `a`, the rows `b` of h and the bias in their buffers, the result's
    buffer at anything `xo` (handed back untouched) and the scratch at anything, the body runs to the end leaving the
    scratch with the pieces `LS` written — the clearing store, then the sum's. -/
noncomputable def runFirst (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole)
    (a6 : Memref sig .tc .vmem S1024x512 .f32) (h6 : a6.IsWhole) (hc0 : isFirst i) (hc1 : ¬ isLast i)
    (a : Vec F S1024x2048 .bf16) (b : Vec F S2048x512 .f32) (bias : Vec F S1x512 .f32) :
    { LS : List (View.Piece (Elt F) S1024x512 .f32) //
      ∀ (xo : Vec F S1024x512 .f32) (E : Set ℕ) (K : PUnit → sProp 𝕄),
        iprop(owns (c : Thread nD τ) a2 fullShare a ∗ owns (c : Thread nD τ) a3 fullShare b ∗ owns (c : Thread nD τ) a4 fullShare bias ∗ owns (c : Thread nD τ) a5 fullShare xo ∗ (∃ d, owns (c : Thread nD τ) a6 fullShare d)
            ∗ (iprop(owns (c : Thread nD τ) a2 fullShare a ∗ owns (c : Thread nD τ) a3 fullShare b ∗ owns (c : Thread nD τ) a4 fullShare bias ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc1__agg_kernel i a2 h2 a3 h3 a4 h4 a5 h5 a6 h6) K } := by
  refine ⟨?_, fun xo E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := h2.eq_unread hf2; obtain rfl := h3.eq_unread hf3; obtain rfl := h4.eq_unread hf4; obtain rfl := h5.eq_unread hf5
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

set_option maxHeartbeats 2000000 in
/-- MIDDLE point (k = 1, 2): as the first, but the scratch holds what the point before left, `xs`, and the body only adds
    the tile's product to it. -/
noncomputable def runMid (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole)
    (a6 : Memref sig .tc .vmem S1024x512 .f32) (h6 : a6.IsWhole) (hc0 : ¬ isFirst i) (hc1 : ¬ isLast i)
    (a : Vec F S1024x2048 .bf16) (b : Vec F S2048x512 .f32) (bias : Vec F S1x512 .f32) (xs : Vec F S1024x512 .f32) :
    { LS : List (View.Piece (Elt F) S1024x512 .f32) //
      ∀ (xo : Vec F S1024x512 .f32) (E : Set ℕ) (K : PUnit → sProp 𝕄),
        iprop(owns (c : Thread nD τ) a2 fullShare a ∗ owns (c : Thread nD τ) a3 fullShare b ∗ owns (c : Thread nD τ) a4 fullShare bias ∗ owns (c : Thread nD τ) a5 fullShare xo ∗ owns (c : Thread nD τ) a6 fullShare xs
            ∗ (iprop(owns (c : Thread nD τ) a2 fullShare a ∗ owns (c : Thread nD τ) a3 fullShare b ∗ owns (c : Thread nD τ) a4 fullShare bias ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc1__agg_kernel i a2 h2 a3 h3 a4 h4 a5 h5 a6 h6) K } := by
  refine ⟨?_, fun xo E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := h2.eq_unread hf2; obtain rfl := h3.eq_unread hf3; obtain rfl := h4.eq_unread hf4; obtain rfl := h5.eq_unread hf5
    obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

set_option maxHeartbeats 2000000 in
/-- LAST point (k = 3): the scratch holds `xs`; the body adds the tile's product to it and then stores the row block of
    the result, leaving the pieces `LO` in the result's buffer (at anything before) and `LS` in the scratch. -/
noncomputable def runLast (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole)
    (a6 : Memref sig .tc .vmem S1024x512 .f32) (h6 : a6.IsWhole) (hc0 : ¬ isFirst i) (hc1 : isLast i)
    (a : Vec F S1024x2048 .bf16) (b : Vec F S2048x512 .f32) (bias : Vec F S1x512 .f32) (xs : Vec F S1024x512 .f32) :
    Σ' (LO : List (View.Piece (Elt F) S1024x512 .f32)), { LS : List (View.Piece (Elt F) S1024x512 .f32) //
      ∀ (E : Set ℕ) (K : PUnit → sProp 𝕄),
        iprop(owns (c : Thread nD τ) a2 fullShare a ∗ owns (c : Thread nD τ) a3 fullShare b ∗ owns (c : Thread nD τ) a4 fullShare bias ∗ (∃ d, owns (c : Thread nD τ) a5 fullShare d) ∗ owns (c : Thread nD τ) a6 fullShare xs
            ∗ (iprop(owns (c : Thread nD τ) a2 fullShare a ∗ owns (c : Thread nD τ) a3 fullShare b ∗ owns (c : Thread nD τ) a4 fullShare bias ∗ (∃ f, a5.view.loc (c : Thread nD τ) ↦[a5.view.set]{fullShare} a5.view.writes (Elt F) f LO) ∗ (∃ f, a6.view.loc (c : Thread nD τ) ↦[a6.view.set]{fullShare} a6.view.writes (Elt F) f LS)) -∗ K ⟨⟩))
          ⊢ wp frame (wpE (defs₀ (F := F)) Variants.none c none) E (cc1__agg_kernel i a2 h2 a3 h3 a4 h4 a5 h5 a6 h6) K } := by
  refine ⟨?_, ?_, fun E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%d5, %f5, -, H5⟩, ⟨%f6, %hf6, H6⟩, Hk⟩
    obtain rfl := h2.eq_unread hf2; obtain rfl := h3.eq_unread hf3; obtain rfl := h4.eq_unread hf4
    obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

end Cert.KernelIdeal.Agg

end
-- ==== Proof.IdealAgg.lean ====
/-
  The aggregation launch of the first layer, continued: what the partial-sum scratch holds after each grid point, the
  invariant that hands it from one point to the next, the data the pipelining argument runs with, and the obligation
  the launch theorem asks of the body.

  After point t = 4·i + k the scratch holds the sum over k' ≤ k of the products  Â-tile (i, k') · h-rows (k'),  built
  up as the body builds it: cleared and then added to at k = 0, added to afterwards.  Before the first point the
  scratch is one of the launch's untouched scoped buffers, at anything; from then on the invariant names its contents.
-/
import proofs.«131745_j1614907703640_2_alg».proof.Proof.IdealAggRuns

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` shows at grid point `t`: tile (i, k) of Â, rows 2048·k … of h, the bias row, rows 1024·i … of
    the result. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's buffer holds its block at every point (the bias is fetched once and its block index never moves). -/
theorem before_a_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_h_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The three runs at a grid point, and that their stores cover the buffers -/

def firstAt (c : Dev nD) (t : Fin cfg1.N) (h0 : t.val % 4 = 0) :=
  runFirst (F := F) c (grid1.coords t) (bufA t) (bufA_whole t) (bufH t) (bufH_whole t) (bufB t) (bufB_whole t) (bufO t) (bufO_whole t) scr scr_whole
    ((isFirst_iff t).mpr h0) (fun h => by have := (isLast_iff t).mp h; omega) (blk V c 0 t) (blk V c 1 t) (blk V c 2 t)
def midAt (c : Dev nD) (t : Fin cfg1.N) (h0 : ¬ t.val % 4 = 0) (h3 : ¬ t.val % 4 = 3) (xs : Vec F S1024x512 .f32) :=
  runMid (F := F) c (grid1.coords t) (bufA t) (bufA_whole t) (bufH t) (bufH_whole t) (bufB t) (bufB_whole t) (bufO t) (bufO_whole t) scr scr_whole
    (fun h => h0 ((isFirst_iff t).mp h)) (fun h => h3 ((isLast_iff t).mp h)) (blk V c 0 t) (blk V c 1 t) (blk V c 2 t) xs
def lastAt (c : Dev nD) (t : Fin cfg1.N) (h0 : ¬ t.val % 4 = 0) (h3 : t.val % 4 = 3) (xs : Vec F S1024x512 .f32) :=
  runLast (F := F) c (grid1.coords t) (bufA t) (bufA_whole t) (bufH t) (bufH_whole t) (bufB t) (bufB_whole t) (bufO t) (bufO_whole t) scr scr_whole
    (fun h => h0 ((isFirst_iff t).mp h)) ((isLast_iff t).mpr h3) (blk V c 0 t) (blk V c 1 t) (blk V c 2 t) xs

theorem first_covers (c : Dev nD) (t : Fin cfg1.N) (h0 : t.val % 4 = 0) (y : S1024x512.Idx) :
    ∃ pc ∈ (firstAt V c t h0).1, y ∈ pc.1.set :=
  View.cover_of_tiledL (firstAt V c t h0).1 S1024x512.size (by sl_kernel_rfl) y
theorem mid_covers (c : Dev nD) (t : Fin cfg1.N) (h0 : ¬ t.val % 4 = 0) (h3 : ¬ t.val % 4 = 3) (xs : Vec F S1024x512 .f32) (y : S1024x512.Idx) :
    ∃ pc ∈ (midAt V c t h0 h3 xs).1, y ∈ pc.1.set :=
  View.cover_of_tiledL (midAt V c t h0 h3 xs).1 S1024x512.size (by sl_kernel_rfl) y
theorem last_covers_scr (c : Dev nD) (t : Fin cfg1.N) (h0 : ¬ t.val % 4 = 0) (h3 : t.val % 4 = 3) (xs : Vec F S1024x512 .f32) (y : S1024x512.Idx) :
    ∃ pc ∈ (lastAt V c t h0 h3 xs).2.1, y ∈ pc.1.set :=
  View.cover_of_tiledL (lastAt V c t h0 h3 xs).2.1 S1024x512.size (by sl_kernel_rfl) y
theorem last_covers_out (c : Dev nD) (t : Fin cfg1.N) (h0 : ¬ t.val % 4 = 0) (h3 : t.val % 4 = 3) (xs : Vec F S1024x512 .f32) (y : S1024x512.Idx) :
    ∃ pc ∈ (lastAt V c t h0 h3 xs).1, y ∈ pc.1.set :=
  View.cover_of_tiledL (lastAt V c t h0 h3 xs).1 S1024x512.size (by sl_kernel_rfl) y

/-! ## What the scratch holds after each point -/

/-- THE PARTIAL SUM after the body at position `n`: at the first point of a row block what the clearing and the first
    addition leave; afterwards what adding this point's product to the previous point's contents leaves. -/
def accAt (c : Dev nD) : (n : ℕ) → n < cfg1.N → Vec F S1024x512 .f32
  | 0, hn => scrOf (firstAt V c ⟨0, hn⟩ (Nat.zero_mod 4)).1
  | n + 1, hn =>
    if h0 : (n + 1) % 4 = 0 then scrOf (firstAt V c ⟨n + 1, hn⟩ h0).1
    else if h3 : (n + 1) % 4 = 3 then scrOf (lastAt V c ⟨n + 1, hn⟩ h0 h3 (accAt c n (Nat.lt_of_succ_lt hn))).2.1
    else scrOf (midAt V c ⟨n + 1, hn⟩ h0 h3 (accAt c n (Nat.lt_of_succ_lt hn))).1

/-- What the scratch holds when point `t` begins, for a point that is not the first of its row block. -/
def prevAcc (c : Dev nD) : (t : Fin cfg1.N) → Vec F S1024x512 .f32
  | ⟨0, _⟩ => scrOf []
  | ⟨n + 1, hn⟩ => accAt V c n (Nat.lt_of_succ_lt hn)

theorem accAt_first (c : Dev nD) (t : Fin cfg1.N) (h0 : t.val % 4 = 0) :
    accAt V c t.val t.isLt = scrOf (firstAt V c t h0).1 := by
  obtain ⟨n, hn⟩ := t
  cases n with
  | zero => rfl
  | succ n => exact dif_pos h0
theorem accAt_mid (c : Dev nD) (t : Fin cfg1.N) (h0 : ¬ t.val % 4 = 0) (h3 : ¬ t.val % 4 = 3) :
    accAt V c t.val t.isLt = scrOf (midAt V c t h0 h3 (prevAcc V c t)).1 := by
  obtain ⟨n, hn⟩ := t
  cases n with
  | zero => exact absurd (Nat.zero_mod 4) h0
  | succ n => exact (dif_neg h0).trans (dif_neg h3)
theorem accAt_last (c : Dev nD) (t : Fin cfg1.N) (h0 : ¬ t.val % 4 = 0) (h3 : t.val % 4 = 3) :
    accAt V c t.val t.isLt = scrOf (lastAt V c t h0 h3 (prevAcc V c t)).2.1 := by
  obtain ⟨n, hn⟩ := t
  cases n with
  | zero => exact absurd (Nat.zero_mod 4) h0
  | succ n => exact (dif_neg h0).trans (dif_pos h3)

/-- What the result's buffer holds after point `t`: at the last point of a row block the stored row block; elsewhere
    the window is idle and this is never consulted. -/
def outAt (c : Dev nD) (t : Fin cfg1.N) : Vec F S1024x512 .f32 :=
  if h3 : t.val % 4 = 3 then outOf (lastAt V c t (by omega) h3 (prevAcc V c t)).1 else outOf []

theorem outAt_last (c : Dev nD) (t : Fin cfg1.N) (h0 : ¬ t.val % 4 = 0) (h3 : t.val % 4 = 3) :
    outAt V c t = outOf (lastAt V c t h0 h3 (prevAcc V c t)).1 := dif_pos h3

/-! ## The invariant: the launch's untouched scoped buffers, with the scratch singled out -/

/-- The core's scoped buffers that are no staging buffer of this launch, each whole at some contents, and the generator
    register at some state — with `S` in the scratch's place. -/
def restWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f)) ∗ ∃ r, prngReg c r)

/-- The launch's untouched rest is that with the scratch at some contents. -/
theorem rest_eq (c : Dev nD) :
    (Pipeline.ΦA spec1 c : sProp 𝕄) = restWith c iprop(∃ f : Buf (Elt F) ((c : Thread nD τ).loc cc1_scratch0), ((c : Thread nD τ).loc cc1_scratch0) ↦{fullShare} f) := by
  unfold Pipeline.ΦA restWith; rw [scopedRest1_eq]

theorem restWith_take (c : Dev nD) (S : sProp 𝕄) : restWith c S ⊢ iprop(S ∗ restWith c iprop(emp)) := by
  unfold restWith
  iintro ⟨⟨B0, B1, B2, B3, B4, HS, A0, A1, A2, A3, A4, A5, A6, A7, A8, A9, A10, A11, A12, A13, A14, A15⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    isplitr; · iempintro
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  iexact Hg

theorem restWith_give (c : Dev nD) (S : sProp 𝕄) : iprop(S ∗ restWith c iprop(emp)) ⊢ restWith c S := by
  unfold restWith
  iintro ⟨HS, ⟨⟨B0, B1, B2, B3, B4, -, A0, A1, A2, A3, A4, A5, A6, A7, A8, A9, A10, A11, A12, A13, A14, A15⟩, Hg⟩⟩
  isplitr [Hg]
  swap; · iexact Hg
  isplitl [B0]; · iexact B0
  isplitl [B1]; · iexact B1
  isplitl [B2]; · iexact B2
  isplitl [B3]; · iexact B3
  isplitl [B4]; · iexact B4
  isplitl [HS]; · iexact HS
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iexact A15

/-- The invariant before position `n`: before the first point the launch's untouched rest; afterwards the same with the
    scratch at the partial sum the point before left. -/
def inv (c : Dev nD) : (n : ℕ) → n ≤ cfg1.N → sProp 𝕄
  | 0, _ => Pipeline.ΦA spec1 c
  | n + 1, hn => restWith c (owns (c : Thread nD τ) scr fullShare (accAt V c n hn))

/-- Whatever the position, the invariant yields the scratch at some contents beside the rest. -/
theorem inv_open (c : Dev nD) (n : ℕ) (hn : n ≤ cfg1.N) :
    inv V c n hn ⊢ iprop((∃ d, owns (c : Thread nD τ) scr fullShare d) ∗ restWith c iprop(emp)) := by
  cases n with
  | zero =>
    show Pipeline.ΦA spec1 c ⊢ _
    rw [rest_eq]
    refine (restWith_take c _).trans ?_
    iintro ⟨⟨%f, H⟩, HR⟩
    isplitl [H]
    · iexists f; rw [owns_whole]; iexact H
    iexact HR
  | succ n =>
    show restWith c _ ⊢ _
    refine (restWith_take c _).trans ?_
    iintro ⟨H, HR⟩
    isplitl [H]
    · iexists _; iexact H
    iexact HR

/-- After a first point the invariant gives the launch's rest back: the scratch's named contents are forgotten. -/
theorem inv_close (c : Dev nD) (n : ℕ) (hn : n + 1 ≤ cfg1.N) : inv V c (n + 1) hn ⊢ Pipeline.ΦA spec1 c := by
  show restWith c _ ⊢ _
  rw [rest_eq]
  refine (restWith_take c _).trans ?_
  refine .trans ?_ (restWith_give c _)
  iintro ⟨H, HR⟩
  isplitl [H]
  · iexists _; rw [← owns_whole]; iexact H
  iexact HR

/-! ## The data the pipelining argument runs with -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]
theorem after_a (c : Dev nD) (t : Fin cfg1.N) : (dat V c).after 0 t = blk V c 0 t := by dsimp only [dat]
theorem after_h (c : Dev nD) (t : Fin cfg1.N) : (dat V c).after 1 t = blk V c 1 t := by dsimp only [dat]
theorem after_b (c : Dev nD) (t : Fin cfg1.N) : (dat V c).after 2 t = blk V c 2 t := by dsimp only [dat]
theorem after_out (c : Dev nD) (t : Fin cfg1.N) : (dat V c).after 3 t = outAt V c t := by dsimp only [dat]
theorem before_a (c : Dev nD) (t : Fin cfg1.N) (d) : (dat V c).before 0 t d = blk V c 0 t :=
  before_a_of V (dat V c) (dat_A V c 0) (after_a V c) t d
theorem before_h (c : Dev nD) (t : Fin cfg1.N) (d) : (dat V c).before 1 t d = blk V c 1 t :=
  before_h_of V (dat V c) (dat_A V c 1) (after_h V c) t d
theorem before_b (c : Dev nD) (t : Fin cfg1.N) (d) : (dat V c).before 2 t d = blk V c 2 t :=
  before_b_of V (dat V c) (dat_A V c 2) (after_b V c) t d

end Cert.KernelIdeal.Agg

end
-- ==== Proof.IdealAggBody.lean ====
/-
  The aggregation launch of the first layer, concluded: the obligation the launch theorem asks of the body, at every
  grid point.  A point is the first of its row block (the scratch is taken at anything and left at the first partial
  sum), a middle one (the scratch is taken at the previous partial sum and left at the next), or the last (the same,
  and the result's row block is stored); in the first two cases the result window is idle and handed back as found.
-/
import proofs.«131745_j1614907703640_2_alg».proof.Proof.IdealAgg

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a point that is not the first of its row block the invariant holds the scratch at the previous partial sum. -/
theorem inv_prev (c : Dev nD) (t : Fin cfg1.N) (h0 : ¬ t.val % 4 = 0) :
    inv V c t.val (Nat.le_of_lt t.isLt) ⊢ iprop(owns (c : Thread nD τ) scr fullShare (prevAcc V c t) ∗ restWith c iprop(emp)) := by
  obtain ⟨n, hn⟩ := t
  cases n with
  | zero => exact absurd (Nat.zero_mod 4) h0
  | succ n => exact restWith_take c _

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (bufA t) fullShare ((dat V c).before 0 t d))
    ∗ (∃ d, owns (c : Thread nD τ) (bufH t) fullShare ((dat V c).before 1 t d))
    ∗ (∃ d, owns (c : Thread nD τ) (bufB t) fullShare ((dat V c).before 2 t d))
    ∗ (∃ d, owns (c : Thread nD τ) (bufO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_a, before_h, before_b]
  rw [show (dat V c).owesAt () t.succ = (dat V c).owesAt () t.castSucc from rfl]
  rw [show (dat V c).leavesExact 0 t = owns (c : Thread nD τ) (bufA t) fullShare (blk V c 0 t) from by
        unfold Dat.leavesExact; rw [live_in0 t, after_a],
    show (dat V c).leavesExact 1 t = owns (c : Thread nD τ) (bufH t) fullShare (blk V c 1 t) from by
        unfold Dat.leavesExact; rw [live_in1 t, after_h],
    show (dat V c).leavesExact 2 t = owns (c : Thread nD τ) (bufB t) fullShare (blk V c 2 t) from by
        unfold Dat.leavesExact; rw [live_in2 t, after_b]]
  rw [show (dat V c).Φ t.succ = restWith c (owns (c : Thread nD τ) scr fullShare (accAt V c t.val t.isLt)) from rfl]
  rw [show (dat V c).Φ t.castSucc = inv V c t.val (Nat.le_of_lt t.isLt) from rfl]
  by_cases h0 : t.val % 4 = 0
  · -- the first point of a row block
    have h3 : ¬ t.val % 4 = 3 := by omega
    have hopen := inv_open V c t.val (Nat.le_of_lt t.isLt)
    rw [Dat.leavesExact_idle (dat V c) 3 t (idle_out t (fun h => h3 ((isLast_iff t).mp h))) (noflush_out t (fun h => h3 ((isLast_iff t).mp h)))]
    rw [accAt_first V c t h0]
    iintro ⟨HΦ, Ho, ⟨%d0, H0⟩, ⟨%d1, H1⟩, ⟨%d2, H2⟩, ⟨%d3, H3⟩⟩
    ihave HΦ' := hopen $$ HΦ
    icases HΦ' with ⟨HS, HR⟩
    iapply ((firstAt V c t h0).2 _ Set.univ _)
    isplitl [H0]; · iexact H0
    isplitl [H1]; · iexact H1
    isplitl [H2]; · iexact H2
    isplitl [H3]; · iexact H3
    isplitl [HS]; · iexact HS
    iintro ⟨H0, H1, H2, H3, ⟨%f, HS⟩⟩
    isplitl [HS HR]
    · iapply (restWith_give c _)
      isplitl [HS]
      · unfold owns; iexists _; isplitr
        swap; · iexact HS
        ipureintro; exact View.read_writes_of_cover _ _ _ _ _ (first_covers V c t h0)
      iexact HR
    isplitl [Ho]; · iexact Ho
    isplitl [H0]; · iexact H0
    isplitl [H1]; · iexact H1
    isplitl [H2]; · iexact H2
    iexists _; iexact H3
  · have hprev := inv_prev V c t h0
    by_cases h3 : t.val % 4 = 3
    · -- the last point of a row block
      rw [show (dat V c).leavesExact 3 t = owns (c : Thread nD τ) (bufO t) fullShare (outAt V c t) from by
            unfold Dat.leavesExact; rw [live_out t ((isLast_iff t).mpr h3), after_out]]
      rw [accAt_last V c t h0 h3, outAt_last V c t h0 h3]
      iintro ⟨HΦ, Ho, ⟨%d0, H0⟩, ⟨%d1, H1⟩, ⟨%d2, H2⟩, ⟨%d3, H3⟩⟩
      ihave HΦ' := hprev $$ HΦ
      icases HΦ' with ⟨HS, HR⟩
      iapply ((lastAt V c t h0 h3 (prevAcc V c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%g, H3⟩, ⟨%f, HS⟩⟩
      isplitl [HS HR]
      · iapply (restWith_give c _)
        isplitl [HS]
        · unfold owns; iexists _; isplitr
          swap; · iexact HS
          ipureintro; exact View.read_writes_of_cover _ _ _ _ _ (last_covers_scr V c t h0 h3 _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_covers_out V c t h0 h3 _)
    · -- a middle point
      rw [Dat.leavesExact_idle (dat V c) 3 t (idle_out t (fun h => h3 ((isLast_iff t).mp h))) (noflush_out t (fun h => h3 ((isLast_iff t).mp h)))]
      rw [accAt_mid V c t h0 h3]
      iintro ⟨HΦ, Ho, ⟨%d0, H0⟩, ⟨%d1, H1⟩, ⟨%d2, H2⟩, ⟨%d3, H3⟩⟩
      ihave HΦ' := hprev $$ HΦ
      icases HΦ' with ⟨HS, HR⟩
      iapply ((midAt V c t h0 h3 (prevAcc V c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%f, HS⟩⟩
      isplitl [HS HR]
      · iapply (restWith_give c _)
        isplitl [HS]
        · unfold owns; iexists _; isplitr
          swap; · iexact HS
          ipureintro; exact View.read_writes_of_cover _ _ _ _ _ (mid_covers V c t h0 h3 _)
        iexact HR
      isplitl [Ho]; · iexact Ho
      isplitl [H0]; · iexact H0
      isplitl [H1]; · iexact H1
      isplitl [H2]; · iexact H2
      iexists _; iexact H3

/-- The obligation the launch theorem asks of the body, at every point. -/
theorem body_obligation (c : Dev nD) : BodyObligation (dat (F := F) V c) (defs₀ (F := F)) Variants.none () Set.univ := fun t => by
  rw [bigSep_W1, bigSep_W1]
  exact body_at V c t

/-- What the launch hands over is the invariant before the first point, -/
theorem inv_first (c : Dev nD) : Pipeline.ΦA spec1 c ⊢ (dat V c).Φ 0 := Idealize.SL.BI.Entails.refl _

/-- and after the last point the invariant gives it back. -/
theorem inv_last (c : Dev nD) : (dat V c).Φ (Fin.last cfg1.N) ⊢ Pipeline.ΦA spec1 c := by
  have hN : cfg1.N = 32 := N_1
  have key : ∀ (n : ℕ) (hn : n ≤ cfg1.N), n ≠ 0 → inv V c n hn ⊢ Pipeline.ΦA spec1 c := fun n hn hz => by
    cases n with
    | zero => exact absurd rfl hz
    | succ n => exact inv_close V c n hn
  exact key (Fin.last cfg1.N).val (Nat.le_of_lt_succ (Fin.last cfg1.N).isLt) (by rw [Fin.val_last]; omega)

end Cert.KernelIdeal.Agg

end
-- ==== Proof.IdealAgg2Runs.lean ====
/-
  The third launch of the idealized program: the aggregation  Â · g + b₂  of the second layer, where g is the 8192 × 1
  column  relu-layer · W₂  padded with zero columns to width 128 (only column 0 carries the layer's value) and b₂ the
  bias padded the same way.  The grid and the body are those of the first layer's aggregation at width 128, without the
  maximum with 0: point t = 4·i + k stages the 1024 × 2048 tile (i, k) of Â, rows 2048·k … of g and the bias (staged
  once); a 1024 × 128 scratch carries the partial sum of the row block across its four points, cleared at k = 0, and at
  k = 3 the row block of the result is stored as scratch + bias row and written back.

  Stated here, for any float instance: the three ways the body runs (first, middle and last point of a row block), each
  with the pieces its stores leave in the scratch (and, at a last point, in the result's buffer) found by running it.
-/
import proofs.«131745_j1614907703640_2_alg».proof.Proof.Gen.KernelIdeal.Launch
import proofs.«131745_j1614907703640_2_alg».proof.Proof.Gen.KernelIdeal.Skeleton
import proofs.«131745_j1614907703640_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which point of a row block a grid point is -/

/-- The body's first test: the inner grid coordinate k is 0. -/
abbrev isFirst (i : grid2.Coords) : Prop :=
  (Scalar.cmpi .ne (Scalar.extui (Scalar.cmpi .eq (BitVec.ofNat 32 (i 1).val) 0#32)) 0#32) = 1#1
/-- The body's second test: k is 3, the last tile of the row block. -/
abbrev isLast (i : grid2.Coords) : Prop := k2_cond2 i = 1#1

theorem isFirst_iff : ∀ t : Fin cfg2.N, isFirst (grid2.coords t) ↔ t.val % 4 = 0 :=
  (by decide +kernel : ∀ t : Fin grid2.N, isFirst (grid2.coords t) ↔ t.val % 4 = 0)
theorem isLast_iff : ∀ t : Fin cfg2.N, isLast (grid2.coords t) ↔ t.val % 4 = 3 :=
  (by decide +kernel : ∀ t : Fin grid2.N, isLast (grid2.coords t) ↔ t.val % 4 = 3)

/-- The three inputs are in use at every point; the result window only at the last point of a row block, where it is
    written back; elsewhere it is idle and not written back. -/
theorem live_in0 : ∀ t : Fin cfg2.N, cfg2.idle 0 (grid2.coords t) = false := by decide +kernel
theorem live_in1 : ∀ t : Fin cfg2.N, cfg2.idle 1 (grid2.coords t) = false := by decide +kernel
theorem live_in2 : ∀ t : Fin cfg2.N, cfg2.idle 2 (grid2.coords t) = false := by decide +kernel
theorem idle_out : ∀ t : Fin cfg2.N, ¬ isLast (grid2.coords t) → cfg2.idle 3 (grid2.coords t) = true := by decide +kernel
theorem noflush_out : ∀ t : Fin cfg2.N, ¬ isLast (grid2.coords t) → (cfg2.win 3).flush t = false := by decide +kernel
theorem live_out : ∀ t : Fin cfg2.N, isLast (grid2.coords t) → cfg2.idle 3 (grid2.coords t) = false := by decide +kernel

/-! ## The buffers the body is called with, and the scratch -/

abbrev bufA (t : Fin cfg2.N) : Memref sig .tc .vmem S1024x2048 .bf16 := win2_0.stage (cfg2.slots t 0)
abbrev bufA_whole (t : Fin cfg2.N) : (bufA t).IsWhole := hstage2_0 ((cfg2.slots t 0).cast nbuf2_0)
abbrev bufH (t : Fin cfg2.N) : Memref sig .tc .vmem S2048x128 .f32 := win2_1.stage (cfg2.slots t 1)
abbrev bufH_whole (t : Fin cfg2.N) : (bufH t).IsWhole := hstage2_1 ((cfg2.slots t 1).cast nbuf2_1)
abbrev bufB (t : Fin cfg2.N) : Memref sig .tc .vmem S1x128 .f32 := win2_2.stage (cfg2.slots t 2)
abbrev bufB_whole (t : Fin cfg2.N) : (bufB t).IsWhole := hstage2_2 ((cfg2.slots t 2).cast nbuf2_2)
abbrev bufO (t : Fin cfg2.N) : Memref sig .tc .vmem S1024x128 .f32 := win2_3.stage (cfg2.slots t 3)
abbrev bufO_whole (t : Fin cfg2.N) : (bufO t).IsWhole := hstage2_3 ((cfg2.slots t 3).cast nbuf2_3)
/-- The partial-sum scratch: a whole buffer of the kernel's own. -/
abbrev scr : Memref sig .tc .vmem S1024x128 .f32 := Memref.whole cc2_scratch0
abbrev scr_whole : (scr).IsWhole := Memref.isWhole_whole _
/-- What a list of stores leaves in the scratch, read back (over anything: the lists used below cover it). -/
def scrOf (L : List (View.Piece (Elt F) S1024x128 .f32)) : Vec F S1024x128 .f32 :=
  scr.view.read (Elt F) (scr.view.writes (Elt F) scr.view.junk L)
/-- The same through one buffer of the result window (which of the two does not matter for a covering list). -/
abbrev outView : View sig .tc .vmem S1024x128 .f32 := (Memref.whole cc2_stg3_0 : Memref sig .tc .vmem S1024x128 .f32).view
def outOf (L : List (View.Piece (Elt F) S1024x128 .f32)) : Vec F S1024x128 .f32 :=
  outView.read (Elt F) (outView.writes (Elt F) outView.junk L)

/-! ## The body's three runs -/

set_option maxHeartbeats 2000000 in
/-- FIRST point of a row block (k = 0): with the tile `a`, the rows `b` of h and the bias in their buffers, the result's
    buffer at anything `xo` (handed back untouched) and the scratch at anything, the body runs to the end leaving the
    scratch with the pieces `LS` written — the clearing store, then the sum's. -/
noncomputable def runFirst (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole)
    (a6 : Memref sig .tc .vmem S1024x128 .f32) (h6 : a6.IsWhole) (hc0 : isFirst i) (hc1 : ¬ isLast i)
    (a : Vec F S1024x2048 .bf16) (b : Vec F S2048x128 .f32) (bias : Vec F S1x128 .f32) :
    { LS : List (View.Piece (Elt F) S1024x128 .f32) //
      ∀ (xo : Vec F S1024x128 .f32) (E : Set ℕ) (K : PUnit → sProp 𝕄),
        iprop(owns (c : Thread nD τ) a2 fullShare a ∗ owns (c : Thread nD τ) a3 fullShare b ∗ owns (c : Thread nD τ) a4 fullShare bias ∗ owns (c : Thread nD τ) a5 fullShare xo ∗ (∃ d, owns (c : Thread nD τ) a6 fullShare d)
            ∗ (iprop(owns (c : Thread nD τ) a2 fullShare a ∗ owns (c : Thread nD τ) a3 fullShare b ∗ owns (c : Thread nD τ) a4 fullShare bias ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc2__agg_kernel i a2 h2 a3 h3 a4 h4 a5 h5 a6 h6) K } := by
  refine ⟨?_, fun xo E K => ?run⟩
  case run =>
    simp only [cc2__agg_kernel_eq_skeleton]; unfold cc2__agg_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := h2.eq_unread hf2; obtain rfl := h3.eq_unread hf3; obtain rfl := h4.eq_unread hf4; obtain rfl := h5.eq_unread hf5
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

set_option maxHeartbeats 2000000 in
/-- MIDDLE point (k = 1, 2): as the first, but the scratch holds what the point before left, `xs`, and the body only adds
    the tile's product to it. -/
noncomputable def runMid (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole)
    (a6 : Memref sig .tc .vmem S1024x128 .f32) (h6 : a6.IsWhole) (hc0 : ¬ isFirst i) (hc1 : ¬ isLast i)
    (a : Vec F S1024x2048 .bf16) (b : Vec F S2048x128 .f32) (bias : Vec F S1x128 .f32) (xs : Vec F S1024x128 .f32) :
    { LS : List (View.Piece (Elt F) S1024x128 .f32) //
      ∀ (xo : Vec F S1024x128 .f32) (E : Set ℕ) (K : PUnit → sProp 𝕄),
        iprop(owns (c : Thread nD τ) a2 fullShare a ∗ owns (c : Thread nD τ) a3 fullShare b ∗ owns (c : Thread nD τ) a4 fullShare bias ∗ owns (c : Thread nD τ) a5 fullShare xo ∗ owns (c : Thread nD τ) a6 fullShare xs
            ∗ (iprop(owns (c : Thread nD τ) a2 fullShare a ∗ owns (c : Thread nD τ) a3 fullShare b ∗ owns (c : Thread nD τ) a4 fullShare bias ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc2__agg_kernel i a2 h2 a3 h3 a4 h4 a5 h5 a6 h6) K } := by
  refine ⟨?_, fun xo E K => ?run⟩
  case run =>
    simp only [cc2__agg_kernel_eq_skeleton]; unfold cc2__agg_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := h2.eq_unread hf2; obtain rfl := h3.eq_unread hf3; obtain rfl := h4.eq_unread hf4; obtain rfl := h5.eq_unread hf5
    obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

set_option maxHeartbeats 2000000 in
/-- LAST point (k = 3): the scratch holds `xs`; the body adds the tile's product to it and then stores the row block of
    the result (scratch plus bias row), leaving the pieces `LO` in the result's buffer (at anything before) and `LS` in the scratch. -/
noncomputable def runLast (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole)
    (a6 : Memref sig .tc .vmem S1024x128 .f32) (h6 : a6.IsWhole) (hc0 : ¬ isFirst i) (hc1 : isLast i)
    (a : Vec F S1024x2048 .bf16) (b : Vec F S2048x128 .f32) (bias : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) a2 fullShare a ∗ owns (c : Thread nD τ) a3 fullShare b ∗ owns (c : Thread nD τ) a4 fullShare bias ∗ (∃ d, owns (c : Thread nD τ) a5 fullShare d) ∗ owns (c : Thread nD τ) a6 fullShare xs
            ∗ (iprop(owns (c : Thread nD τ) a2 fullShare a ∗ owns (c : Thread nD τ) a3 fullShare b ∗ owns (c : Thread nD τ) a4 fullShare bias ∗ (∃ f, a5.view.loc (c : Thread nD τ) ↦[a5.view.set]{fullShare} a5.view.writes (Elt F) f LO) ∗ (∃ f, a6.view.loc (c : Thread nD τ) ↦[a6.view.set]{fullShare} a6.view.writes (Elt F) f LS)) -∗ K ⟨⟩))
          ⊢ wp frame (wpE (defs₀ (F := F)) Variants.none c none) E (cc2__agg_kernel i a2 h2 a3 h3 a4 h4 a5 h5 a6 h6) K } := by
  refine ⟨?_, ?_, fun E K => ?run⟩
  case run =>
    simp only [cc2__agg_kernel_eq_skeleton]; unfold cc2__agg_kernel_skel
    unfold owns
    iintro ⟨⟨%f2, %hf2, H2⟩, ⟨%f3, %hf3, H3⟩, ⟨%f4, %hf4, H4⟩, ⟨%d5, %f5, -, H5⟩, ⟨%f6, %hf6, H6⟩, Hk⟩
    obtain rfl := h2.eq_unread hf2; obtain rfl := h3.eq_unread hf3; obtain rfl := h4.eq_unread hf4
    obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

end Cert.KernelIdeal.Agg2

end
-- ==== Proof.IdealAgg2.lean ====
/-
  The aggregation launch of the second layer, continued: what the partial-sum scratch holds after each grid point, the
  invariant that hands it from one point to the next, and the data the pipelining argument runs with.

  After point t = 4·i + k the scratch holds the sum over k' ≤ k of the products  Â-tile (i, k') · g-rows (k'),  built
  up as the body builds it.  Before the first point the scratch is one of the launch's untouched scoped buffers, at
  anything; from then on the invariant names its contents.
-/
import proofs.«131745_j1614907703640_2_alg».proof.Proof.IdealAgg2Runs

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` shows at grid point `t`: tile (i, k) of Â, rows 2048·k … of h, the bias row, rows 1024·i … of
    the result. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's buffer holds its block at every point (the bias is fetched once and its block index never moves). -/
theorem before_a_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_h_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The three runs at a grid point, and that their stores cover the buffers -/

def firstAt (c : Dev nD) (t : Fin cfg2.N) (h0 : t.val % 4 = 0) :=
  runFirst (F := F) c (grid2.coords t) (bufA t) (bufA_whole t) (bufH t) (bufH_whole t) (bufB t) (bufB_whole t) (bufO t) (bufO_whole t) scr scr_whole
    ((isFirst_iff t).mpr h0) (fun h => by have := (isLast_iff t).mp h; omega) (blk V c 0 t) (blk V c 1 t) (blk V c 2 t)
def midAt (c : Dev nD) (t : Fin cfg2.N) (h0 : ¬ t.val % 4 = 0) (h3 : ¬ t.val % 4 = 3) (xs : Vec F S1024x128 .f32) :=
  runMid (F := F) c (grid2.coords t) (bufA t) (bufA_whole t) (bufH t) (bufH_whole t) (bufB t) (bufB_whole t) (bufO t) (bufO_whole t) scr scr_whole
    (fun h => h0 ((isFirst_iff t).mp h)) (fun h => h3 ((isLast_iff t).mp h)) (blk V c 0 t) (blk V c 1 t) (blk V c 2 t) xs
def lastAt (c : Dev nD) (t : Fin cfg2.N) (h0 : ¬ t.val % 4 = 0) (h3 : t.val % 4 = 3) (xs : Vec F S1024x128 .f32) :=
  runLast (F := F) c (grid2.coords t) (bufA t) (bufA_whole t) (bufH t) (bufH_whole t) (bufB t) (bufB_whole t) (bufO t) (bufO_whole t) scr scr_whole
    (fun h => h0 ((isFirst_iff t).mp h)) ((isLast_iff t).mpr h3) (blk V c 0 t) (blk V c 1 t) (blk V c 2 t) xs

theorem first_covers (c : Dev nD) (t : Fin cfg2.N) (h0 : t.val % 4 = 0) (y : S1024x128.Idx) :
    ∃ pc ∈ (firstAt V c t h0).1, y ∈ pc.1.set :=
  View.cover_of_tiledL (firstAt V c t h0).1 S1024x128.size (by sl_kernel_rfl) y
theorem mid_covers (c : Dev nD) (t : Fin cfg2.N) (h0 : ¬ t.val % 4 = 0) (h3 : ¬ t.val % 4 = 3) (xs : Vec F S1024x128 .f32) (y : S1024x128.Idx) :
    ∃ pc ∈ (midAt V c t h0 h3 xs).1, y ∈ pc.1.set :=
  View.cover_of_tiledL (midAt V c t h0 h3 xs).1 S1024x128.size (by sl_kernel_rfl) y
theorem last_covers_scr (c : Dev nD) (t : Fin cfg2.N) (h0 : ¬ t.val % 4 = 0) (h3 : t.val % 4 = 3) (xs : Vec F S1024x128 .f32) (y : S1024x128.Idx) :
    ∃ pc ∈ (lastAt V c t h0 h3 xs).2.1, y ∈ pc.1.set :=
  View.cover_of_tiledL (lastAt V c t h0 h3 xs).2.1 S1024x128.size (by sl_kernel_rfl) y
theorem last_covers_out (c : Dev nD) (t : Fin cfg2.N) (h0 : ¬ t.val % 4 = 0) (h3 : t.val % 4 = 3) (xs : Vec F S1024x128 .f32) (y : S1024x128.Idx) :
    ∃ pc ∈ (lastAt V c t h0 h3 xs).1, y ∈ pc.1.set :=
  View.cover_of_tiledL (lastAt V c t h0 h3 xs).1 S1024x128.size (by sl_kernel_rfl) y

/-! ## What the scratch holds after each point -/

/-- THE PARTIAL SUM after the body at position `n`: at the first point of a row block what the clearing and the first
    addition leave; afterwards what adding this point's product to the previous point's contents leaves. -/
def accAt (c : Dev nD) : (n : ℕ) → n < cfg2.N → Vec F S1024x128 .f32
  | 0, hn => scrOf (firstAt V c ⟨0, hn⟩ (Nat.zero_mod 4)).1
  | n + 1, hn =>
    if h0 : (n + 1) % 4 = 0 then scrOf (firstAt V c ⟨n + 1, hn⟩ h0).1
    else if h3 : (n + 1) % 4 = 3 then scrOf (lastAt V c ⟨n + 1, hn⟩ h0 h3 (accAt c n (Nat.lt_of_succ_lt hn))).2.1
    else scrOf (midAt V c ⟨n + 1, hn⟩ h0 h3 (accAt c n (Nat.lt_of_succ_lt hn))).1

/-- What the scratch holds when point `t` begins, for a point that is not the first of its row block. -/
def prevAcc (c : Dev nD) : (t : Fin cfg2.N) → Vec F S1024x128 .f32
  | ⟨0, _⟩ => scrOf []
  | ⟨n + 1, hn⟩ => accAt V c n (Nat.lt_of_succ_lt hn)

theorem accAt_first (c : Dev nD) (t : Fin cfg2.N) (h0 : t.val % 4 = 0) :
    accAt V c t.val t.isLt = scrOf (firstAt V c t h0).1 := by
  obtain ⟨n, hn⟩ := t
  cases n with
  | zero => rfl
  | succ n => exact dif_pos h0
theorem accAt_mid (c : Dev nD) (t : Fin cfg2.N) (h0 : ¬ t.val % 4 = 0) (h3 : ¬ t.val % 4 = 3) :
    accAt V c t.val t.isLt = scrOf (midAt V c t h0 h3 (prevAcc V c t)).1 := by
  obtain ⟨n, hn⟩ := t
  cases n with
  | zero => exact absurd (Nat.zero_mod 4) h0
  | succ n => exact (dif_neg h0).trans (dif_neg h3)
theorem accAt_last (c : Dev nD) (t : Fin cfg2.N) (h0 : ¬ t.val % 4 = 0) (h3 : t.val % 4 = 3) :
    accAt V c t.val t.isLt = scrOf (lastAt V c t h0 h3 (prevAcc V c t)).2.1 := by
  obtain ⟨n, hn⟩ := t
  cases n with
  | zero => exact absurd (Nat.zero_mod 4) h0
  | succ n => exact (dif_neg h0).trans (dif_pos h3)

/-- What the result's buffer holds after point `t`: at the last point of a row block the stored row block; elsewhere
    the window is idle and this is never consulted. -/
def outAt (c : Dev nD) (t : Fin cfg2.N) : Vec F S1024x128 .f32 :=
  if h3 : t.val % 4 = 3 then outOf (lastAt V c t (by omega) h3 (prevAcc V c t)).1 else outOf []

theorem outAt_last (c : Dev nD) (t : Fin cfg2.N) (h0 : ¬ t.val % 4 = 0) (h3 : t.val % 4 = 3) :
    outAt V c t = outOf (lastAt V c t h0 h3 (prevAcc V c t)).1 := dif_pos h3

/-! ## The invariant: the launch's untouched scoped buffers, with the scratch singled out -/

/-- The core's scoped buffers that are no staging buffer of this launch, each whole at some contents, and the generator
    register at some state — with `S` in the scratch's place. -/
def restWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ S ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f)) ∗ ∃ r, prngReg c r)

/-- The launch's untouched rest is that with the scratch at some contents. -/
theorem rest_eq (c : Dev nD) :
    (Pipeline.ΦA spec2 c : sProp 𝕄) = restWith c iprop(∃ f : Buf (Elt F) ((c : Thread nD τ).loc cc2_scratch0), ((c : Thread nD τ).loc cc2_scratch0) ↦{fullShare} f) := by
  unfold Pipeline.ΦA restWith; rw [scopedRest2_eq]

theorem restWith_take (c : Dev nD) (S : sProp 𝕄) : restWith c S ⊢ iprop(S ∗ restWith c iprop(emp)) := by
  unfold restWith
  iintro ⟨⟨B0, B1, B2, B3, B4, B5, B6, B7, B8, B9, B10, B11, B12, HS, A0, A1, A2, A3, A4, A5, A6, A7⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitr; · iempintro
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact Hg

theorem restWith_give (c : Dev nD) (S : sProp 𝕄) : iprop(S ∗ restWith c iprop(emp)) ⊢ restWith c S := by
  unfold restWith
  iintro ⟨HS, ⟨⟨B0, B1, B2, B3, B4, B5, B6, B7, B8, B9, B10, B11, B12, -, A0, A1, A2, A3, A4, A5, A6, A7⟩, Hg⟩⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [HS]; · iexact HS
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

/-- The invariant before position `n`: before the first point the launch's untouched rest; afterwards the same with the
    scratch at the partial sum the point before left. -/
def inv (c : Dev nD) : (n : ℕ) → n ≤ cfg2.N → sProp 𝕄
  | 0, _ => Pipeline.ΦA spec2 c
  | n + 1, hn => restWith c (owns (c : Thread nD τ) scr fullShare (accAt V c n hn))

/-- Whatever the position, the invariant yields the scratch at some contents beside the rest. -/
theorem inv_open (c : Dev nD) (n : ℕ) (hn : n ≤ cfg2.N) :
    inv V c n hn ⊢ iprop((∃ d, owns (c : Thread nD τ) scr fullShare d) ∗ restWith c iprop(emp)) := by
  cases n with
  | zero =>
    show Pipeline.ΦA spec2 c ⊢ _
    rw [rest_eq]
    refine (restWith_take c _).trans ?_
    iintro ⟨⟨%f, H⟩, HR⟩
    isplitl [H]
    · iexists f; rw [owns_whole]; iexact H
    iexact HR
  | succ n =>
    show restWith c _ ⊢ _
    refine (restWith_take c _).trans ?_
    iintro ⟨H, HR⟩
    isplitl [H]
    · iexists _; iexact H
    iexact HR

/-- After a first point the invariant gives the launch's rest back: the scratch's named contents are forgotten. -/
theorem inv_close (c : Dev nD) (n : ℕ) (hn : n + 1 ≤ cfg2.N) : inv V c (n + 1) hn ⊢ Pipeline.ΦA spec2 c := by
  show restWith c _ ⊢ _
  rw [rest_eq]
  refine (restWith_take c _).trans ?_
  refine .trans ?_ (restWith_give c _)
  iintro ⟨H, HR⟩
  isplitl [H]
  · iexists _; rw [← owns_whole]; iexact H
  iexact HR

/-! ## The data the pipelining argument runs with -/

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outAt V c t
  Φ t := inv V c t.val (Nat.le_of_lt_succ t.isLt)
  q _ := fullShare
  owed _ := 0

theorem dat_A (c : Dev nD) (w : Fin cfg2.W) : (dat V c).A w = V c (Pipeline.arrRef spec2 w) := by
  dsimp only [dat]
theorem after_a (c : Dev nD) (t : Fin cfg2.N) : (dat V c).after 0 t = blk V c 0 t := by dsimp only [dat]
theorem after_h (c : Dev nD) (t : Fin cfg2.N) : (dat V c).after 1 t = blk V c 1 t := by dsimp only [dat]
theorem after_b (c : Dev nD) (t : Fin cfg2.N) : (dat V c).after 2 t = blk V c 2 t := by dsimp only [dat]
theorem after_out (c : Dev nD) (t : Fin cfg2.N) : (dat V c).after 3 t = outAt V c t := by dsimp only [dat]
theorem before_a (c : Dev nD) (t : Fin cfg2.N) (d) : (dat V c).before 0 t d = blk V c 0 t :=
  before_a_of V (dat V c) (dat_A V c 0) (after_a V c) t d
theorem before_h (c : Dev nD) (t : Fin cfg2.N) (d) : (dat V c).before 1 t d = blk V c 1 t :=
  before_h_of V (dat V c) (dat_A V c 1) (after_h V c) t d
theorem before_b (c : Dev nD) (t : Fin cfg2.N) (d) : (dat V c).before 2 t d = blk V c 2 t :=
  before_b_of V (dat V c) (dat_A V c 2) (after_b V c) t d

end Cert.KernelIdeal.Agg2

end
-- ==== Proof.IdealAgg2Body.lean ====
/-
  The aggregation launch of the second layer, concluded: the obligation the launch theorem asks of the body, at every
  grid point — first, middle or last of its row block, as for the first layer.
-/
import proofs.«131745_j1614907703640_2_alg».proof.Proof.IdealAgg2

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a point that is not the first of its row block the invariant holds the scratch at the previous partial sum. -/
theorem inv_prev (c : Dev nD) (t : Fin cfg2.N) (h0 : ¬ t.val % 4 = 0) :
    inv V c t.val (Nat.le_of_lt t.isLt) ⊢ iprop(owns (c : Thread nD τ) scr fullShare (prevAcc V c t) ∗ restWith c iprop(emp)) := by
  obtain ⟨n, hn⟩ := t
  cases n with
  | zero => exact absurd (Nat.zero_mod 4) h0
  | succ n => exact restWith_take c _

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (bufA t) fullShare ((dat V c).before 0 t d))
    ∗ (∃ d, owns (c : Thread nD τ) (bufH t) fullShare ((dat V c).before 1 t d))
    ∗ (∃ d, owns (c : Thread nD τ) (bufB t) fullShare ((dat V c).before 2 t d))
    ∗ (∃ d, owns (c : Thread nD τ) (bufO t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_a, before_h, before_b]
  rw [show (dat V c).owesAt () t.succ = (dat V c).owesAt () t.castSucc from rfl]
  rw [show (dat V c).leavesExact 0 t = owns (c : Thread nD τ) (bufA t) fullShare (blk V c 0 t) from by
        unfold Dat.leavesExact; rw [live_in0 t, after_a],
    show (dat V c).leavesExact 1 t = owns (c : Thread nD τ) (bufH t) fullShare (blk V c 1 t) from by
        unfold Dat.leavesExact; rw [live_in1 t, after_h],
    show (dat V c).leavesExact 2 t = owns (c : Thread nD τ) (bufB t) fullShare (blk V c 2 t) from by
        unfold Dat.leavesExact; rw [live_in2 t, after_b]]
  rw [show (dat V c).Φ t.succ = restWith c (owns (c : Thread nD τ) scr fullShare (accAt V c t.val t.isLt)) from rfl]
  rw [show (dat V c).Φ t.castSucc = inv V c t.val (Nat.le_of_lt t.isLt) from rfl]
  by_cases h0 : t.val % 4 = 0
  · -- the first point of a row block
    have h3 : ¬ t.val % 4 = 3 := by omega
    have hopen := inv_open V c t.val (Nat.le_of_lt t.isLt)
    rw [Dat.leavesExact_idle (dat V c) 3 t (idle_out t (fun h => h3 ((isLast_iff t).mp h))) (noflush_out t (fun h => h3 ((isLast_iff t).mp h)))]
    rw [accAt_first V c t h0]
    iintro ⟨HΦ, Ho, ⟨%d0, H0⟩, ⟨%d1, H1⟩, ⟨%d2, H2⟩, ⟨%d3, H3⟩⟩
    ihave HΦ' := hopen $$ HΦ
    icases HΦ' with ⟨HS, HR⟩
    iapply ((firstAt V c t h0).2 _ Set.univ _)
    isplitl [H0]; · iexact H0
    isplitl [H1]; · iexact H1
    isplitl [H2]; · iexact H2
    isplitl [H3]; · iexact H3
    isplitl [HS]; · iexact HS
    iintro ⟨H0, H1, H2, H3, ⟨%f, HS⟩⟩
    isplitl [HS HR]
    · iapply (restWith_give c _)
      isplitl [HS]
      · unfold owns; iexists _; isplitr
        swap; · iexact HS
        ipureintro; exact View.read_writes_of_cover _ _ _ _ _ (first_covers V c t h0)
      iexact HR
    isplitl [Ho]; · iexact Ho
    isplitl [H0]; · iexact H0
    isplitl [H1]; · iexact H1
    isplitl [H2]; · iexact H2
    iexists _; iexact H3
  · have hprev := inv_prev V c t h0
    by_cases h3 : t.val % 4 = 3
    · -- the last point of a row block
      rw [show (dat V c).leavesExact 3 t = owns (c : Thread nD τ) (bufO t) fullShare (outAt V c t) from by
            unfold Dat.leavesExact; rw [live_out t ((isLast_iff t).mpr h3), after_out]]
      rw [accAt_last V c t h0 h3, outAt_last V c t h0 h3]
      iintro ⟨HΦ, Ho, ⟨%d0, H0⟩, ⟨%d1, H1⟩, ⟨%d2, H2⟩, ⟨%d3, H3⟩⟩
      ihave HΦ' := hprev $$ HΦ
      icases HΦ' with ⟨HS, HR⟩
      iapply ((lastAt V c t h0 h3 (prevAcc V c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%g, H3⟩, ⟨%f, HS⟩⟩
      isplitl [HS HR]
      · iapply (restWith_give c _)
        isplitl [HS]
        · unfold owns; iexists _; isplitr
          swap; · iexact HS
          ipureintro; exact View.read_writes_of_cover _ _ _ _ _ (last_covers_scr V c t h0 h3 _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_covers_out V c t h0 h3 _)
    · -- a middle point
      rw [Dat.leavesExact_idle (dat V c) 3 t (idle_out t (fun h => h3 ((isLast_iff t).mp h))) (noflush_out t (fun h => h3 ((isLast_iff t).mp h)))]
      rw [accAt_mid V c t h0 h3]
      iintro ⟨HΦ, Ho, ⟨%d0, H0⟩, ⟨%d1, H1⟩, ⟨%d2, H2⟩, ⟨%d3, H3⟩⟩
      ihave HΦ' := hprev $$ HΦ
      icases HΦ' with ⟨HS, HR⟩
      iapply ((midAt V c t h0 h3 (prevAcc V c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%f, HS⟩⟩
      isplitl [HS HR]
      · iapply (restWith_give c _)
        isplitl [HS]
        · unfold owns; iexists _; isplitr
          swap; · iexact HS
          ipureintro; exact View.read_writes_of_cover _ _ _ _ _ (mid_covers V c t h0 h3 _)
        iexact HR
      isplitl [Ho]; · iexact Ho
      isplitl [H0]; · iexact H0
      isplitl [H1]; · iexact H1
      isplitl [H2]; · iexact H2
      iexists _; iexact H3

/-- The obligation the launch theorem asks of the body, at every point. -/
theorem body_obligation (c : Dev nD) : BodyObligation (dat (F := F) V c) (defs₀ (F := F)) Variants.none () Set.univ := fun t => by
  rw [bigSep_W2, bigSep_W2]
  exact body_at V c t

/-- What the launch hands over is the invariant before the first point, -/
theorem inv_first (c : Dev nD) : Pipeline.ΦA spec2 c ⊢ (dat V c).Φ 0 := Idealize.SL.BI.Entails.refl _

/-- and after the last point the invariant gives it back. -/
theorem inv_last (c : Dev nD) : (dat V c).Φ (Fin.last cfg2.N) ⊢ Pipeline.ΦA spec2 c := by
  have hN : cfg2.N = 32 := N_2
  have key : ∀ (n : ℕ) (hn : n ≤ cfg2.N), n ≠ 0 → inv V c n hn ⊢ Pipeline.ΦA spec2 c := fun n hn hz => by
    cases n with
    | zero => exact absurd rfl hz
    | succ n => exact inv_close V c n hn
  exact key (Fin.last cfg2.N).val (Nat.le_of_lt_succ (Fin.last cfg2.N).isLt) (by rw [Fin.val_last]; omega)

end Cert.KernelIdeal.Agg2

end
-- ==== Proof.IdealWhole.lean ====
/-
  The whole run of the idealized program: its @main is fourteen items — stretches of host operations and the four
  launches — and the contents of the TensorCore's buffers between two items are a fold from the launch memory: a
  stretch of host operations applies them; a launch leaves its result array at what its write-backs leave (the row
  blocks the grid points wrote, folded in grid order) and every other buffer as it found it.  With each launch's
  record (its layout, its body obligation, how its arrays are split out of the unscoped buffers and put back) the
  library's theorem for a program of several launches gives: every weakly fair execution terminates, nothing faults,
  and every buffer ends at the last boundary's contents — in particular the result at what the last launch leaves,
  and each argument, which no host operation writes and no launch changes, at its launch contents.
-/
import proofs.«131745_j1614907703640_2_alg».proof.Proof.IdealDense
import proofs.«131745_j1614907703640_2_alg».proof.Proof.IdealHead
import proofs.«131745_j1614907703640_2_alg».proof.Proof.IdealAggBody
import proofs.«131745_j1614907703640_2_alg».proof.Proof.IdealAgg2Body
import proofs.«131745_j1614907703640_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host operations `hostOps0`. -/
abbrev W1 : Dev nD → Valuation τ sig (Elt F) := fun c => StableHlo.after hostOps0 (W0 m ρ c)
/-- After the host operations `hostOps0_1`. -/
abbrev W2 : Dev nD → Valuation τ sig (Elt F) := fun c => StableHlo.after hostOps0_1 (W1 m ρ c)
/-- After the host operations `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After launch 0: its arrays at what the pipeline leaves (the inputs as entered, the result's write-backs folded),
    every other buffer as entered. -/
def W4 (c : Dev nD) : Valuation τ sig (Elt F) :=
  Pipeline.withArrays spec0 c (W3 m ρ c) fun w => (Dense.dat (V3 m ρ) c).arrAt w cfg0.N
theorem W4_arr (c : Dev nD) (w : Fin cfg0.W) :
    W4 m ρ c (Proc.devRef .tc (Pipeline.arrRef spec0 w)) = (Dense.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (Dense.dat (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host operations `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After launch 1: its arrays at what the pipeline leaves (the inputs as entered, the result's write-backs folded),
    every other buffer as entered. -/
def W6 (c : Dev nD) : Valuation τ sig (Elt F) :=
  Pipeline.withArrays spec1 c (W5 m ρ c) fun w => (Agg.dat (V5 m ρ) c).arrAt w cfg1.N
theorem W6_arr (c : Dev nD) (w : Fin cfg1.W) :
    W6 m ρ c (Proc.devRef .tc (Pipeline.arrRef spec1 w)) = (Agg.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Agg.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host operations `hostOps2`. -/
abbrev W7 : Dev nD → Valuation τ sig (Elt F) := fun c => StableHlo.after hostOps2 (W6 m ρ c)
/-- After the host operations `hostOps2_1`. -/
abbrev W8 : Dev nD → Valuation τ sig (Elt F) := fun c => StableHlo.after hostOps2_1 (W7 m ρ c)
/-- After the host operations `hostOps2_2`. -/
abbrev W9 : Dev nD → Valuation τ sig (Elt F) := fun c => StableHlo.after hostOps2_2 (W8 m ρ c)
/-- After the host operations `hostOps2_3`. -/
abbrev W10 : Dev nD → Valuation τ sig (Elt F) := fun c => StableHlo.after hostOps2_3 (W9 m ρ c)
/-- After the host operations `hostOps2_4`. -/
abbrev W11 : Dev nD → Valuation τ sig (Elt F) := fun c => StableHlo.after hostOps2_4 (W10 m ρ c)
abbrev V11 : (c : Dev nD) → (b : Ref sig .tc) → Buf (Elt F) ((c : Thread nD τ).loc b) := fun c b => W11 m ρ c b
/-- After launch 2: its arrays at what the pipeline leaves (the inputs as entered, the result's write-backs folded),
    every other buffer as entered. -/
def W12 (c : Dev nD) : Valuation τ sig (Elt F) :=
  Pipeline.withArrays spec2 c (W11 m ρ c) fun w => (Agg2.dat (V11 m ρ) c).arrAt w cfg2.N
theorem W12_arr (c : Dev nD) (w : Fin cfg2.W) :
    W12 m ρ c (Proc.devRef .tc (Pipeline.arrRef spec2 w)) = (Agg2.dat (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (Agg2.dat (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- After the host operations `hostOps3`. -/
abbrev W13 : Dev nD → Valuation τ sig (Elt F) := fun c => StableHlo.after hostOps3 (W12 m ρ c)
abbrev V13 : (c : Dev nD) → (b : Ref sig .tc) → Buf (Elt F) ((c : Thread nD τ).loc b) := fun c b => W13 m ρ c b
/-- After launch 3: its arrays at what the pipeline leaves (the inputs as entered, the result's write-backs folded),
    every other buffer as entered. -/
def W14 (c : Dev nD) : Valuation τ sig (Elt F) :=
  Pipeline.withArrays spec3 c (W13 m ρ c) fun w => (Head.dat (V13 m ρ) c).arrAt w cfg3.N
theorem W14_arr (c : Dev nD) (w : Fin cfg3.W) :
    W14 m ρ c (Proc.devRef .tc (Pipeline.arrRef spec3 w)) = (Head.dat (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb
abbrev V14 : (c : Dev nD) → (b : Ref sig .tc) → Buf (Elt F) ((c : Thread nD τ).loc b) := fun c b => W14 m ρ c b
theorem hF3 (c : Dev nD) (w : Fin cfg3.W) : (Head.dat (V13 m ρ) c).arrAt w cfg3.N = V14 m ρ c (Pipeline.arrRef spec3 w) :=
  (W14_arr m ρ c w).symm
theorem hrest3 (c : Dev nD) : ∀ b, b ∉ Finset.univ.image (Pipeline.arrRef spec3) → V14 m ρ c b = V13 m ρ c b :=
  fun b hb => W14_of_ne m ρ c b fun w e => hb (Finset.mem_image.mpr ⟨w, Finset.mem_univ _, e⟩)

/-! ## What each item leaves unchanged -/

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W5_of (c : Dev nD) (r : Ref sig .tc) (h : r ∉ hostOps1_W) : W5 m ρ c r = W4 m ρ c r :=
  StableHlo.after_of_writes_sub hostOps1 _ hostOps1_writes h
theorem W7_of (c : Dev nD) (r : Ref sig .tc) (h : r ∉ hostOps2_W) : W7 m ρ c r = W6 m ρ c r :=
  StableHlo.after_of_writes_sub hostOps2 _ hostOps2_writes h
theorem W8_of (c : Dev nD) (r : Ref sig .tc) (h : r ∉ hostOps2_1_W) : W8 m ρ c r = W7 m ρ c r :=
  StableHlo.after_of_writes_sub hostOps2_1 _ hostOps2_1_writes h
theorem W9_of (c : Dev nD) (r : Ref sig .tc) (h : r ∉ hostOps2_2_W) : W9 m ρ c r = W8 m ρ c r :=
  StableHlo.after_of_writes_sub hostOps2_2 _ hostOps2_2_writes h
theorem W10_of (c : Dev nD) (r : Ref sig .tc) (h : r ∉ hostOps2_3_W) : W10 m ρ c r = W9 m ρ c r :=
  StableHlo.after_of_writes_sub hostOps2_3 _ hostOps2_3_writes h
theorem W11_of (c : Dev nD) (r : Ref sig .tc) (h : r ∉ hostOps2_4_W) : W11 m ρ c r = W10 m ρ c r :=
  StableHlo.after_of_writes_sub hostOps2_4 _ hostOps2_4_writes h
theorem W13_of (c : Dev nD) (r : Ref sig .tc) (h : r ∉ hostOps3_W) : W13 m ρ c r = W12 m ρ c r :=
  StableHlo.after_of_writes_sub hostOps3 _ hostOps3_writes h

/-! ## The arguments end as launched -/

theorem W14_main_arg0 (c : Dev nD) : W14 m ρ c (Proc.devRef .tc main_arg0) = m ((c : Thread nD τ).loc main_arg0) :=
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of m ρ c main_arg0 (by decide)).trans <|
  (W9_of m ρ c main_arg0 (by decide)).trans <|
  (W8_of m ρ c main_arg0 (by decide)).trans <|
  (W7_of m ρ c main_arg0 (by decide)).trans <|
  (W6_of_ne m ρ c main_arg0 (by decide)).trans <|
  (W5_of m ρ c main_arg0 (by decide)).trans <|
  ((W4_arr m ρ c 0).trans (((Dense.dat (V3 m ρ) c).arrAt_in 0 rfl _).trans (Dense.dat_A (V3 m ρ) c 0))).trans <|
  (W3_of m ρ c main_arg0 (by decide)).trans <|
  (W2_of m ρ c main_arg0 (by decide)).trans <|
  (W1_of m ρ c main_arg0 (by decide))
theorem W14_main_arg1 (c : Dev nD) : W14 m ρ c (Proc.devRef .tc main_arg1) = m ((c : Thread nD τ).loc main_arg1) :=
  ((W14_arr m ρ c 1).trans (((Head.dat (V13 m ρ) c).arrAt_in 1 rfl _).trans (Head.dat_A (V13 m ρ) c 1))).trans <|
  (W13_of m ρ c main_arg1 (by decide)).trans <|
  (W12_of_ne m ρ c main_arg1 (by decide)).trans <|
  (W11_of m ρ c main_arg1 (by decide)).trans <|
  (W10_of m ρ c main_arg1 (by decide)).trans <|
  (W9_of m ρ c main_arg1 (by decide)).trans <|
  (W8_of m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of m ρ c main_arg1 (by decide)).trans <|
  (W1_of m ρ c main_arg1 (by decide))
theorem W14_main_arg2 (c : Dev nD) : W14 m ρ c (Proc.devRef .tc main_arg2) = m ((c : Thread nD τ).loc main_arg2) :=
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of m ρ c main_arg2 (by decide)).trans <|
  (W9_of m ρ c main_arg2 (by decide)).trans <|
  (W8_of m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of m ρ c main_arg2 (by decide)).trans <|
  (W1_of m ρ c main_arg2 (by decide))
theorem W14_main_arg3 (c : Dev nD) : W14 m ρ c (Proc.devRef .tc main_arg3) = m ((c : Thread nD τ).loc main_arg3) :=
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of m ρ c main_arg3 (by decide)).trans <|
  (W9_of m ρ c main_arg3 (by decide)).trans <|
  (W8_of m ρ c main_arg3 (by decide)).trans <|
  (W7_of m ρ c main_arg3 (by decide)).trans <|
  (W6_of_ne m ρ c main_arg3 (by decide)).trans <|
  (W5_of m ρ c main_arg3 (by decide)).trans <|
  ((W4_arr m ρ c 1).trans (((Dense.dat (V3 m ρ) c).arrAt_in 1 rfl _).trans (Dense.dat_A (V3 m ρ) c 1))).trans <|
  (W3_of m ρ c main_arg3 (by decide)).trans <|
  (W2_of m ρ c main_arg3 (by decide)).trans <|
  (W1_of m ρ c main_arg3 (by decide))
theorem W14_main_arg4 (c : Dev nD) : W14 m ρ c (Proc.devRef .tc main_arg4) = m ((c : Thread nD τ).loc main_arg4) :=
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of m ρ c main_arg4 (by decide)).trans <|
  (W9_of m ρ c main_arg4 (by decide)).trans <|
  (W8_of m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of m ρ c main_arg4 (by decide)).trans <|
  (W1_of m ρ c main_arg4 (by decide))
theorem W14_main_arg5 (c : Dev nD) : W14 m ρ c (Proc.devRef .tc main_arg5) = m ((c : Thread nD τ).loc main_arg5) :=
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of m ρ c main_arg5 (by decide)).trans <|
  (W9_of m ρ c main_arg5 (by decide)).trans <|
  (W8_of m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of m ρ c main_arg5 (by decide)).trans <|
  (W1_of m ρ c main_arg5 (by decide))
theorem W14_main_arg6 (c : Dev nD) : W14 m ρ c (Proc.devRef .tc main_arg6) = m ((c : Thread nD τ).loc main_arg6) :=
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of m ρ c main_arg6 (by decide)).trans <|
  (W9_of m ρ c main_arg6 (by decide)).trans <|
  (W8_of m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of m ρ c main_arg6 (by decide)).trans <|
  (W1_of m ρ c main_arg6 (by decide))
theorem W14_main_arg7 (c : Dev nD) : W14 m ρ c (Proc.devRef .tc main_arg7) = m ((c : Thread nD τ).loc main_arg7) :=
  ((W14_arr m ρ c 2).trans (((Head.dat (V13 m ρ) c).arrAt_in 2 rfl _).trans (Head.dat_A (V13 m ρ) c 2))).trans <|
  (W13_of m ρ c main_arg7 (by decide)).trans <|
  (W12_of_ne m ρ c main_arg7 (by decide)).trans <|
  (W11_of m ρ c main_arg7 (by decide)).trans <|
  (W10_of m ρ c main_arg7 (by decide)).trans <|
  (W9_of m ρ c main_arg7 (by decide)).trans <|
  (W8_of m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of m ρ c main_arg7 (by decide)).trans <|
  (W1_of m ρ c main_arg7 (by decide))
theorem W14_main_arg8 (c : Dev nD) : W14 m ρ c (Proc.devRef .tc main_arg8) = m ((c : Thread nD τ).loc main_arg8) :=
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of m ρ c main_arg8 (by decide)).trans <|
  (W9_of m ρ c main_arg8 (by decide)).trans <|
  (W8_of m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of m ρ c main_arg8 (by decide)).trans <|
  (W1_of m ρ c main_arg8 (by decide))

/-! ## The launches' data and records -/

/-- Every launch's data, each at its entry contents. -/
def pdats : (p : Fin 4) → (c : Dev nD) → Dat τ (Elt F) Unit ℕ (UR sig nD τ) ℕ (Pipeline.pin (pcfgs (F := F)) adm p) c
  | ⟨0, _⟩ => fun c => Dense.dat (V3 m ρ) c
  | ⟨1, _⟩ => fun c => Agg.dat (V5 m ρ) c
  | ⟨2, _⟩ => fun c => Agg2.dat (V11 m ρ) c
  | ⟨3, _⟩ => fun c => Head.dat (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W14 m ρ c) ∗ ∃ r, prngReg c r)

set_option backward.isDefEq.respectTransparency.types false in
/-- LAUNCH 0 over the thread state: entered from every unscoped buffer at `W3`, left at `W4`.  Its arrays are
    split out of the unscoped buffers and put back at the exit contents; the generator register and the scoped rest go
    into the invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at `W5`, left at `W6`.  Its arrays are
    split out of the unscoped buffers and put back at the exit contents; the generator register and the scoped rest go
    into the invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Agg.inv_last (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at `W11`, left at `W12`.  Its arrays are
    split out of the unscoped buffers and put back at the exit contents; the generator register and the scoped rest go
    into the invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Agg2.body_obligation (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Agg2.inv_last (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 3 over the thread state: entered from every unscoped buffer at `W13`, left at `W14`.  Its arrays are
    split out of the unscoped buffers and put back at the exit contents; the generator register and the scoped rest go
    into the invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Head.body_obligation (V13 m ρ) c).loose
  hwaits := Pipeline.hwaits_of_owed_zero _ _ _ _ L lv 3 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec3 c (V13 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V13 m ρ c) (V14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .host (hseg hostOps2_4 hostOps2_4_sub hostOps2_4_fresh (W10 m ρ)),
    .region (reg2 m ρ),
    .host (hseg hostOps3 hostOps3_sub hostOps3_fresh (W12 m ρ)),
    .region (reg3 m ρ) ]

theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting, and every final state has every unscoped buffer of core `c` at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The result array after the run: what the last launch's write-backs leave. -/
def result (c : Dev nD) : Buf (Elt F) ((c.tc : Thread nD τ).loc main_v58) := W14 m ρ c (Proc.devRef .tc main_v58)

/-- THE RUN with the result named and the arguments read back. -/
theorem run_result : θ_run defs (onTc (τ := τ) (main (F := F))) ⟨m, fun _ => 0, ρ⟩ (fun r => ∀ c : Dev nD,
      r.2.mem ((c.tc : Thread nD τ).loc main_v58) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_uc main_v58 (by decide)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.KernelIdeal.Whole

end
-- ==== Proof.EdgeRange.lean ====
/-
  What the precondition says of the edge list: every one of its 2 × 262144 entries is a node index, 0 ≤ entry < 8192 as
  a signed integer.  The predicate ends in a conjunction whose last conjunct is  all((edge_index ≥ 0) & (edge_index <
  8192)),  a reduction by "and" of the entrywise comparisons into one truth value; that value being 1 says every
  entrywise comparison is 1.
-/
import proofs.«131745_j1614907703640_2_alg».proof.Defs
import proofs.«131745_j1614907703640_2_alg».proof.Proof.Gen.Pre_finite_inputs
import Idealize.ShloMosaic.Lib.ReduceAll
import Idealize.ShloMosaic.Lib.ValueIdx

set_option maxRecDepth 16384

noncomputable section

namespace Cert.Proof.Range

open Idealize.ShloMosaic Idealize.SL.Sem

instance : Subsingleton Cert.Pre_finite_inputs.S_.Idx := ⟨fun a b => funext fun d => d.elim0⟩

theorem ofBool_eq_one (b : Bool) : BitVec.ofBool b = 1#1 ↔ b = true := by cases b <;> decide

/-- A word that compares ≥ 0 and < 8192 as a signed integer is one of 0 … 8191. -/
theorem word_range (w : BitVec 32) (h0 : IntOp.cmpi .sge w (0#32) = 1#1) (h8 : IntOp.cmpi .slt w (8192#32) = 1#1) :
    0 ≤ w.toInt ∧ w.toInt < 8192 := by
  unfold IntOp.cmpi at h0 h8
  rw [ofBool_eq_one] at h0 h8
  simp only [BitVec.slt, BitVec.sle, decide_eq_true_eq] at h0 h8
  have e0 : (0#32 : BitVec 32).toInt = 0 := by decide
  have e8 : (8192#32 : BitVec 32).toInt = 8192 := by decide
  rw [e0] at h0
  rw [e8] at h8
  exact ⟨h0, h8⟩

/-- THE PRECONDITION DECODED at one entry of the edge list. -/
theorem edge_in_range (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2x262144.Idx) :
    0 ≤ (m ((c.tc : Thread Cert.KernelIdeal.nD Cert.KernelIdeal.τ).loc Cert.KernelIdeal.main_arg2) i).toInt
      ∧ (m ((c.tc : Thread Cert.KernelIdeal.nD Cert.KernelIdeal.τ).loc Cert.KernelIdeal.main_arg2) i).toInt < 8192 := by
  have e := congrFun (h c) ValueIdx.ix0
  unfold Cert.Pre_finite_inputs.fn Cert.Pre_finite_inputs.fn_part1 Cert.Pre_finite_inputs.fn_part2 at e
  dsimp only at e
  have e' := (IntOp.andi_eq_one.1 e).2
  have hall := Host.reduce_andi_all _ _ _ _ _ e' i
  have hpair := IntOp.andi_eq_one.1 hall
  exact word_range _ hpair.1 hpair.2

end Cert.Proof.Range

end
-- ==== Proof.IdealDenseValue.lean ====
/-
  What the first launch leaves, at the exact instance: the whole 8192 × 512 product  (x · W₁)[r, c] = Σ_k x[r, k] · W₁[k, c].

  At a grid point t the body's one store is the product of the staged row block of x (rows 2048·t …) with the staged
  weight — the two roundings to the narrow format are the identity on the extended reals, and the matrix unit's pass
  into a zero accumulator is the plain sum over the contracted axis — so what point t writes back is rows 2048·t … of
  the whole product; the four row blocks tile the result.
-/
import proofs.«131745_j1614907703640_2_alg».proof.Proof.IdealDense
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe
open Idealize.SL Idealize.SL.Sem
open Idealize.ShloMosaic.Pipeline (Dat Cfg Window)

/-! ## The product, index by index -/

/-- Entry (r, k) of an 8192 × 512 array, entry (k, c) of a 512 × 512 one, entry (r, c) of a 2048 × 512 block. -/
abbrev atX (r : Fin 8192) (k : Fin 512) : S8192x512.Idx := fun a => match a with
  | ⟨0, _⟩ => ⟨r.val, r.isLt⟩
  | ⟨1, _⟩ => ⟨k.val, k.isLt⟩
abbrev atW (k : Fin 512) (c : Fin 512) : S512x512.Idx := fun a => match a with
  | ⟨0, _⟩ => ⟨k.val, k.isLt⟩
  | ⟨1, _⟩ => ⟨c.val, c.isLt⟩
abbrev atB (r : Fin 2048) (k : Fin 512) : S2048x512.Idx := fun a => match a with
  | ⟨0, _⟩ => ⟨r.val, r.isLt⟩
  | ⟨1, _⟩ => ⟨k.val, k.isLt⟩

/-- The whole product. -/
def product (x : S8192x512.Idx → EReal) (w : S512x512.Idx → EReal) : S8192x512.Idx → EReal :=
  fun i => ∑ k : Fin 512, x (atX ⟨(i 0).val, (i 0).isLt⟩ k) * w (atW k ⟨(i 1).val, (i 1).isLt⟩)

/-! ## The body's store at an index -/

/-- The contraction of the block product: rows × 512 times 512 × columns. -/
abbrev dd := dot_S2048x512_S512x512_S2048x512_1_0_0_1_n_n

theorem lhs_row (i : S2048x512.Idx) (q : dd.contr.Idx) : (dd.lhsIdx i q 0).val = (i 0).val := by
  unfold DotDims.lhsIdx
  rw [dif_neg (show ¬(0 : Fin S2048x512.rank) ∈ dd.lhsBatch by decide), dif_pos (show (0 : Fin S2048x512.rank) ∈ dd.lhsNonContracting by decide)]
  rfl
theorem lhs_col (i : S2048x512.Idx) (q : dd.contr.Idx) : (dd.lhsIdx i q 1).val = (q ⟨0, by decide⟩).val :=
  dd.lhsIdx_val_of_single rfl i q
theorem rhs_row (i : S2048x512.Idx) (q : dd.contr.Idx) : (dd.rhsIdx i q 0).val = (q ⟨0, by decide⟩).val :=
  dd.rhsIdx_val_of_single rfl i q
theorem rhs_col (i : S2048x512.Idx) (q : dd.contr.Idx) : (dd.rhsIdx i q 1).val = (i 1).val := by
  unfold DotDims.rhsIdx
  rw [dif_neg (show ¬(1 : Fin S512x512.rank) ∈ dd.rhsBatch by decide), dif_pos (show (1 : Fin S512x512.rank) ∈ dd.rhsNonContracting by decide)]
  rfl

/-- The body's stored value at entry j of the block: the sum over k of the row block at (j₀, k) times the weight at (k, j₁). -/
theorem stored_apply (x : Vec Ideal S2048x512 .f32) (w : Vec Ideal S512x512 .f32) (j : S2048x512.Idx) :
    k0_pay1 (F := Ideal) x w j
      = ∑ k : Fin 512, x (atB ⟨(j 0).val, (j 0).isLt⟩ k) * w (atW k ⟨(j 1).val, (j 1).isLt⟩) := by
  unfold k0_pay1
  show FloatOps.matmul dd none (truncf (F := Ideal) .bf16 (x : FVec Ideal S2048x512 .f32) bitsLt_bf16_f32) (truncf (F := Ideal) .bf16 (w : FVec Ideal S512x512 .f32) bitsLt_bf16_f32) (constant S2048x512 .f32 0x00000000#32) j = _
  rw [Ideal.matmul_constant_zero_apply, ← Equiv.sum_comp (ValueIdx.contrEquiv1 dd 512 rfl rfl).symm]
  refine Finset.sum_congr rfl fun k _ => ?_
  have hk := ValueIdx.contrEquiv1_symm_val dd 512 rfl rfl k
  have el : dd.lhsIdx j ((ValueIdx.contrEquiv1 dd 512 rfl rfl).symm k) = atB ⟨(j 0).val, (j 0).isLt⟩ k := funext fun a => Fin.ext (by
    match a with
    | ⟨0, _⟩ => exact lhs_row _ _
    | ⟨1, _⟩ => exact (lhs_col _ _).trans hk)
  have er : dd.rhsIdx j ((ValueIdx.contrEquiv1 dd 512 rfl rfl).symm k) = atW k ⟨(j 1).val, (j 1).isLt⟩ := funext fun a => Fin.ext (by
    match a with
    | ⟨0, _⟩ => exact (rhs_row _ _).trans hk
    | ⟨1, _⟩ => exact rhs_col _ _)
  rw [el, er]
  rfl

/-! ## From the row blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the four grid points: the row block of x and of the result are block t, the weight's
    block is the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 2048·t … of the whole product of the arrays as the launch finds them. -/
theorem flushed_eq (c : Dev nD) (t : Fin cfg0.N) :
    (dat V c).flushed 2 t = ((cfg0.win 2).blk t).view.read (Elt Ideal) (product (V c main_arg0) (V c main_arg3)) := by
  show (cfg0.win 2).cut (grid0.coords t) ((dat V c).after 2 t) = _
  rw [after_out]
  unfold blockProduct
  rw [View.canon_unit_zero zero_off]
  simp only [View.ld_unit_zero (S := S2048x512) zero_off, View.ld_unit_zero (S := S512x512) zero_off]
  obtain ⟨e0, e1, e2, e3, e4, e5⟩ := index_facts t
  funext j
  show k0_pay1 (F := Ideal) (xwBlock V c 0 t) (xwBlock V c 1 t) j = product (V c main_arg0) (V c main_arg3) (((cfg0.win 2).blk t).view.emb j)
  rw [stored_apply]
  unfold product
  refine Finset.sum_congr rfl fun k _ => ?_
  have hx : xwBlock V c 0 t (atB ⟨(j 0).val, (j 0).isLt⟩ k)
      = V c main_arg0 (atX ⟨((((cfg0.win 2).blk t).view.emb j) 0).val, ((((cfg0.win 2).blk t).view.emb j) 0).isLt⟩ k) := by
    show V c main_arg0 (((cfg0.win 0).blk t).view.emb (atB ⟨(j 0).val, (j 0).isLt⟩ k)) = _
    refine congrArg (V c main_arg0) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * k.val = k.val; omega
  have hw : xwBlock V c 1 t (atW k ⟨(j 1).val, (j 1).isLt⟩)
      = V c main_arg3 (atW k ⟨((((cfg0.win 2).blk t).view.emb j) 1).val, ((((cfg0.win 2).blk t).view.emb j) 1).isLt⟩) := by
    show V c main_arg3 (((cfg0.win 1).blk t).view.emb (atW k ⟨(j 1).val, (j 1).isLt⟩)) = _
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega
  rw [hx, hw]

/-- An entry of the result is in point t's block iff its row is among rows 2048·t … 2048·t + 2047. -/
theorem mem_block (t : Fin cfg0.N) (i : S8192x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v46).slice (win0_2.rect t)).set ↔ _
  rw [View.set_slice_whole, Rect.mem_set_unit]
  exact Iff.rfl

/-- Every entry of the result is in the block of the point its row selects. -/
theorem covered (i : S8192x512.Idx) : ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 4 := N_0
  refine ⟨⟨(i 0).val / 2048, by omega⟩, flush0_2 _, ?_⟩
  rw [mem_block]
  obtain ⟨e0, e1, e2, e3, e4, e5⟩ := index_facts ⟨(i 0).val / 2048, by omega⟩
  intro a
  match a with
  | ⟨0, _⟩ => show win0_2.index _ (0 : Fin 2) * 2048 ≤ (i 0).val ∧ (i 0).val < win0_2.index _ (0 : Fin 2) * 2048 + 2048; simp only [] at e4; omega
  | ⟨1, _⟩ => show win0_2.index _ (1 : Fin 2) * 512 ≤ (i 1).val ∧ (i 1).val < win0_2.index _ (1 : Fin 2) * 512 + 512; omega

/-- THE RESULT ARRAY after the launch: the whole product of the two arrays as the launch finds them. -/
theorem final (c : Dev nD) : (dat V c).arrAt 2 cfg0.N = product (V c main_arg0) (V c main_arg3) :=
  (dat V c).arrAt_eq_of_cover 2 (product (V c main_arg0) (V c main_arg3)) (fun t _ => flushed_eq V c t) covered

end Cert.KernelIdeal.Dense

end
-- ==== Proof.IdealAggPieces.lean ====
/-
  The aggregation launch of the first layer: what the pieces found by the body's three runs are, read back as values.

  A middle or last point leaves in the scratch the previous partial sum plus the product of the tile with the rows of h
  (one store over the whole buffer); a first point leaves the product added to the cleared buffer (two stores, the later
  one read); a last point leaves in the result's buffer the maximum of (scratch + bias row) and 0.  Every load the
  body makes through a whole buffer reads the buffer's contents.
-/
import proofs.«131745_j1614907703640_2_alg».proof.Proof.IdealAggBody
import Idealize.ShloMosaic.Lib.Pipeline.Value

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.Sem

variable {F : FTy → Type} [FloatOps F]

theorem zero_off : (![0, 0] : Fin 2 → Nat) = fun _ => 0 := funext fun a => by fin_cases a <;> rfl

theorem cover_mid (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole) (hc0 : ¬ isFirst i) (hc1 : ¬ isLast i)
    (a : Vec F S1024x2048 .bf16) (b : Vec F S2048x512 .f32) (bias : Vec F S1x512 .f32) (xs : Vec F S1024x512 .f32) (y : S1024x512.Idx) :
    ∃ pc ∈ (runMid (F := F) c i a2 h2 a3 h3 a4 h4 a5 h5 scr scr_whole hc0 hc1 a b bias xs).1, y ∈ pc.1.set :=
  View.cover_of_tiledL _ S1024x512.size (by sl_kernel_rfl) y

/-- A middle point leaves the previous partial sum plus the tile's product. -/
theorem mid_scr (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole) (hc0 : ¬ isFirst i) (hc1 : ¬ isLast i)
    (a : Vec F S1024x2048 .bf16) (b : Vec F S2048x512 .f32) (bias : Vec F S1x512 .f32) (xs : Vec F S1024x512 .f32) :
    scrOf (runMid (F := F) c i a2 h2 a3 h3 a4 h4 a5 h5 scr scr_whole hc0 hc1 a b bias xs).1 = k1_pay2 a b xs := by
  unfold scrOf
  rw [View.read_writes_eq_canon _ _ _ (cover_mid c i a2 h2 a3 h3 a4 h4 a5 h5 hc0 hc1 a b bias xs)]
  unfold runMid
  dsimp only
  sl_unfold_words
  rw [View.canon_unit_zero zero_off]
  simp only [View.readAt_eq_ld, Memref.IsWhole.read_unread, View.ld_unit_zero (S := S1024x2048) zero_off,
    View.ld_unit_zero (S := S2048x512) zero_off, View.ld_unit_zero (S := S1024x512) zero_off]
  exact congrArg (k1_pay2 a b) (scr_whole.read_unread xs)

theorem cover_last_scr (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole) (hc0 : ¬ isFirst i) (hc1 : isLast i)
    (a : Vec F S1024x2048 .bf16) (b : Vec F S2048x512 .f32) (bias : Vec F S1x512 .f32) (xs : Vec F S1024x512 .f32) (y : S1024x512.Idx) :
    ∃ pc ∈ (runLast (F := F) c i a2 h2 a3 h3 a4 h4 a5 h5 scr scr_whole hc0 hc1 a b bias xs).2.1, y ∈ pc.1.set :=
  View.cover_of_tiledL _ S1024x512.size (by sl_kernel_rfl) y
theorem cover_last_out (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole) (hc0 : ¬ isFirst i) (hc1 : isLast i)
    (a : Vec F S1024x2048 .bf16) (b : Vec F S2048x512 .f32) (bias : Vec F S1x512 .f32) (xs : Vec F S1024x512 .f32) (y : S1024x512.Idx) :
    ∃ pc ∈ (runLast (F := F) c i a2 h2 a3 h3 a4 h4 a5 h5 scr scr_whole hc0 hc1 a b bias xs).1, y ∈ pc.1.set :=
  View.cover_of_tiledL _ S1024x512.size (by sl_kernel_rfl) y
theorem cover_first (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole) (hc0 : isFirst i) (hc1 : ¬ isLast i)
    (a : Vec F S1024x2048 .bf16) (b : Vec F S2048x512 .f32) (bias : Vec F S1x512 .f32) (y : S1024x512.Idx) :
    ∃ pc ∈ (runFirst (F := F) c i a2 h2 a3 h3 a4 h4 a5 h5 scr scr_whole hc0 hc1 a b bias).1, y ∈ pc.1.set :=
  View.cover_of_tiledL _ S1024x512.size (by sl_kernel_rfl) y

/-- A last point leaves in the scratch the previous partial sum plus the tile's product, -/
theorem last_scr (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole) (hc0 : ¬ isFirst i) (hc1 : isLast i)
    (a : Vec F S1024x2048 .bf16) (b : Vec F S2048x512 .f32) (bias : Vec F S1x512 .f32) (xs : Vec F S1024x512 .f32) :
    scrOf (runLast (F := F) c i a2 h2 a3 h3 a4 h4 a5 h5 scr scr_whole hc0 hc1 a b bias xs).2.1 = k1_pay2 a b xs := by
  unfold scrOf
  rw [View.read_writes_eq_canon _ _ _ (cover_last_scr c i a2 h2 a3 h3 a4 h4 a5 h5 hc0 hc1 a b bias xs)]
  unfold runLast
  dsimp only
  sl_unfold_words
  rw [View.canon_unit_zero zero_off]
  simp only [View.readAt_eq_ld, Memref.IsWhole.read_unread, View.ld_unit_zero (S := S1024x2048) zero_off,
    View.ld_unit_zero (S := S2048x512) zero_off, View.ld_unit_zero (S := S1024x512) zero_off]
  exact congrArg (k1_pay2 a b) (scr_whole.read_unread xs)

/-- and in the result's buffer the maximum of (that sum plus the bias row) and 0. -/
theorem last_out (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole) (hc0 : ¬ isFirst i) (hc1 : isLast i)
    (a : Vec F S1024x2048 .bf16) (b : Vec F S2048x512 .f32) (bias : Vec F S1x512 .f32) (xs : Vec F S1024x512 .f32) :
    outOf (runLast (F := F) c i a2 h2 a3 h3 a4 h4 a5 h5 scr scr_whole hc0 hc1 a b bias xs).1 = k1_pay3 (k1_pay2 a b xs) bias := by
  unfold outOf
  rw [View.read_writes_eq_canon _ _ _ (cover_last_out c i a2 h2 a3 h3 a4 h4 a5 h5 hc0 hc1 a b bias xs)]
  unfold runLast
  dsimp only
  sl_unfold_words
  rw [View.canon_unit_zero zero_off]
  simp only [View.readAt_eq_ld, Memref.IsWhole.read_unread, View.ld_unit_zero (S := S1024x2048) zero_off,
    View.ld_unit_zero (S := S2048x512) zero_off, View.ld_unit_zero (S := S1024x512) zero_off, View.ld_unit_zero (S := S1x512) zero_off]
  rw [View.readCov_unit_zero _ zero_off]
  exact congrArg (fun s => k1_pay3 (k1_pay2 a b s) bias) (scr_whole.read_unread xs)

/-- A first point leaves the tile's product added to the cleared buffer. -/
theorem first_scr (c : Dev nD) (i : grid1.Coords) (a2 : Memref sig .tc .vmem S1024x2048 .bf16) (h2 : a2.IsWhole) (a3 : Memref sig .tc .vmem S2048x512 .f32) (h3 : a3.IsWhole)
    (a4 : Memref sig .tc .vmem S1x512 .f32) (h4 : a4.IsWhole) (a5 : Memref sig .tc .vmem S1024x512 .f32) (h5 : a5.IsWhole) (hc0 : isFirst i) (hc1 : ¬ isLast i)
    (a : Vec F S1024x2048 .bf16) (b : Vec F S2048x512 .f32) (bias : Vec F S1x512 .f32) :
    scrOf (runFirst (F := F) c i a2 h2 a3 h3 a4 h4 a5 h5 scr scr_whole hc0 hc1 a b bias).1 = k1_pay2 a b (k1_pay1 (F := F)) := by
  unfold scrOf
  rw [View.read_writes_eq_canon _ _ _ (cover_first c i a2 h2 a3 h3 a4 h4 a5 h5 hc0 hc1 a b bias)]
  unfold runFirst
  dsimp only
  sl_unfold_words
  rw [View.canon_cons_unit_zero zero_off, View.readCov_unit_zero _ zero_off]
  simp only [View.readAt_eq_ld, Memref.IsWhole.read_unread, View.ld_unit_zero (S := S1024x2048) zero_off,
    View.ld_unit_zero (S := S2048x512) zero_off]

/-! ## The partial sum from point to point, as payloads -/

variable (V : (c : Dev nD) → (b : Ref sig .tc) → Buf (Elt F) ((c : Thread nD τ).loc b))

/-- After the first point of a row block: the tile's product added to the cleared buffer. -/
theorem acc_first (c : Dev nD) (n : ℕ) (hn : n < cfg1.N) (h0 : n % 4 = 0) :
    accAt V c n hn = k1_pay2 (blk V c 0 ⟨n, hn⟩) (blk V c 1 ⟨n, hn⟩) (k1_pay1 (F := F)) :=
  (accAt_first V c ⟨n, hn⟩ h0).trans (by
    unfold firstAt
    exact first_scr c _ (bufA ⟨n, hn⟩) (bufA_whole ⟨n, hn⟩) (bufH ⟨n, hn⟩) (bufH_whole ⟨n, hn⟩) (bufB ⟨n, hn⟩) (bufB_whole ⟨n, hn⟩) (bufO ⟨n, hn⟩) (bufO_whole ⟨n, hn⟩) _ _ _ _ _)

/-- After a middle point: the tile's product added to what the point before left. -/
theorem acc_mid (c : Dev nD) (n : ℕ) (hn : n + 1 < cfg1.N) (h0 : ¬ (n + 1) % 4 = 0) (h3 : ¬ (n + 1) % 4 = 3) :
    accAt V c (n + 1) hn
      = k1_pay2 (blk V c 0 ⟨n + 1, hn⟩) (blk V c 1 ⟨n + 1, hn⟩) (accAt V c n (Nat.lt_of_succ_lt hn)) :=
  (accAt_mid V c ⟨n + 1, hn⟩ h0 h3).trans (by
    unfold midAt
    exact mid_scr c _ (bufA ⟨n + 1, hn⟩) (bufA_whole ⟨n + 1, hn⟩) (bufH ⟨n + 1, hn⟩) (bufH_whole ⟨n + 1, hn⟩) (bufB ⟨n + 1, hn⟩) (bufB_whole ⟨n + 1, hn⟩) (bufO ⟨n + 1, hn⟩) (bufO_whole ⟨n + 1, hn⟩) _ _ _ _ _ _)

/-- After a last point: the same, -/
theorem acc_last (c : Dev nD) (n : ℕ) (hn : n + 1 < cfg1.N) (h0 : ¬ (n + 1) % 4 = 0) (h3 : (n + 1) % 4 = 3) :
    accAt V c (n + 1) hn
      = k1_pay2 (blk V c 0 ⟨n + 1, hn⟩) (blk V c 1 ⟨n + 1, hn⟩) (accAt V c n (Nat.lt_of_succ_lt hn)) :=
  (accAt_last V c ⟨n + 1, hn⟩ h0 h3).trans (by
    unfold lastAt
    exact last_scr c _ (bufA ⟨n + 1, hn⟩) (bufA_whole ⟨n + 1, hn⟩) (bufH ⟨n + 1, hn⟩) (bufH_whole ⟨n + 1, hn⟩) (bufB ⟨n + 1, hn⟩) (bufB_whole ⟨n + 1, hn⟩) (bufO ⟨n + 1, hn⟩) (bufO_whole ⟨n + 1, hn⟩) _ _ _ _ _ _)

/-- and the result's buffer holds the maximum of (that plus the bias row) and 0. -/
theorem out_last (c : Dev nD) (n : ℕ) (hn : n + 1 < cfg1.N) (h0 : ¬ (n + 1) % 4 = 0) (h3 : (n + 1) % 4 = 3) :
    outAt V c ⟨n + 1, hn⟩
      = k1_pay3 (k1_pay2 (blk V c 0 ⟨n + 1, hn⟩) (blk V c 1 ⟨n + 1, hn⟩) (accAt V c n (Nat.lt_of_succ_lt hn))) (blk V c 2 ⟨n + 1, hn⟩) :=
  (outAt_last V c ⟨n + 1, hn⟩ h0 h3).trans (by
    unfold lastAt
    exact last_out c _ (bufA ⟨n + 1, hn⟩) (bufA_whole ⟨n + 1, hn⟩) (bufH ⟨n + 1, hn⟩) (bufH_whole ⟨n + 1, hn⟩) (bufB ⟨n + 1, hn⟩) (bufB_whole ⟨n + 1, hn⟩) (bufO ⟨n + 1, hn⟩) (bufO_whole ⟨n + 1, hn⟩) _ _ _ _ _ _)

/-- A whole row block: at its last point (position n + 3, n a multiple of 4) the result's buffer holds the four tiles'
    products added in turn to the cleared buffer, plus the bias row, cut off below at 0. -/
theorem out_block (c : Dev nD) (n : ℕ) (h0 : n % 4 = 0) (hn : n + 3 < cfg1.N) :
    outAt V c ⟨n + 3, hn⟩
      = k1_pay3 (k1_pay2 (blk V c 0 ⟨n + 3, hn⟩) (blk V c 1 ⟨n + 3, hn⟩)
          (k1_pay2 (blk V c 0 ⟨n + 2, by omega⟩) (blk V c 1 ⟨n + 2, by omega⟩)
            (k1_pay2 (blk V c 0 ⟨n + 1, by omega⟩) (blk V c 1 ⟨n + 1, by omega⟩)
              (k1_pay2 (blk V c 0 ⟨n, by omega⟩) (blk V c 1 ⟨n, by omega⟩) (k1_pay1 (F := F))))))
          (blk V c 2 ⟨n + 3, hn⟩) := by
  rw [out_last V c (n + 2) hn (by omega) (by omega), acc_mid V c (n + 1) (by omega) (by omega) (by omega),
    acc_mid V c n (by omega) (by omega) (by omega), acc_first V c n (by omega) h0]

end Cert.KernelIdeal.Agg

end
-- ==== Proof.IdealAggValue.lean ====
/-
  What the first layer's aggregation launch leaves, at the exact instance: for every node r and column c

      max( ((((0 + P₀) + P₁) + P₂) + P₃) + b[c], 0 ),     P_q = Σ_{k < 2048} Â[r, 2048·q + k] · h[2048·q + k, c],

  the four partial products of the row of Â with the column of h, added in the order the grid visits them to the
  cleared scratch, then the bias, then the maximum with 0.

  At the exact instance the body's accumulating store is the old scratch plus the plain sum over the tile's columns
  (the shape casts and the rounding are the identity, the matrix unit's pass into a zero accumulator is the sum); the
  clearing store is 0; the final store is the maximum of (scratch + bias row) and 0.  The tile at point t = 4·i + q is
  rows 1024·i …, columns 2048·q … of Â; the rows of h are rows 2048·q …; the result's block is rows 1024·i …; the
  eight row blocks tile the result, each written back at the last of its four points.
-/
import proofs.«131745_j1614907703640_2_alg».proof.Proof.IdealAggPieces
import Idealize.ShloMosaic.Lib.Pipeline.Value
import Idealize.ShloMosaic.Lib.ValueIdx
import Idealize.ShloMosaic.PureOps.Ideal.Laws

set_option maxRecDepth 16384

noncomputable section

namespace Cert.KernelIdeal.Agg

open Cert.KernelIdeal Cert.KernelIdeal.Gen
open Idealize.ShloMosaic Idealize.ShloMosaic.TcCoe
open Idealize.SL Idealize.SL.Sem
open Idealize.ShloMosaic.Pipeline (Dat Cfg Window)

/-! ## Indices -/

abbrev atTile (r : Fin 1024) (k : Fin 2048) : S1024x2048.Idx := fun a => match a with
  | ⟨0, _⟩ => ⟨r.val, r.isLt⟩
  | ⟨1, _⟩ => ⟨k.val, k.isLt⟩
abbrev atRows (k : Fin 2048) (c : Fin 512) : S2048x512.Idx := fun a => match a with
  | ⟨0, _⟩ => ⟨k.val, k.isLt⟩
  | ⟨1, _⟩ => ⟨c.val, c.isLt⟩
abbrev atBias (c : Fin 512) : S1x512.Idx := fun a => match a with
  | ⟨0, _⟩ => ⟨0, by show 0 < 1; omega⟩
  | ⟨1, _⟩ => ⟨c.val, c.isLt⟩
abbrev atAdj (r : Fin 8192) (j : Fin 8192) : S8192x8192.Idx := fun a => match a with
  | ⟨0, _⟩ => ⟨r.val, r.isLt⟩
  | ⟨1, _⟩ => ⟨j.val, j.isLt⟩
abbrev atFeat (j : Fin 8192) (c : Fin 512) : S8192x512.Idx := fun a => match a with
  | ⟨0, _⟩ => ⟨j.val, j.isLt⟩
  | ⟨1, _⟩ => ⟨c.val, c.isLt⟩

/-! ## The body's stores at an index -/

/-- The contraction of a tile with the rows of h: 1024 × 2048 times 2048 × 512. -/
abbrev dd := dot_S1024x2048_S2048x512_S1024x512_1_0_0_1_n_n

theorem lhs_row (i : S1024x512.Idx) (q : dd.contr.Idx) : (dd.lhsIdx i q 0).val = (i 0).val := by
  unfold DotDims.lhsIdx
  rw [dif_neg (show ¬(0 : Fin S1024x2048.rank) ∈ dd.lhsBatch by decide), dif_pos (show (0 : Fin S1024x2048.rank) ∈ dd.lhsNonContracting by decide)]
  rfl
theorem lhs_col (i : S1024x512.Idx) (q : dd.contr.Idx) : (dd.lhsIdx i q 1).val = (q ⟨0, by decide⟩).val :=
  dd.lhsIdx_val_of_single rfl i q
theorem rhs_row (i : S1024x512.Idx) (q : dd.contr.Idx) : (dd.rhsIdx i q 0).val = (q ⟨0, by decide⟩).val :=
  dd.rhsIdx_val_of_single rfl i q
theorem rhs_col (i : S1024x512.Idx) (q : dd.contr.Idx) : (dd.rhsIdx i q 1).val = (i 1).val := by
  unfold DotDims.rhsIdx
  rw [dif_neg (show ¬(1 : Fin S2048x512.rank) ∈ dd.rhsBatch by decide), dif_pos (show (1 : Fin S2048x512.rank) ∈ dd.rhsNonContracting by decide)]
  rfl

/-- The accumulating store: the old scratch plus the sum over the tile's columns. -/
theorem pay2_apply (a : Vec Ideal S1024x2048 .bf16) (b : Vec Ideal S2048x512 .f32) (xs : Vec Ideal S1024x512 .f32) (j : S1024x512.Idx) :
    k1_pay2 (F := Ideal) a b xs j
      = xs j + ∑ k : Fin 2048, a (atTile ⟨(j 0).val, (j 0).isLt⟩ k) * b (atRows k ⟨(j 1).val, (j 1).isLt⟩) := by
  unfold k1_pay2
  simp only [shapeCast_self]
  show xs j + FloatOps.matmul dd none (a : FVec Ideal S1024x2048 .bf16)
      (truncf (F := Ideal) .bf16 (b : FVec Ideal S2048x512 .f32) bitsLt_bf16_f32) (constant S1024x512 .f32 0x00000000#32) j = _
  rw [Ideal.matmul_constant_zero_apply, ← Equiv.sum_comp (ValueIdx.contrEquiv1 dd 2048 rfl rfl).symm]
  refine congrArg (xs j + ·) (Finset.sum_congr rfl fun k _ => ?_)
  have hk := ValueIdx.contrEquiv1_symm_val dd 2048 rfl rfl k
  have el : dd.lhsIdx j ((ValueIdx.contrEquiv1 dd 2048 rfl rfl).symm k) = atTile ⟨(j 0).val, (j 0).isLt⟩ k := funext fun a => Fin.ext (by
    match a with
    | ⟨0, _⟩ => exact lhs_row _ _
    | ⟨1, _⟩ => exact (lhs_col _ _).trans hk)
  have er : dd.rhsIdx j ((ValueIdx.contrEquiv1 dd 2048 rfl rfl).symm k) = atRows k ⟨(j 1).val, (j 1).isLt⟩ := funext fun a => Fin.ext (by
    match a with
    | ⟨0, _⟩ => exact (rhs_row _ _).trans hk
    | ⟨1, _⟩ => exact rhs_col _ _)
  rw [el, er]
  rfl

/-- The clearing store. -/
theorem pay1_apply (j : S1024x512.Idx) : k1_pay1 (F := Ideal) j = 0 := by
  unfold k1_pay1
  simp only [shapeCast_self]
  show Ideal.ofBits .f32 0x00000000#32 = 0
  exact Ideal.ofBits_zero_f32

/-- The final store: the maximum of (scratch + bias row) and 0. -/
theorem pay3_apply (s : Vec Ideal S1024x512 .f32) (bias : Vec Ideal S1x512 .f32) (j : S1024x512.Idx) :
    k1_pay3 (F := Ideal) s bias j = max (s j + bias (atBias ⟨(j 1).val, (j 1).isLt⟩)) 0 := by
  unfold k1_pay3
  simp only [shapeCast_self]
  show max (s j + broadcastTo S1024x512 bias broadcasts_S1x512_S1024x512 j) (Ideal.ofBits .f32 0x00000000#32) = _
  rw [Ideal.ofBits_zero_f32, broadcastTo_apply bias broadcasts_S1x512_S1024x512 j (atBias ⟨(j 1).val, (j 1).isLt⟩) (fun a => by
    match a with
    | ⟨0, _⟩ => rfl
    | ⟨1, _⟩ => rfl)]

/-! ## The blocks the body sees, in terms of the arrays -/

variable (V : (c : Dev nD) → (b : Ref sig .tc) → Buf (Elt Ideal) ((c : Thread nD τ).loc b))

/-- The printed index maps over the 32 grid points t = 4·i + q. -/
theorem index_facts : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

theorem tile_read (c : Dev nD) (t : Fin cfg1.N) (r : Fin 1024) (k : Fin 2048) (R : Fin 8192) (J : Fin 8192)
    (hR : R.val = 1024 * (t.val / 4) + r.val) (hJ : J.val = 2048 * (t.val % 4) + k.val) :
    blk V c 0 t (atTile r k) = V c main_v45 (atAdj R J) := by
  obtain ⟨e0, e1, e2, e3, e4, e5, e6, e7⟩ := index_facts t
  show V c main_v45 (((cfg1.win 0).blk t).view.emb (atTile r k)) = _
  refine congrArg (V c main_v45) (funext fun a => Fin.ext ?_)
  match a with
  | ⟨0, _⟩ => show win1_0.index t (0 : Fin 2) * 1024 + 1 * r.val = R.val; omega
  | ⟨1, _⟩ => show win1_0.index t (1 : Fin 2) * 2048 + 1 * k.val = J.val; omega

theorem rows_read (c : Dev nD) (t : Fin cfg1.N) (k : Fin 2048) (cc : Fin 512) (J : Fin 8192)
    (hJ : J.val = 2048 * (t.val % 4) + k.val) :
    blk V c 1 t (atRows k cc) = V c main_v46 (atFeat J cc) := by
  obtain ⟨e0, e1, e2, e3, e4, e5, e6, e7⟩ := index_facts t
  show V c main_v46 (((cfg1.win 1).blk t).view.emb (atRows k cc)) = _
  refine congrArg (V c main_v46) (funext fun a => Fin.ext ?_)
  match a with
  | ⟨0, _⟩ => show win1_1.index t (0 : Fin 2) * 2048 + 1 * k.val = J.val; omega
  | ⟨1, _⟩ => show win1_1.index t (1 : Fin 2) * 512 + 1 * cc.val = cc.val; omega

theorem bias_read (c : Dev nD) (t : Fin cfg1.N) (cc : Fin 512) :
    blk V c 2 t (atBias cc) = V c main_v47 (atBias cc) := by
  obtain ⟨e0, e1, e2, e3, e4, e5, e6, e7⟩ := index_facts t
  show V c main_v47 (((cfg1.win 2).blk t).view.emb (atBias cc)) = _
  refine congrArg (V c main_v47) (funext fun a => Fin.ext ?_)
  match a with
  | ⟨0, _⟩ => show win1_2.index t (0 : Fin 2) * 1 + 1 * 0 = 0; omega
  | ⟨1, _⟩ => show win1_2.index t (1 : Fin 2) * 512 + 1 * cc.val = cc.val; omega

/-! ## The result array -/

/-- One of the four partial products of row r of Â with column c of h. -/
def partSum (A : S8192x8192.Idx → EReal) (H : S8192x512.Idx → EReal) (r : Fin 8192) (c : Fin 512) (q : Fin 4) : EReal :=
  ∑ k : Fin 2048, A (atAdj r ⟨2048 * q.val + k.val, by have := q.isLt; have := k.isLt; omega⟩)
    * H (atFeat ⟨2048 * q.val + k.val, by have := q.isLt; have := k.isLt; omega⟩ c)

/-- What the launch computes. -/
def layer (A : S8192x8192.Idx → EReal) (H : S8192x512.Idx → EReal) (b : S1x512.Idx → EReal) : S8192x512.Idx → EReal :=
  fun i =>
    let r : Fin 8192 := ⟨(i 0).val, (i 0).isLt⟩
    let c : Fin 512 := ⟨(i 1).val, (i 1).isLt⟩
    max (((((0 + partSum A H r c 0) + partSum A H r c 1) + partSum A H r c 2) + partSum A H r c 3) + b (atBias c)) 0

/-- One tile's product, in terms of the arrays. -/
theorem tile_product (c : Dev nD) (t : Fin cfg1.N) (q : Fin 4) (hq : t.val % 4 = q.val) (j : S1024x512.Idx) (R : Fin 8192)
    (hR : R.val = 1024 * (t.val / 4) + (j 0).val) :
    ∑ k : Fin 2048, @HMul.hMul EReal EReal EReal instHMul (blk V c 0 t (atTile ⟨(j 0).val, (j 0).isLt⟩ k)) (blk V c 1 t (atRows k ⟨(j 1).val, (j 1).isLt⟩))
      = partSum (V c main_v45) (V c main_v46) R ⟨(j 1).val, (j 1).isLt⟩ q := by
  unfold partSum
  refine Finset.sum_congr rfl fun k _ => ?_
  rw [tile_read V c t ⟨(j 0).val, (j 0).isLt⟩ k R ⟨2048 * q.val + k.val, by have := q.isLt; have := k.isLt; omega⟩ hR (by show 2048 * q.val + k.val = 2048 * (t.val % 4) + k.val; omega),
    rows_read V c t k ⟨(j 1).val, (j 1).isLt⟩ ⟨2048 * q.val + k.val, by have := q.isLt; have := k.isLt; omega⟩ (by show 2048 * q.val + k.val = 2048 * (t.val % 4) + k.val; omega)]

set_option maxHeartbeats 4000000 in
/-- What the last point of a row block writes back is its rows of `layer` of the arrays as the launch finds them. -/
theorem flushed_eq (c : Dev nD) (t : Fin cfg1.N) (hf : (cfg1.win 3).flush t = true) :
    (dat V c).flushed 3 t = ((cfg1.win 3).blk t).view.read (Elt Ideal) (layer (V c main_v45) (V c main_v46) (V c main_v47)) := by
  have ht3 : t.val % 4 = 3 := (flush1_3 t).mp hf
  obtain ⟨tv, htv⟩ := t
  obtain ⟨n, rfl⟩ : ∃ n, tv = n + 3 := ⟨tv - 3, by simp only at ht3; omega⟩
  have hn0 : n % 4 = 0 := by simp only at ht3; omega
  obtain ⟨e0, e1, e2, e3, e4, e5, e6, e7⟩ := index_facts ⟨n + 3, htv⟩
  show (cfg1.win 3).cut (grid1.coords ⟨n + 3, htv⟩) ((dat V c).after 3 ⟨n + 3, htv⟩) = _
  rw [after_out, out_block V c n hn0 htv]
  funext j
  show k1_pay3 (F := Ideal) _ _ j = layer (V c main_v45) (V c main_v46) (V c main_v47) (((cfg1.win 3).blk ⟨n + 3, htv⟩).view.emb j)
  have hj0 : (j 0).val < 1024 := (j 0).isLt
  have hj1 : (j 1).val < 512 := (j 1).isLt
  have hr : ((((cfg1.win 3).blk ⟨n + 3, htv⟩).view.emb j) 0).val = 1024 * (n / 4) + (j 0).val := by
    show win1_3.index ⟨n + 3, htv⟩ (0 : Fin 2) * 1024 + 1 * (j 0).val = _; simp only at e6; omega
  have hc : ((((cfg1.win 3).blk ⟨n + 3, htv⟩).view.emb j) 1).val = (j 1).val := by
    show win1_3.index ⟨n + 3, htv⟩ (1 : Fin 2) * 512 + 1 * (j 1).val = _; omega
  rw [pay3_apply, pay2_apply, pay2_apply, pay2_apply, pay2_apply, pay1_apply]
  unfold layer
  simp only []
  have hN : cfg1.N = 32 := N_1
  rw [tile_product V c ⟨n, by omega⟩ 0 (by show n % 4 = 0; exact hn0) j ⟨_, ((((cfg1.win 3).blk ⟨n + 3, htv⟩).view.emb j) 0).isLt⟩ (by show ((((cfg1.win 3).blk ⟨n + 3, htv⟩).view.emb j) 0).val = 1024 * (n / 4) + (j 0).val; exact hr),
    tile_product V c ⟨n + 1, by omega⟩ 1 (by show (n + 1) % 4 = 1; omega) j ⟨_, ((((cfg1.win 3).blk ⟨n + 3, htv⟩).view.emb j) 0).isLt⟩ (by show ((((cfg1.win 3).blk ⟨n + 3, htv⟩).view.emb j) 0).val = 1024 * ((n + 1) / 4) + (j 0).val; rw [hr]; omega),
    tile_product V c ⟨n + 2, by omega⟩ 2 (by show (n + 2) % 4 = 2; omega) j ⟨_, ((((cfg1.win 3).blk ⟨n + 3, htv⟩).view.emb j) 0).isLt⟩ (by show ((((cfg1.win 3).blk ⟨n + 3, htv⟩).view.emb j) 0).val = 1024 * ((n + 2) / 4) + (j 0).val; rw [hr]; omega),
    tile_product V c ⟨n + 3, htv⟩ 3 (by show (n + 3) % 4 = 3; omega) j ⟨_, ((((cfg1.win 3).blk ⟨n + 3, htv⟩).view.emb j) 0).isLt⟩ (by show ((((cfg1.win 3).blk ⟨n + 3, htv⟩).view.emb j) 0).val = 1024 * ((n + 3) / 4) + (j 0).val; rw [hr]; omega),
    bias_read V c ⟨n + 3, htv⟩ ⟨(j 1).val, (j 1).isLt⟩]
  have hcc : (⟨((((cfg1.win 3).blk ⟨n + 3, htv⟩).view.emb j) 1).val, ((((cfg1.win 3).blk ⟨n + 3, htv⟩).view.emb j) 1).isLt⟩ : Fin 512) = ⟨(j 1).val, (j 1).isLt⟩ := Fin.ext hc
  rw [hcc]

/-- An entry of the result is in point t's block iff its row is among the block's rows. -/
theorem mem_block (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v48).slice (win1_3.rect t)).set ↔ _
  rw [View.set_slice_whole, Rect.mem_set_unit]
  exact Iff.rfl

/-- Every entry of the result is in the block written back at the last point of its row block. -/
theorem covered (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  have hN : cfg1.N = 32 := N_1
  refine ⟨⟨4 * ((i 0).val / 1024) + 3, by omega⟩, (flush1_3 _).mpr (by show (4 * ((i 0).val / 1024) + 3) % 4 = 3; omega), ?_⟩
  rw [mem_block]
  obtain ⟨e0, e1, e2, e3, e4, e5, e6, e7⟩ := index_facts ⟨4 * ((i 0).val / 1024) + 3, by omega⟩
  intro a
  match a with
  | ⟨0, _⟩ => show win1_3.index _ (0 : Fin 2) * 1024 ≤ (i 0).val ∧ (i 0).val < win1_3.index _ (0 : Fin 2) * 1024 + 1024; simp only [] at e6; omega
  | ⟨1, _⟩ => show win1_3.index _ (1 : Fin 2) * 512 ≤ (i 1).val ∧ (i 1).val < win1_3.index _ (1 : Fin 2) * 512 + 512; omega

/-- THE RESULT ARRAY after the launch. -/
theorem final (c : Dev nD) : (dat V c).arrAt 3 cfg1.N = layer (V c main_v45) (V c main_v46) (V c main_v47) :=
  (dat V c).arrAt_eq_of_cover 3 _ (fun t hf => flushed_eq V c t hf) covered

end Cert.KernelIdeal.Agg

end
-- ==== Proof.IdealAgg2Pieces.lean ====
/-
  The aggregation launch of the second layer: what the pieces found by the body's three runs are, read back as values,
  and the partial sum from point to point — as for the first layer at width 128; at a last point the result's buffer
  holds the scratch plus the bias row (no maximum with 0 in this layer).
-/
import proofs.«131745_j1614907703640_2_alg».proof.Proof.IdealAgg2Body
import Idealize.ShloMosaic.Lib.Pipeline.Value

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.Sem

variable {F : FTy → Type} [FloatOps F]

theorem zero_off : (![0, 0] : Fin 2 → Nat) = fun _ => 0 := funext fun a => by fin_cases a <;> rfl

theorem cover_mid (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole) (hc0 : ¬ isFirst i) (hc1 : ¬ isLast i)
    (a : Vec F S1024x2048 .bf16) (b : Vec F S2048x128 .f32) (bias : Vec F S1x128 .f32) (xs : Vec F S1024x128 .f32) (y : S1024x128.Idx) :
    ∃ pc ∈ (runMid (F := F) c i a2 h2 a3 h3 a4 h4 a5 h5 scr scr_whole hc0 hc1 a b bias xs).1, y ∈ pc.1.set :=
  View.cover_of_tiledL _ S1024x128.size (by sl_kernel_rfl) y

/-- A middle point leaves the previous partial sum plus the tile's product. -/
theorem mid_scr (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole) (hc0 : ¬ isFirst i) (hc1 : ¬ isLast i)
    (a : Vec F S1024x2048 .bf16) (b : Vec F S2048x128 .f32) (bias : Vec F S1x128 .f32) (xs : Vec F S1024x128 .f32) :
    scrOf (runMid (F := F) c i a2 h2 a3 h3 a4 h4 a5 h5 scr scr_whole hc0 hc1 a b bias xs).1 = k2_pay2 a b xs := by
  unfold scrOf
  rw [View.read_writes_eq_canon _ _ _ (cover_mid c i a2 h2 a3 h3 a4 h4 a5 h5 hc0 hc1 a b bias xs)]
  unfold runMid
  dsimp only
  sl_unfold_words
  rw [View.canon_unit_zero zero_off]
  simp only [View.readAt_eq_ld, Memref.IsWhole.read_unread, View.ld_unit_zero (S := S1024x2048) zero_off,
    View.ld_unit_zero (S := S2048x128) zero_off, View.ld_unit_zero (S := S1024x128) zero_off]
  exact congrArg (k2_pay2 a b) (scr_whole.read_unread xs)

theorem cover_last_scr (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole) (hc0 : ¬ isFirst i) (hc1 : isLast i)
    (a : Vec F S1024x2048 .bf16) (b : Vec F S2048x128 .f32) (bias : Vec F S1x128 .f32) (xs : Vec F S1024x128 .f32) (y : S1024x128.Idx) :
    ∃ pc ∈ (runLast (F := F) c i a2 h2 a3 h3 a4 h4 a5 h5 scr scr_whole hc0 hc1 a b bias xs).2.1, y ∈ pc.1.set :=
  View.cover_of_tiledL _ S1024x128.size (by sl_kernel_rfl) y
theorem cover_last_out (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole) (hc0 : ¬ isFirst i) (hc1 : isLast i)
    (a : Vec F S1024x2048 .bf16) (b : Vec F S2048x128 .f32) (bias : Vec F S1x128 .f32) (xs : Vec F S1024x128 .f32) (y : S1024x128.Idx) :
    ∃ pc ∈ (runLast (F := F) c i a2 h2 a3 h3 a4 h4 a5 h5 scr scr_whole hc0 hc1 a b bias xs).1, y ∈ pc.1.set :=
  View.cover_of_tiledL _ S1024x128.size (by sl_kernel_rfl) y
theorem cover_first (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole) (hc0 : isFirst i) (hc1 : ¬ isLast i)
    (a : Vec F S1024x2048 .bf16) (b : Vec F S2048x128 .f32) (bias : Vec F S1x128 .f32) (y : S1024x128.Idx) :
    ∃ pc ∈ (runFirst (F := F) c i a2 h2 a3 h3 a4 h4 a5 h5 scr scr_whole hc0 hc1 a b bias).1, y ∈ pc.1.set :=
  View.cover_of_tiledL _ S1024x128.size (by sl_kernel_rfl) y

/-- A last point leaves in the scratch the previous partial sum plus the tile's product, -/
theorem last_scr (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole) (hc0 : ¬ isFirst i) (hc1 : isLast i)
    (a : Vec F S1024x2048 .bf16) (b : Vec F S2048x128 .f32) (bias : Vec F S1x128 .f32) (xs : Vec F S1024x128 .f32) :
    scrOf (runLast (F := F) c i a2 h2 a3 h3 a4 h4 a5 h5 scr scr_whole hc0 hc1 a b bias xs).2.1 = k2_pay2 a b xs := by
  unfold scrOf
  rw [View.read_writes_eq_canon _ _ _ (cover_last_scr c i a2 h2 a3 h3 a4 h4 a5 h5 hc0 hc1 a b bias xs)]
  unfold runLast
  dsimp only
  sl_unfold_words
  rw [View.canon_unit_zero zero_off]
  simp only [View.readAt_eq_ld, Memref.IsWhole.read_unread, View.ld_unit_zero (S := S1024x2048) zero_off,
    View.ld_unit_zero (S := S2048x128) zero_off, View.ld_unit_zero (S := S1024x128) zero_off]
  exact congrArg (k2_pay2 a b) (scr_whole.read_unread xs)

/-- and in the result's buffer that sum plus the bias row. -/
theorem last_out (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole) (hc0 : ¬ isFirst i) (hc1 : isLast i)
    (a : Vec F S1024x2048 .bf16) (b : Vec F S2048x128 .f32) (bias : Vec F S1x128 .f32) (xs : Vec F S1024x128 .f32) :
    outOf (runLast (F := F) c i a2 h2 a3 h3 a4 h4 a5 h5 scr scr_whole hc0 hc1 a b bias xs).1 = k2_pay3 (k2_pay2 a b xs) bias := by
  unfold outOf
  rw [View.read_writes_eq_canon _ _ _ (cover_last_out c i a2 h2 a3 h3 a4 h4 a5 h5 hc0 hc1 a b bias xs)]
  unfold runLast
  dsimp only
  sl_unfold_words
  rw [View.canon_unit_zero zero_off]
  simp only [View.readAt_eq_ld, Memref.IsWhole.read_unread, View.ld_unit_zero (S := S1024x2048) zero_off,
    View.ld_unit_zero (S := S2048x128) zero_off, View.ld_unit_zero (S := S1024x128) zero_off, View.ld_unit_zero (S := S1x128) zero_off]
  rw [View.readCov_unit_zero _ zero_off]
  exact congrArg (fun s => k2_pay3 (k2_pay2 a b s) bias) (scr_whole.read_unread xs)

/-- A first point leaves the tile's product added to the cleared buffer. -/
theorem first_scr (c : Dev nD) (i : grid2.Coords) (a2 : Memref sig .tc .vmem S1024x2048 .bf16) (h2 : a2.IsWhole) (a3 : Memref sig .tc .vmem S2048x128 .f32) (h3 : a3.IsWhole)
    (a4 : Memref sig .tc .vmem S1x128 .f32) (h4 : a4.IsWhole) (a5 : Memref sig .tc .vmem S1024x128 .f32) (h5 : a5.IsWhole) (hc0 : isFirst i) (hc1 : ¬ isLast i)
    (a : Vec F S1024x2048 .bf16) (b : Vec F S2048x128 .f32) (bias : Vec F S1x128 .f32) :
    scrOf (runFirst (F := F) c i a2 h2 a3 h3 a4 h4 a5 h5 scr scr_whole hc0 hc1 a b bias).1 = k2_pay2 a b (k2_pay1 (F := F)) := by
  unfold scrOf
  rw [View.read_writes_eq_canon _ _ _ (cover_first c i a2 h2 a3 h3 a4 h4 a5 h5 hc0 hc1 a b bias)]
  unfold runFirst
  dsimp only
  sl_unfold_words
  rw [View.canon_cons_unit_zero zero_off, View.readCov_unit_zero _ zero_off]
  simp only [View.readAt_eq_ld, Memref.IsWhole.read_unread, View.ld_unit_zero (S := S1024x2048) zero_off,
    View.ld_unit_zero (S := S2048x128) zero_off]

/-! ## The partial sum from point to point, as payloads -/

variable (V : (c : Dev nD) → (b : Ref sig .tc) → Buf (Elt F) ((c : Thread nD τ).loc b))

/-- After the first point of a row block: the tile's product added to the cleared buffer. -/
theorem acc_first (c : Dev nD) (n : ℕ) (hn : n < cfg2.N) (h0 : n % 4 = 0) :
    accAt V c n hn = k2_pay2 (blk V c 0 ⟨n, hn⟩) (blk V c 1 ⟨n, hn⟩) (k2_pay1 (F := F)) :=
  (accAt_first V c ⟨n, hn⟩ h0).trans (by
    unfold firstAt
    exact first_scr c _ (bufA ⟨n, hn⟩) (bufA_whole ⟨n, hn⟩) (bufH ⟨n, hn⟩) (bufH_whole ⟨n, hn⟩) (bufB ⟨n, hn⟩) (bufB_whole ⟨n, hn⟩) (bufO ⟨n, hn⟩) (bufO_whole ⟨n, hn⟩) _ _ _ _ _)

/-- After a middle point: the tile's product added to what the point before left. -/
theorem acc_mid (c : Dev nD) (n : ℕ) (hn : n + 1 < cfg2.N) (h0 : ¬ (n + 1) % 4 = 0) (h3 : ¬ (n + 1) % 4 = 3) :
    accAt V c (n + 1) hn
      = k2_pay2 (blk V c 0 ⟨n + 1, hn⟩) (blk V c 1 ⟨n + 1, hn⟩) (accAt V c n (Nat.lt_of_succ_lt hn)) :=
  (accAt_mid V c ⟨n + 1, hn⟩ h0 h3).trans (by
    unfold midAt
    exact mid_scr c _ (bufA ⟨n + 1, hn⟩) (bufA_whole ⟨n + 1, hn⟩) (bufH ⟨n + 1, hn⟩) (bufH_whole ⟨n + 1, hn⟩) (bufB ⟨n + 1, hn⟩) (bufB_whole ⟨n + 1, hn⟩) (bufO ⟨n + 1, hn⟩) (bufO_whole ⟨n + 1, hn⟩) _ _ _ _ _ _)

/-- After a last point: the same, -/
theorem acc_last (c : Dev nD) (n : ℕ) (hn : n + 1 < cfg2.N) (h0 : ¬ (n + 1) % 4 = 0) (h3 : (n + 1) % 4 = 3) :
    accAt V c (n + 1) hn
      = k2_pay2 (blk V c 0 ⟨n + 1, hn⟩) (blk V c 1 ⟨n + 1, hn⟩) (accAt V c n (Nat.lt_of_succ_lt hn)) :=
  (accAt_last V c ⟨n + 1, hn⟩ h0 h3).trans (by
    unfold lastAt
    exact last_scr c _ (bufA ⟨n + 1, hn⟩) (bufA_whole ⟨n + 1, hn⟩) (bufH ⟨n + 1, hn⟩) (bufH_whole ⟨n + 1, hn⟩) (bufB ⟨n + 1, hn⟩) (bufB_whole ⟨n + 1, hn⟩) (bufO ⟨n + 1, hn⟩) (bufO_whole ⟨n + 1, hn⟩) _ _ _ _ _ _)

/-- and the result's buffer holds that plus the bias row. -/
theorem out_last (c : Dev nD) (n : ℕ) (hn : n + 1 < cfg2.N) (h0 : ¬ (n + 1) % 4 = 0) (h3 : (n + 1) % 4 = 3) :
    outAt V c ⟨n + 1, hn⟩
      = k2_pay3 (k2_pay2 (blk V c 0 ⟨n + 1, hn⟩) (blk V c 1 ⟨n + 1, hn⟩) (accAt V c n (Nat.lt_of_succ_lt hn))) (blk V c 2 ⟨n + 1, hn⟩) :=
  (outAt_last V c ⟨n + 1, hn⟩ h0 h3).trans (by
    unfold lastAt
    exact last_out c _ (bufA ⟨n + 1, hn⟩) (bufA_whole ⟨n + 1, hn⟩) (bufH ⟨n + 1, hn⟩) (bufH_whole ⟨n + 1, hn⟩) (bufB ⟨n + 1, hn⟩) (bufB_whole ⟨n + 1, hn⟩) (bufO ⟨n + 1, hn⟩) (bufO_whole ⟨n + 1, hn⟩) _ _ _ _ _ _)

/-- A whole row block: at its last point (position n + 3, n a multiple of 4) the result's buffer holds the four tiles'
    products added in turn to the cleared buffer, plus the bias row. -/
theorem out_block (c : Dev nD) (n : ℕ) (h0 : n % 4 = 0) (hn : n + 3 < cfg2.N) :
    outAt V c ⟨n + 3, hn⟩
      = k2_pay3 (k2_pay2 (blk V c 0 ⟨n + 3, hn⟩) (blk V c 1 ⟨n + 3, hn⟩)
          (k2_pay2 (blk V c 0 ⟨n + 2, by omega⟩) (blk V c 1 ⟨n + 2, by omega⟩)
            (k2_pay2 (blk V c 0 ⟨n + 1, by omega⟩) (blk V c 1 ⟨n + 1, by omega⟩)
              (k2_pay2 (blk V c 0 ⟨n, by omega⟩) (blk V c 1 ⟨n, by omega⟩) (k2_pay1 (F := F))))))
          (blk V c 2 ⟨n + 3, hn⟩) := by
  rw [out_last V c (n + 2) hn (by omega) (by omega), acc_mid V c (n + 1) (by omega) (by omega) (by omega),
    acc_mid V c n (by omega) (by omega) (by omega), acc_first V c n (by omega) h0]

end Cert.KernelIdeal.Agg2

end
-- ==== Proof.IdealAgg2Value.lean ====
/-
  What the second layer's aggregation launch leaves, at the exact instance: for every node r and column c < 128

      ((((0 + P₀) + P₁) + P₂) + P₃) + b[c],     P_q = Σ_{k < 2048} Â[r, 2048·q + k] · g[2048·q + k, c],

  the four partial products of the row of Â with the column of g (the padded second-layer features), added in the
  order the grid visits them to the cleared scratch, then the bias.  As for the first layer, without the maximum.
-/
import proofs.«131745_j1614907703640_2_alg».proof.Proof.IdealAgg2Pieces
import Idealize.ShloMosaic.Lib.Pipeline.Value
import Idealize.ShloMosaic.Lib.ValueIdx
import Idealize.ShloMosaic.PureOps.Ideal.Laws

set_option maxRecDepth 16384

noncomputable section

namespace Cert.KernelIdeal.Agg2

open Cert.KernelIdeal Cert.KernelIdeal.Gen
open Idealize.ShloMosaic Idealize.ShloMosaic.TcCoe
open Idealize.SL Idealize.SL.Sem
open Idealize.ShloMosaic.Pipeline (Dat Cfg Window)

/-! ## Indices -/

abbrev atTile (r : Fin 1024) (k : Fin 2048) : S1024x2048.Idx := fun a => match a with
  | ⟨0, _⟩ => ⟨r.val, r.isLt⟩
  | ⟨1, _⟩ => ⟨k.val, k.isLt⟩
abbrev atRows (k : Fin 2048) (c : Fin 128) : S2048x128.Idx := fun a => match a with
  | ⟨0, _⟩ => ⟨k.val, k.isLt⟩
  | ⟨1, _⟩ => ⟨c.val, c.isLt⟩
abbrev atBias (c : Fin 128) : S1x128.Idx := fun a => match a with
  | ⟨0, _⟩ => ⟨0, by show 0 < 1; omega⟩
  | ⟨1, _⟩ => ⟨c.val, c.isLt⟩
abbrev atAdj (r : Fin 8192) (j : Fin 8192) : S8192x8192.Idx := fun a => match a with
  | ⟨0, _⟩ => ⟨r.val, r.isLt⟩
  | ⟨1, _⟩ => ⟨j.val, j.isLt⟩
abbrev atFeat (j : Fin 8192) (c : Fin 128) : S8192x128.Idx := fun a => match a with
  | ⟨0, _⟩ => ⟨j.val, j.isLt⟩
  | ⟨1, _⟩ => ⟨c.val, c.isLt⟩

/-! ## The body's stores at an index -/

/-- The contraction of a tile with the rows of h: 1024 × 2048 times 2048 × 512. -/
abbrev dd := dot_S1024x2048_S2048x128_S1024x128_1_0_0_1_n_n

theorem lhs_row (i : S1024x128.Idx) (q : dd.contr.Idx) : (dd.lhsIdx i q 0).val = (i 0).val := by
  unfold DotDims.lhsIdx
  rw [dif_neg (show ¬(0 : Fin S1024x2048.rank) ∈ dd.lhsBatch by decide), dif_pos (show (0 : Fin S1024x2048.rank) ∈ dd.lhsNonContracting by decide)]
  rfl
theorem lhs_col (i : S1024x128.Idx) (q : dd.contr.Idx) : (dd.lhsIdx i q 1).val = (q ⟨0, by decide⟩).val :=
  dd.lhsIdx_val_of_single rfl i q
theorem rhs_row (i : S1024x128.Idx) (q : dd.contr.Idx) : (dd.rhsIdx i q 0).val = (q ⟨0, by decide⟩).val :=
  dd.rhsIdx_val_of_single rfl i q
theorem rhs_col (i : S1024x128.Idx) (q : dd.contr.Idx) : (dd.rhsIdx i q 1).val = (i 1).val := by
  unfold DotDims.rhsIdx
  rw [dif_neg (show ¬(1 : Fin S2048x128.rank) ∈ dd.rhsBatch by decide), dif_pos (show (1 : Fin S2048x128.rank) ∈ dd.rhsNonContracting by decide)]
  rfl

/-- The accumulating store: the old scratch plus the sum over the tile's columns. -/
theorem pay2_apply (a : Vec Ideal S1024x2048 .bf16) (b : Vec Ideal S2048x128 .f32) (xs : Vec Ideal S1024x128 .f32) (j : S1024x128.Idx) :
    k2_pay2 (F := Ideal) a b xs j
      = xs j + ∑ k : Fin 2048, a (atTile ⟨(j 0).val, (j 0).isLt⟩ k) * b (atRows k ⟨(j 1).val, (j 1).isLt⟩) := by
  unfold k2_pay2
  simp only [shapeCast_self]
  show xs j + FloatOps.matmul dd none (a : FVec Ideal S1024x2048 .bf16)
      (truncf (F := Ideal) .bf16 (b : FVec Ideal S2048x128 .f32) bitsLt_bf16_f32) (constant S1024x128 .f32 0x00000000#32) j = _
  rw [Ideal.matmul_constant_zero_apply, ← Equiv.sum_comp (ValueIdx.contrEquiv1 dd 2048 rfl rfl).symm]
  refine congrArg (xs j + ·) (Finset.sum_congr rfl fun k _ => ?_)
  have hk := ValueIdx.contrEquiv1_symm_val dd 2048 rfl rfl k
  have el : dd.lhsIdx j ((ValueIdx.contrEquiv1 dd 2048 rfl rfl).symm k) = atTile ⟨(j 0).val, (j 0).isLt⟩ k := funext fun a => Fin.ext (by
    match a with
    | ⟨0, _⟩ => exact lhs_row _ _
    | ⟨1, _⟩ => exact (lhs_col _ _).trans hk)
  have er : dd.rhsIdx j ((ValueIdx.contrEquiv1 dd 2048 rfl rfl).symm k) = atRows k ⟨(j 1).val, (j 1).isLt⟩ := funext fun a => Fin.ext (by
    match a with
    | ⟨0, _⟩ => exact (rhs_row _ _).trans hk
    | ⟨1, _⟩ => exact rhs_col _ _)
  rw [el, er]
  rfl

/-- The clearing store. -/
theorem pay1_apply (j : S1024x128.Idx) : k2_pay1 (F := Ideal) j = 0 := by
  unfold k2_pay1
  simp only [shapeCast_self]
  show Ideal.ofBits .f32 0x00000000#32 = 0
  exact Ideal.ofBits_zero_f32

/-- The final store: scratch + bias row. -/
theorem pay3_apply (s : Vec Ideal S1024x128 .f32) (bias : Vec Ideal S1x128 .f32) (j : S1024x128.Idx) :
    k2_pay3 (F := Ideal) s bias j = s j + bias (atBias ⟨(j 1).val, (j 1).isLt⟩) := by
  unfold k2_pay3
  simp only [shapeCast_self]
  show s j + broadcastTo S1024x128 bias broadcasts_S1x128_S1024x128 j = _
  rw [broadcastTo_apply bias broadcasts_S1x128_S1024x128 j (atBias ⟨(j 1).val, (j 1).isLt⟩) (fun a => by
    match a with
    | ⟨0, _⟩ => rfl
    | ⟨1, _⟩ => rfl)]

/-! ## The blocks the body sees, in terms of the arrays -/

variable (V : (c : Dev nD) → (b : Ref sig .tc) → Buf (Elt Ideal) ((c : Thread nD τ).loc b))

/-- The printed index maps over the 32 grid points t = 4·i + q. -/
theorem index_facts : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

theorem tile_read (c : Dev nD) (t : Fin cfg2.N) (r : Fin 1024) (k : Fin 2048) (R : Fin 8192) (J : Fin 8192)
    (hR : R.val = 1024 * (t.val / 4) + r.val) (hJ : J.val = 2048 * (t.val % 4) + k.val) :
    blk V c 0 t (atTile r k) = V c main_v45 (atAdj R J) := by
  obtain ⟨e0, e1, e2, e3, e4, e5, e6, e7⟩ := index_facts t
  show V c main_v45 (((cfg2.win 0).blk t).view.emb (atTile r k)) = _
  refine congrArg (V c main_v45) (funext fun a => Fin.ext ?_)
  match a with
  | ⟨0, _⟩ => show win2_0.index t (0 : Fin 2) * 1024 + 1 * r.val = R.val; omega
  | ⟨1, _⟩ => show win2_0.index t (1 : Fin 2) * 2048 + 1 * k.val = J.val; omega

theorem rows_read (c : Dev nD) (t : Fin cfg2.N) (k : Fin 2048) (cc : Fin 128) (J : Fin 8192)
    (hJ : J.val = 2048 * (t.val % 4) + k.val) :
    blk V c 1 t (atRows k cc) = V c main_v50 (atFeat J cc) := by
  obtain ⟨e0, e1, e2, e3, e4, e5, e6, e7⟩ := index_facts t
  show V c main_v50 (((cfg2.win 1).blk t).view.emb (atRows k cc)) = _
  refine congrArg (V c main_v50) (funext fun a => Fin.ext ?_)
  match a with
  | ⟨0, _⟩ => show win2_1.index t (0 : Fin 2) * 2048 + 1 * k.val = J.val; omega
  | ⟨1, _⟩ => show win2_1.index t (1 : Fin 2) * 128 + 1 * cc.val = cc.val; omega

theorem bias_read (c : Dev nD) (t : Fin cfg2.N) (cc : Fin 128) :
    blk V c 2 t (atBias cc) = V c main_v52 (atBias cc) := by
  obtain ⟨e0, e1, e2, e3, e4, e5, e6, e7⟩ := index_facts t
  show V c main_v52 (((cfg2.win 2).blk t).view.emb (atBias cc)) = _
  refine congrArg (V c main_v52) (funext fun a => Fin.ext ?_)
  match a with
  | ⟨0, _⟩ => show win2_2.index t (0 : Fin 2) * 1 + 1 * 0 = 0; omega
  | ⟨1, _⟩ => show win2_2.index t (1 : Fin 2) * 128 + 1 * cc.val = cc.val; omega

/-! ## The result array -/

/-- One of the four partial products of row r of Â with column c of h. -/
def partSum (A : S8192x8192.Idx → EReal) (H : S8192x128.Idx → EReal) (r : Fin 8192) (c : Fin 128) (q : Fin 4) : EReal :=
  ∑ k : Fin 2048, A (atAdj r ⟨2048 * q.val + k.val, by have := q.isLt; have := k.isLt; omega⟩)
    * H (atFeat ⟨2048 * q.val + k.val, by have := q.isLt; have := k.isLt; omega⟩ c)

/-- What the launch computes. -/
def layer (A : S8192x8192.Idx → EReal) (H : S8192x128.Idx → EReal) (b : S1x128.Idx → EReal) : S8192x128.Idx → EReal :=
  fun i =>
    let r : Fin 8192 := ⟨(i 0).val, (i 0).isLt⟩
    let c : Fin 128 := ⟨(i 1).val, (i 1).isLt⟩
    ((((0 + partSum A H r c 0) + partSum A H r c 1) + partSum A H r c 2) + partSum A H r c 3) + b (atBias c)

/-- One tile's product, in terms of the arrays. -/
theorem tile_product (c : Dev nD) (t : Fin cfg2.N) (q : Fin 4) (hq : t.val % 4 = q.val) (j : S1024x128.Idx) (R : Fin 8192)
    (hR : R.val = 1024 * (t.val / 4) + (j 0).val) :
    ∑ k : Fin 2048, @HMul.hMul EReal EReal EReal instHMul (blk V c 0 t (atTile ⟨(j 0).val, (j 0).isLt⟩ k)) (blk V c 1 t (atRows k ⟨(j 1).val, (j 1).isLt⟩))
      = partSum (V c main_v45) (V c main_v50) R ⟨(j 1).val, (j 1).isLt⟩ q := by
  unfold partSum
  refine Finset.sum_congr rfl fun k _ => ?_
  rw [tile_read V c t ⟨(j 0).val, (j 0).isLt⟩ k R ⟨2048 * q.val + k.val, by have := q.isLt; have := k.isLt; omega⟩ hR (by show 2048 * q.val + k.val = 2048 * (t.val % 4) + k.val; omega),
    rows_read V c t k ⟨(j 1).val, (j 1).isLt⟩ ⟨2048 * q.val + k.val, by have := q.isLt; have := k.isLt; omega⟩ (by show 2048 * q.val + k.val = 2048 * (t.val % 4) + k.val; omega)]

set_option maxHeartbeats 4000000 in
/-- What the last point of a row block writes back is its rows of `layer` of the arrays as the launch finds them. -/
theorem flushed_eq (c : Dev nD) (t : Fin cfg2.N) (hf : (cfg2.win 3).flush t = true) :
    (dat V c).flushed 3 t = ((cfg2.win 3).blk t).view.read (Elt Ideal) (layer (V c main_v45) (V c main_v50) (V c main_v52)) := by
  have ht3 : t.val % 4 = 3 := (flush2_3 t).mp hf
  obtain ⟨tv, htv⟩ := t
  obtain ⟨n, rfl⟩ : ∃ n, tv = n + 3 := ⟨tv - 3, by simp only at ht3; omega⟩
  have hn0 : n % 4 = 0 := by simp only at ht3; omega
  obtain ⟨e0, e1, e2, e3, e4, e5, e6, e7⟩ := index_facts ⟨n + 3, htv⟩
  show (cfg2.win 3).cut (grid2.coords ⟨n + 3, htv⟩) ((dat V c).after 3 ⟨n + 3, htv⟩) = _
  rw [after_out, out_block V c n hn0 htv]
  funext j
  show k2_pay3 (F := Ideal) _ _ j = layer (V c main_v45) (V c main_v50) (V c main_v52) (((cfg2.win 3).blk ⟨n + 3, htv⟩).view.emb j)
  have hj0 : (j 0).val < 1024 := (j 0).isLt
  have hj1 : (j 1).val < 128 := (j 1).isLt
  have hr : ((((cfg2.win 3).blk ⟨n + 3, htv⟩).view.emb j) 0).val = 1024 * (n / 4) + (j 0).val := by
    show win2_3.index ⟨n + 3, htv⟩ (0 : Fin 2) * 1024 + 1 * (j 0).val = _; simp only at e6; omega
  have hc : ((((cfg2.win 3).blk ⟨n + 3, htv⟩).view.emb j) 1).val = (j 1).val := by
    show win2_3.index ⟨n + 3, htv⟩ (1 : Fin 2) * 128 + 1 * (j 1).val = _; omega
  rw [pay3_apply, pay2_apply, pay2_apply, pay2_apply, pay2_apply, pay1_apply]
  unfold layer
  simp only []
  have hN : cfg2.N = 32 := N_2
  rw [tile_product V c ⟨n, by omega⟩ 0 (by show n % 4 = 0; exact hn0) j ⟨_, ((((cfg2.win 3).blk ⟨n + 3, htv⟩).view.emb j) 0).isLt⟩ (by show ((((cfg2.win 3).blk ⟨n + 3, htv⟩).view.emb j) 0).val = 1024 * (n / 4) + (j 0).val; exact hr),
    tile_product V c ⟨n + 1, by omega⟩ 1 (by show (n + 1) % 4 = 1; omega) j ⟨_, ((((cfg2.win 3).blk ⟨n + 3, htv⟩).view.emb j) 0).isLt⟩ (by show ((((cfg2.win 3).blk ⟨n + 3, htv⟩).view.emb j) 0).val = 1024 * ((n + 1) / 4) + (j 0).val; rw [hr]; omega),
    tile_product V c ⟨n + 2, by omega⟩ 2 (by show (n + 2) % 4 = 2; omega) j ⟨_, ((((cfg2.win 3).blk ⟨n + 3, htv⟩).view.emb j) 0).isLt⟩ (by show ((((cfg2.win 3).blk ⟨n + 3, htv⟩).view.emb j) 0).val = 1024 * ((n + 2) / 4) + (j 0).val; rw [hr]; omega),
    tile_product V c ⟨n + 3, htv⟩ 3 (by show (n + 3) % 4 = 3; omega) j ⟨_, ((((cfg2.win 3).blk ⟨n + 3, htv⟩).view.emb j) 0).isLt⟩ (by show ((((cfg2.win 3).blk ⟨n + 3, htv⟩).view.emb j) 0).val = 1024 * ((n + 3) / 4) + (j 0).val; rw [hr]; omega),
    bias_read V c ⟨n + 3, htv⟩ ⟨(j 1).val, (j 1).isLt⟩]
  have hcc : (⟨((((cfg2.win 3).blk ⟨n + 3, htv⟩).view.emb j) 1).val, ((((cfg2.win 3).blk ⟨n + 3, htv⟩).view.emb j) 1).isLt⟩ : Fin 128) = ⟨(j 1).val, (j 1).isLt⟩ := Fin.ext hc
  rw [hcc]

/-- An entry of the result is in point t's block iff its row is among the block's rows. -/
theorem mem_block (t : Fin cfg2.N) (i : S8192x128.Idx) :
    i ∈ ((cfg2.win 3).blk t).view.set ↔ ∀ a : Fin 2, win2_3.index t a * S1024x128.size a ≤ (i a).val ∧ (i a).val < win2_3.index t a * S1024x128.size a + S1024x128.size a := by
  show i ∈ ((View.whole main_v53).slice (win2_3.rect t)).set ↔ _
  rw [View.set_slice_whole, Rect.mem_set_unit]
  exact Iff.rfl

/-- Every entry of the result is in the block written back at the last point of its row block. -/
theorem covered (i : S8192x128.Idx) : ∃ t : Fin cfg2.N, (cfg2.win 3).flush t = true ∧ i ∈ ((cfg2.win 3).blk t).view.set := by
  have hi0 : (i 0).val < 8192 := (i 0).isLt
  have hi1 : (i 1).val < 128 := (i 1).isLt
  have hN : cfg2.N = 32 := N_2
  refine ⟨⟨4 * ((i 0).val / 1024) + 3, by omega⟩, (flush2_3 _).mpr (by show (4 * ((i 0).val / 1024) + 3) % 4 = 3; omega), ?_⟩
  rw [mem_block]
  obtain ⟨e0, e1, e2, e3, e4, e5, e6, e7⟩ := index_facts ⟨4 * ((i 0).val / 1024) + 3, by omega⟩
  intro a
  match a with
  | ⟨0, _⟩ => show win2_3.index _ (0 : Fin 2) * 1024 ≤ (i 0).val ∧ (i 0).val < win2_3.index _ (0 : Fin 2) * 1024 + 1024; simp only [] at e6; omega
  | ⟨1, _⟩ => show win2_3.index _ (1 : Fin 2) * 128 ≤ (i 1).val ∧ (i 1).val < win2_3.index _ (1 : Fin 2) * 128 + 128; omega

/-- THE RESULT ARRAY after the launch. -/
theorem final (c : Dev nD) : (dat V c).arrAt 3 cfg2.N = layer (V c main_v45) (V c main_v50) (V c main_v52) :=
  (dat V c).arrAt_eq_of_cover 3 _ (fun t hf => flushed_eq V c t hf) covered

end Cert.KernelIdeal.Agg2

end
-- ==== Proof.IdealHeadValue.lean ====
/-
  What the last launch leaves, at the exact instance: the whole 8192 × 8192 array

      out[i, j] = h[j] + ( Σ_{k < 4} o[i, k] · Wl[k] + bl ).

  At a grid point the body forms the 1024 × 1 column  o-block · Wl + bl  (the roundings are the identity, the matrix
  unit's pass into a zero accumulator is the plain sum over the four features, the bias a 1 × 1 block spread down the
  column), spreads it along the 2048 columns, and adds it to the h-block spread down the 1024 rows.  The tile at point
  t = 4·a + b is rows 1024·a …, columns 2048·b …; the 32 tiles tile the result, each written back at its own point.
-/
import proofs.«131745_j1614907703640_2_alg».proof.Proof.IdealHead
import Idealize.ShloMosaic.Lib.Pipeline.Value
import Idealize.ShloMosaic.Lib.ValueIdx
import Idealize.ShloMosaic.PureOps.Ideal.Laws

set_option maxRecDepth 16384

noncomputable section

namespace Cert.KernelIdeal.Head

open Cert.KernelIdeal Cert.KernelIdeal.Gen
open Idealize.ShloMosaic Idealize.ShloMosaic.TcCoe
open Idealize.SL Idealize.SL.Sem
open Idealize.ShloMosaic.Pipeline (Dat Cfg Window)

/-! ## Indices -/

abbrev atHb (c : Fin 2048) : S1x2048.Idx := fun a => match a with
  | ⟨0, _⟩ => ⟨0, by show 0 < 1; omega⟩
  | ⟨1, _⟩ => ⟨c.val, c.isLt⟩
abbrev atOb (r : Fin 1024) (k : Fin 4) : S1024x4.Idx := fun a => match a with
  | ⟨0, _⟩ => ⟨r.val, r.isLt⟩
  | ⟨1, _⟩ => ⟨k.val, k.isLt⟩
abbrev atWl (k : Fin 4) : S4x1.Idx := fun a => match a with
  | ⟨0, _⟩ => ⟨k.val, k.isLt⟩
  | ⟨1, _⟩ => ⟨0, by show 0 < 1; omega⟩
abbrev atBl : S1x1.Idx := fun a => match a with
  | ⟨0, _⟩ => ⟨0, by show 0 < 1; omega⟩
  | ⟨1, _⟩ => ⟨0, by show 0 < 1; omega⟩
abbrev atCol (r : Fin 1024) : S1024x1.Idx := fun a => match a with
  | ⟨0, _⟩ => ⟨r.val, r.isLt⟩
  | ⟨1, _⟩ => ⟨0, by show 0 < 1; omega⟩
abbrev atH (j : Fin 8192) : S1x8192.Idx := fun a => match a with
  | ⟨0, _⟩ => ⟨0, by show 0 < 1; omega⟩
  | ⟨1, _⟩ => ⟨j.val, j.isLt⟩
abbrev atO (i : Fin 8192) (k : Fin 4) : S8192x4.Idx := fun a => match a with
  | ⟨0, _⟩ => ⟨i.val, i.isLt⟩
  | ⟨1, _⟩ => ⟨k.val, k.isLt⟩

/-- What the launch computes. -/
def headOut (h : S1x8192.Idx → EReal) (o : S8192x4.Idx → EReal) (wl : S4x1.Idx → EReal) (bl : S1x1.Idx → EReal) :
    S8192x8192.Idx → EReal :=
  fun i => h (atH ⟨(i 1).val, (i 1).isLt⟩) + ((∑ k : Fin 4, o (atO ⟨(i 0).val, (i 0).isLt⟩ k) * wl (atWl k)) + bl atBl)

/-! ## The body's store at an index -/

/-- The head's contraction: 1024 × 4 times 4 × 1. -/
abbrev dd := dot_S1024x4_S4x1_S1024x1_1_0_0_1_n_n

theorem lhs_row (i : S1024x1.Idx) (q : dd.contr.Idx) : (dd.lhsIdx i q 0).val = (i 0).val := by
  unfold DotDims.lhsIdx
  rw [dif_neg (show ¬(0 : Fin S1024x4.rank) ∈ dd.lhsBatch by decide), dif_pos (show (0 : Fin S1024x4.rank) ∈ dd.lhsNonContracting by decide)]
  rfl
theorem lhs_col (i : S1024x1.Idx) (q : dd.contr.Idx) : (dd.lhsIdx i q 1).val = (q ⟨0, by decide⟩).val :=
  dd.lhsIdx_val_of_single rfl i q
theorem rhs_row (i : S1024x1.Idx) (q : dd.contr.Idx) : (dd.rhsIdx i q 0).val = (q ⟨0, by decide⟩).val :=
  dd.rhsIdx_val_of_single rfl i q
theorem rhs_col (i : S1024x1.Idx) (q : dd.contr.Idx) : (dd.rhsIdx i q 1).val = (i 1).val := by
  unfold DotDims.rhsIdx
  rw [dif_neg (show ¬(1 : Fin S4x1.rank) ∈ dd.rhsBatch by decide), dif_pos (show (1 : Fin S4x1.rank) ∈ dd.rhsNonContracting by decide)]
  rfl

/-- The head's product at row r: the sum over the four features. -/
theorem head_apply (o : Vec Ideal S1024x4 .f32) (wl : Vec Ideal S4x1 .f32) (r : Fin 1024) :
    FloatOps.matmul dd none (truncf (F := Ideal) .bf16 (o : FVec Ideal S1024x4 .f32) bitsLt_bf16_f32)
        (truncf (F := Ideal) .bf16 (wl : FVec Ideal S4x1 .f32) bitsLt_bf16_f32) (constant S1024x1 .f32 0x00000000#32) (atCol r)
      = ∑ k : Fin 4, o (atOb r k) * wl (atWl k) := by
  rw [Ideal.matmul_constant_zero_apply, ← Equiv.sum_comp (ValueIdx.contrEquiv1 dd 4 rfl rfl).symm]
  refine Finset.sum_congr rfl fun k _ => ?_
  have hk := ValueIdx.contrEquiv1_symm_val dd 4 rfl rfl k
  have el : dd.lhsIdx (atCol r) ((ValueIdx.contrEquiv1 dd 4 rfl rfl).symm k) = atOb r k := funext fun a => Fin.ext (by
    match a with
    | ⟨0, _⟩ => exact lhs_row _ _
    | ⟨1, _⟩ => exact (lhs_col _ _).trans hk)
  have er : dd.rhsIdx (atCol r) ((ValueIdx.contrEquiv1 dd 4 rfl rfl).symm k) = atWl k := funext fun a => Fin.ext (by
    match a with
    | ⟨0, _⟩ => exact (rhs_row _ _).trans hk
    | ⟨1, _⟩ => exact rhs_col _ _)
  rw [el, er]
  rfl

/-- The body's stored value at entry j of the tile. -/
theorem stored_apply (o : Vec Ideal S1024x4 .f32) (wl : Vec Ideal S4x1 .f32) (bl : Vec Ideal S1x1 .f32) (h : Vec Ideal S1x2048 .f32)
    (j : S1024x2048.Idx) :
    k3_pay1 (F := Ideal) o wl bl h j
      = h (atHb ⟨(j 1).val, (j 1).isLt⟩) + ((∑ k : Fin 4, o (atOb ⟨(j 0).val, (j 0).isLt⟩ k) * wl (atWl k)) + bl atBl) := by
  unfold k3_pay1
  simp only [shapeCast_self]
  show broadcastTo S1024x2048 h broadcasts_S1x2048_S1024x2048 j
      + broadcastTo S1024x2048 (addf (FloatOps.matmul dd none (truncf (F := Ideal) .bf16 (o : FVec Ideal S1024x4 .f32) bitsLt_bf16_f32)
          (truncf (F := Ideal) .bf16 (wl : FVec Ideal S4x1 .f32) bitsLt_bf16_f32) (constant S1024x1 .f32 0x00000000#32))
          (broadcastTo S1024x1 bl broadcasts_S1x1_S1024x1)) broadcasts_S1024x1_S1024x2048 j = _
  rw [broadcastTo_apply h broadcasts_S1x2048_S1024x2048 j (atHb ⟨(j 1).val, (j 1).isLt⟩) (fun a => by
      match a with
      | ⟨0, _⟩ => rfl
      | ⟨1, _⟩ => rfl),
    broadcastTo_apply _ broadcasts_S1024x1_S1024x2048 j (atCol ⟨(j 0).val, (j 0).isLt⟩) (fun a => by
      match a with
      | ⟨0, _⟩ => rfl
      | ⟨1, _⟩ => rfl)]
  show _ + (FloatOps.matmul dd none (truncf (F := Ideal) .bf16 (o : FVec Ideal S1024x4 .f32) bitsLt_bf16_f32)
      (truncf (F := Ideal) .bf16 (wl : FVec Ideal S4x1 .f32) bitsLt_bf16_f32) (constant S1024x1 .f32 0x00000000#32) (atCol ⟨(j 0).val, (j 0).isLt⟩)
    + broadcastTo S1024x1 bl broadcasts_S1x1_S1024x1 (atCol ⟨(j 0).val, (j 0).isLt⟩)) = _
  rw [head_apply, broadcastTo_apply bl broadcasts_S1x1_S1024x1 (atCol ⟨(j 0).val, (j 0).isLt⟩) atBl (fun a => by
      match a with
      | ⟨0, _⟩ => rfl
      | ⟨1, _⟩ => rfl)]

/-! ## From the tiles to the array -/

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the 32 grid points t = 4·a + b. -/
theorem index_facts : ∀ t : Fin cfg3.N, win3_0.index t (0 : Fin 2) = 0 ∧ win3_0.index t (1 : Fin 2) = t.val % 4
    ∧ win3_1.index t (0 : Fin 2) = t.val / 4 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val / 4 ∧ win3_4.index t (1 : Fin 2) = t.val % 4 :=
  (by decide +kernel : ∀ t : Fin grid3.N, _)

/-- What point t writes back is its tile of `headOut` of the arrays as the launch finds them. -/
theorem flushed_eq (c : Dev nD) (t : Fin cfg3.N) :
    (dat V c).flushed 4 t = ((cfg3.win 4).blk t).view.read (Elt Ideal)
      (headOut (V c main_v56) (V c main_arg1) (V c main_arg7) (V c main_v57)) := by
  show (cfg3.win 4).cut (grid3.coords t) ((dat V c).after 4 t) = _
  rw [after_out]
  unfold tileValue
  rw [View.canon_unit_zero zero_off]
  simp only [View.ld_unit_zero (S := S1x2048) zero_off, View.ld_unit_zero (S := S1024x4) zero_off,
    View.ld_unit_zero (S := S4x1) zero_off, View.ld_unit_zero (S := S1x1) zero_off]
  obtain ⟨e0, e1, e2, e3, e4, e5, e6, e7, e8, e9⟩ := index_facts t
  funext j
  show k3_pay1 (F := Ideal) (tileBlock V c 1 t) (tileBlock V c 2 t) (tileBlock V c 3 t) (tileBlock V c 0 t) j
    = headOut (V c main_v56) (V c main_arg1) (V c main_arg7) (V c main_v57) (((cfg3.win 4).blk t).view.emb j)
  rw [stored_apply]
  unfold headOut
  have hj0 : (j 0).val < 1024 := (j 0).isLt
  have hj1 : (j 1).val < 2048 := (j 1).isLt
  have hh : tileBlock V c 0 t (atHb ⟨(j 1).val, (j 1).isLt⟩)
      = V c main_v56 (atH ⟨((((cfg3.win 4).blk t).view.emb j) 1).val, ((((cfg3.win 4).blk t).view.emb j) 1).isLt⟩) := by
    show V c main_v56 (((cfg3.win 0).blk t).view.emb (atHb ⟨(j 1).val, (j 1).isLt⟩)) = _
    refine congrArg (V c main_v56) (funext fun a => Fin.ext ?_)
    match a with
    | ⟨0, _⟩ => show win3_0.index t (0 : Fin 2) * 1 + 1 * 0 = 0; omega
    | ⟨1, _⟩ => show win3_0.index t (1 : Fin 2) * 2048 + 1 * (j 1).val = win3_4.index t (1 : Fin 2) * 2048 + 1 * (j 1).val; omega
  have ho : ∀ k : Fin 4, tileBlock V c 1 t (atOb ⟨(j 0).val, (j 0).isLt⟩ k)
      = V c main_arg1 (atO ⟨((((cfg3.win 4).blk t).view.emb j) 0).val, ((((cfg3.win 4).blk t).view.emb j) 0).isLt⟩ k) := by
    intro k
    show V c main_arg1 (((cfg3.win 1).blk t).view.emb (atOb ⟨(j 0).val, (j 0).isLt⟩ k)) = _
    refine congrArg (V c main_arg1) (funext fun a => Fin.ext ?_)
    match a with
    | ⟨0, _⟩ => show win3_1.index t (0 : Fin 2) * 1024 + 1 * (j 0).val = win3_4.index t (0 : Fin 2) * 1024 + 1 * (j 0).val; omega
    | ⟨1, _⟩ => show win3_1.index t (1 : Fin 2) * 4 + 1 * k.val = k.val; omega
  have hwl : ∀ k : Fin 4, tileBlock V c 2 t (atWl k) = V c main_arg7 (atWl k) := by
    intro k
    show V c main_arg7 (((cfg3.win 2).blk t).view.emb (atWl k)) = _
    refine congrArg (V c main_arg7) (funext fun a => Fin.ext ?_)
    match a with
    | ⟨0, _⟩ => show win3_2.index t (0 : Fin 2) * 4 + 1 * k.val = k.val; omega
    | ⟨1, _⟩ => show win3_2.index t (1 : Fin 2) * 1 + 1 * 0 = 0; omega
  have hbl : tileBlock V c 3 t atBl = V c main_v57 atBl := by
    show V c main_v57 (((cfg3.win 3).blk t).view.emb atBl) = _
    refine congrArg (V c main_v57) (funext fun a => Fin.ext ?_)
    match a with
    | ⟨0, _⟩ => show win3_3.index t (0 : Fin 2) * 1 + 1 * 0 = 0; omega
    | ⟨1, _⟩ => show win3_3.index t (1 : Fin 2) * 1 + 1 * 0 = 0; omega
  rw [hh, hbl]
  simp only [ho, hwl]

/-- An entry of the result is in point t's tile iff its row and column are in the tile's ranges. -/
theorem mem_block (t : Fin cfg3.N) (i : S8192x8192.Idx) :
    i ∈ ((cfg3.win 4).blk t).view.set ↔ ∀ a : Fin 2, win3_4.index t a * S1024x2048.size a ≤ (i a).val ∧ (i a).val < win3_4.index t a * S1024x2048.size a + S1024x2048.size a := by
  show i ∈ ((View.whole main_v58).slice (win3_4.rect t)).set ↔ _
  rw [View.set_slice_whole, Rect.mem_set_unit]
  exact Iff.rfl

/-- Every entry of the result is in the tile its row and column select. -/
theorem covered (i : S8192x8192.Idx) : ∃ t : Fin cfg3.N, (cfg3.win 4).flush t = true ∧ i ∈ ((cfg3.win 4).blk t).view.set := by
  have hi0 : (i 0).val < 8192 := (i 0).isLt
  have hi1 : (i 1).val < 8192 := (i 1).isLt
  have hN : cfg3.N = 32 := N_3
  refine ⟨⟨4 * ((i 0).val / 1024) + (i 1).val / 2048, by omega⟩, flush3_4 _, ?_⟩
  rw [mem_block]
  obtain ⟨e0, e1, e2, e3, e4, e5, e6, e7, e8, e9⟩ := index_facts ⟨4 * ((i 0).val / 1024) + (i 1).val / 2048, by omega⟩
  intro a
  match a with
  | ⟨0, _⟩ => show win3_4.index _ (0 : Fin 2) * 1024 ≤ (i 0).val ∧ (i 0).val < win3_4.index _ (0 : Fin 2) * 1024 + 1024; simp only [] at e8; omega
  | ⟨1, _⟩ => show win3_4.index _ (1 : Fin 2) * 2048 ≤ (i 1).val ∧ (i 1).val < win3_4.index _ (1 : Fin 2) * 2048 + 2048; simp only [] at e9; omega

/-- THE RESULT ARRAY after the launch. -/
theorem final (c : Dev nD) : (dat V c).arrAt 4 cfg3.N = headOut (V c main_v56) (V c main_arg1) (V c main_arg7) (V c main_v57) :=
  (dat V c).arrAt_eq_of_cover 4 _ (fun t _ => flushed_eq V c t) covered

end Cert.KernelIdeal.Head

end
-- ==== Proof.IdealThread.lean ====
/-
  The idealized program's values threaded through its items: what each launch finds in its input arrays, in terms of
  the previous launch's result and of the arguments.  No host operation writes an argument and no launch changes one, so
  at every boundary an argument's buffer holds its launch contents; the dense adjacency Â is written once, before the
  first launch, and read unchanged by the two aggregations.
-/
import proofs.«131745_j1614907703640_2_alg».proof.Proof.IdealWhole
import proofs.«131745_j1614907703640_2_alg».proof.Proof.IdealDenseValue
import proofs.«131745_j1614907703640_2_alg».proof.Proof.IdealAggValue
import proofs.«131745_j1614907703640_2_alg».proof.Proof.IdealAgg2Value
import proofs.«131745_j1614907703640_2_alg».proof.Proof.IdealHeadValue
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL Idealize.SL.Sem

section AnyInstance
variable {F : FTy → Type} [FloatOps F]
variable (m : (ℓ : Loc nD τ sig) → Buf (Elt F) ℓ) (ρ : Dev nD → PrngReg)

/-! ## The arguments at every boundary -/

theorem at0_main_arg0 (c : Dev nD) : W0 m ρ c (Proc.devRef .tc main_arg0) = m ((c : Thread nD τ).loc main_arg0) := rfl
theorem at1_main_arg0 (c : Dev nD) : W1 m ρ c (Proc.devRef .tc main_arg0) = m ((c : Thread nD τ).loc main_arg0) :=
  (W1_of m ρ c main_arg0 (by decide)).trans (at0_main_arg0 m ρ c)
theorem at2_main_arg0 (c : Dev nD) : W2 m ρ c (Proc.devRef .tc main_arg0) = m ((c : Thread nD τ).loc main_arg0) :=
  (W2_of m ρ c main_arg0 (by decide)).trans (at1_main_arg0 m ρ c)
theorem at3_main_arg0 (c : Dev nD) : W3 m ρ c (Proc.devRef .tc main_arg0) = m ((c : Thread nD τ).loc main_arg0) :=
  (W3_of m ρ c main_arg0 (by decide)).trans (at2_main_arg0 m ρ c)
theorem at4_main_arg0 (c : Dev nD) : W4 m ρ c (Proc.devRef .tc main_arg0) = m ((c : Thread nD τ).loc main_arg0) :=
  ((W4_arr m ρ c 0).trans (((Dense.dat (V3 m ρ) c).arrAt_in 0 rfl _).trans (Dense.dat_A (V3 m ρ) c 0))).trans (at3_main_arg0 m ρ c)
theorem at5_main_arg0 (c : Dev nD) : W5 m ρ c (Proc.devRef .tc main_arg0) = m ((c : Thread nD τ).loc main_arg0) :=
  (W5_of m ρ c main_arg0 (by decide)).trans (at4_main_arg0 m ρ c)
theorem at6_main_arg0 (c : Dev nD) : W6 m ρ c (Proc.devRef .tc main_arg0) = m ((c : Thread nD τ).loc main_arg0) :=
  (W6_of_ne m ρ c main_arg0 (by decide)).trans (at5_main_arg0 m ρ c)
theorem at7_main_arg0 (c : Dev nD) : W7 m ρ c (Proc.devRef .tc main_arg0) = m ((c : Thread nD τ).loc main_arg0) :=
  (W7_of m ρ c main_arg0 (by decide)).trans (at6_main_arg0 m ρ c)
theorem at8_main_arg0 (c : Dev nD) : W8 m ρ c (Proc.devRef .tc main_arg0) = m ((c : Thread nD τ).loc main_arg0) :=
  (W8_of m ρ c main_arg0 (by decide)).trans (at7_main_arg0 m ρ c)
theorem at9_main_arg0 (c : Dev nD) : W9 m ρ c (Proc.devRef .tc main_arg0) = m ((c : Thread nD τ).loc main_arg0) :=
  (W9_of m ρ c main_arg0 (by decide)).trans (at8_main_arg0 m ρ c)
theorem at10_main_arg0 (c : Dev nD) : W10 m ρ c (Proc.devRef .tc main_arg0) = m ((c : Thread nD τ).loc main_arg0) :=
  (W10_of m ρ c main_arg0 (by decide)).trans (at9_main_arg0 m ρ c)
theorem at11_main_arg0 (c : Dev nD) : W11 m ρ c (Proc.devRef .tc main_arg0) = m ((c : Thread nD τ).loc main_arg0) :=
  (W11_of m ρ c main_arg0 (by decide)).trans (at10_main_arg0 m ρ c)
theorem at12_main_arg0 (c : Dev nD) : W12 m ρ c (Proc.devRef .tc main_arg0) = m ((c : Thread nD τ).loc main_arg0) :=
  (W12_of_ne m ρ c main_arg0 (by decide)).trans (at11_main_arg0 m ρ c)
theorem at13_main_arg0 (c : Dev nD) : W13 m ρ c (Proc.devRef .tc main_arg0) = m ((c : Thread nD τ).loc main_arg0) :=
  (W13_of m ρ c main_arg0 (by decide)).trans (at12_main_arg0 m ρ c)
theorem at0_main_arg1 (c : Dev nD) : W0 m ρ c (Proc.devRef .tc main_arg1) = m ((c : Thread nD τ).loc main_arg1) := rfl
theorem at1_main_arg1 (c : Dev nD) : W1 m ρ c (Proc.devRef .tc main_arg1) = m ((c : Thread nD τ).loc main_arg1) :=
  (W1_of m ρ c main_arg1 (by decide)).trans (at0_main_arg1 m ρ c)
theorem at2_main_arg1 (c : Dev nD) : W2 m ρ c (Proc.devRef .tc main_arg1) = m ((c : Thread nD τ).loc main_arg1) :=
  (W2_of m ρ c main_arg1 (by decide)).trans (at1_main_arg1 m ρ c)
theorem at3_main_arg1 (c : Dev nD) : W3 m ρ c (Proc.devRef .tc main_arg1) = m ((c : Thread nD τ).loc main_arg1) :=
  (W3_of m ρ c main_arg1 (by decide)).trans (at2_main_arg1 m ρ c)
theorem at4_main_arg1 (c : Dev nD) : W4 m ρ c (Proc.devRef .tc main_arg1) = m ((c : Thread nD τ).loc main_arg1) :=
  (W4_of_ne m ρ c main_arg1 (by decide)).trans (at3_main_arg1 m ρ c)
theorem at5_main_arg1 (c : Dev nD) : W5 m ρ c (Proc.devRef .tc main_arg1) = m ((c : Thread nD τ).loc main_arg1) :=
  (W5_of m ρ c main_arg1 (by decide)).trans (at4_main_arg1 m ρ c)
theorem at6_main_arg1 (c : Dev nD) : W6 m ρ c (Proc.devRef .tc main_arg1) = m ((c : Thread nD τ).loc main_arg1) :=
  (W6_of_ne m ρ c main_arg1 (by decide)).trans (at5_main_arg1 m ρ c)
theorem at7_main_arg1 (c : Dev nD) : W7 m ρ c (Proc.devRef .tc main_arg1) = m ((c : Thread nD τ).loc main_arg1) :=
  (W7_of m ρ c main_arg1 (by decide)).trans (at6_main_arg1 m ρ c)
theorem at8_main_arg1 (c : Dev nD) : W8 m ρ c (Proc.devRef .tc main_arg1) = m ((c : Thread nD τ).loc main_arg1) :=
  (W8_of m ρ c main_arg1 (by decide)).trans (at7_main_arg1 m ρ c)
theorem at9_main_arg1 (c : Dev nD) : W9 m ρ c (Proc.devRef .tc main_arg1) = m ((c : Thread nD τ).loc main_arg1) :=
  (W9_of m ρ c main_arg1 (by decide)).trans (at8_main_arg1 m ρ c)
theorem at10_main_arg1 (c : Dev nD) : W10 m ρ c (Proc.devRef .tc main_arg1) = m ((c : Thread nD τ).loc main_arg1) :=
  (W10_of m ρ c main_arg1 (by decide)).trans (at9_main_arg1 m ρ c)
theorem at11_main_arg1 (c : Dev nD) : W11 m ρ c (Proc.devRef .tc main_arg1) = m ((c : Thread nD τ).loc main_arg1) :=
  (W11_of m ρ c main_arg1 (by decide)).trans (at10_main_arg1 m ρ c)
theorem at12_main_arg1 (c : Dev nD) : W12 m ρ c (Proc.devRef .tc main_arg1) = m ((c : Thread nD τ).loc main_arg1) :=
  (W12_of_ne m ρ c main_arg1 (by decide)).trans (at11_main_arg1 m ρ c)
theorem at13_main_arg1 (c : Dev nD) : W13 m ρ c (Proc.devRef .tc main_arg1) = m ((c : Thread nD τ).loc main_arg1) :=
  (W13_of m ρ c main_arg1 (by decide)).trans (at12_main_arg1 m ρ c)
theorem at0_main_arg2 (c : Dev nD) : W0 m ρ c (Proc.devRef .tc main_arg2) = m ((c : Thread nD τ).loc main_arg2) := rfl
theorem at1_main_arg2 (c : Dev nD) : W1 m ρ c (Proc.devRef .tc main_arg2) = m ((c : Thread nD τ).loc main_arg2) :=
  (W1_of m ρ c main_arg2 (by decide)).trans (at0_main_arg2 m ρ c)
theorem at2_main_arg2 (c : Dev nD) : W2 m ρ c (Proc.devRef .tc main_arg2) = m ((c : Thread nD τ).loc main_arg2) :=
  (W2_of m ρ c main_arg2 (by decide)).trans (at1_main_arg2 m ρ c)
theorem at3_main_arg2 (c : Dev nD) : W3 m ρ c (Proc.devRef .tc main_arg2) = m ((c : Thread nD τ).loc main_arg2) :=
  (W3_of m ρ c main_arg2 (by decide)).trans (at2_main_arg2 m ρ c)
theorem at4_main_arg2 (c : Dev nD) : W4 m ρ c (Proc.devRef .tc main_arg2) = m ((c : Thread nD τ).loc main_arg2) :=
  (W4_of_ne m ρ c main_arg2 (by decide)).trans (at3_main_arg2 m ρ c)
theorem at5_main_arg2 (c : Dev nD) : W5 m ρ c (Proc.devRef .tc main_arg2) = m ((c : Thread nD τ).loc main_arg2) :=
  (W5_of m ρ c main_arg2 (by decide)).trans (at4_main_arg2 m ρ c)
theorem at6_main_arg2 (c : Dev nD) : W6 m ρ c (Proc.devRef .tc main_arg2) = m ((c : Thread nD τ).loc main_arg2) :=
  (W6_of_ne m ρ c main_arg2 (by decide)).trans (at5_main_arg2 m ρ c)
theorem at7_main_arg2 (c : Dev nD) : W7 m ρ c (Proc.devRef .tc main_arg2) = m ((c : Thread nD τ).loc main_arg2) :=
  (W7_of m ρ c main_arg2 (by decide)).trans (at6_main_arg2 m ρ c)
theorem at8_main_arg2 (c : Dev nD) : W8 m ρ c (Proc.devRef .tc main_arg2) = m ((c : Thread nD τ).loc main_arg2) :=
  (W8_of m ρ c main_arg2 (by decide)).trans (at7_main_arg2 m ρ c)
theorem at9_main_arg2 (c : Dev nD) : W9 m ρ c (Proc.devRef .tc main_arg2) = m ((c : Thread nD τ).loc main_arg2) :=
  (W9_of m ρ c main_arg2 (by decide)).trans (at8_main_arg2 m ρ c)
theorem at10_main_arg2 (c : Dev nD) : W10 m ρ c (Proc.devRef .tc main_arg2) = m ((c : Thread nD τ).loc main_arg2) :=
  (W10_of m ρ c main_arg2 (by decide)).trans (at9_main_arg2 m ρ c)
theorem at11_main_arg2 (c : Dev nD) : W11 m ρ c (Proc.devRef .tc main_arg2) = m ((c : Thread nD τ).loc main_arg2) :=
  (W11_of m ρ c main_arg2 (by decide)).trans (at10_main_arg2 m ρ c)
theorem at12_main_arg2 (c : Dev nD) : W12 m ρ c (Proc.devRef .tc main_arg2) = m ((c : Thread nD τ).loc main_arg2) :=
  (W12_of_ne m ρ c main_arg2 (by decide)).trans (at11_main_arg2 m ρ c)
theorem at13_main_arg2 (c : Dev nD) : W13 m ρ c (Proc.devRef .tc main_arg2) = m ((c : Thread nD τ).loc main_arg2) :=
  (W13_of m ρ c main_arg2 (by decide)).trans (at12_main_arg2 m ρ c)
theorem at0_main_arg3 (c : Dev nD) : W0 m ρ c (Proc.devRef .tc main_arg3) = m ((c : Thread nD τ).loc main_arg3) := rfl
theorem at1_main_arg3 (c : Dev nD) : W1 m ρ c (Proc.devRef .tc main_arg3) = m ((c : Thread nD τ).loc main_arg3) :=
  (W1_of m ρ c main_arg3 (by decide)).trans (at0_main_arg3 m ρ c)
theorem at2_main_arg3 (c : Dev nD) : W2 m ρ c (Proc.devRef .tc main_arg3) = m ((c : Thread nD τ).loc main_arg3) :=
  (W2_of m ρ c main_arg3 (by decide)).trans (at1_main_arg3 m ρ c)
theorem at3_main_arg3 (c : Dev nD) : W3 m ρ c (Proc.devRef .tc main_arg3) = m ((c : Thread nD τ).loc main_arg3) :=
  (W3_of m ρ c main_arg3 (by decide)).trans (at2_main_arg3 m ρ c)
theorem at4_main_arg3 (c : Dev nD) : W4 m ρ c (Proc.devRef .tc main_arg3) = m ((c : Thread nD τ).loc main_arg3) :=
  ((W4_arr m ρ c 1).trans (((Dense.dat (V3 m ρ) c).arrAt_in 1 rfl _).trans (Dense.dat_A (V3 m ρ) c 1))).trans (at3_main_arg3 m ρ c)
theorem at5_main_arg3 (c : Dev nD) : W5 m ρ c (Proc.devRef .tc main_arg3) = m ((c : Thread nD τ).loc main_arg3) :=
  (W5_of m ρ c main_arg3 (by decide)).trans (at4_main_arg3 m ρ c)
theorem at6_main_arg3 (c : Dev nD) : W6 m ρ c (Proc.devRef .tc main_arg3) = m ((c : Thread nD τ).loc main_arg3) :=
  (W6_of_ne m ρ c main_arg3 (by decide)).trans (at5_main_arg3 m ρ c)
theorem at7_main_arg3 (c : Dev nD) : W7 m ρ c (Proc.devRef .tc main_arg3) = m ((c : Thread nD τ).loc main_arg3) :=
  (W7_of m ρ c main_arg3 (by decide)).trans (at6_main_arg3 m ρ c)
theorem at8_main_arg3 (c : Dev nD) : W8 m ρ c (Proc.devRef .tc main_arg3) = m ((c : Thread nD τ).loc main_arg3) :=
  (W8_of m ρ c main_arg3 (by decide)).trans (at7_main_arg3 m ρ c)
theorem at9_main_arg3 (c : Dev nD) : W9 m ρ c (Proc.devRef .tc main_arg3) = m ((c : Thread nD τ).loc main_arg3) :=
  (W9_of m ρ c main_arg3 (by decide)).trans (at8_main_arg3 m ρ c)
theorem at10_main_arg3 (c : Dev nD) : W10 m ρ c (Proc.devRef .tc main_arg3) = m ((c : Thread nD τ).loc main_arg3) :=
  (W10_of m ρ c main_arg3 (by decide)).trans (at9_main_arg3 m ρ c)
theorem at11_main_arg3 (c : Dev nD) : W11 m ρ c (Proc.devRef .tc main_arg3) = m ((c : Thread nD τ).loc main_arg3) :=
  (W11_of m ρ c main_arg3 (by decide)).trans (at10_main_arg3 m ρ c)
theorem at12_main_arg3 (c : Dev nD) : W12 m ρ c (Proc.devRef .tc main_arg3) = m ((c : Thread nD τ).loc main_arg3) :=
  (W12_of_ne m ρ c main_arg3 (by decide)).trans (at11_main_arg3 m ρ c)
theorem at13_main_arg3 (c : Dev nD) : W13 m ρ c (Proc.devRef .tc main_arg3) = m ((c : Thread nD τ).loc main_arg3) :=
  (W13_of m ρ c main_arg3 (by decide)).trans (at12_main_arg3 m ρ c)
theorem at0_main_arg4 (c : Dev nD) : W0 m ρ c (Proc.devRef .tc main_arg4) = m ((c : Thread nD τ).loc main_arg4) := rfl
theorem at1_main_arg4 (c : Dev nD) : W1 m ρ c (Proc.devRef .tc main_arg4) = m ((c : Thread nD τ).loc main_arg4) :=
  (W1_of m ρ c main_arg4 (by decide)).trans (at0_main_arg4 m ρ c)
theorem at2_main_arg4 (c : Dev nD) : W2 m ρ c (Proc.devRef .tc main_arg4) = m ((c : Thread nD τ).loc main_arg4) :=
  (W2_of m ρ c main_arg4 (by decide)).trans (at1_main_arg4 m ρ c)
theorem at3_main_arg4 (c : Dev nD) : W3 m ρ c (Proc.devRef .tc main_arg4) = m ((c : Thread nD τ).loc main_arg4) :=
  (W3_of m ρ c main_arg4 (by decide)).trans (at2_main_arg4 m ρ c)
theorem at4_main_arg4 (c : Dev nD) : W4 m ρ c (Proc.devRef .tc main_arg4) = m ((c : Thread nD τ).loc main_arg4) :=
  (W4_of_ne m ρ c main_arg4 (by decide)).trans (at3_main_arg4 m ρ c)
theorem at5_main_arg4 (c : Dev nD) : W5 m ρ c (Proc.devRef .tc main_arg4) = m ((c : Thread nD τ).loc main_arg4) :=
  (W5_of m ρ c main_arg4 (by decide)).trans (at4_main_arg4 m ρ c)
theorem at6_main_arg4 (c : Dev nD) : W6 m ρ c (Proc.devRef .tc main_arg4) = m ((c : Thread nD τ).loc main_arg4) :=
  (W6_of_ne m ρ c main_arg4 (by decide)).trans (at5_main_arg4 m ρ c)
theorem at7_main_arg4 (c : Dev nD) : W7 m ρ c (Proc.devRef .tc main_arg4) = m ((c : Thread nD τ).loc main_arg4) :=
  (W7_of m ρ c main_arg4 (by decide)).trans (at6_main_arg4 m ρ c)
theorem at8_main_arg4 (c : Dev nD) : W8 m ρ c (Proc.devRef .tc main_arg4) = m ((c : Thread nD τ).loc main_arg4) :=
  (W8_of m ρ c main_arg4 (by decide)).trans (at7_main_arg4 m ρ c)
theorem at9_main_arg4 (c : Dev nD) : W9 m ρ c (Proc.devRef .tc main_arg4) = m ((c : Thread nD τ).loc main_arg4) :=
  (W9_of m ρ c main_arg4 (by decide)).trans (at8_main_arg4 m ρ c)
theorem at10_main_arg4 (c : Dev nD) : W10 m ρ c (Proc.devRef .tc main_arg4) = m ((c : Thread nD τ).loc main_arg4) :=
  (W10_of m ρ c main_arg4 (by decide)).trans (at9_main_arg4 m ρ c)
theorem at11_main_arg4 (c : Dev nD) : W11 m ρ c (Proc.devRef .tc main_arg4) = m ((c : Thread nD τ).loc main_arg4) :=
  (W11_of m ρ c main_arg4 (by decide)).trans (at10_main_arg4 m ρ c)
theorem at12_main_arg4 (c : Dev nD) : W12 m ρ c (Proc.devRef .tc main_arg4) = m ((c : Thread nD τ).loc main_arg4) :=
  (W12_of_ne m ρ c main_arg4 (by decide)).trans (at11_main_arg4 m ρ c)
theorem at13_main_arg4 (c : Dev nD) : W13 m ρ c (Proc.devRef .tc main_arg4) = m ((c : Thread nD τ).loc main_arg4) :=
  (W13_of m ρ c main_arg4 (by decide)).trans (at12_main_arg4 m ρ c)
theorem at0_main_arg5 (c : Dev nD) : W0 m ρ c (Proc.devRef .tc main_arg5) = m ((c : Thread nD τ).loc main_arg5) := rfl
theorem at1_main_arg5 (c : Dev nD) : W1 m ρ c (Proc.devRef .tc main_arg5) = m ((c : Thread nD τ).loc main_arg5) :=
  (W1_of m ρ c main_arg5 (by decide)).trans (at0_main_arg5 m ρ c)
theorem at2_main_arg5 (c : Dev nD) : W2 m ρ c (Proc.devRef .tc main_arg5) = m ((c : Thread nD τ).loc main_arg5) :=
  (W2_of m ρ c main_arg5 (by decide)).trans (at1_main_arg5 m ρ c)
theorem at3_main_arg5 (c : Dev nD) : W3 m ρ c (Proc.devRef .tc main_arg5) = m ((c : Thread nD τ).loc main_arg5) :=
  (W3_of m ρ c main_arg5 (by decide)).trans (at2_main_arg5 m ρ c)
theorem at4_main_arg5 (c : Dev nD) : W4 m ρ c (Proc.devRef .tc main_arg5) = m ((c : Thread nD τ).loc main_arg5) :=
  (W4_of_ne m ρ c main_arg5 (by decide)).trans (at3_main_arg5 m ρ c)
theorem at5_main_arg5 (c : Dev nD) : W5 m ρ c (Proc.devRef .tc main_arg5) = m ((c : Thread nD τ).loc main_arg5) :=
  (W5_of m ρ c main_arg5 (by decide)).trans (at4_main_arg5 m ρ c)
theorem at6_main_arg5 (c : Dev nD) : W6 m ρ c (Proc.devRef .tc main_arg5) = m ((c : Thread nD τ).loc main_arg5) :=
  (W6_of_ne m ρ c main_arg5 (by decide)).trans (at5_main_arg5 m ρ c)
theorem at7_main_arg5 (c : Dev nD) : W7 m ρ c (Proc.devRef .tc main_arg5) = m ((c : Thread nD τ).loc main_arg5) :=
  (W7_of m ρ c main_arg5 (by decide)).trans (at6_main_arg5 m ρ c)
theorem at8_main_arg5 (c : Dev nD) : W8 m ρ c (Proc.devRef .tc main_arg5) = m ((c : Thread nD τ).loc main_arg5) :=
  (W8_of m ρ c main_arg5 (by decide)).trans (at7_main_arg5 m ρ c)
theorem at9_main_arg5 (c : Dev nD) : W9 m ρ c (Proc.devRef .tc main_arg5) = m ((c : Thread nD τ).loc main_arg5) :=
  (W9_of m ρ c main_arg5 (by decide)).trans (at8_main_arg5 m ρ c)
theorem at10_main_arg5 (c : Dev nD) : W10 m ρ c (Proc.devRef .tc main_arg5) = m ((c : Thread nD τ).loc main_arg5) :=
  (W10_of m ρ c main_arg5 (by decide)).trans (at9_main_arg5 m ρ c)
theorem at11_main_arg5 (c : Dev nD) : W11 m ρ c (Proc.devRef .tc main_arg5) = m ((c : Thread nD τ).loc main_arg5) :=
  (W11_of m ρ c main_arg5 (by decide)).trans (at10_main_arg5 m ρ c)
theorem at12_main_arg5 (c : Dev nD) : W12 m ρ c (Proc.devRef .tc main_arg5) = m ((c : Thread nD τ).loc main_arg5) :=
  (W12_of_ne m ρ c main_arg5 (by decide)).trans (at11_main_arg5 m ρ c)
theorem at13_main_arg5 (c : Dev nD) : W13 m ρ c (Proc.devRef .tc main_arg5) = m ((c : Thread nD τ).loc main_arg5) :=
  (W13_of m ρ c main_arg5 (by decide)).trans (at12_main_arg5 m ρ c)
theorem at0_main_arg6 (c : Dev nD) : W0 m ρ c (Proc.devRef .tc main_arg6) = m ((c : Thread nD τ).loc main_arg6) := rfl
theorem at1_main_arg6 (c : Dev nD) : W1 m ρ c (Proc.devRef .tc main_arg6) = m ((c : Thread nD τ).loc main_arg6) :=
  (W1_of m ρ c main_arg6 (by decide)).trans (at0_main_arg6 m ρ c)
theorem at2_main_arg6 (c : Dev nD) : W2 m ρ c (Proc.devRef .tc main_arg6) = m ((c : Thread nD τ).loc main_arg6) :=
  (W2_of m ρ c main_arg6 (by decide)).trans (at1_main_arg6 m ρ c)
theorem at3_main_arg6 (c : Dev nD) : W3 m ρ c (Proc.devRef .tc main_arg6) = m ((c : Thread nD τ).loc main_arg6) :=
  (W3_of m ρ c main_arg6 (by decide)).trans (at2_main_arg6 m ρ c)
theorem at4_main_arg6 (c : Dev nD) : W4 m ρ c (Proc.devRef .tc main_arg6) = m ((c : Thread nD τ).loc main_arg6) :=
  (W4_of_ne m ρ c main_arg6 (by decide)).trans (at3_main_arg6 m ρ c)
theorem at5_main_arg6 (c : Dev nD) : W5 m ρ c (Proc.devRef .tc main_arg6) = m ((c : Thread nD τ).loc main_arg6) :=
  (W5_of m ρ c main_arg6 (by decide)).trans (at4_main_arg6 m ρ c)
theorem at6_main_arg6 (c : Dev nD) : W6 m ρ c (Proc.devRef .tc main_arg6) = m ((c : Thread nD τ).loc main_arg6) :=
  (W6_of_ne m ρ c main_arg6 (by decide)).trans (at5_main_arg6 m ρ c)
theorem at7_main_arg6 (c : Dev nD) : W7 m ρ c (Proc.devRef .tc main_arg6) = m ((c : Thread nD τ).loc main_arg6) :=
  (W7_of m ρ c main_arg6 (by decide)).trans (at6_main_arg6 m ρ c)
theorem at8_main_arg6 (c : Dev nD) : W8 m ρ c (Proc.devRef .tc main_arg6) = m ((c : Thread nD τ).loc main_arg6) :=
  (W8_of m ρ c main_arg6 (by decide)).trans (at7_main_arg6 m ρ c)
theorem at9_main_arg6 (c : Dev nD) : W9 m ρ c (Proc.devRef .tc main_arg6) = m ((c : Thread nD τ).loc main_arg6) :=
  (W9_of m ρ c main_arg6 (by decide)).trans (at8_main_arg6 m ρ c)
theorem at10_main_arg6 (c : Dev nD) : W10 m ρ c (Proc.devRef .tc main_arg6) = m ((c : Thread nD τ).loc main_arg6) :=
  (W10_of m ρ c main_arg6 (by decide)).trans (at9_main_arg6 m ρ c)
theorem at11_main_arg6 (c : Dev nD) : W11 m ρ c (Proc.devRef .tc main_arg6) = m ((c : Thread nD τ).loc main_arg6) :=
  (W11_of m ρ c main_arg6 (by decide)).trans (at10_main_arg6 m ρ c)
theorem at12_main_arg6 (c : Dev nD) : W12 m ρ c (Proc.devRef .tc main_arg6) = m ((c : Thread nD τ).loc main_arg6) :=
  (W12_of_ne m ρ c main_arg6 (by decide)).trans (at11_main_arg6 m ρ c)
theorem at13_main_arg6 (c : Dev nD) : W13 m ρ c (Proc.devRef .tc main_arg6) = m ((c : Thread nD τ).loc main_arg6) :=
  (W13_of m ρ c main_arg6 (by decide)).trans (at12_main_arg6 m ρ c)
theorem at0_main_arg7 (c : Dev nD) : W0 m ρ c (Proc.devRef .tc main_arg7) = m ((c : Thread nD τ).loc main_arg7) := rfl
theorem at1_main_arg7 (c : Dev nD) : W1 m ρ c (Proc.devRef .tc main_arg7) = m ((c : Thread nD τ).loc main_arg7) :=
  (W1_of m ρ c main_arg7 (by decide)).trans (at0_main_arg7 m ρ c)
theorem at2_main_arg7 (c : Dev nD) : W2 m ρ c (Proc.devRef .tc main_arg7) = m ((c : Thread nD τ).loc main_arg7) :=
  (W2_of m ρ c main_arg7 (by decide)).trans (at1_main_arg7 m ρ c)
theorem at3_main_arg7 (c : Dev nD) : W3 m ρ c (Proc.devRef .tc main_arg7) = m ((c : Thread nD τ).loc main_arg7) :=
  (W3_of m ρ c main_arg7 (by decide)).trans (at2_main_arg7 m ρ c)
theorem at4_main_arg7 (c : Dev nD) : W4 m ρ c (Proc.devRef .tc main_arg7) = m ((c : Thread nD τ).loc main_arg7) :=
  (W4_of_ne m ρ c main_arg7 (by decide)).trans (at3_main_arg7 m ρ c)
theorem at5_main_arg7 (c : Dev nD) : W5 m ρ c (Proc.devRef .tc main_arg7) = m ((c : Thread nD τ).loc main_arg7) :=
  (W5_of m ρ c main_arg7 (by decide)).trans (at4_main_arg7 m ρ c)
theorem at6_main_arg7 (c : Dev nD) : W6 m ρ c (Proc.devRef .tc main_arg7) = m ((c : Thread nD τ).loc main_arg7) :=
  (W6_of_ne m ρ c main_arg7 (by decide)).trans (at5_main_arg7 m ρ c)
theorem at7_main_arg7 (c : Dev nD) : W7 m ρ c (Proc.devRef .tc main_arg7) = m ((c : Thread nD τ).loc main_arg7) :=
  (W7_of m ρ c main_arg7 (by decide)).trans (at6_main_arg7 m ρ c)
theorem at8_main_arg7 (c : Dev nD) : W8 m ρ c (Proc.devRef .tc main_arg7) = m ((c : Thread nD τ).loc main_arg7) :=
  (W8_of m ρ c main_arg7 (by decide)).trans (at7_main_arg7 m ρ c)
theorem at9_main_arg7 (c : Dev nD) : W9 m ρ c (Proc.devRef .tc main_arg7) = m ((c : Thread nD τ).loc main_arg7) :=
  (W9_of m ρ c main_arg7 (by decide)).trans (at8_main_arg7 m ρ c)
theorem at10_main_arg7 (c : Dev nD) : W10 m ρ c (Proc.devRef .tc main_arg7) = m ((c : Thread nD τ).loc main_arg7) :=
  (W10_of m ρ c main_arg7 (by decide)).trans (at9_main_arg7 m ρ c)
theorem at11_main_arg7 (c : Dev nD) : W11 m ρ c (Proc.devRef .tc main_arg7) = m ((c : Thread nD τ).loc main_arg7) :=
  (W11_of m ρ c main_arg7 (by decide)).trans (at10_main_arg7 m ρ c)
theorem at12_main_arg7 (c : Dev nD) : W12 m ρ c (Proc.devRef .tc main_arg7) = m ((c : Thread nD τ).loc main_arg7) :=
  (W12_of_ne m ρ c main_arg7 (by decide)).trans (at11_main_arg7 m ρ c)
theorem at13_main_arg7 (c : Dev nD) : W13 m ρ c (Proc.devRef .tc main_arg7) = m ((c : Thread nD τ).loc main_arg7) :=
  (W13_of m ρ c main_arg7 (by decide)).trans (at12_main_arg7 m ρ c)
theorem at0_main_arg8 (c : Dev nD) : W0 m ρ c (Proc.devRef .tc main_arg8) = m ((c : Thread nD τ).loc main_arg8) := rfl
theorem at1_main_arg8 (c : Dev nD) : W1 m ρ c (Proc.devRef .tc main_arg8) = m ((c : Thread nD τ).loc main_arg8) :=
  (W1_of m ρ c main_arg8 (by decide)).trans (at0_main_arg8 m ρ c)
theorem at2_main_arg8 (c : Dev nD) : W2 m ρ c (Proc.devRef .tc main_arg8) = m ((c : Thread nD τ).loc main_arg8) :=
  (W2_of m ρ c main_arg8 (by decide)).trans (at1_main_arg8 m ρ c)
theorem at3_main_arg8 (c : Dev nD) : W3 m ρ c (Proc.devRef .tc main_arg8) = m ((c : Thread nD τ).loc main_arg8) :=
  (W3_of m ρ c main_arg8 (by decide)).trans (at2_main_arg8 m ρ c)
theorem at4_main_arg8 (c : Dev nD) : W4 m ρ c (Proc.devRef .tc main_arg8) = m ((c : Thread nD τ).loc main_arg8) :=
  (W4_of_ne m ρ c main_arg8 (by decide)).trans (at3_main_arg8 m ρ c)
theorem at5_main_arg8 (c : Dev nD) : W5 m ρ c (Proc.devRef .tc main_arg8) = m ((c : Thread nD τ).loc main_arg8) :=
  (W5_of m ρ c main_arg8 (by decide)).trans (at4_main_arg8 m ρ c)
theorem at6_main_arg8 (c : Dev nD) : W6 m ρ c (Proc.devRef .tc main_arg8) = m ((c : Thread nD τ).loc main_arg8) :=
  (W6_of_ne m ρ c main_arg8 (by decide)).trans (at5_main_arg8 m ρ c)
theorem at7_main_arg8 (c : Dev nD) : W7 m ρ c (Proc.devRef .tc main_arg8) = m ((c : Thread nD τ).loc main_arg8) :=
  (W7_of m ρ c main_arg8 (by decide)).trans (at6_main_arg8 m ρ c)
theorem at8_main_arg8 (c : Dev nD) : W8 m ρ c (Proc.devRef .tc main_arg8) = m ((c : Thread nD τ).loc main_arg8) :=
  (W8_of m ρ c main_arg8 (by decide)).trans (at7_main_arg8 m ρ c)
theorem at9_main_arg8 (c : Dev nD) : W9 m ρ c (Proc.devRef .tc main_arg8) = m ((c : Thread nD τ).loc main_arg8) :=
  (W9_of m ρ c main_arg8 (by decide)).trans (at8_main_arg8 m ρ c)
theorem at10_main_arg8 (c : Dev nD) : W10 m ρ c (Proc.devRef .tc main_arg8) = m ((c : Thread nD τ).loc main_arg8) :=
  (W10_of m ρ c main_arg8 (by decide)).trans (at9_main_arg8 m ρ c)
theorem at11_main_arg8 (c : Dev nD) : W11 m ρ c (Proc.devRef .tc main_arg8) = m ((c : Thread nD τ).loc main_arg8) :=
  (W11_of m ρ c main_arg8 (by decide)).trans (at10_main_arg8 m ρ c)
theorem at12_main_arg8 (c : Dev nD) : W12 m ρ c (Proc.devRef .tc main_arg8) = m ((c : Thread nD τ).loc main_arg8) :=
  (W12_of_ne m ρ c main_arg8 (by decide)).trans (at11_main_arg8 m ρ c)
theorem at13_main_arg8 (c : Dev nD) : W13 m ρ c (Proc.devRef .tc main_arg8) = m ((c : Thread nD τ).loc main_arg8) :=
  (W13_of m ρ c main_arg8 (by decide)).trans (at12_main_arg8 m ρ c)

end AnyInstance

/-! ## At the exact instance -/

variable (m : (ℓ : Loc nD τ sig) → Buf (Elt Ideal) ℓ) (ρ : Dev nD → PrngReg)

/-- The dense adjacency, as written before the first launch. -/
abbrev adj (c : Dev nD) : S8192x8192.Idx → EReal := W3 m ρ c (Proc.devRef .tc main_v45)

/-- The first launch's result: the product x · W₁ of the arguments. -/
theorem after_dense (c : Dev nD) :
    W4 m ρ c (Proc.devRef .tc main_v46) = Dense.product (m ((c : Thread nD τ).loc main_arg0)) (m ((c : Thread nD τ).loc main_arg3)) := by
  rw [W4_arr m ρ c 2, Dense.final (V3 m ρ) c]
  show Dense.product (W3 m ρ c (Proc.devRef .tc main_arg0)) (W3 m ρ c (Proc.devRef .tc main_arg3)) = _
  rw [at3_main_arg0, at3_main_arg3]

/-- The bias row of the first layer, as the second launch finds it. -/
theorem bias1 (c : Dev nD) :
    W5 m ρ c (Proc.devRef .tc main_v47) = shapeCast S1x512 (m ((c : Thread nD τ).loc main_arg4)) shapeCasts_S512_S1x512 := by
  show StableHlo.after hostOps1 (W4 m ρ c) (Proc.devRef .tc main_v47) = _
  after_results
  rw [at4_main_arg4]
  rfl

/-- What the second launch finds: Â, the product, the bias row. -/
theorem adj_at5 (c : Dev nD) : W5 m ρ c (Proc.devRef .tc main_v45) = adj m ρ c :=
  (W5_of m ρ c main_v45 (by decide)).trans (W4_of_ne m ρ c main_v45 (by decide))
theorem prod_at5 (c : Dev nD) :
    W5 m ρ c (Proc.devRef .tc main_v46) = Dense.product (m ((c : Thread nD τ).loc main_arg0)) (m ((c : Thread nD τ).loc main_arg3)) :=
  (W5_of m ρ c main_v46 (by decide)).trans (after_dense m ρ c)

/-- The first layer after its aggregation launch. -/
def hidden (c : Dev nD) : S8192x512.Idx → EReal :=
  Agg.layer (adj m ρ c) (Dense.product (m ((c : Thread nD τ).loc main_arg0)) (m ((c : Thread nD τ).loc main_arg3)))
    (shapeCast S1x512 (m ((c : Thread nD τ).loc main_arg4)) shapeCasts_S512_S1x512)

theorem after_agg (c : Dev nD) : W6 m ρ c (Proc.devRef .tc main_v48) = hidden m ρ c := by
  rw [W6_arr m ρ c 3, Agg.final (V5 m ρ) c]
  show Agg.layer (W5 m ρ c (Proc.devRef .tc main_v45)) (W5 m ρ c (Proc.devRef .tc main_v46)) (W5 m ρ c (Proc.devRef .tc main_v47)) = _
  rw [adj_at5, prod_at5, bias1]
  rfl

/-- The second layer's features as the third launch finds them: the column (first layer) · W₂, padded with the
    converted integer 0 to width 128. -/
def feat2 (c : Dev nD) : S8192x128.Idx → EReal :=
  pad S8192x128 ![0, 0] ![0, 127] ![0, 0]
    (Host.dotGeneral (F := Ideal) (φ₁ := .f32) (φ₂ := .f32) dot_S8192x512_S512x1_S8192x1_1_0_0_1_n_n none (hidden m ρ c)
      (m ((c : Thread nD τ).loc main_arg5)))
    (sitofp (F := Ideal) .f32 (constantI S_ 32 0#32)) pads_S8192x1_S8192x128_000_01270 h_S_

theorem feat2_at11 (c : Dev nD) : W11 m ρ c (Proc.devRef .tc main_v50) = feat2 m ρ c := by
  rw [W11_of m ρ c main_v50 (by decide), W10_of m ρ c main_v50 (by decide), W9_of m ρ c main_v50 (by decide)]
  show StableHlo.after hostOps2_1 (StableHlo.after hostOps2 (W6 m ρ c)) (Proc.devRef .tc main_v50) = _
  after_results
  rw [after_agg, at6_main_arg5]
  rfl

/-- The second layer's bias as the third launch finds it: padded the same way, as a row. -/
def bias2 (c : Dev nD) : S1x128.Idx → EReal :=
  shapeCast S1x128 (pad S128 ![0] ![127] ![0] (m ((c : Thread nD τ).loc main_arg6))
    (sitofp (F := Ideal) .f32 (constantI S_ 32 0#32)) pads_S1_S128_01270 h_S_) shapeCasts_S128_S1x128

theorem bias2_at11 (c : Dev nD) : W11 m ρ c (Proc.devRef .tc main_v52) = bias2 m c := by
  show StableHlo.after hostOps2_4 (StableHlo.after hostOps2_3 (StableHlo.after hostOps2_2 (W8 m ρ c))) (Proc.devRef .tc main_v52) = _
  after_results
  dsimp only
  rw [at6_main_arg6]
  rfl

theorem adj_at11 (c : Dev nD) : W11 m ρ c (Proc.devRef .tc main_v45) = adj m ρ c := by
  rw [W11_of m ρ c main_v45 (by decide), W10_of m ρ c main_v45 (by decide), W9_of m ρ c main_v45 (by decide),
    W8_of m ρ c main_v45 (by decide), W7_of m ρ c main_v45 (by decide), W6_arr m ρ c 0,
    (Agg.dat (V5 m ρ) c).arrAt_in 0 rfl _, Agg.dat_A (V5 m ρ) c 0]
  exact adj_at5 m ρ c

/-- The second layer after its aggregation launch. -/
def hidden2 (c : Dev nD) : S8192x128.Idx → EReal := Agg2.layer (adj m ρ c) (feat2 m ρ c) (bias2 m c)

theorem after_agg2 (c : Dev nD) : W12 m ρ c (Proc.devRef .tc main_v53) = hidden2 m ρ c := by
  rw [W12_arr m ρ c 3, Agg2.final (V11 m ρ) c]
  show Agg2.layer (W11 m ρ c (Proc.devRef .tc main_v45)) (W11 m ρ c (Proc.devRef .tc main_v50)) (W11 m ρ c (Proc.devRef .tc main_v52)) = _
  rw [adj_at11, feat2_at11, bias2_at11]
  rfl

/-- The row of node values the last launch finds: column 0 of the second layer, as a 1 × 8192 row. -/
def nodeRow (c : Dev nD) : S1x8192.Idx → EReal :=
  shapeCast S1x8192 (shapeCast S8192 (extractStridedSlice S8192x1 ![0, 0] (hidden2 m ρ c) slices_S8192x128_S8192x1_0_0)
    shapeCasts_S8192x1_S8192) shapeCasts_S8192_S1x8192

theorem nodeRow_at13 (c : Dev nD) : W13 m ρ c (Proc.devRef .tc main_v56) = nodeRow m ρ c := by
  show StableHlo.after hostOps3 (W12 m ρ c) (Proc.devRef .tc main_v56) = _
  after_results
  rw [after_agg2]
  rfl

theorem headBias_at13 (c : Dev nD) :
    W13 m ρ c (Proc.devRef .tc main_v57) = shapeCast S1x1 (m ((c : Thread nD τ).loc main_arg8)) shapeCasts_S1_S1x1 := by
  show StableHlo.after hostOps3 (W12 m ρ c) (Proc.devRef .tc main_v57) = _
  after_results
  rw [at12_main_arg8]
  rfl

/-- THE KERNEL'S RESULT as one function of the arguments (through Â, which is read off the argument edge list before
    the first launch). -/
theorem result_closed (c : Dev nD) :
    result m ρ c = Head.headOut (nodeRow m ρ c) (m ((c : Thread nD τ).loc main_arg1)) (m ((c : Thread nD τ).loc main_arg7))
      (shapeCast S1x1 (m ((c : Thread nD τ).loc main_arg8)) shapeCasts_S1_S1x1) := by
  unfold result
  rw [W14_arr m ρ c 4, Head.final (V13 m ρ) c]
  show Head.headOut (W13 m ρ c (Proc.devRef .tc main_v56)) (W13 m ρ c (Proc.devRef .tc main_arg1)) (W13 m ρ c (Proc.devRef .tc main_arg7))
    (W13 m ρ c (Proc.devRef .tc main_v57)) = _
  rw [nodeRow_at13, at13_main_arg1, at13_main_arg7, headBias_at13]

end Cert.KernelIdeal.Whole

end
-- ==== Proof.IdealAdj.lean ====
/-
  The dense adjacency the kernel forms before its first launch, in terms of the edge data the reference computes: both
  programs derive the wrapped edge ends and the edge weights  d(src e) · d(dst e)  from the edge list by the same
  operations in the same order, so the kernel's arrays are the reference's stage functions of the edge list; Â is the
  scatter-add of the weights at the pairs (dst e, src e) into the zero 8192 × 8192 array, then narrowed (the identity
  at the exact instance).  Each of the three stretches of host operations is read over an arbitrary entry valuation
  first, so that what it computes is a small term of what it finds.
-/
import proofs.«131745_j1614907703640_2_alg».proof.Proof.IdealThread
import proofs.«131745_j1614907703640_2_alg».proof.Proof.RefRead

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL Idealize.SL.Sem

/-! ## The three stretches over an arbitrary entry valuation -/

/-- An index wrapped as array indexing wraps it: a negative index counts from the end. -/
def wrapIdx (x : IVec S270336 32) : IVec S270336 32 :=
  select (cmpi .slt x (broadcastInDim S270336 ![] bcast_S_S270336 (constantI S_ 32 0#32)))
    (addi x (broadcastInDim S270336 ![] bcast_S_S270336 (constantI S_ 32 8192#32))) x
/-- An index vector as the one-column array the scatter and the gathers take. -/
def asColumn (x : IVec S270336 32) : IVec S270336x1 32 := broadcastInDim S270336x1 ![0] bcast_S270336_S270336x1_0 x

set_option maxHeartbeats 4000000 in
/-- The third stretch: Â from the raw edge ends (`main_v3` sources, `main_v6` destinations) and `d` (`main_v14`). -/
theorem stretch3 (X : Valuation τ sig (Elt Ideal)) :
    StableHlo.after hostOps0_2 X (Proc.devRef .tc main_v45)
      = truncf (F := Ideal) .bf16 (Host.scatterAdd (F := Ideal) (φ := .f32) scatter_S8192x8192_S270336x2_S270336_n_01_01_1
          (broadcastInDim S8192x8192 ![] bcast_S_S8192x8192 (constant (F := Ideal) S_ .f32 0x00000000#32))
          (concatenate S270336x2 1 [⟨S270336x1, asColumn (wrapIdx (X (Proc.devRef .tc main_v6)))⟩,
              ⟨S270336x1, asColumn (wrapIdx (X (Proc.devRef .tc main_v3)))⟩] concatenates_S270336x1_S270336x1_S270336x2_d1)
          (mulf (Host.gather gather_S8192_S270336x1_S270336_n_0_n_n_0_1_1 (X (Proc.devRef .tc main_v14)) (asColumn (wrapIdx (X (Proc.devRef .tc main_v3)))))
            (Host.gather gather_S8192_S270336x1_S270336_n_0_n_n_0_1_1 (X (Proc.devRef .tc main_v14)) (asColumn (wrapIdx (X (Proc.devRef .tc main_v6))))))) bitsLt_bf16_f32 := by
  after_results_simp
  rfl

/-- The second stretch: d = where(deg > 0, deg^(-1/2), 0), from the comparison (`main_v12`), the inverse root
    (`main_v13`) and the constant (`main_cst_2`). -/
theorem stretch2 (X : Valuation τ sig (Elt Ideal)) :
    StableHlo.after hostOps0_1 X (Proc.devRef .tc main_v14)
      = select (X (Proc.devRef .tc main_v12)) (X (Proc.devRef .tc main_v13))
          (broadcastInDim S8192 ![] bcast_S_S8192 (id (X (Proc.devRef .tc main_cst_2)))) := by
  after_results_simp
  rfl

variable (m : (ℓ : Loc nD τ sig) → Buf (Elt Ideal) ℓ) (ρ : Dev nD → PrngReg)

/-- The edge list argument. -/
abbrev edgeList (c : Dev nD) : S2x262144.Idx → BitVec 32 := m ((c : Thread nD τ).loc main_arg2)

/-! ## The first stretch, against the reference's stage functions -/

theorem srcRaw (c : Dev nD) : W1 m ρ c (Proc.devRef .tc main_v3) = Cert.ReferenceIdeal.ReadP.val_main_v3 (F := Ideal) (edgeList m c) := by
  show StableHlo.after hostOps0 (W0 m ρ c) (Proc.devRef .tc main_v3) = _
  after_results_simp
  rfl
theorem dstRaw (c : Dev nD) : W1 m ρ c (Proc.devRef .tc main_v6) = Cert.ReferenceIdeal.ReadP.val_main_v6 (F := Ideal) (edgeList m c) := by
  show StableHlo.after hostOps0 (W0 m ρ c) (Proc.devRef .tc main_v6) = _
  after_results_simp
  rfl
theorem degPos (c : Dev nD) : W1 m ρ c (Proc.devRef .tc main_v12) = Cert.ReferenceIdeal.ReadP.val_main_v13 (F := Ideal) (edgeList m c) := by
  show StableHlo.after hostOps0 (W0 m ρ c) (Proc.devRef .tc main_v12) = _
  after_results_simp
  rfl
theorem degRoot (c : Dev nD) : W1 m ρ c (Proc.devRef .tc main_v13) = Cert.ReferenceIdeal.ReadP.val_main_v14 (F := Ideal) (edgeList m c) := by
  show StableHlo.after hostOps0 (W0 m ρ c) (Proc.devRef .tc main_v13) = _
  after_results_simp
  rfl
theorem zeroCst (c : Dev nD) : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

/-! ## The edge data as the reference computes it -/

/-- The wrapped destinations, the wrapped sources and the weights of the 270336 edges, as the reference computes them. -/
abbrev dstOf (c : Dev nD) : S270336.Idx → BitVec 32 := Cert.ReferenceIdeal.ReadP.val_main_v27 (F := Ideal) (edgeList m c)
abbrev srcOf (c : Dev nD) : S270336.Idx → BitVec 32 := Cert.ReferenceIdeal.ReadP.val_main_v20 (F := Ideal) (edgeList m c)
abbrev weightOf (c : Dev nD) : S270336.Idx → EReal := Cert.ReferenceIdeal.ReadP.val_main_v30 (F := Ideal) (edgeList m c)

/-- d as the second stretch leaves it. -/
theorem dinv_eq (c : Dev nD) : W2 m ρ c (Proc.devRef .tc main_v14) = Cert.ReferenceIdeal.ReadP.val_main_v15 (F := Ideal) (edgeList m c) := by
  show StableHlo.after hostOps0_1 (W1 m ρ c) (Proc.devRef .tc main_v14) = _
  rw [stretch2, degPos, degRoot, zeroCst]
  rfl

/-- Â, as the kernel writes it. -/
theorem adj_closed (c : Dev nD) :
    adj m ρ c = truncf (F := Ideal) .bf16 (Host.scatterAdd (F := Ideal) (φ := .f32) scatter_S8192x8192_S270336x2_S270336_n_01_01_1
        (broadcastInDim S8192x8192 ![] bcast_S_S8192x8192 (constant (F := Ideal) S_ .f32 0x00000000#32))
        (concatenate S270336x2 1 [⟨S270336x1, asColumn (dstOf m c)⟩, ⟨S270336x1, asColumn (srcOf m c)⟩] concatenates_S270336x1_S270336x1_S270336x2_d1)
        (weightOf m c)) bitsLt_bf16_f32 := by
  show StableHlo.after hostOps0_2 (W2 m ρ c) (Proc.devRef .tc main_v45) = _
  rw [stretch3, dinv_eq, W2_of m ρ c main_v6 (by decide), W2_of m ρ c main_v3 (by decide), dstRaw, srcRaw]
  rfl

end Cert.KernelIdeal.Whole

end
-- ==== Proof.IdealScatter2.lean ====
/-
  Where the kernel's 2-D scatter lands: update e of the 270336 edge weights goes to entry (row, column) of the
  8192 × 8192 array, row and column being the two components of the e-th index vector read as signed integers, and is
  dropped if either is outside 0 … 8191.  The scatter names both operand axes and has no window axis, so the landing
  index is exactly the start index.
-/
import proofs.«131745_j1614907703640_2_alg».proof.Proof.Gen.KernelIdeal
import Idealize.ShloMosaic.Lib.ValueIdx
import Idealize.ShloMosaic.PureOps.Ideal.Laws

set_option maxRecDepth 16384

noncomputable section

namespace Cert.KernelIdeal.Scatter2

open Cert.KernelIdeal
open Idealize.ShloMosaic

abbrev d2 := scatter_S8192x8192_S270336x2_S270336_n_01_01_1

/-- Component b of the index vector of edge e. -/
abbrev comp (e : S270336.Idx) (b : Fin 2) : S270336x2.Idx := fun a => match a with
  | ⟨0, _⟩ => ⟨(e 0).val, (e 0).isLt⟩
  | ⟨1, _⟩ => ⟨b.val, b.isLt⟩

abbrev entry (r : Fin 8192) (c : Fin 8192) : S8192x8192.Idx := fun a => match a with
  | ⟨0, _⟩ => ⟨r.val, r.isLt⟩
  | ⟨1, _⟩ => ⟨c.val, c.isLt⟩

theorem siIdx_row (e : S270336.Idx) :
    d2.siIdx e ⟨d2.scatterDimsToOperandDims.idxOf (0 : Fin S8192x8192.rank), List.idxOf_lt_length_iff.2 (by decide)⟩ = comp e 0 := by
  funext b
  unfold ScatterDims.siIdx
  match b with
  | ⟨0, _⟩ =>
    rw [dif_neg (by decide +revert)]
    unfold ScatterDims.siCoord
    exact Fin.ext rfl
  | ⟨1, _⟩ =>
    rw [dif_pos (by decide +revert)]
    exact Fin.ext rfl

theorem siIdx_col (e : S270336.Idx) :
    d2.siIdx e ⟨d2.scatterDimsToOperandDims.idxOf (1 : Fin S8192x8192.rank), List.idxOf_lt_length_iff.2 (by decide)⟩ = comp e 1 := by
  funext b
  unfold ScatterDims.siIdx
  match b with
  | ⟨0, _⟩ =>
    rw [dif_neg (by decide +revert)]
    unfold ScatterDims.siCoord
    exact Fin.ext rfl
  | ⟨1, _⟩ =>
    rw [dif_pos (by decide +revert)]
    exact Fin.ext rfl

theorem start_row (idx : IVec S270336x2 32) (e : S270336.Idx) : d2.start e idx 0 = (idx (comp e 0)).toInt := by
  unfold ScatterDims.start
  rw [dif_pos (by decide), siIdx_row]
theorem start_col (idx : IVec S270336x2 32) (e : S270336.Idx) : d2.start e idx 1 = (idx (comp e 1)).toInt := by
  unfold ScatterDims.start
  rw [dif_pos (by decide), siIdx_col]
theorem window_row (e : S270336.Idx) : d2.window e 0 = 0 := by
  unfold ScatterDims.window
  rw [dif_neg (by decide)]
theorem window_col (e : S270336.Idx) : d2.window e 1 = 0 := by
  unfold ScatterDims.window
  rw [dif_neg (by decide)]

/-- With both components node indices, edge e lands at (row, column). -/
theorem lands (idx : IVec S270336x2 32) (e : S270336.Idx) (r c : Fin 8192)
    (hr : (idx (comp e 0)).toInt = r.val) (hc : (idx (comp e 1)).toInt = c.val) :
    d2.resultIdx? e idx = some (entry r c) := by
  unfold ScatterDims.resultIdx?
  have h0 : d2.start e idx 0 + d2.window e 0 = r.val := by rw [start_row, window_row, hr]; simp
  have h1 : d2.start e idx 1 + d2.window e 1 = c.val := by rw [start_col, window_col, hc]; simp
  have hall : ∀ a, 0 ≤ d2.start e idx a + ↑(d2.window e a) ∧ d2.start e idx a + ↑(d2.window e a) < ↑(S8192x8192.size a) := by
    intro a
    match a with
    | ⟨0, _⟩ => show 0 ≤ d2.start e idx 0 + ↑(d2.window e 0) ∧ d2.start e idx 0 + ↑(d2.window e 0) < (8192 : ℤ); have := r.isLt; omega
    | ⟨1, _⟩ => show 0 ≤ d2.start e idx 1 + ↑(d2.window e 1) ∧ d2.start e idx 1 + ↑(d2.window e 1) < (8192 : ℤ); have := c.isLt; omega
  rw [dif_pos hall]
  refine congrArg some (funext fun a => Fin.ext ?_)
  match a with
  | ⟨0, _⟩ => show (d2.start e idx 0 + ↑(d2.window e 0)).toNat = r.val; omega
  | ⟨1, _⟩ => show (d2.start e idx 1 + ↑(d2.window e 1)).toNat = c.val; omega

end Cert.KernelIdeal.Scatter2

end
-- ==== Proof.EdgeEnds.lean ====
/-
  The ends of the 270336 edges as the reference computes them, for an edge list whose entries are all node indices:
  the raw ends are the edge list's row followed by the self-loops 0 … 8191, so every raw end is a node index; wrapping a
  non-negative index leaves it as it is, so the wrapped ends the gathers and the kernel's scatter use are the raw ends.
-/
import proofs.«131745_j1614907703640_2_alg».proof.Proof.RefRead
import Idealize.ShloMosaic.Lib.Pipeline.Value

set_option maxRecDepth 16384

noncomputable section

namespace Cert.ReferenceIdeal.Ends

open Cert.ReferenceIdeal Cert.ReferenceIdeal.Gen Cert.ReferenceIdeal.ReadP
open Idealize.ShloMosaic

/-- A small natural number as a 32-bit word reads back as itself. -/
theorem toInt_small (n : Nat) (hn : n < 8192) : (BitVec.ofNat 32 n).toInt = (n : ℤ) := by
  rw [BitVec.toInt_eq_toNat_of_lt (by rw [BitVec.toNat_ofNat]; omega), BitVec.toNat_ofNat]
  congr 1
  omega

/-- A row of node indices followed by the self-loops is all node indices. -/
theorem raw_range (row : (⟨S262144, .i32⟩ : BufTy).Contents (Elt Ideal)) (iota : (⟨S8192, .i32⟩ : BufTy).Contents (Elt Ideal))
    (hrow : ∀ i, 0 ≤ (row i).toInt ∧ (row i).toInt < 8192) (hiota : ∀ i : S8192.Idx, iota i = BitVec.ofNat 32 (i 0).val)
    (e : S270336.Idx) :
    0 ≤ (concatenate S270336 0 [⟨S262144, row⟩, ⟨S8192, iota⟩] concatenates_S262144_S8192_S270336_d0 e).toInt
      ∧ (concatenate S270336 0 [⟨S262144, row⟩, ⟨S8192, iota⟩] concatenates_S262144_S8192_S270336_d0 e).toInt < 8192 := by
  have he : (e 0).val < 270336 := (e 0).isLt
  by_cases h : (e 0).val < 262144
  · rw [concatenate_pair_apply_left (0 : Fin S270336.rank) row iota concatenates_S262144_S8192_S270336_d0 e rfl
      (fun a => match a with | ⟨0, _⟩ => ⟨(e 0).val, h⟩) (fun b => by match b with | ⟨0, _⟩ => rfl)]
    exact hrow _
  · rw [concatenate_pair_apply_right (0 : Fin S270336.rank) row iota concatenates_S262144_S8192_S270336_d0 e rfl rfl
      (fun a => match a with | ⟨0, _⟩ => ⟨(e 0).val - 262144, by show (e 0).val - 262144 < 8192; omega⟩)
      (fun b hb => by match b with | ⟨0, _⟩ => exact absurd rfl hb)
      (by show (e 0).val - 262144 + 262144 = (e 0).val; omega)]
    rw [hiota, toInt_small _ (by show (e 0).val - 262144 < 8192; omega)]
    show (0 : ℤ) ≤ ((e 0).val - 262144 : ℕ) ∧ (((e 0).val - 262144 : ℕ) : ℤ) < 8192
    omega

/-- Wrapping a non-negative index leaves it as it is. -/
theorem wrap_nonneg (x : IVec S270336 32) (e : S270336.Idx) (h : 0 ≤ (x e).toInt) :
    select (cmpi .slt x (broadcastInDim S270336 ![] bcast_S_S270336 (constantI S_ 32 0#32)))
      (addi x (broadcastInDim S270336 ![] bcast_S_S270336 (constantI S_ 32 8192#32))) x e = x e := by
  show Scalar.select (IntOp.cmpi .slt (x e) (0#32)) _ (x e) = x e
  have hc : IntOp.cmpi .slt (x e) (0#32) = 0#1 := by
    unfold IntOp.cmpi
    have : (x e).slt (0#32) = false := by
      simp only [BitVec.slt, decide_eq_false_iff_not, not_lt]
      have e0 : (0#32 : BitVec 32).toInt = 0 := by decide
      rw [e0]; exact h
    rw [this]; rfl
  rw [hc]
  rfl

variable (x2 : (⟨S2x262144, .i32⟩ : BufTy).Contents (Elt Ideal))
variable (hx : ∀ i : S2x262144.Idx, 0 ≤ (x2 i).toInt ∧ (x2 i).toInt < 8192)

include hx in
/-- The raw sources and destinations of both layers' edge lists are node indices. -/
theorem src_range (e : S270336.Idx) : 0 ≤ (val_main_v3 (F := Ideal) x2 e).toInt ∧ (val_main_v3 (F := Ideal) x2 e).toInt < 8192 :=
  raw_range _ _ (fun i => by rw [val_main_v2_apply, val_main_v1_apply]; exact hx _) (fun i => val_main_v0_apply i) e
include hx in
theorem dst_range (e : S270336.Idx) : 0 ≤ (val_main_v6 (F := Ideal) x2 e).toInt ∧ (val_main_v6 (F := Ideal) x2 e).toInt < 8192 :=
  raw_range _ _ (fun i => by rw [val_main_v5_apply, val_main_v4_apply]; exact hx _) (fun i => val_main_v0_apply i) e
include hx in
theorem src_range' (e : S270336.Idx) : 0 ≤ (val_main_v51 (F := Ideal) x2 e).toInt ∧ (val_main_v51 (F := Ideal) x2 e).toInt < 8192 :=
  raw_range _ _ (fun i => by rw [val_main_v50_apply, val_main_v49_apply]; exact hx _) (fun i => val_main_v48_apply i) e
include hx in
theorem dst_range' (e : S270336.Idx) : 0 ≤ (val_main_v54 (F := Ideal) x2 e).toInt ∧ (val_main_v54 (F := Ideal) x2 e).toInt < 8192 :=
  raw_range _ _ (fun i => by rw [val_main_v53_apply, val_main_v52_apply]; exact hx _) (fun i => val_main_v48_apply i) e

include hx in
/-- The wrapped ends are the raw ends. -/
theorem wrapped_src (e : S270336.Idx) : val_main_v20 (F := Ideal) x2 e = val_main_v3 (F := Ideal) x2 e :=
  wrap_nonneg _ e (src_range x2 hx e).1
include hx in
theorem wrapped_dst (e : S270336.Idx) : val_main_v27 (F := Ideal) x2 e = val_main_v6 (F := Ideal) x2 e :=
  wrap_nonneg _ e (dst_range x2 hx e).1
include hx in
theorem wrapped_src_feat (e : S270336.Idx) : val_main_v36 (F := Ideal) x2 e = val_main_v3 (F := Ideal) x2 e :=
  wrap_nonneg _ e (src_range x2 hx e).1
include hx in
theorem wrapped_src_feat' (e : S270336.Idx) : val_main_v84 (F := Ideal) x2 e = val_main_v51 (F := Ideal) x2 e :=
  wrap_nonneg _ e (src_range' x2 hx e).1

/-- The two layers compute their edge data from the edge list by the same operations: the same functions. -/
theorem src_again : val_main_v51 (F := Ideal) x2 = val_main_v3 (F := Ideal) x2 := rfl
theorem dst_again : val_main_v54 (F := Ideal) x2 = val_main_v6 (F := Ideal) x2 := rfl
theorem weight_again : val_main_v78 (F := Ideal) x2 = val_main_v30 (F := Ideal) x2 := rfl

end Cert.ReferenceIdeal.Ends

end
-- ==== Proof.LibAdjacency.lean ====
/-
  A dense adjacency against a sum over edges.

  Given edges e with ends src e, dst e among the nodes and real weights w e, put  A i j = Σ of w e over the edges with
  dst e = i and src e = j.  Then for any column h of real values on the nodes

      Σ_j A i j · h j  =  Σ over the edges e with dst e = i of  w e · h (src e):

  the left side distributes each A i j over its edges, every edge into i sits under exactly one j (its source), and on
  that summand h j is h (src e).  The same holds on the extended reals for weights and values that are real numbers,
  the coercion commuting with finite sums and with products.
-/
import Idealize.ShloMosaic.PureOps.Ideal

namespace Cert.Lib.Adjacency

open scoped BigOperators

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals: the dense adjacency applied to a column is the sum over the edges into the node. -/
theorem dense_eq_edges {E N : Type*} [Fintype E] [Fintype N] [DecidableEq N] (src dst : E → N) (w : E → ℝ) (h : N → ℝ) (i : N) :
    ∑ j, (∑ e ∈ Finset.univ.filter (fun e => dst e = i ∧ src e = j), w e) * h j
      = ∑ e ∈ Finset.univ.filter (fun e => dst e = i), w e * h (src e) := by
  classical
  have step : ∀ j, (∑ e ∈ Finset.univ.filter (fun e => dst e = i ∧ src e = j), w e) * h j
      = ∑ e ∈ (Finset.univ.filter (fun e => dst e = i)).filter (fun e => src e = j), w e * h (src e) := by
    intro j
    rw [Finset.sum_mul, Finset.filter_filter]
    refine Finset.sum_congr rfl fun e he => ?_
    rw [(Finset.mem_filter.mp he).2.2]
  simp_rw [step]
  exact Finset.sum_fiberwise _ _ _

/-- On the extended reals, for real weights and a real column. -/
theorem dense_eq_edges_ereal {E N : Type*} [Fintype E] [Fintype N] [DecidableEq N] (src dst : E → N) (w : E → ℝ) (h : N → ℝ) (i : N) :
    ∑ j, (∑ e ∈ Finset.univ.filter (fun e => dst e = i ∧ src e = j), (w e : EReal)) * (h j : EReal)
      = ∑ e ∈ Finset.univ.filter (fun e => dst e = i), (w e : EReal) * (h (src e) : EReal) := by
  have hl : ∀ j, (∑ e ∈ Finset.univ.filter (fun e => dst e = i ∧ src e = j), (w e : EReal)) * (h j : EReal)
      = (((∑ e ∈ Finset.univ.filter (fun e => dst e = i ∧ src e = j), w e) * h j : ℝ) : EReal) := by
    intro j; rw [EReal.coe_mul, coe_sum]
  simp_rw [hl, ← EReal.coe_mul]
  rw [← coe_sum, ← coe_sum, dense_eq_edges]

/-- A finite sum of non-negative extended reals times any extended real distributes (no finiteness needed: both sides
    are the same combination of 0 and an infinity when the factor is infinite). -/
theorem sum_mul_of_nonneg {ι : Type*} (s : Finset ι) (w : ι → EReal) (hw : ∀ i ∈ s, 0 ≤ w i) (c : EReal) :
    (∑ i ∈ s, w i) * c = ∑ i ∈ s, w i * c := by
  classical
  induction s using Finset.induction_on with
  | empty => simp
  | insert a s ha ih =>
    rw [Finset.sum_insert ha, Finset.sum_insert ha,
      EReal.right_distrib_of_nonneg (hw a (Finset.mem_insert_self a s))
        (Finset.sum_nonneg fun i hi => hw i (Finset.mem_insert_of_mem hi)),
      ih (fun i hi => hw i (Finset.mem_insert_of_mem hi))]

/-- On the extended reals, for NON-NEGATIVE weights and ANY column: the dense adjacency applied to the column is the
    sum over the edges into the node. -/
theorem dense_eq_edges_nonneg {E N : Type*} [Fintype E] [Fintype N] [DecidableEq N] (src dst : E → N) (w : E → EReal)
    (hw : ∀ e, 0 ≤ w e) (h : N → EReal) (i : N) :
    ∑ j, (∑ e ∈ Finset.univ.filter (fun e => dst e = i ∧ src e = j), w e) * h j
      = ∑ e ∈ Finset.univ.filter (fun e => dst e = i), w e * h (src e) := by
  classical
  have step : ∀ j, (∑ e ∈ Finset.univ.filter (fun e => dst e = i ∧ src e = j), w e) * h j
      = ∑ e ∈ (Finset.univ.filter (fun e => dst e = i)).filter (fun e => src e = j), w e * h (src e) := by
    intro j
    rw [sum_mul_of_nonneg _ _ (fun e _ => hw e), Finset.filter_filter]
    refine Finset.sum_congr rfl fun e he => ?_
    rw [(Finset.mem_filter.mp he).2.2]
  simp_rw [step]
  exact Finset.sum_fiberwise _ _ _

end Cert.Lib.Adjacency
-- ==== Proof.LibBlocks.lean ====
/-
  Four consecutive blocks of 2048, added in turn to 0, are the whole sum over 8192:

      (((0 + Σ_{k<2048} f(k)) + Σ_{k<2048} f(2048 + k)) + Σ_{k<2048} f(4096 + k)) + Σ_{k<2048} f(6144 + k) = Σ_{j<8192} f(j),

  in any commutative additive monoid: the index set splits as 2048 + 2048 + 2048 + 2048.
-/
import Idealize.ShloMosaic.PureOps.Ideal

namespace Cert.Lib.Blocks

open scoped BigOperators

theorem eight_k : 2048 + 2048 + 2048 + 2048 = 8192 := by norm_num

theorem four_blocks {M : Type*} [AddCommMonoid M] (f : Fin 8192 → M) :
    (((0 + ∑ k : Fin 2048, f ⟨2048 * 0 + k.val, by have := k.isLt; omega⟩)
        + ∑ k : Fin 2048, f ⟨2048 * 1 + k.val, by have := k.isLt; omega⟩)
        + ∑ k : Fin 2048, f ⟨2048 * 2 + k.val, by have := k.isLt; omega⟩)
        + ∑ k : Fin 2048, f ⟨2048 * 3 + k.val, by have := k.isLt; omega⟩
      = ∑ j : Fin 8192, f j := by
  rw [zero_add]
  have hsplit : ∑ j : Fin 8192, f j = ∑ j : Fin (2048 + 2048 + 2048 + 2048), f (Fin.cast eight_k j) :=
    (Fintype.sum_equiv (finCongr eight_k) (fun j => f (Fin.cast eight_k j)) f (fun _ => rfl)).symm
  rw [hsplit, Fin.sum_univ_add, Fin.sum_univ_add, Fin.sum_univ_add]
  congr 1

end Cert.Lib.Blocks
-- ==== Proof.IdealAdjEntry.lean ====
/-
  The kernel's aggregation as a sum over edges.  For an edge list whose entries are node indices, entry (r, j) of Â is
  the sum of the weights of the edges from j to r (the scatter lands edge e at (dst e, src e) and nothing is dropped),
  so the row r of Â applied to a column — accumulated in four blocks of 2048 columns as the launch does — is the sum,
  over the edges into r, of weight × the column's value at the edge's source.  The weights are products of two values
  of d, which is an inverse square root where the degree is positive and 0 elsewhere, hence non-negative; that is all the
  regrouping needs on the extended reals.
-/
import proofs.«131745_j1614907703640_2_alg».proof.Proof.IdealAdj
import proofs.«131745_j1614907703640_2_alg».proof.Proof.IdealScatter2
import proofs.«131745_j1614907703640_2_alg».proof.Proof.EdgeEnds
import proofs.«131745_j1614907703640_2_alg».proof.Proof.LibAdjacency
import proofs.«131745_j1614907703640_2_alg».proof.Proof.LibBlocks

set_option maxRecDepth 16384

noncomputable section

namespace Cert.KernelIdeal.Whole

open Cert.KernelIdeal Cert.KernelIdeal.Gen
open Idealize.ShloMosaic Idealize.ShloMosaic.TcCoe
open Idealize.SL Idealize.SL.Sem

/-! ## Edge ends as node numbers -/

/-- A word read as a node number (its signed value, folded into 0 … 8191; for a node index, its value). -/
def nodeOf (w : BitVec 32) : Fin 8192 := ⟨w.toInt.toNat % 8192, Nat.mod_lt _ (by norm_num)⟩

theorem nodeOf_val (w : BitVec 32) (h0 : 0 ≤ w.toInt) (h8 : w.toInt < 8192) : w.toInt = ((nodeOf w).val : ℤ) := by
  show w.toInt = ((w.toInt.toNat % 8192 : ℕ) : ℤ)
  omega

variable (x2 : S2x262144.Idx → BitVec 32)

/-- The source and the destination of edge e, as node numbers. -/
def srcN (e : S270336.Idx) : Fin 8192 := nodeOf (Cert.ReferenceIdeal.ReadP.val_main_v3 (F := Ideal) x2 e)
def dstN (e : S270336.Idx) : Fin 8192 := nodeOf (Cert.ReferenceIdeal.ReadP.val_main_v6 (F := Ideal) x2 e)

variable (hx : ∀ i : S2x262144.Idx, 0 ≤ (x2 i).toInt ∧ (x2 i).toInt < 8192)

/-- The index vectors the scatter reads: component 0 is the wrapped destination, component 1 the wrapped source. -/
def pairs : IVec S270336x2 32 :=
  concatenate S270336x2 1 [⟨S270336x1, asColumn (Cert.ReferenceIdeal.ReadP.val_main_v27 (F := Ideal) x2)⟩,
    ⟨S270336x1, asColumn (Cert.ReferenceIdeal.ReadP.val_main_v20 (F := Ideal) x2)⟩] concatenates_S270336x1_S270336x1_S270336x2_d1

theorem pairs_dst (e : S270336.Idx) : pairs x2 (Scatter2.comp e 0) = Cert.ReferenceIdeal.ReadP.val_main_v27 (F := Ideal) x2 e := by
  unfold pairs
  rw [concatenate_pair_apply_left (1 : Fin S270336x2.rank) _ _ concatenates_S270336x1_S270336x1_S270336x2_d1 (Scatter2.comp e 0) rfl
    (fun a => match a with | ⟨0, _⟩ => ⟨(e 0).val, (e 0).isLt⟩ | ⟨1, _⟩ => ⟨0, by show 0 < 1; omega⟩)
    (fun b => by match b with | ⟨0, _⟩ => rfl | ⟨1, _⟩ => rfl)]
  unfold asColumn
  exact broadcastInDim_apply _ bcast_S270336_S270336x1_0 _ _ e (fun a => by match a with | ⟨0, _⟩ => rfl)

theorem pairs_src (e : S270336.Idx) : pairs x2 (Scatter2.comp e 1) = Cert.ReferenceIdeal.ReadP.val_main_v20 (F := Ideal) x2 e := by
  unfold pairs
  rw [concatenate_pair_apply_right (1 : Fin S270336x2.rank) _ _ concatenates_S270336x1_S270336x1_S270336x2_d1 (Scatter2.comp e 1) rfl rfl
    (fun a => match a with | ⟨0, _⟩ => ⟨(e 0).val, (e 0).isLt⟩ | ⟨1, _⟩ => ⟨0, by show 0 < 1; omega⟩)
    (fun b hb => by match b with | ⟨0, _⟩ => rfl | ⟨1, _⟩ => exact absurd rfl hb)
    (by show 0 + 1 = 1; rfl)]
  unfold asColumn
  exact broadcastInDim_apply _ bcast_S270336_S270336x1_0 _ _ e (fun a => by match a with | ⟨0, _⟩ => rfl)

include hx in
/-- Edge e lands at (dst e, src e). -/
theorem edge_lands (e : S270336.Idx) :
    Scatter2.d2.resultIdx? e (pairs x2) = some (Scatter2.entry (dstN x2 e) (srcN x2 e)) := by
  refine Scatter2.lands (pairs x2) e (dstN x2 e) (srcN x2 e) ?_ ?_
  · rw [pairs_dst, Cert.ReferenceIdeal.Ends.wrapped_dst x2 hx e]
    exact nodeOf_val _ (Cert.ReferenceIdeal.Ends.dst_range x2 hx e).1 (Cert.ReferenceIdeal.Ends.dst_range x2 hx e).2
  · rw [pairs_src, Cert.ReferenceIdeal.Ends.wrapped_src x2 hx e]
    exact nodeOf_val _ (Cert.ReferenceIdeal.Ends.src_range x2 hx e).1 (Cert.ReferenceIdeal.Ends.src_range x2 hx e).2

/-- The dense adjacency of an edge list, as the kernel forms it. -/
def adjOf : S8192x8192.Idx → EReal :=
  truncf (F := Ideal) .bf16 (Host.scatterAdd (F := Ideal) (φ := .f32) scatter_S8192x8192_S270336x2_S270336_n_01_01_1
    (broadcastInDim S8192x8192 ![] bcast_S_S8192x8192 (constant (F := Ideal) S_ .f32 0x00000000#32))
    (pairs x2) (Cert.ReferenceIdeal.ReadP.val_main_v30 (F := Ideal) x2)) bitsLt_bf16_f32

include hx in
/-- Entry (r, j) of Â: the sum of the weights of the edges from j to r. -/
theorem adj_entry (r j : Fin 8192) :
    adjOf x2 (Scatter2.entry r j)
      = ∑ e ∈ Finset.univ.filter (fun e : S270336.Idx => dstN x2 e = r ∧ srcN x2 e = j), Cert.ReferenceIdeal.ReadP.val_main_v30 (F := Ideal) x2 e := by
  unfold adjOf
  show Ideal.ofBits .f32 0x00000000#32
      + ∑ e ∈ Finset.univ.filter (fun e : S270336.Idx => Scatter2.d2.resultIdx? e (pairs x2) = some (Scatter2.entry r j)),
          Cert.ReferenceIdeal.ReadP.val_main_v30 (F := Ideal) x2 e = _
  rw [Ideal.ofBits_zero_f32, zero_add]
  refine Finset.sum_congr (Finset.filter_congr fun e _ => ?_) fun _ _ => rfl
  rw [edge_lands x2 hx e, Option.some.injEq]
  constructor
  · intro h
    have h0 := congrFun h 0
    have h1 := congrFun h 1
    exact ⟨Fin.ext (Fin.mk.inj_iff.mp h0), Fin.ext (Fin.mk.inj_iff.mp h1)⟩
  · rintro ⟨h0, h1⟩
    rw [h0, h1]

end Cert.KernelIdeal.Whole

end
-- ==== Proof.EdgeWeights.lean ====
/-
  The edge weights are non-negative: d is the inverse square root of the degree where the degree is positive — a
  non-negative number, 0 at an infinite degree — and 0 elsewhere; each gather reads one value of d; a weight is the
  product of two of them.
-/
import proofs.«131745_j1614907703640_2_alg».proof.Proof.RefRead

set_option maxRecDepth 16384

noncomputable section

namespace Cert.ReferenceIdeal.Weights

open Cert.ReferenceIdeal Cert.ReferenceIdeal.Gen Cert.ReferenceIdeal.ReadP
open Idealize.ShloMosaic

/-- The inverse square root of a positive extended real is non-negative. -/
theorem rsqrt_nonneg_of_pos (a : EReal) (h : 0 < a) : 0 ≤ Ideal.rsqrt a := by
  induction a using EReal.rec with
  | bot => exact absurd h (not_lt_bot)
  | top => exact le_refl _
  | coe r =>
    have hr : 0 < r := by exact_mod_cast h
    show (0 : EReal) ≤ if r < 0 then ⊥ else if r = 0 then ⊤ else (((Real.sqrt r)⁻¹ : ℝ) : EReal)
    rw [if_neg (not_lt.mpr hr.le), if_neg hr.ne']
    exact_mod_cast inv_nonneg.mpr (Real.sqrt_nonneg r)

variable (x2 : (⟨S2x262144, .i32⟩ : BufTy).Contents (Elt Ideal))

/-- d is non-negative at every node. -/
theorem dinv_nonneg (i : S8192.Idx) : 0 ≤ val_main_v15 (F := Ideal) x2 i := by
  rw [val_main_v15_apply, val_main_v13_apply, val_main_v14_apply, val_main_v12_apply, val_main_call0_v1_apply]
  have hz1 : val_main_cst_1 (F := Ideal) (idx_main_v12 i) = 0 := Ideal.ofBits_zero_f32
  have hz2 : val_main_call0_v0 (F := Ideal) (idx_main_call0_v1 i) = 0 := Ideal.ofBits_zero_f32
  rw [hz1, hz2, Ideal.cmpf_def, Ideal.hostUnary_rsqrt_def]
  unfold Scalar.select
  split
  · rename_i hc
    refine rsqrt_nonneg_of_pos _ ?_
    by_contra hn
    have hf : Ideal.cmp .ogt (val_main_v11 (F := Ideal) x2 i) 0 = 0#1 := by
      show BitVec.ofBool (decide ((0 : EReal) < val_main_v11 (F := Ideal) x2 i)) = 0#1
      rw [decide_eq_false hn]
      rfl
    rw [hf] at hc
    exact absurd hc (by decide)
  · exact le_refl _

/-- A weight is a product of two values of d. -/
theorem weight_nonneg (e : S270336.Idx) : 0 ≤ val_main_v30 (F := Ideal) x2 e := by
  rw [val_main_v30_apply]
  show (0 : EReal) ≤ val_main_v22 (F := Ideal) x2 e * val_main_v29 (F := Ideal) x2 e
  unfold val_main_v22 val_main_v29 Host.gather
  exact EReal.mul_nonneg (dinv_nonneg x2 _) (dinv_nonneg x2 _)

end Cert.ReferenceIdeal.Weights

end
-- ==== Proof.IdealLayerEdges.lean ====
/-
  The kernel's aggregation as a sum over edges, concluded: for an edge list whose entries are node indices and ANY
  column h, the four blocks the launch accumulates,
      (((0 + P₀) + P₁) + P₂) + P₃,   P_q = Σ_{k<2048} Â[r, 2048 q + k] · h[2048 q + k],
  are  Σ over the edges e into r of  weight(e) · h[src e]:  the blocks are the whole sum over the 8192 columns; an
  entry of Â is the sum of the weights of the edges between the two nodes; and a sum of non-negative weights times a
  value distributes on the extended reals whatever the value.
-/
import proofs.«131745_j1614907703640_2_alg».proof.Proof.IdealAdjEntry
import proofs.«131745_j1614907703640_2_alg».proof.Proof.EdgeWeights
import proofs.«131745_j1614907703640_2_alg».proof.Proof.IdealAggValue
import proofs.«131745_j1614907703640_2_alg».proof.Proof.IdealAgg2Value

set_option maxRecDepth 16384

noncomputable section

namespace Cert.KernelIdeal.Whole

open Cert.KernelIdeal Cert.KernelIdeal.Gen
open Idealize.ShloMosaic Idealize.ShloMosaic.TcCoe
open Idealize.SL Idealize.SL.Sem

variable (x2 : S2x262144.Idx → BitVec 32)
variable (hx : ∀ i : S2x262144.Idx, 0 ≤ (x2 i).toInt ∧ (x2 i).toInt < 8192)

include hx in
/-- Row r of Â applied to a column over the nodes: the sum over the edges into r. -/
theorem dense_row (h : Fin 8192 → EReal) (r : Fin 8192) :
    ∑ j : Fin 8192, adjOf x2 (Scatter2.entry r j) * h j
      = ∑ e ∈ Finset.univ.filter (fun e : S270336.Idx => dstN x2 e = r), Cert.ReferenceIdeal.ReadP.val_main_v30 (F := Ideal) x2 e * h (srcN x2 e) := by
  rw [show (∑ j : Fin 8192, adjOf x2 (Scatter2.entry r j) * h j)
      = ∑ j : Fin 8192, (∑ e ∈ Finset.univ.filter (fun e : S270336.Idx => dstN x2 e = r ∧ srcN x2 e = j), Cert.ReferenceIdeal.ReadP.val_main_v30 (F := Ideal) x2 e) * h j
      from Finset.sum_congr rfl fun j _ => by rw [adj_entry x2 hx r j]]
  exact Cert.Lib.Adjacency.dense_eq_edges_nonneg (srcN x2) (dstN x2) (Cert.ReferenceIdeal.ReadP.val_main_v30 (F := Ideal) x2)
    (fun e => Cert.ReferenceIdeal.Weights.weight_nonneg x2 e) h r

include hx in
/-- The first layer's four accumulated blocks (width 512). -/
theorem blocks_512 (H : S8192x512.Idx → EReal) (r : Fin 8192) (c : Fin 512) :
    (((0 + Agg.partSum (adjOf x2) H r c 0) + Agg.partSum (adjOf x2) H r c 1) + Agg.partSum (adjOf x2) H r c 2) + Agg.partSum (adjOf x2) H r c 3
      = ∑ e ∈ Finset.univ.filter (fun e : S270336.Idx => dstN x2 e = r),
          Cert.ReferenceIdeal.ReadP.val_main_v30 (F := Ideal) x2 e * H (Agg.atFeat (srcN x2 e) c) := by
  have h4 := Cert.Lib.Blocks.four_blocks (fun j : Fin 8192 => adjOf x2 (Scatter2.entry r j) * H (Agg.atFeat j c))
  exact (show _ = _ from h4).trans (dense_row x2 hx (fun j => H (Agg.atFeat j c)) r)

include hx in
/-- The second layer's four accumulated blocks (width 128). -/
theorem blocks_128 (H : S8192x128.Idx → EReal) (r : Fin 8192) (c : Fin 128) :
    (((0 + Agg2.partSum (adjOf x2) H r c 0) + Agg2.partSum (adjOf x2) H r c 1) + Agg2.partSum (adjOf x2) H r c 2) + Agg2.partSum (adjOf x2) H r c 3
      = ∑ e ∈ Finset.univ.filter (fun e : S270336.Idx => dstN x2 e = r),
          Cert.ReferenceIdeal.ReadP.val_main_v30 (F := Ideal) x2 e * H (Agg2.atFeat (srcN x2 e) c) := by
  have h4 := Cert.Lib.Blocks.four_blocks (fun j : Fin 8192 => adjOf x2 (Scatter2.entry r j) * H (Agg2.atFeat j c))
  exact (show _ = _ from h4).trans (dense_row x2 hx (fun j => H (Agg2.atFeat j c)) r)

end Cert.KernelIdeal.Whole

end
-- ==== Proof.RefRows512.lean ====
/-
  Where the reference's row scatter lands and what its row gather reads, at width 512: the update (e, c) — edge e,
  column c — lands at (row, c), row being the e-th index read as a signed integer, and is dropped if row is outside
  0 … 8191; the gathered entry (e, c) is entry (row, c) of the operand, row being the e-th index clamped to 0 … 8191.
  For an index that is a node number neither the drop nor the clamp happens.
-/
import proofs.«131745_j1614907703640_2_alg».proof.Proof.Gen.ReferenceIdeal
import Idealize.ShloMosaic.Lib.ValueIdx
import Idealize.ShloMosaic.PureOps.Ideal.Laws

set_option maxRecDepth 16384

noncomputable section

namespace Cert.ReferenceIdeal.Rows512

open Cert.ReferenceIdeal
open Idealize.ShloMosaic

abbrev ds := scatter_S8192x512_S270336x1_S270336x512_1_0_0_1
abbrev dg := gather_S8192x512_S270336x1_S270336x512_1_0_n_n_0_1_1512

/-- The index of edge e. -/
abbrev ofEdge (e : Fin 270336) : S270336x1.Idx := fun a => match a with
  | ⟨0, _⟩ => ⟨e.val, e.isLt⟩
  | ⟨1, _⟩ => ⟨0, by show 0 < 1; omega⟩
/-- Update (or gathered entry) (e, c), and operand entry (r, c). -/
abbrev upd (e : Fin 270336) (c : Fin 512) : S270336x512.Idx := fun a => match a with
  | ⟨0, _⟩ => ⟨e.val, e.isLt⟩
  | ⟨1, _⟩ => ⟨c.val, c.isLt⟩
abbrev feat (r : Fin 8192) (c : Fin 512) : S8192x512.Idx := fun a => match a with
  | ⟨0, _⟩ => ⟨r.val, r.isLt⟩
  | ⟨1, _⟩ => ⟨c.val, c.isLt⟩

/-! ## The scatter -/

theorem s_siIdx (u : S270336x512.Idx) :
    ds.siIdx u ⟨ds.scatterDimsToOperandDims.idxOf (0 : Fin S8192x512.rank), List.idxOf_lt_length_iff.2 (by decide)⟩
      = ofEdge ⟨(u 0).val, (u 0).isLt⟩ := by
  funext b
  unfold ScatterDims.siIdx
  match b with
  | ⟨0, _⟩ =>
    rw [dif_neg (by decide +revert)]
    unfold ScatterDims.siCoord
    exact Fin.ext rfl
  | ⟨1, _⟩ =>
    rw [dif_pos (by decide +revert)]
    exact Fin.ext rfl

theorem s_start_row (idx : IVec S270336x1 32) (u : S270336x512.Idx) :
    ds.start u idx 0 = (idx (ofEdge ⟨(u 0).val, (u 0).isLt⟩)).toInt := by
  unfold ScatterDims.start
  rw [dif_pos (by decide), s_siIdx]
theorem s_start_col (idx : IVec S270336x1 32) (u : S270336x512.Idx) : ds.start u idx 1 = 0 := by
  unfold ScatterDims.start
  rw [dif_neg (by decide)]
theorem s_window_row (u : S270336x512.Idx) : ds.window u 0 = 0 := by
  unfold ScatterDims.window
  rw [dif_neg (by decide)]
theorem s_window_col (u : S270336x512.Idx) : ds.window u 1 = (u 1).val := by
  unfold ScatterDims.window
  rw [dif_pos (by decide)]
  rfl

/-- With the index a node number, update u lands at (that node, u's column). -/
theorem lands (idx : IVec S270336x1 32) (u : S270336x512.Idx) (r : Fin 8192)
    (hr : (idx (ofEdge ⟨(u 0).val, (u 0).isLt⟩)).toInt = r.val) :
    ds.resultIdx? u idx = some (feat r ⟨(u 1).val, (u 1).isLt⟩) := by
  unfold ScatterDims.resultIdx?
  have h0 : ds.start u idx 0 + ds.window u 0 = r.val := by rw [s_start_row, s_window_row, hr]; simp
  have h1 : ds.start u idx 1 + ds.window u 1 = (u 1).val := by rw [s_start_col, s_window_col]; simp
  have hall : ∀ a, 0 ≤ ds.start u idx a + ↑(ds.window u a) ∧ ds.start u idx a + ↑(ds.window u a) < ↑(S8192x512.size a) := by
    intro a
    match a with
    | ⟨0, _⟩ => show 0 ≤ ds.start u idx 0 + ↑(ds.window u 0) ∧ ds.start u idx 0 + ↑(ds.window u 0) < (8192 : ℤ); have := r.isLt; omega
    | ⟨1, _⟩ => show 0 ≤ ds.start u idx 1 + ↑(ds.window u 1) ∧ ds.start u idx 1 + ↑(ds.window u 1) < (512 : ℤ); have := (u 1).isLt; have : (u 1).val < 512 := (u 1).isLt; omega
  rw [dif_pos hall]
  refine congrArg some (funext fun a => Fin.ext ?_)
  match a with
  | ⟨0, _⟩ => show (ds.start u idx 0 + ↑(ds.window u 0)).toNat = r.val; omega
  | ⟨1, _⟩ => show (ds.start u idx 1 + ↑(ds.window u 1)).toNat = (u 1).val; omega

/-! ## The gather -/

theorem g_siIdx (u : S270336x512.Idx) :
    dg.siIdx u ⟨dg.startIndexMap.idxOf (0 : Fin S8192x512.rank), List.idxOf_lt_length_iff.2 (by decide)⟩
      = ofEdge ⟨(u 0).val, (u 0).isLt⟩ := by
  funext b
  unfold GatherDims.siIdx
  match b with
  | ⟨0, _⟩ =>
    rw [dif_neg (by decide +revert)]
    unfold GatherDims.siCoord
    exact Fin.ext rfl
  | ⟨1, _⟩ =>
    rw [dif_pos (by decide +revert)]
    exact Fin.ext rfl

/-- With the index a node number, the gathered entry u is the operand's at (that node, u's column). -/
theorem reads {α : Type} (x : S8192x512.Idx → α) (idx : IVec S270336x1 32) (u : S270336x512.Idx) (r : Fin 8192)
    (hr : (idx (ofEdge ⟨(u 0).val, (u 0).isLt⟩)).toInt = r.val) :
    Host.gather dg x idx u = x (feat r ⟨(u 1).val, (u 1).isLt⟩) := by
  unfold Host.gather
  refine congrArg x (funext fun a => Fin.ext ?_)
  show dg.start u idx a + dg.batchCoord u a + dg.offCoord u a = _
  match a with
  | ⟨0, _⟩ =>
    have hs : dg.start u idx 0 = r.val := by
      unfold GatherDims.start
      rw [dif_pos (by decide), g_siIdx, hr]
      show min (r.val : ℤ).toNat (8192 - 1) = r.val
      have := r.isLt
      simp only [Int.toNat_natCast]
      omega
    have hb : dg.batchCoord u 0 = 0 := dg.batchCoord_eq_zero u 0 (by decide)
    have ho : dg.offCoord u 0 = 0 := dg.offCoord_eq_zero u 0 (by decide)
    show dg.start u idx 0 + dg.batchCoord u 0 + dg.offCoord u 0 = r.val
    omega
  | ⟨1, _⟩ =>
    have hs : dg.start u idx 1 = 0 := by
      unfold GatherDims.start
      rw [dif_neg (by decide)]
    have hb : dg.batchCoord u 1 = 0 := dg.batchCoord_eq_zero u 1 (by decide)
    have ho : dg.offCoord u 1 = (u 1).val := by
      unfold GatherDims.offCoord
      rw [dif_pos (by decide)]
      rfl
    show dg.start u idx 1 + dg.batchCoord u 1 + dg.offCoord u 1 = (u 1).val
    omega

end Cert.ReferenceIdeal.Rows512

end
-- ==== Proof.RefLayer1.lean ====
/-
  The reference's aggregation of the first layer as a sum over edges.  For an edge list whose entries are node
  indices, the row scatter lands the update (e, c) at (dst e, c) and drops nothing, and the gather reads row src e of the
  features; so entry (r, c) of the scattered array is the sum, over the edges into r, of weight × the features' entry
  (src e, c).
-/
import proofs.«131745_j1614907703640_2_alg».proof.Proof.IdealAdjEntry
import proofs.«131745_j1614907703640_2_alg».proof.Proof.RefRows512

set_option maxRecDepth 16384

noncomputable section

namespace Cert.ReferenceIdeal.Layer1

open Cert.ReferenceIdeal Cert.ReferenceIdeal.Gen Cert.ReferenceIdeal.ReadP
open Idealize.ShloMosaic

variable (x0 : (⟨S8192x512, .f32⟩ : BufTy).Contents (Elt Ideal)) (x2 : (⟨S2x262144, .i32⟩ : BufTy).Contents (Elt Ideal)) (x3 : (⟨S512x512, .f32⟩ : BufTy).Contents (Elt Ideal))
variable (hx : ∀ i : S2x262144.Idx, 0 ≤ (x2 i).toInt ∧ (x2 i).toInt < 8192)

/-- The edge of an update, and the update (e, c) of an edge. -/
def edgeOf (u : S270336x512.Idx) : S270336.Idx := fun a => match a with | ⟨0, _⟩ => ⟨(u 0).val, (u 0).isLt⟩
def updOf (e : S270336.Idx) (c : Fin 512) : S270336x512.Idx := Rows512.upd ⟨(e 0).val, (e 0).isLt⟩ c

include hx in
/-- Update u lands at (dst of its edge, its column). -/
theorem upd_lands (u : S270336x512.Idx) :
    Rows512.ds.resultIdx? u (val_main_v42 (F := Ideal) x2) = some (Rows512.feat (Cert.KernelIdeal.Whole.dstN x2 (edgeOf u)) ⟨(u 1).val, (u 1).isLt⟩) := by
  refine Rows512.lands _ u _ ?_
  rw [val_main_v42_apply]
  show (val_main_v6 (F := Ideal) x2 (edgeOf u)).toInt = _
  exact Cert.KernelIdeal.Whole.nodeOf_val _ (Cert.ReferenceIdeal.Ends.dst_range x2 hx (edgeOf u)).1 (Cert.ReferenceIdeal.Ends.dst_range x2 hx (edgeOf u)).2

include hx in
/-- The gathered entry u is the features' at (src of its edge, its column). -/
theorem upd_reads (u : S270336x512.Idx) :
    val_main_v38 (F := Ideal) x0 x2 x3 u = val_main_v7 (F := Ideal) x0 x3 (Rows512.feat (Cert.KernelIdeal.Whole.srcN x2 (edgeOf u)) ⟨(u 1).val, (u 1).isLt⟩) := by
  show Host.gather Rows512.dg (val_main_v7 (F := Ideal) x0 x3) (val_main_v37 (F := Ideal) x2) u = _
  refine Rows512.reads _ _ u _ ?_
  rw [val_main_v37_apply]
  show (val_main_v36 (F := Ideal) x2 (edgeOf u)).toInt = _
  rw [Cert.ReferenceIdeal.Ends.wrapped_src_feat x2 hx (edgeOf u)]
  exact Cert.KernelIdeal.Whole.nodeOf_val _ (Cert.ReferenceIdeal.Ends.src_range x2 hx (edgeOf u)).1 (Cert.ReferenceIdeal.Ends.src_range x2 hx (edgeOf u)).2

/-- The weight of update u is the weight of its edge. -/
theorem upd_weight (u : S270336x512.Idx) : val_main_v39 (F := Ideal) x2 u = val_main_v30 (F := Ideal) x2 (edgeOf u) := by
  rw [val_main_v39_apply, val_main_v31_apply]
  rfl

include hx in
/-- Entry (r, c) of the scattered array: the sum over the edges into r. -/
theorem scattered_entry (r : Fin 8192) (c : Fin 512) :
    val_main_v43 (F := Ideal) x0 x2 x3 (Rows512.feat r c)
      = ∑ e ∈ Finset.univ.filter (fun e : S270336.Idx => Cert.KernelIdeal.Whole.dstN x2 e = r),
          val_main_v30 (F := Ideal) x2 e * val_main_v7 (F := Ideal) x0 x3 (Rows512.feat (Cert.KernelIdeal.Whole.srcN x2 e) c) := by
  show Ideal.ofBits .f32 0x00000000#32
      + ∑ u ∈ Finset.univ.filter (fun u : S270336x512.Idx => Rows512.ds.resultIdx? u (val_main_v42 (F := Ideal) x2) = some (Rows512.feat r c)),
          val_main_v40 (F := Ideal) x0 x2 x3 u = _
  rw [Ideal.ofBits_zero_f32, zero_add]
  have hmem : ∀ u : S270336x512.Idx, Rows512.ds.resultIdx? u (val_main_v42 (F := Ideal) x2) = some (Rows512.feat r c)
      ↔ Cert.KernelIdeal.Whole.dstN x2 (edgeOf u) = r ∧ (⟨(u 1).val, (u 1).isLt⟩ : Fin 512) = c := by
    intro u
    rw [upd_lands x2 hx u, Option.some.injEq]
    constructor
    · intro h
      have h0 := congrFun h 0
      have h1 := congrFun h 1
      exact ⟨Fin.ext (Fin.mk.inj_iff.mp h0), Fin.ext (Fin.mk.inj_iff.mp h1)⟩
    · rintro ⟨h0, h1⟩
      rw [h0, h1]
  refine Finset.sum_nbij' (fun u => edgeOf u) (fun e => updOf e c) ?_ ?_ ?_ ?_ ?_
  · intro u hu
    rw [Finset.mem_filter] at hu ⊢
    exact ⟨Finset.mem_univ _, ((hmem u).mp hu.2).1⟩
  · intro e he
    rw [Finset.mem_filter] at he ⊢
    refine ⟨Finset.mem_univ _, (hmem _).mpr ⟨?_, ?_⟩⟩
    · show Cert.KernelIdeal.Whole.dstN x2 (edgeOf (updOf e c)) = r
      rw [show edgeOf (updOf e c) = e from funext fun a => by match a with | ⟨0, _⟩ => rfl]
      exact he.2
    · exact Fin.ext rfl
  · intro u hu
    rw [Finset.mem_filter] at hu
    have hc := ((hmem u).mp hu.2).2
    funext a
    match a with
    | ⟨0, _⟩ => exact Fin.ext rfl
    | ⟨1, _⟩ => exact Fin.ext (congrArg Fin.val hc).symm
  · intro e he
    funext a
    match a with
    | ⟨0, _⟩ => exact Fin.ext rfl
  · intro u hu
    rw [Finset.mem_filter] at hu
    have hc := ((hmem u).mp hu.2).2
    show val_main_v39 (F := Ideal) x2 u * val_main_v38 (F := Ideal) x0 x2 x3 u = _
    rw [upd_weight x2 u, upd_reads x0 x2 x3 hx u, hc]

end Cert.ReferenceIdeal.Layer1

end
-- ==== Proof.HiddenIs.lean ====
/-
  The first layer is the same function in both programs: at node r and column c both are

      max( Σ over the edges e into r of  weight(e) · (x · W₁)[src e, c]  +  b₁[c],  0 ),

  the kernel's through the dense adjacency accumulated in four blocks, the reference's through its gather and row
  scatter; x · W₁ is the same sum over the 512 features in both.
-/
import proofs.«131745_j1614907703640_2_alg».proof.Proof.IdealLayerEdges
import proofs.«131745_j1614907703640_2_alg».proof.Proof.RefLayer1

set_option maxRecDepth 16384

noncomputable section

namespace Cert.KernelIdeal.Whole

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

/-- Â is the dense adjacency of the edge list. -/
theorem adj_is (c : Dev nD) : adj m ρ c = adjOf (edgeList m c) := (adj_closed m ρ c).trans rfl

/-- x · W₁ is the reference's product. -/
theorem product_is (x0 : S8192x512.Idx → EReal) (x3 : S512x512.Idx → EReal) :
    Dense.product x0 x3 = Cert.ReferenceIdeal.ReadP.val_main_v7 (F := Ideal) x0 x3 := by
  funext i
  rw [Cert.ReferenceIdeal.ReadP.val_main_v7_apply]
  unfold Dense.product
  refine Finset.sum_congr rfl fun k _ => ?_
  have e1 : Dense.atX ⟨(i 0).val, (i 0).isLt⟩ k = Cert.ReferenceIdeal.ReadP.lidx_main_v7 i k := funext fun a => by
    match a with
    | ⟨0, _⟩ => rfl
    | ⟨1, _⟩ => rfl
  have e2 : Dense.atW k ⟨(i 1).val, (i 1).isLt⟩ = Cert.ReferenceIdeal.ReadP.ridx_main_v7 i k := funext fun a => by
    match a with
    | ⟨0, _⟩ => rfl
    | ⟨1, _⟩ => rfl
  rw [e1, e2]

variable (hx : ∀ i : S2x262144.Idx, 0 ≤ (edgeList m c i).toInt ∧ (edgeList m c i).toInt < 8192)

/-- Entry (j, c) of an 8192 × 512 array, spelt either way. -/
theorem feat_is (j : Fin 8192) (cc : Fin 512) : Agg.atFeat j cc = Cert.ReferenceIdeal.Rows512.feat j cc := funext fun a => by
  match a with
  | ⟨0, _⟩ => rfl
  | ⟨1, _⟩ => rfl

include hx in
/-- The four accumulated blocks, with the features' entry spelt as the reference spells it. -/
theorem blocks_512' (H : S8192x512.Idx → EReal) (r : Fin 8192) (cc : Fin 512) :
    (((0 + Agg.partSum (adjOf (edgeList m c)) H r cc 0) + Agg.partSum (adjOf (edgeList m c)) H r cc 1)
        + Agg.partSum (adjOf (edgeList m c)) H r cc 2) + Agg.partSum (adjOf (edgeList m c)) H r cc 3
      = ∑ e ∈ Finset.univ.filter (fun e : S270336.Idx => dstN (edgeList m c) e = r),
          Cert.ReferenceIdeal.ReadP.val_main_v30 (F := Ideal) (edgeList m c) e * H (Cert.ReferenceIdeal.Rows512.feat (srcN (edgeList m c) e) cc) :=
  (blocks_512 (edgeList m c) hx H r cc).trans (Finset.sum_congr rfl fun e _ => by rw [feat_is])

include hx in
/-- The first layer, in both programs. -/
theorem hidden_is :
    hidden m ρ c = Cert.ReferenceIdeal.ReadP.val_main_v47 (F := Ideal) (m ((c : Thread nD τ).loc main_arg0)) (edgeList m c)
      (m ((c : Thread nD τ).loc main_arg3)) (m ((c : Thread nD τ).loc main_arg4)) := by
  funext i
  have hi : i = Cert.ReferenceIdeal.Rows512.feat ⟨(i 0).val, (i 0).isLt⟩ ⟨(i 1).val, (i 1).isLt⟩ := funext fun a => by
    match a with
    | ⟨0, _⟩ => rfl
    | ⟨1, _⟩ => rfl
  unfold hidden Agg.layer
  simp only []
  rw [adj_is, blocks_512' m c hx _ ⟨(i 0).val, (i 0).isLt⟩ ⟨(i 1).val, (i 1).isLt⟩, product_is]
  rw [Cert.ReferenceIdeal.ReadP.val_main_v47_apply, Cert.ReferenceIdeal.ReadP.val_main_v46_apply, Cert.ReferenceIdeal.ReadP.val_main_v45_apply, Cert.ReferenceIdeal.ReadP.val_main_v44_apply]
  have h43 : Cert.ReferenceIdeal.ReadP.val_main_v43 (F := Ideal) (m ((c : Thread nD τ).loc main_arg0)) (edgeList m c) (m ((c : Thread nD τ).loc main_arg3)) i
      = ∑ e ∈ Finset.univ.filter (fun e : S270336.Idx => dstN (edgeList m c) e = ⟨(i 0).val, (i 0).isLt⟩),
          Cert.ReferenceIdeal.ReadP.val_main_v30 (F := Ideal) (edgeList m c) e
            * Cert.ReferenceIdeal.ReadP.val_main_v7 (F := Ideal) (m ((c : Thread nD τ).loc main_arg0)) (m ((c : Thread nD τ).loc main_arg3))
                (Cert.ReferenceIdeal.Rows512.feat (srcN (edgeList m c) e) ⟨(i 1).val, (i 1).isLt⟩) := by
    conv_lhs => rw [hi]
    exact Cert.ReferenceIdeal.Layer1.scattered_entry _ _ _ hx _ _
  rw [h43]
  have hb : shapeCast S1x512 (m ((c : Thread nD τ).loc main_arg4)) shapeCasts_S512_S1x512 (Agg.atBias ⟨(i 1).val, (i 1).isLt⟩)
      = m ((c : Thread nD τ).loc main_arg4) (Cert.ReferenceIdeal.ReadP.idx_main_v44 (Cert.ReferenceIdeal.ReadP.idx_main_v45 i)) :=
    shapeCast_apply _ shapeCasts_S512_S1x512 _ _ (by
      rewrite [Shape.rowMajor_val_one, Shape.rowMajor_val_two]
      show (i 1).val = 0 * 512 + (i 1).val
      omega)
  rw [hb, Cert.ReferenceIdeal.ReadP.val_main_call1_v0_apply]
  have hz : Cert.ReferenceIdeal.ReadP.val_main_call1_cst (F := Ideal) (Cert.ReferenceIdeal.ReadP.idx_main_call1_v0 i) = 0 := Ideal.ofBits_zero_f32
  rw [hz, Ideal.maximumf_def, Ideal.addf_def]

end Cert.KernelIdeal.Whole

end
-- ==== Proof.RefRows1.lean ====
/-
  Where the reference's row scatter lands and what its row gather reads, at width 1: the update (e, c) — edge e,
  column c — lands at (row, c), row being the e-th index read as a signed integer, and is dropped if row is outside
  0 … 8191; the gathered entry (e, c) is entry (row, c) of the operand, row being the e-th index clamped to 0 … 8191.
  For an index that is a node number neither the drop nor the clamp happens.
-/
import proofs.«131745_j1614907703640_2_alg».proof.Proof.Gen.ReferenceIdeal
import Idealize.ShloMosaic.Lib.ValueIdx
import Idealize.ShloMosaic.PureOps.Ideal.Laws

set_option maxRecDepth 16384

noncomputable section

namespace Cert.ReferenceIdeal.Rows1

open Cert.ReferenceIdeal
open Idealize.ShloMosaic

abbrev ds := scatter_S8192x1_S270336x1_S270336x1_1_0_0_1
abbrev dg := gather_S8192x1_S270336x1_S270336x1_1_0_n_n_0_1_11

/-- The index of edge e. -/
abbrev ofEdge (e : Fin 270336) : S270336x1.Idx := fun a => match a with
  | ⟨0, _⟩ => ⟨e.val, e.isLt⟩
  | ⟨1, _⟩ => ⟨0, by show 0 < 1; omega⟩
/-- Update (or gathered entry) (e, c), and operand entry (r, c). -/
abbrev upd (e : Fin 270336) (c : Fin 1) : S270336x1.Idx := fun a => match a with
  | ⟨0, _⟩ => ⟨e.val, e.isLt⟩
  | ⟨1, _⟩ => ⟨c.val, c.isLt⟩
abbrev feat (r : Fin 8192) (c : Fin 1) : S8192x1.Idx := fun a => match a with
  | ⟨0, _⟩ => ⟨r.val, r.isLt⟩
  | ⟨1, _⟩ => ⟨c.val, c.isLt⟩

/-! ## The scatter -/

theorem s_siIdx (u : S270336x1.Idx) :
    ds.siIdx u ⟨ds.scatterDimsToOperandDims.idxOf (0 : Fin S8192x1.rank), List.idxOf_lt_length_iff.2 (by decide)⟩
      = ofEdge ⟨(u 0).val, (u 0).isLt⟩ := by
  funext b
  unfold ScatterDims.siIdx
  match b with
  | ⟨0, _⟩ =>
    rw [dif_neg (by decide +revert)]
    unfold ScatterDims.siCoord
    exact Fin.ext rfl
  | ⟨1, _⟩ =>
    rw [dif_pos (by decide +revert)]
    exact Fin.ext rfl

theorem s_start_row (idx : IVec S270336x1 32) (u : S270336x1.Idx) :
    ds.start u idx 0 = (idx (ofEdge ⟨(u 0).val, (u 0).isLt⟩)).toInt := by
  unfold ScatterDims.start
  rw [dif_pos (by decide), s_siIdx]
theorem s_start_col (idx : IVec S270336x1 32) (u : S270336x1.Idx) : ds.start u idx 1 = 0 := by
  unfold ScatterDims.start
  rw [dif_neg (by decide)]
theorem s_window_row (u : S270336x1.Idx) : ds.window u 0 = 0 := by
  unfold ScatterDims.window
  rw [dif_neg (by decide)]
theorem s_window_col (u : S270336x1.Idx) : ds.window u 1 = (u 1).val := by
  unfold ScatterDims.window
  rw [dif_pos (by decide)]
  rfl

/-- With the index a node number, update u lands at (that node, u's column). -/
theorem lands (idx : IVec S270336x1 32) (u : S270336x1.Idx) (r : Fin 8192)
    (hr : (idx (ofEdge ⟨(u 0).val, (u 0).isLt⟩)).toInt = r.val) :
    ds.resultIdx? u idx = some (feat r ⟨(u 1).val, (u 1).isLt⟩) := by
  unfold ScatterDims.resultIdx?
  have h0 : ds.start u idx 0 + ds.window u 0 = r.val := by rw [s_start_row, s_window_row, hr]; simp
  have h1 : ds.start u idx 1 + ds.window u 1 = (u 1).val := by rw [s_start_col, s_window_col]; simp
  have hall : ∀ a, 0 ≤ ds.start u idx a + ↑(ds.window u a) ∧ ds.start u idx a + ↑(ds.window u a) < ↑(S8192x1.size a) := by
    intro a
    match a with
    | ⟨0, _⟩ => show 0 ≤ ds.start u idx 0 + ↑(ds.window u 0) ∧ ds.start u idx 0 + ↑(ds.window u 0) < (8192 : ℤ); have := r.isLt; omega
    | ⟨1, _⟩ => show 0 ≤ ds.start u idx 1 + ↑(ds.window u 1) ∧ ds.start u idx 1 + ↑(ds.window u 1) < (1 : ℤ); have := (u 1).isLt; have : (u 1).val < 1 := (u 1).isLt; omega
  rw [dif_pos hall]
  refine congrArg some (funext fun a => Fin.ext ?_)
  match a with
  | ⟨0, _⟩ => show (ds.start u idx 0 + ↑(ds.window u 0)).toNat = r.val; omega
  | ⟨1, _⟩ => show (ds.start u idx 1 + ↑(ds.window u 1)).toNat = (u 1).val; omega

/-! ## The gather -/

theorem g_siIdx (u : S270336x1.Idx) :
    dg.siIdx u ⟨dg.startIndexMap.idxOf (0 : Fin S8192x1.rank), List.idxOf_lt_length_iff.2 (by decide)⟩
      = ofEdge ⟨(u 0).val, (u 0).isLt⟩ := by
  funext b
  unfold GatherDims.siIdx
  match b with
  | ⟨0, _⟩ =>
    rw [dif_neg (by decide +revert)]
    unfold GatherDims.siCoord
    exact Fin.ext rfl
  | ⟨1, _⟩ =>
    rw [dif_pos (by decide +revert)]
    exact Fin.ext rfl

/-- With the index a node number, the gathered entry u is the operand's at (that node, u's column). -/
theorem reads {α : Type} (x : S8192x1.Idx → α) (idx : IVec S270336x1 32) (u : S270336x1.Idx) (r : Fin 8192)
    (hr : (idx (ofEdge ⟨(u 0).val, (u 0).isLt⟩)).toInt = r.val) :
    Host.gather dg x idx u = x (feat r ⟨(u 1).val, (u 1).isLt⟩) := by
  unfold Host.gather
  refine congrArg x (funext fun a => Fin.ext ?_)
  show dg.start u idx a + dg.batchCoord u a + dg.offCoord u a = _
  match a with
  | ⟨0, _⟩ =>
    have hs : dg.start u idx 0 = r.val := by
      unfold GatherDims.start
      rw [dif_pos (by decide), g_siIdx, hr]
      show min (r.val : ℤ).toNat (8192 - 1) = r.val
      have := r.isLt
      simp only [Int.toNat_natCast]
      omega
    have hb : dg.batchCoord u 0 = 0 := dg.batchCoord_eq_zero u 0 (by decide)
    have ho : dg.offCoord u 0 = 0 := dg.offCoord_eq_zero u 0 (by decide)
    show dg.start u idx 0 + dg.batchCoord u 0 + dg.offCoord u 0 = r.val
    omega
  | ⟨1, _⟩ =>
    have hs : dg.start u idx 1 = 0 := by
      unfold GatherDims.start
      rw [dif_neg (by decide)]
    have hb : dg.batchCoord u 1 = 0 := dg.batchCoord_eq_zero u 1 (by decide)
    have ho : dg.offCoord u 1 = (u 1).val := by
      unfold GatherDims.offCoord
      rw [dif_pos (by decide)]
      rfl
    show dg.start u idx 1 + dg.batchCoord u 1 + dg.offCoord u 1 = (u 1).val
    omega

end Cert.ReferenceIdeal.Rows1

end
-- ==== Proof.RefLayer2.lean ====
/-
  The reference's aggregation of the second layer as a sum over edges.  For an edge list whose entries are node
  indices, the row scatter lands the update (e, c) at (dst e, c) and drops nothing, and the gather reads row src e of the
  features; so entry (r, c) of the scattered array is the sum, over the edges into r, of weight × the features' entry
  (src e, c).
-/
import proofs.«131745_j1614907703640_2_alg».proof.Proof.IdealAdjEntry
import proofs.«131745_j1614907703640_2_alg».proof.Proof.RefRows1

set_option maxRecDepth 16384

noncomputable section

namespace Cert.ReferenceIdeal.Layer2

open Cert.ReferenceIdeal Cert.ReferenceIdeal.Gen Cert.ReferenceIdeal.ReadP
open Idealize.ShloMosaic

variable (x0 : (⟨S8192x512, .f32⟩ : BufTy).Contents (Elt Ideal)) (x2 : (⟨S2x262144, .i32⟩ : BufTy).Contents (Elt Ideal)) (x3 : (⟨S512x512, .f32⟩ : BufTy).Contents (Elt Ideal)) (x4 : (⟨S512, .f32⟩ : BufTy).Contents (Elt Ideal)) (x5 : (⟨S512x1, .f32⟩ : BufTy).Contents (Elt Ideal))
variable (hx : ∀ i : S2x262144.Idx, 0 ≤ (x2 i).toInt ∧ (x2 i).toInt < 8192)

/-- The edge of an update, and the update (e, c) of an edge. -/
def edgeOf (u : S270336x1.Idx) : S270336.Idx := fun a => match a with | ⟨0, _⟩ => ⟨(u 0).val, (u 0).isLt⟩
def updOf (e : S270336.Idx) (c : Fin 1) : S270336x1.Idx := Rows1.upd ⟨(e 0).val, (e 0).isLt⟩ c

include hx in
/-- Update u lands at (dst of its edge, its column). -/
theorem upd_lands (u : S270336x1.Idx) :
    Rows1.ds.resultIdx? u (val_main_v89 (F := Ideal) x2) = some (Rows1.feat (Cert.KernelIdeal.Whole.dstN x2 (edgeOf u)) ⟨(u 1).val, (u 1).isLt⟩) := by
  refine Rows1.lands _ u _ ?_
  rw [val_main_v89_apply]
  show (val_main_v54 (F := Ideal) x2 (edgeOf u)).toInt = _
  exact Cert.KernelIdeal.Whole.nodeOf_val _ (Cert.ReferenceIdeal.Ends.dst_range x2 hx (edgeOf u)).1 (Cert.ReferenceIdeal.Ends.dst_range x2 hx (edgeOf u)).2

include hx in
/-- The gathered entry u is the features' at (src of its edge, its column). -/
theorem upd_reads (u : S270336x1.Idx) :
    val_main_v86 (F := Ideal) x0 x2 x3 x4 x5 u = val_main_v55 (F := Ideal) x0 x2 x3 x4 x5 (Rows1.feat (Cert.KernelIdeal.Whole.srcN x2 (edgeOf u)) ⟨(u 1).val, (u 1).isLt⟩) := by
  show Host.gather Rows1.dg (val_main_v55 (F := Ideal) x0 x2 x3 x4 x5) (val_main_v85 (F := Ideal) x2) u = _
  refine Rows1.reads _ _ u _ ?_
  rw [val_main_v85_apply]
  show (val_main_v84 (F := Ideal) x2 (edgeOf u)).toInt = _
  rw [Cert.ReferenceIdeal.Ends.wrapped_src_feat' x2 hx (edgeOf u)]
  exact Cert.KernelIdeal.Whole.nodeOf_val _ (Cert.ReferenceIdeal.Ends.src_range x2 hx (edgeOf u)).1 (Cert.ReferenceIdeal.Ends.src_range x2 hx (edgeOf u)).2

/-- The weight of update u is the weight of its edge. -/
theorem upd_weight (u : S270336x1.Idx) : val_main_v79 (F := Ideal) x2 u = val_main_v30 (F := Ideal) x2 (edgeOf u) := by
  rw [val_main_v79_apply]
  rfl

include hx in
/-- Entry (r, c) of the scattered array: the sum over the edges into r. -/
theorem scattered_entry (r : Fin 8192) (c : Fin 1) :
    val_main_v90 (F := Ideal) x0 x2 x3 x4 x5 (Rows1.feat r c)
      = ∑ e ∈ Finset.univ.filter (fun e : S270336.Idx => Cert.KernelIdeal.Whole.dstN x2 e = r),
          val_main_v30 (F := Ideal) x2 e * val_main_v55 (F := Ideal) x0 x2 x3 x4 x5 (Rows1.feat (Cert.KernelIdeal.Whole.srcN x2 e) c) := by
  show Ideal.ofBits .f32 0x00000000#32
      + ∑ u ∈ Finset.univ.filter (fun u : S270336x1.Idx => Rows1.ds.resultIdx? u (val_main_v89 (F := Ideal) x2) = some (Rows1.feat r c)),
          val_main_v87 (F := Ideal) x0 x2 x3 x4 x5 u = _
  rw [Ideal.ofBits_zero_f32, zero_add]
  have hmem : ∀ u : S270336x1.Idx, Rows1.ds.resultIdx? u (val_main_v89 (F := Ideal) x2) = some (Rows1.feat r c)
      ↔ Cert.KernelIdeal.Whole.dstN x2 (edgeOf u) = r ∧ (⟨(u 1).val, (u 1).isLt⟩ : Fin 1) = c := by
    intro u
    rw [upd_lands x2 hx u, Option.some.injEq]
    constructor
    · intro h
      have h0 := congrFun h 0
      have h1 := congrFun h 1
      exact ⟨Fin.ext (Fin.mk.inj_iff.mp h0), Fin.ext (Fin.mk.inj_iff.mp h1)⟩
    · rintro ⟨h0, h1⟩
      rw [h0, h1]
  refine Finset.sum_nbij' (fun u => edgeOf u) (fun e => updOf e c) ?_ ?_ ?_ ?_ ?_
  · intro u hu
    rw [Finset.mem_filter] at hu ⊢
    exact ⟨Finset.mem_univ _, ((hmem u).mp hu.2).1⟩
  · intro e he
    rw [Finset.mem_filter] at he ⊢
    refine ⟨Finset.mem_univ _, (hmem _).mpr ⟨?_, ?_⟩⟩
    · show Cert.KernelIdeal.Whole.dstN x2 (edgeOf (updOf e c)) = r
      rw [show edgeOf (updOf e c) = e from funext fun a => by match a with | ⟨0, _⟩ => rfl]
      exact he.2
    · exact Fin.ext rfl
  · intro u hu
    rw [Finset.mem_filter] at hu
    have hc := ((hmem u).mp hu.2).2
    funext a
    match a with
    | ⟨0, _⟩ => exact Fin.ext rfl
    | ⟨1, _⟩ => exact Fin.ext (congrArg Fin.val hc).symm
  · intro e he
    funext a
    match a with
    | ⟨0, _⟩ => exact Fin.ext rfl
  · intro u hu
    rw [Finset.mem_filter] at hu
    have hc := ((hmem u).mp hu.2).2
    show val_main_v79 (F := Ideal) x2 u * val_main_v86 (F := Ideal) x0 x2 x3 x4 x5 u = _
    rw [upd_weight x2 u, upd_reads x0 x2 x3 x4 x5 hx u, hc]

end Cert.ReferenceIdeal.Layer2

end
-- ==== Proof.SecondLayer.lean ====
/-
  The second layer on the kernel's side.  Its features are the column  (first layer) · W₂  padded with zeros to width
  128, of which only column 0 is read back; its bias is b₂ padded the same way; and the row of node values the head
  launch reads is column 0 of what the aggregation leaves.  With the first layer identified with the reference's,
  column 0 of the second layer at node r is   Σ over the edges e into r of  weight(e) · g[src e]  +  b₂,   g being the
  reference's own second-layer feature column.
-/
import proofs.«131745_j1614907703640_2_alg».proof.Proof.HiddenIs
import proofs.«131745_j1614907703640_2_alg».proof.Proof.RefLayer2
import Idealize.ShloMosaic.Lib.KernelVsHost

set_option maxRecDepth 16384

noncomputable section

namespace Cert.KernelIdeal.Whole

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)
variable (hx : ∀ i : S2x262144.Idx, 0 ≤ (edgeList m c i).toInt ∧ (edgeList m c i).toInt < 8192)

/-- The one index of a one-element vector. -/
abbrev only : S1.Idx := fun a => match a with | ⟨0, _⟩ => ⟨0, by show 0 < 1; omega⟩
/-- Entry j of an 8192-vector, entry (j, 0) of an 8192 × 1 column, entry 0 of a 128-vector. -/
abbrev atNode (j : Fin 8192) : S8192.Idx := fun a => match a with | ⟨0, _⟩ => ⟨j.val, j.isLt⟩
abbrev atCol1 (j : Fin 8192) : S8192x1.Idx := fun a => match a with
  | ⟨0, _⟩ => ⟨j.val, j.isLt⟩
  | ⟨1, _⟩ => ⟨0, by show 0 < 1; omega⟩
abbrev first128 : S128.Idx := fun a => match a with | ⟨0, _⟩ => ⟨0, by show 0 < 128; omega⟩

include hx in
/-- Column 0 of the padded features is the reference's second-layer feature column. -/
theorem feat2_col (j : Fin 8192) :
    feat2 m ρ c (Agg2.atFeat j 0)
      = Cert.ReferenceIdeal.ReadP.val_main_v55 (F := Ideal) (m ((c : Thread nD τ).loc main_arg0)) (edgeList m c) (m ((c : Thread nD τ).loc main_arg3)) (m ((c : Thread nD τ).loc main_arg4)) (m ((c : Thread nD τ).loc main_arg5)) (atCol1 j) := by
  unfold feat2
  rw [pad_apply_of_inside ![0, 0] ![0, 127] ![0, 0] _ _ pads_S8192x1_S8192x128_000_01270 h_S_ (Agg2.atFeat j 0) (atCol1 j) (fun a => by
    match a with
    | ⟨0, _⟩ => show j.val = 0 + j.val * (0 + 1); omega
    | ⟨1, _⟩ => show (0 : ℕ) = 0 + 0 * (0 + 1); rfl)]
  rw [hidden_is m ρ c hx]
  rfl

/-- Entry 0 of the padded bias row is b₂. -/
theorem bias2_zero : bias2 m c (Agg2.atBias 0) = (m ((c : Thread nD τ).loc main_arg6)) only := by
  unfold bias2
  rw [shapeCast_apply _ shapeCasts_S128_S1x128 (Agg2.atBias 0) first128 (by
    rewrite [Shape.rowMajor_val_one, Shape.rowMajor_val_two]; rfl)]
  exact pad_apply_of_inside ![0] ![127] ![0] _ _ pads_S1_S128_01270 h_S_ first128 only (fun a => by
    match a with
    | ⟨0, _⟩ => show (0 : ℕ) = 0 + 0 * (0 + 1); rfl)

set_option maxHeartbeats 4000000 in
/-- The node row the head launch reads, at node j, is column 0 of the second layer at node j. -/
theorem nodeRow_at (j : Fin 8192) : nodeRow m ρ c (Head.atH j) = hidden2 m ρ c (Agg2.atFeat j 0) := by
  unfold nodeRow
  rw [shapeCast_apply _ shapeCasts_S8192_S1x8192 (Head.atH j) (atNode j) (by
      rewrite [Shape.rowMajor_val_one, Shape.rowMajor_val_two]; show j.val = 0 * 8192 + j.val; omega),
    shapeCast_apply _ shapeCasts_S8192x1_S8192 (atNode j) (atCol1 j) (by
      rewrite [Shape.rowMajor_val_one, Shape.rowMajor_val_two]; show j.val * 1 + 0 = j.val; omega)]
  have hk : ∀ a : Fin S8192x128.rank, ((Agg2.atFeat j 0) a).val = (![0, 0] : Fin 2 → ℕ) a + ((atCol1 j) (a.cast slices_S8192x128_S8192x1_0_0.1.symm)).val := fun a => by
    match a with
    | ⟨0, _⟩ => show j.val = 0 + j.val; omega
    | ⟨1, _⟩ => show (0 : ℕ) = 0 + 0; rfl
  generalize hidden2 m ρ c = H
  exact extractStridedSlice_apply ![0, 0] H slices_S8192x128_S8192x1_0_0 (atCol1 j) (Agg2.atFeat j 0) hk

include hx in
/-- Column 0 of the second layer at node r: the edge sum of the reference's feature column, plus b₂. -/
theorem hidden2_col (r : Fin 8192) :
    hidden2 m ρ c (Agg2.atFeat r 0)
      = (∑ e ∈ Finset.univ.filter (fun e : S270336.Idx => dstN (edgeList m c) e = r),
          Cert.ReferenceIdeal.ReadP.val_main_v30 (F := Ideal) (edgeList m c) e
            * Cert.ReferenceIdeal.ReadP.val_main_v55 (F := Ideal) (m ((c : Thread nD τ).loc main_arg0)) (edgeList m c) (m ((c : Thread nD τ).loc main_arg3)) (m ((c : Thread nD τ).loc main_arg4)) (m ((c : Thread nD τ).loc main_arg5)) (atCol1 (srcN (edgeList m c) e)))
        + (m ((c : Thread nD τ).loc main_arg6)) only := by
  unfold hidden2 Agg2.layer
  simp only []
  rw [adj_is]
  have hb := blocks_128 (edgeList m c) hx (feat2 m ρ c) r 0
  rw [show (⟨((Agg2.atFeat r 0) 0).val, ((Agg2.atFeat r 0) 0).isLt⟩ : Fin 8192) = r from Fin.ext rfl,
    show (⟨((Agg2.atFeat r 0) 1).val, ((Agg2.atFeat r 0) 1).isLt⟩ : Fin 128) = 0 from Fin.ext rfl, hb, bias2_zero]
  have hsum : (∑ e ∈ Finset.univ.filter (fun e : S270336.Idx => dstN (edgeList m c) e = r),
        Cert.ReferenceIdeal.ReadP.val_main_v30 (F := Ideal) (edgeList m c) e * feat2 m ρ c (Agg2.atFeat (srcN (edgeList m c) e) 0))
      = ∑ e ∈ Finset.univ.filter (fun e : S270336.Idx => dstN (edgeList m c) e = r),
        Cert.ReferenceIdeal.ReadP.val_main_v30 (F := Ideal) (edgeList m c) e * Cert.ReferenceIdeal.ReadP.val_main_v55 (F := Ideal) (m ((c : Thread nD τ).loc main_arg0)) (edgeList m c) (m ((c : Thread nD τ).loc main_arg3)) (m ((c : Thread nD τ).loc main_arg4)) (m ((c : Thread nD τ).loc main_arg5)) (atCol1 (srcN (edgeList m c) e)) :=
    Finset.sum_congr rfl fun e _ => by rw [feat2_col m ρ c hx]
  rw [hsum]

end Cert.KernelIdeal.Whole

end
-- ==== Proof.ResultValue.lean ====
/-
  The two programs' results, index by index.  At (i, j) both are

      ( Σ over the edges e into j of  weight(e) · g[src e]  +  b₂ )  +  ( Σ_{k<4} o[i, k] · Wl[k] + bl ),

  g the second-layer feature column.  On the reference's side the node value passes through a sum over an axis of
  length one from 0 and a division by the float 1.0, which change nothing on the extended reals; on the kernel's side
  it is column 0 of the second aggregation, read through a slice and two reshapes.
-/
import proofs.«131745_j1614907703640_2_alg».proof.Proof.SecondLayer

set_option maxRecDepth 16384

noncomputable section

namespace Cert.KernelIdeal.Whole

open Cert.KernelIdeal Cert.KernelIdeal.Gen
open Idealize.ShloMosaic Idealize.ShloMosaic.TcCoe
open Idealize.SL Idealize.SL.Sem

/-- The float 1.0 is the number 1. -/
theorem ofBits_one : Ideal.ofBits .f32 0x3F800000#32 = 1 := by
  simp [Ideal.ofBits, Ideal.ieee, -EReal.coe_mul]; norm_num

/-- Dividing by 1 changes nothing. -/
theorem div_one' (x : EReal) : Ideal.div x 1 = x := by
  unfold Ideal.div
  rw [if_neg one_ne_zero, inv_one, mul_one]

variable (m : (ℓ : Loc nD τ sig) → Buf (Elt Ideal) ℓ) (ρ : Dev nD → PrngReg) (c : Dev nD)
variable (hx : ∀ i : S2x262144.Idx, 0 ≤ (edgeList m c i).toInt ∧ (edgeList m c i).toInt < 8192)

include hx in
/-- The reference's value at node j: the edge sum of its second-layer feature column, plus b₂. -/
theorem node_value (j : Fin 8192) :
    Cert.ReferenceIdeal.ReadP.val_main_v96 (F := Ideal) (m ((c : Thread nD τ).loc main_arg0)) (edgeList m c) (m ((c : Thread nD τ).loc main_arg3)) (m ((c : Thread nD τ).loc main_arg4)) (m ((c : Thread nD τ).loc main_arg5)) (m ((c : Thread nD τ).loc main_arg6)) (atNode j)
      = (∑ e ∈ Finset.univ.filter (fun e : S270336.Idx => dstN (edgeList m c) e = j),
          Cert.ReferenceIdeal.ReadP.val_main_v30 (F := Ideal) (edgeList m c) e
            * Cert.ReferenceIdeal.ReadP.val_main_v55 (F := Ideal) (m ((c : Thread nD τ).loc main_arg0)) (edgeList m c) (m ((c : Thread nD τ).loc main_arg3)) (m ((c : Thread nD τ).loc main_arg4)) (m ((c : Thread nD τ).loc main_arg5)) (atCol1 (srcN (edgeList m c) e)))
        + (m ((c : Thread nD τ).loc main_arg6)) only := by
  rw [Cert.ReferenceIdeal.ReadP.val_main_v96_apply, Cert.ReferenceIdeal.ReadP.val_main_v95_apply, Cert.ReferenceIdeal.ReadP.val_main_v94_apply]
  have h1 : ∀ s, Cert.ReferenceIdeal.ReadP.val_main_cst_21 (F := Ideal) s = 1 := fun _ => ofBits_one
  have h0 : ∀ s, Cert.ReferenceIdeal.ReadP.val_main_cst_20 (F := Ideal) s = 0 := fun _ => Ideal.ofBits_zero_f32
  rw [h1, h0, Ideal.hostDivf_def, div_one', zero_add, Fin.sum_univ_one]
  rw [Cert.ReferenceIdeal.ReadP.val_main_v93_apply, Cert.ReferenceIdeal.ReadP.val_main_v92_apply, Cert.ReferenceIdeal.ReadP.val_main_v91_apply]
  have hi : Cert.ReferenceIdeal.ReadP.idx_main_v94 (atNode j) 0 = Cert.ReferenceIdeal.Rows1.feat j 0 := funext fun a => by
    match a with
    | ⟨0, _⟩ => rfl
    | ⟨1, _⟩ => rfl
  rw [hi, Cert.ReferenceIdeal.Layer2.scattered_entry _ _ _ _ _ hx j 0]
  rfl

include hx in
/-- THE TWO RESULTS at an index. -/
theorem result_value (i : S8192x8192.Idx) :
    Cert.ReferenceIdeal.ReadP.val_main_v104 (F := Ideal) (m ((c : Thread nD τ).loc main_arg0)) (m ((c : Thread nD τ).loc main_arg1)) (edgeList m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i
      = result m ρ c i := by
  rw [result_closed]
  unfold Head.headOut
  rw [Cert.ReferenceIdeal.ReadP.val_main_v104_apply, Cert.ReferenceIdeal.ReadP.val_main_v102_apply, Cert.ReferenceIdeal.ReadP.val_main_v101_apply, Cert.ReferenceIdeal.ReadP.val_main_v103_apply,
    Cert.ReferenceIdeal.ReadP.val_main_v100_apply, Cert.ReferenceIdeal.ReadP.val_main_v97_apply, Cert.ReferenceIdeal.ReadP.val_main_v99_apply, Cert.ReferenceIdeal.ReadP.val_main_v98_apply]
  have hn : Cert.ReferenceIdeal.ReadP.idx_main_v101 (Cert.ReferenceIdeal.ReadP.idx_main_v102 i) = atNode ⟨(i 1).val, (i 1).isLt⟩ := funext fun a => by
    match a with
    | ⟨0, _⟩ => rfl
  rw [hn, node_value m c hx, nodeRow_at, hidden2_col m ρ c hx]
  have hb : shapeCast S1x1 (m ((c : Thread nD τ).loc main_arg8)) shapeCasts_S1_S1x1 Head.atBl
      = (m ((c : Thread nD τ).loc main_arg8)) (Cert.ReferenceIdeal.ReadP.idx_main_v98 (Cert.ReferenceIdeal.ReadP.idx_main_v99 (Cert.ReferenceIdeal.ReadP.idx_main_v103 i))) :=
    shapeCast_apply _ shapeCasts_S1_S1x1 _ _ (by rewrite [Shape.rowMajor_val_one, Shape.rowMajor_val_two]; rfl)
  rw [hb, Ideal.addf_def, Ideal.addf_def]
  congr 2

end Cert.KernelIdeal.Whole

end
-- ==== Proof.lean ====
/-
  Two-layer graph convolution with a linear head, on 8192 nodes:
      H₁ = relu(Â · (x · W₁) + b₁),   h₂ = (Â · (H₁ · W₂) + b₂)[:, 0],   out[i, j] = h₂[j] + (o[i] · Wl + bl),
  where Â[i, j] = Σ over the edges e (the 262144 given ones and the 8192 self-loops) with dst e = i and src e = j of
  d(src e) · d(dst e), and d = deg^(-1/2) with deg the number of edges into a node.

  The kernel forms Â as a dense 8192 × 8192 array by one scatter-add of the edge weights and runs both layers as dense
  products on the accelerator (four launches: x · W₁ by row blocks; Â · h accumulated over column blocks with the bias
  and the maximum with 0 at the end; the same at width 128 for the second layer, whose single meaningful column is
  column 0; the final broadcast sum with the head's product).  The reference never forms Â: it gathers the rows
  h[src e], scales them by the edge weights and scatter-adds them into the rows dst e.

  The two agree on the extended reals when every edge end is a node index (0 ≤ edge_index < 8192: outside it the
  reference's gather clamps an index where the kernel's scatter drops the edge) and the float inputs are finite:
  Σ_j (Σ_{e : dst e = i, src e = j} w e) · h[j, c]  =  Σ_{e : dst e = i} w e · h[src e, c],  the weights being finite
  and non-negative.

  Proved here: each of the three programs runs to the end, faults nowhere and leaves its arguments unchanged (the two
  kernel programs by the launch theorem for a program of several launches, the reference by its run read back); the
  idealized kernel is the word-level kernel's own text read at the exact instance (nothing was rewritten); and the two
  idealized programs end with equal results — the kernel's read off its four launches (each result array one function
  of what the launch finds), the reference's off its run, both brought to sums over the edges into a node.  The
  regrouping needs only that the edge weights are non-negative, so finiteness of the float inputs is never used.
-/
import proofs.«131745_j1614907703640_2_alg».proof.Defs
import proofs.«131745_j1614907703640_2_alg».proof.Proof.Gen.Kernel
import proofs.«131745_j1614907703640_2_alg».proof.Proof.Gen.KernelIdeal
import proofs.«131745_j1614907703640_2_alg».proof.Proof.Gen.ReferenceIdeal
import proofs.«131745_j1614907703640_2_alg».proof.Proof.Gen.Pre_finite_inputs
import proofs.«131745_j1614907703640_2_alg».proof.Proof.WordWhole
import proofs.«131745_j1614907703640_2_alg».proof.Proof.IdealWhole
import proofs.«131745_j1614907703640_2_alg».proof.Proof.RefRun
import proofs.«131745_j1614907703640_2_alg».proof.Proof.RefRead
import proofs.«131745_j1614907703640_2_alg».proof.Proof.EdgeRange
import proofs.«131745_j1614907703640_2_alg».proof.Proof.ResultValue
import Idealize.ShloMosaic.Adequacy
import Idealize.ShloMosaic.Init

noncomputable section

namespace Cert.Proof

open Idealize.ShloMosaic Idealize.SL.Sem

/-- The word-level kernel runs and leaves its arguments unchanged. -/
theorem frame_word : Cert.frame_Kernel := fun m ρ _ => Cert.Kernel.Whole.frame (F := Bits) m ρ

/-- The idealized kernel runs and leaves its arguments unchanged. -/
theorem frame_ideal : Cert.frame_KernelIdeal := fun m ρ _ => Cert.KernelIdeal.Whole.frame (F := Ideal) m ρ

/-- The reference runs and leaves its arguments unchanged: its run with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- Nothing was rewritten when the kernel was idealized. -/
theorem preserves : Cert.preserves_Kernel_KernelIdeal := trivial

/-- The two result arrays are one function of the arguments, index by index. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.ReferenceIdeal.nD) :
    Cert.ReferenceIdeal.ValueP.res_main_v104 (F := Ideal) m' c = Cert.KernelIdeal.Whole.result (F := Ideal) m ρ c := by
  have hx := fun i => Cert.Proof.Range.edge_in_range m hpre c i
  rw [Cert.ReferenceIdeal.ReadP.val_main_v104_eq]
  obtain ⟨h0, h1, h2, h3, h4, h5, h6, h7, h8⟩ := hagree c
  rw [h0, h1, h2, h3, h4, h5, h6, h7, h8]
  funext i
  exact Cert.KernelIdeal.Whole.result_value m ρ c hx i

/-- From memories agreeing on the arguments both idealized programs run and end with equal results. -/
theorem algebraic : Cert.algebraic_KernelIdeal_ReferenceIdeal := by
  intro m ρ m' ρ' hpre hagree
  refine ⟨fun c => Cert.KernelIdeal.Whole.result (F := Ideal) m ρ c, Cert.KernelIdeal.Whole.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  exact result_eq m ρ m' hpre hagree c

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
